-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_
  reducesTo_S_S_d : S_.ReducesTo [] S_

variable [Facts]

def fn_part1 {F : FTy → Type} [FloatOps F] (main_arg3 : IVec S_ 32) (main_v15 : IVec S_ 1) (main_c_5 : IVec S_ 32) : IVec S_ 1 :=
  let main_v16 : IVec S_ 1 := cmpi .sge main_arg3 main_c_5
  let main_c_6 : IVec S_ 32 := constantI S_ 32 0#32
  let main_v17 : IVec S_ 1 := cmpi .sle main_arg3 main_c_6
  let main_v18 : IVec S_ 1 := andi main_v16 main_v17
  let main_c_7 : IVec S_ 1 := constantI S_ 1 1#1
  let main_v19 : IVec S_ 1 := (fun x v => Host.reduce IntOp.andi x v reducesTo_S_S_d h_S_) main_v18 main_c_7
  let main_v20 : IVec S_ 1 := andi main_v15 main_v19
  main_v20

def fn {F : FTy → Type} [FloatOps F] (main_arg0 : FVec F S16384x1000 .f32) (main_arg1 : IVec S16384 32) (main_arg2 : FVec F S16384 .f32) (main_arg3 : IVec S_ 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 999#32
  let main_v11 : IVec S16384 32 := broadcastInDim S16384 ![] bcast_S_S16384 main_c_3
  let main_v12 : IVec S16384 1 := cmpi .sle main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S16384x1000 : Shape := ⟨2, ![16384, 1000]⟩
abbrev S16384 : Shape := ⟨1, ![16384]⟩
abbrev S_ : Shape := ⟨0, ![]⟩
abbrev S512 : Shape := ⟨1, ![512]⟩
abbrev S192 : Shape := ⟨1, ![192]⟩
abbrev S16x1000 : Shape := ⟨2, ![16, 1000]⟩
abbrev S16 : Shape := ⟨1, ![16]⟩
abbrev S128x128 : Shape := ⟨2, ![128, 128]⟩
abbrev S1x1 : Shape := ⟨2, ![1, 1]⟩
abbrev S16x128 : Shape := ⟨2, ![16, 128]⟩
abbrev S2048x1000 : Shape := ⟨2, ![2048, 1000]⟩
abbrev S128x16 : Shape := ⟨2, ![128, 16]⟩
abbrev S128x1000 : Shape := ⟨2, ![128, 1000]⟩
abbrev S128x1 : Shape := ⟨2, ![128, 1]⟩
abbrev S1x128x1000 : Shape := ⟨3, ![1, 128, 1000]⟩
abbrev S1 : Shape := ⟨1, ![1]⟩
abbrev S1x1x1 : Shape := ⟨3, ![1, 1, 1]⟩

abbrev nBuf : Table → Nat
  | .hbm => 15
  | .local .tc .vmem => 6
  | .local .tc .smem => 1
  | .local .scVector .vmem => 5
  | _ => 0

abbrev bufTy : (tb : Table) → Fin (nBuf tb) → BufTy
  | .hbm, ⟨0, _⟩ => ⟨S16384x1000, .f32⟩
  | .hbm, ⟨1, _⟩ => ⟨S16384, .i32⟩
  | .hbm, ⟨2, _⟩ => ⟨S16384, .f32⟩
  | .hbm, ⟨3, _⟩ => ⟨S_, .i32⟩
  | .hbm, ⟨4, _⟩ => ⟨S512, .f32⟩
  | .hbm, ⟨5, _⟩ => ⟨S128x128, .i32⟩
  | .hbm, ⟨6, _⟩ => ⟨S128x128, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local .tc .vmem, ⟨0, _⟩ => ⟨S16x128, .i32⟩
  | .local .tc .vmem, ⟨1, _⟩ => ⟨S16x128, .i32⟩
  | .local .tc .vmem, ⟨2, _⟩ => ⟨S16x128, .f32⟩
  | .local .tc .vmem, ⟨3, _⟩ => ⟨S16x128, .f32⟩
  | .local .tc .vmem, ⟨4, _⟩ => ⟨S2048x1000, .f32⟩
  | .local .tc .vmem, ⟨5, _⟩ => ⟨S2048x1000, .f32⟩
  | .local .tc .smem, ⟨0, _⟩ => ⟨S1x1, .f32⟩
  | .local .scVector .vmem, ⟨0, _⟩ => ⟨S192, .i32⟩
  | .local .scVector .vmem, ⟨1, _⟩ => ⟨S192, .f32⟩
  | .local .scVector .vmem, ⟨2, _⟩ => ⟨S16x1000, .f32⟩
  | .local .scVector .vmem, ⟨3, _⟩ => ⟨S16x1000, .f32⟩
  | .local .scVector .vmem, ⟨4, _⟩ => ⟨S16, .f32⟩
  | _, _ => ⟨S16384x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  ![v3.toNat]
def k0_mult1 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c0_i32 : BitVec 32 := 0#32
  let v5 : BitVec 32 := Scalar.addi v3 c0_i32
  v5
def k0_off2 (i : grid0.Coords) (c0_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v5 : BitVec 32 := Scalar.addi v3 c0_i32
  let v6 : BitVec 32 := v5
  let c0_i32_0 : BitVec 32 := 0#32
  ![v6.toNat, 0]
def k0_mult2 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c16_i32 : BitVec 32 := 16#32
  let v10 : BitVec 32 := Scalar.addi v3 c16_i32
  v10

def k0_chk1 (v4 : IVec S16 32) (v16 : IVec S16 32) : Prop :=
  (∀ a x, ((![v4, v16] : Fin 2 → IVec S16 32) a x).toNat < S16x1000.size a)
instance k0_chk1.dec : ∀ (v4 : IVec S16 32) (v16 : IVec S16 32), Decidable (k0_chk1 v4 v16) := fun v4 v16 => decidable_of_iff' _ (Iff.of_eq (k0_chk1.eq_1 v4 v16))
theorem k0_idx1_inb : ∀ (v4 : IVec S16 32) (v16 : IVec S16 32) (k0_hw1 : k0_chk1 v4 v16), ∀ a x, ((![v4, v16] : Fin 2 → IVec S16 32) a x).toNat < S16x1000.size a := fun v4 v16 k0_hw1 => k0_hw1
def k0_mult3 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c32_i32 : BitVec 32 := 32#32
  let v21 : BitVec 32 := Scalar.addi v3 c32_i32
  v21
def k0_off3 (i : grid0.Coords) (c32_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v21 : BitVec 32 := Scalar.addi v3 c32_i32
  let v22 : BitVec 32 := v21
  let c0_i32_7 : BitVec 32 := 0#32
  ![v22.toNat, 0]

def k0_chk2 (v4 : IVec S16 32) (v27 : IVec S16 32) : Prop :=
  (∀ a x, ((![v4, v27] : Fin 2 → IVec S16 32) a x).toNat < S16x1000.size a)
instance k0_chk2.dec : ∀ (v4 : IVec S16 32) (v27 : IVec S16 32), Decidable (k0_chk2 v4 v27) := fun v4 v27 => decidable_of_iff' _ (Iff.of_eq (k0_chk2.eq_1 v4 v27))
theorem k0_idx2_inb : ∀ (v4 : IVec S16 32) (v27 : IVec S16 32) (k0_hw2 : k0_chk2 v4 v27), ∀ a x, ((![v4, v27] : Fin 2 → IVec S16 32) a x).toNat < S16x1000.size a := fun v4 v27 k0_hw2 => k0_hw2
def k0_mult4 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c48_i32 : BitVec 32 := 48#32
  let v32 : BitVec 32 := Scalar.addi v3 c48_i32
  v32
def k0_off4 (i : grid0.Coords) (c48_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v32 : BitVec 32 := Scalar.addi v3 c48_i32
  let v33 : BitVec 32 := v32
  let c0_i32_12 : BitVec 32 := 0#32
  ![v33.toNat, 0]

def k0_chk3 (v4 : IVec S16 32) (v38 : IVec S16 32) : Prop :=
  (∀ a x, ((![v4, v38] : Fin 2 → IVec S16 32) a x).toNat < S16x1000.size a)
instance k0_chk3.dec : ∀ (v4 : IVec S16 32) (v38 : IVec S16 32), Decidable (k0_chk3 v4 v38) := fun v4 v38 => decidable_of_iff' _ (Iff.of_eq (k0_chk3.eq_1 v4 v38))
theorem k0_idx3_inb : ∀ (v4 : IVec S16 32) (v38 : IVec S16 32) (k0_hw3 : k0_chk3 v4 v38), ∀ a x, ((![v4, v38] : Fin 2 → IVec S16 32) a x).toNat < S16x1000.size a := fun v4 v38 k0_hw3 => k0_hw3
def k0_mult5 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c64_i32 : BitVec 32 := 64#32
  let v43 : BitVec 32 := Scalar.addi v3 c64_i32
  v43
def k0_off5 (i : grid0.Coords) (c64_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v43 : BitVec 32 := Scalar.addi v3 c64_i32
  let v44 : BitVec 32 := v43
  let c0_i32_17 : BitVec 32 := 0#32
  ![v44.toNat, 0]

def k0_chk4 (v4 : IVec S16 32) (v49 : IVec S16 32) : Prop :=
  (∀ a x, ((![v4, v49] : Fin 2 → IVec S16 32) a x).toNat < S16x1000.size a)
instance k0_chk4.dec : ∀ (v4 : IVec S16 32) (v49 : IVec S16 32), Decidable (k0_chk4 v4 v49) := fun v4 v49 => decidable_of_iff' _ (Iff.of_eq (k0_chk4.eq_1 v4 v49))
theorem k0_idx4_inb : ∀ (v4 : IVec S16 32) (v49 : IVec S16 32) (k0_hw4 : k0_chk4 v4 v49), ∀ a x, ((![v4, v49] : Fin 2 → IVec S16 32) a x).toNat < S16x1000.size a := fun v4 v49 k0_hw4 => k0_hw4
def k0_mult6 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c80_i32 : BitVec 32 := 80#32
  let v54 : BitVec 32 := Scalar.addi v3 c80_i32
  v54
def k0_off6 (i : grid0.Coords) (c80_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v54 : BitVec 32 := Scalar.addi v3 c80_i32
  let v55 : BitVec 32 := v54
  let c0_i32_22 : BitVec 32 := 0#32
  ![v55.toNat, 0]

def k0_chk5 (v4 : IVec S16 32) (v60 : IVec S16 32) : Prop :=
  (∀ a x, ((![v4, v60] : Fin 2 → IVec S16 32) a x).toNat < S16x1000.size a)
instance k0_chk5.dec : ∀ (v4 : IVec S16 32) (v60 : IVec S16 32), Decidable (k0_chk5 v4 v60) := fun v4 v60 => decidable_of_iff' _ (Iff.of_eq (k0_chk5.eq_1 v4 v60))
theorem k0_idx5_inb : ∀ (v4 : IVec S16 32) (v60 : IVec S16 32) (k0_hw5 : k0_chk5 v4 v60), ∀ a x, ((![v4, v60] : Fin 2 → IVec S16 32) a x).toNat < S16x1000.size a := fun v4 v60 k0_hw5 => k0_hw5
def k0_mult7 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c96_i32 : BitVec 32 := 96#32
  let v65 : BitVec 32 := Scalar.addi v3 c96_i32
  v65
def k0_off7 (i : grid0.Coords) (c96_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v65 : BitVec 32 := Scalar.addi v3 c96_i32
  let v66 : BitVec 32 := v65
  let c0_i32_27 : BitVec 32 := 0#32
  ![v66.toNat, 0]

def k0_chk6 (v4 : IVec S16 32) (v71 : IVec S16 32) : Prop :=
  (∀ a x, ((![v4, v71] : Fin 2 → IVec S16 32) a x).toNat < S16x1000.size a)
instance k0_chk6.dec : ∀ (v4 : IVec S16 32) (v71 : IVec S16 32), Decidable (k0_chk6 v4 v71) := fun v4 v71 => decidable_of_iff' _ (Iff.of_eq (k0_chk6.eq_1 v4 v71))
theorem k0_idx6_inb : ∀ (v4 : IVec S16 32) (v71 : IVec S16 32) (k0_hw6 : k0_chk6 v4 v71), ∀ a x, ((![v4, v71] : Fin 2 → IVec S16 32) a x).toNat < S16x1000.size a := fun v4 v71 k0_hw6 => k0_hw6
def k0_mult8 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c112_i32 : BitVec 32 := 112#32
  let v76 : BitVec 32 := Scalar.addi v3 c112_i32
  v76
def k0_off8 (i : grid0.Coords) (c112_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v76 : BitVec 32 := Scalar.addi v3 c112_i32
  let v77 : BitVec 32 := v76
  let c0_i32_32 : BitVec 32 := 0#32
  ![v77.toNat, 0]

def k0_chk7 (v4 : IVec S16 32) (v82 : IVec S16 32) : Prop :=
  (∀ a x, ((![v4, v82] : Fin 2 → IVec S16 32) a x).toNat < S16x1000.size a)
instance k0_chk7.dec : ∀ (v4 : IVec S16 32) (v82 : IVec S16 32), Decidable (k0_chk7 v4 v82) := fun v4 v82 => decidable_of_iff' _ (Iff.of_eq (k0_chk7.eq_1 v4 v82))
theorem k0_idx7_inb : ∀ (v4 : IVec S16 32) (v82 : IVec S16 32) (k0_hw7 : k0_chk7 v4 v82), ∀ a x, ((![v4, v82] : Fin 2 → IVec S16 32) a x).toNat < S16x1000.size a := fun v4 v82 k0_hw7 => k0_hw7
def k0_mult9 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c128_i32 : BitVec 32 := 128#32
  let v87 : BitVec 32 := Scalar.addi v3 c128_i32
  v87
def k0_off9 (i : grid0.Coords) (c128_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v87 : BitVec 32 := Scalar.addi v3 c128_i32
  let v88 : BitVec 32 := v87
  let c0_i32_37 : BitVec 32 := 0#32
  ![v88.toNat, 0]

def k0_chk8 (v4 : IVec S16 32) (v93 : IVec S16 32) : Prop :=
  (∀ a x, ((![v4, v93] : Fin 2 → IVec S16 32) a x).toNat < S16x1000.size a)
instance k0_chk8.dec : ∀ (v4 : IVec S16 32) (v93 : IVec S16 32), Decidable (k0_chk8 v4 v93) := fun v4 v93 => decidable_of_iff' _ (Iff.of_eq (k0_chk8.eq_1 v4 v93))
theorem k0_idx8_inb : ∀ (v4 : IVec S16 32) (v93 : IVec S16 32) (k0_hw8 : k0_chk8 v4 v93), ∀ a x, ((![v4, v93] : Fin 2 → IVec S16 32) a x).toNat < S16x1000.size a := fun v4 v93 k0_hw8 => k0_hw8
def k0_mult10 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c144_i32 : BitVec 32 := 144#32
  let v98 : BitVec 32 := Scalar.addi v3 c144_i32
  v98
def k0_off10 (i : grid0.Coords) (c144_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v98 : BitVec 32 := Scalar.addi v3 c144_i32
  let v99 : BitVec 32 := v98
  let c0_i32_42 : BitVec 32 := 0#32
  ![v99.toNat, 0]

def k0_chk9 (v4 : IVec S16 32) (v104 : IVec S16 32) : Prop :=
  (∀ a x, ((![v4, v104] : Fin 2 → IVec S16 32) a x).toNat < S16x1000.size a)
instance k0_chk9.dec : ∀ (v4 : IVec S16 32) (v104 : IVec S16 32), Decidable (k0_chk9 v4 v104) := fun v4 v104 => decidable_of_iff' _ (Iff.of_eq (k0_chk9.eq_1 v4 v104))
theorem k0_idx9_inb : ∀ (v4 : IVec S16 32) (v104 : IVec S16 32) (k0_hw9 : k0_chk9 v4 v104), ∀ a x, ((![v4, v104] : Fin 2 → IVec S16 32) a x).toNat < S16x1000.size a := fun v4 v104 k0_hw9 => k0_hw9
def k0_mult11 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c160_i32 : BitVec 32 := 160#32
  let v109 : BitVec 32 := Scalar.addi v3 c160_i32
  v109
def k0_off11 (i : grid0.Coords) (c160_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v109 : BitVec 32 := Scalar.addi v3 c160_i32
  let v110 : BitVec 32 := v109
  let c0_i32_47 : BitVec 32 := 0#32
  ![v110.toNat, 0]

def k0_chk10 (v4 : IVec S16 32) (v115 : IVec S16 32) : Prop :=
  (∀ a x, ((![v4, v115] : Fin 2 → IVec S16 32) a x).toNat < S16x1000.size a)
instance k0_chk10.dec : ∀ (v4 : IVec S16 32) (v115 : IVec S16 32), Decidable (k0_chk10 v4 v115) := fun v4 v115 => decidable_of_iff' _ (Iff.of_eq (k0_chk10.eq_1 v4 v115))
theorem k0_idx10_inb : ∀ (v4 : IVec S16 32) (v115 : IVec S16 32) (k0_hw10 : k0_chk10 v4 v115), ∀ a x, ((![v4, v115] : Fin 2 → IVec S16 32) a x).toNat < S16x1000.size a := fun v4 v115 k0_hw10 => k0_hw10
def k0_mult12 (i : grid0.Coords) : BitVec 32 :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c176_i32 : BitVec 32 := 176#32
  let v120 : BitVec 32 := Scalar.addi v3 c176_i32
  v120
def k0_off12 (i : grid0.Coords) (c176_i32 : BitVec 32) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let v120 : BitVec 32 := Scalar.addi v3 c176_i32
  let v121 : BitVec 32 := v120
  let c0_i32_52 : BitVec 32 := 0#32
  ![v121.toNat, 0]

def k0_chk11 (v4 : IVec S16 32) (v126 : IVec S16 32) : Prop :=
  (∀ a x, ((![v4, v126] : Fin 2 → IVec S16 32) a x).toNat < S16x1000.size a)
instance k0_chk11.dec : ∀ (v4 : IVec S16 32) (v126 : IVec S16 32), Decidable (k0_chk11 v4 v126) := fun v4 v126 => decidable_of_iff' _ (Iff.of_eq (k0_chk11.eq_1 v4 v126))
theorem k0_idx11_inb : ∀ (v4 : IVec S16 32) (v126 : IVec S16 32) (k0_hw11 : k0_chk11 v4 v126), ∀ a x, ((![v4, v126] : Fin 2 → IVec S16 32) a x).toNat < S16x1000.size a := fun v4 v126 k0_hw11 => k0_hw11
def k0_off13 (i : grid0.Coords) : Fin 2 → Nat :=
  let c10240_i32 : BitVec 32 := 10240#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v2 : BitVec 32 := Scalar.muli v1 c192_i32
  let v3 : BitVec 32 := Scalar.addi c10240_i32 v2
  let c176_i32 : BitVec 32 := 176#32
  let v120 : BitVec 32 := Scalar.addi v3 c176_i32
  let v121 : BitVec 32 := v120
  let c0_i32_57 : BitVec 32 := 0#32
  ![v121.toNat, 0]

def k0_chk12 (v4 : IVec S16 32) (v133 : IVec S16 32) : Prop :=
  (∀ a x, ((![v4, v133] : Fin 2 → IVec S16 32) a x).toNat < S16x1000.size a)
instance k0_chk12.dec : ∀ (v4 : IVec S16 32) (v133 : IVec S16 32), Decidable (k0_chk12 v4 v133) := fun v4 v133 => decidable_of_iff' _ (Iff.of_eq (k0_chk12.eq_1 v4 v133))
theorem k0_idx12_inb : ∀ (v4 : IVec S16 32) (v133 : IVec S16 32) (k0_hw12 : k0_chk12 v4 v133), ∀ a x, ((![v4, v133] : Fin 2 → IVec S16 32) a x).toNat < S16x1000.size a := fun v4 v133 k0_hw12 => k0_hw12
def k0_off14 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_61 : BitVec 32 := 16#32
  let v139 : BitVec 32 := Scalar.muli v1 c16_i32_61
  ![v139.toNat]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  inb_S192_S16_0 : ∀ a, (![0] : Fin 1 → Nat) a + S16.size a ≤ S192.size a
  h_S16 : 0 < S16.numel
  h_S16x1000 : 0 < S16x1000.numel
  inb_S192_S16_16 : ∀ a, (![16] : Fin 1 → Nat) a + S16.size a ≤ S192.size a
  inb_S192_S16_32 : ∀ a, (![32] : Fin 1 → Nat) a + S16.size a ≤ S192.size a
  inb_S192_S16_48 : ∀ a, (![48] : Fin 1 → Nat) a + S16.size a ≤ S192.size a
  inb_S192_S16_64 : ∀ a, (![64] : Fin 1 → Nat) a + S16.size a ≤ S192.size a
  inb_S192_S16_80 : ∀ a, (![80] : Fin 1 → Nat) a + S16.size a ≤ S192.size a
  inb_S192_S16_96 : ∀ a, (![96] : Fin 1 → Nat) a + S16.size a ≤ S192.size a
  inb_S192_S16_112 : ∀ a, (![112] : Fin 1 → Nat) a + S16.size a ≤ S192.size a
  inb_S192_S16_128 : ∀ a, (![128] : Fin 1 → Nat) a + S16.size a ≤ S192.size a
  inb_S192_S16_144 : ∀ a, (![144] : Fin 1 → Nat) a + S16.size a ≤ S192.size a
  inb_S192_S16_160 : ∀ a, (![160] : Fin 1 → Nat) a + S16.size a ≤ S192.size a
  inb_S192_S16_176 : ∀ a, (![176] : Fin 1 → Nat) a + S16.size a ≤ S192.size a
  inb_S16_S16_0 : ∀ a, (![0] : Fin 1 → Nat) a + S16.size a ≤ S16.size a
  shapeCasts_S16384_S128x128 : S16384.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  transposes_S16x128_p1_0_S128x16 : S16x128.Transposes [1, 0] S128x16
  iota_S128x1000_d1_w32 : S128x1000.Iotas .tc 32 [1]
  slices_S128x16_o0_0_S128x1 : S128x16.Slices ![0, 0] S128x1
  inb_S2048x1000_S128x1000_0_0 : ∀ a, (![0, 0] : Fin 2 → Nat) a + S128x1000.size a ≤ S2048x1000.size a
  h_S128x1000 : 0 < S128x1000.numel
  shapeCasts_S128x1_S128x1 : S128x1.ShapeCasts S128x1
  broadcasts_S128x1_S128x1000 : S128x1.Broadcasts S128x1000
  shapeCasts_S128x1000_S1x128x1000 : S128x1000.ShapeCasts S1x128x1000
  reduces_S1x128x1000_S1 : S1x128x1000.Reduces [1, 2] S1
  shapeCasts_S1_S1x1x1 : S1.ShapeCasts S1x1x1
  inpos_S1x1x1_p0_0_0 : ∀ a, (![0, 0, 0] : Fin 3 → Nat) a < S1x1x1.size a
  slices_S128x16_o0_1_S128x1 : S128x16.Slices ![0, 1] S128x1
  inb_S2048x1000_S128x1000_128_0 : ∀ a, (![128, 0] : Fin 2 → Nat) a + S128x1000.size a ≤ S2048x1000.size a
  slices_S128x16_o0_2_S128x1 : S128x16.Slices ![0, 2] S128x1
  inb_S2048x1000_S128x1000_256_0 : ∀ a, (![256, 0] : Fin 2 → Nat) a + S128x1000.size a ≤ S2048x1000.size a
  slices_S128x16_o0_3_S128x1 : S128x16.Slices ![0, 3] S128x1
  inb_S2048x1000_S128x1000_384_0 : ∀ a, (![384, 0] : Fin 2 → Nat) a + S128x1000.size a ≤ S2048x1000.size a
  slices_S128x16_o0_4_S128x1 : S128x16.Slices ![0, 4] S128x1
  inb_S2048x1000_S128x1000_512_0 : ∀ a, (![512, 0] : Fin 2 → Nat) a + S128x1000.size a ≤ S2048x1000.size a
  slices_S128x16_o0_5_S128x1 : S128x16.Slices ![0, 5] S128x1
  inb_S2048x1000_S128x1000_640_0 : ∀ a, (![640, 0] : Fin 2 → Nat) a + S128x1000.size a ≤ S2048x1000.size a
  slices_S128x16_o0_6_S128x1 : S128x16.Slices ![0, 6] S128x1
  inb_S2048x1000_S128x1000_768_0 : ∀ a, (![768, 0] : Fin 2 → Nat) a + S128x1000.size a ≤ S2048x1000.size a
  slices_S128x16_o0_7_S128x1 : S128x16.Slices ![0, 7] S128x1
  inb_S2048x1000_S128x1000_896_0 : ∀ a, (![896, 0] : Fin 2 → Nat) a + S128x1000.size a ≤ S2048x1000.size a
  slices_S128x16_o0_8_S128x1 : S128x16.Slices ![0, 8] S128x1
  inb_S2048x1000_S128x1000_1024_0 : ∀ a, (![1024, 0] : Fin 2 → Nat) a + S128x1000.size a ≤ S2048x1000.size a
  slices_S128x16_o0_9_S128x1 : S128x16.Slices ![0, 9] S128x1
  inb_S2048x1000_S128x1000_1152_0 : ∀ a, (![1152, 0] : Fin 2 → Nat) a + S128x1000.size a ≤ S2048x1000.size a
  slices_S128x16_o0_10_S128x1 : S128x16.Slices ![0, 10] S128x1
  inb_S2048x1000_S128x1000_1280_0 : ∀ a, (![1280, 0] : Fin 2 → Nat) a + S128x1000.size a ≤ S2048x1000.size a
  slices_S128x16_o0_11_S128x1 : S128x16.Slices ![0, 11] S128x1
  inb_S2048x1000_S128x1000_1408_0 : ∀ a, (![1408, 0] : Fin 2 → Nat) a + S128x1000.size a ≤ S2048x1000.size a
  slices_S128x16_o0_12_S128x1 : S128x16.Slices ![0, 12] S128x1
  inb_S2048x1000_S128x1000_1536_0 : ∀ a, (![1536, 0] : Fin 2 → Nat) a + S128x1000.size a ≤ S2048x1000.size a
  slices_S128x16_o0_13_S128x1 : S128x16.Slices ![0, 13] S128x1
  inb_S2048x1000_S128x1000_1664_0 : ∀ a, (![1664, 0] : Fin 2 → Nat) a + S128x1000.size a ≤ S2048x1000.size a
  slices_S128x16_o0_14_S128x1 : S128x16.Slices ![0, 14] S128x1
  inb_S2048x1000_S128x1000_1792_0 : ∀ a, (![1792, 0] : Fin 2 → Nat) a + S128x1000.size a ≤ S2048x1000.size a
  slices_S128x16_o0_15_S128x1 : S128x16.Slices ![0, 15] S128x1
  inb_S2048x1000_S128x1000_1920_0 : ∀ a, (![1920, 0] : Fin 2 → Nat) a + S128x1000.size a ≤ S2048x1000.size a
  inb_S1x1_S1x1_0_0 : ∀ a, (![0, 0] : Fin 2 → Nat) a + S1x1.size a ≤ S1x1.size a
  numel1_S1x1 : S1x1.numel = 1
  shapeCasts_S1x1_S_ : S1x1.ShapeCasts S_
  reducesTo_S512_S_d0 : S512.ReducesTo [0] S_
  h_S_ : 0 < S_.numel
  hcc0_scratch5 : 0 + S_.numel ≤ 12
  hcc0_scratch6 : 1 + S_.numel ≤ 12
  hcc0_scoped0 : 2 + S_.numel ≤ 12
  hcc0_scoped1 : 3 + S_.numel ≤ 12
  hcc0_scoped2 : 4 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S192.size a ≤ S16384.size a
  k0_mult1_dvd : ∀ i : grid0.Coords, 8 ∣ (k0_mult1 i).toNat
  k0_off2_inb : ∀ i : grid0.Coords, ∀ (r : Fin 2), ∀ a, (k0_off2 i (BitVec.ofNat 32 (16 * r.val))) a + S16x1000.size a ≤ S16384x1000.size a
  k0_mult2_dvd : ∀ i : grid0.Coords, 8 ∣ (k0_mult2 i).toNat
  k0_mult3_dvd : ∀ i : grid0.Coords, 8 ∣ (k0_mult3 i).toNat
  k0_off3_inb : ∀ i : grid0.Coords, ∀ (r : Fin 2), ∀ a, (k0_off3 i (BitVec.ofNat 32 (16 + 16 * r.val))) a + S16x1000.size a ≤ S16384x1000.size a
  k0_mult4_dvd : ∀ i : grid0.Coords, 8 ∣ (k0_mult4 i).toNat
  k0_off4_inb : ∀ i : grid0.Coords, ∀ (r : Fin 2), ∀ a, (k0_off4 i (BitVec.ofNat 32 (32 + 16 * r.val))) a + S16x1000.size a ≤ S16384x1000.size a
  k0_mult5_dvd : ∀ i : grid0.Coords, 8 ∣ (k0_mult5 i).toNat
  k0_off5_inb : ∀ i : grid0.Coords, ∀ (r : Fin 2), ∀ a, (k0_off5 i (BitVec.ofNat 32 (48 + 16 * r.val))) a + S16x1000.size a ≤ S16384x1000.size a
  k0_mult6_dvd : ∀ i : grid0.Coords, 8 ∣ (k0_mult6 i).toNat
  k0_off6_inb : ∀ i : grid0.Coords, ∀ (r : Fin 2), ∀ a, (k0_off6 i (BitVec.ofNat 32 (64 + 16 * r.val))) a + S16x1000.size a ≤ S16384x1000.size a
  k0_mult7_dvd : ∀ i : grid0.Coords, 8 ∣ (k0_mult7 i).toNat
  k0_off7_inb : ∀ i : grid0.Coords, ∀ (r : Fin 2), ∀ a, (k0_off7 i (BitVec.ofNat 32 (80 + 16 * r.val))) a + S16x1000.size a ≤ S16384x1000.size a
  k0_mult8_dvd : ∀ i : grid0.Coords, 8 ∣ (k0_mult8 i).toNat
  k0_off8_inb : ∀ i : grid0.Coords, ∀ (r : Fin 2), ∀ a, (k0_off8 i (BitVec.ofNat 32 (96 + 16 * r.val))) a + S16x1000.size a ≤ S16384x1000.size a
  k0_mult9_dvd : ∀ i : grid0.Coords, 8 ∣ (k0_mult9 i).toNat
  k0_off9_inb : ∀ i : grid0.Coords, ∀ (r : Fin 2), ∀ a, (k0_off9 i (BitVec.ofNat 32 (112 + 16 * r.val))) a + S16x1000.size a ≤ S16384x1000.size a
  k0_mult10_dvd : ∀ i : grid0.Coords, 8 ∣ (k0_mult10 i).toNat
  k0_off10_inb : ∀ i : grid0.Coords, ∀ (r : Fin 2), ∀ a, (k0_off10 i (BitVec.ofNat 32 (128 + 16 * r.val))) a + S16x1000.size a ≤ S16384x1000.size a
  k0_mult11_dvd : ∀ i : grid0.Coords, 8 ∣ (k0_mult11 i).toNat
  k0_off11_inb : ∀ i : grid0.Coords, ∀ (r : Fin 2), ∀ a, (k0_off11 i (BitVec.ofNat 32 (144 + 16 * r.val))) a + S16x1000.size a ≤ S16384x1000.size a
  k0_mult12_dvd : ∀ i : grid0.Coords, 8 ∣ (k0_mult12 i).toNat
  k0_off12_inb : ∀ i : grid0.Coords, ∀ (r : Fin 2), ∀ a, (k0_off12 i (BitVec.ofNat 32 (160 + 16 * r.val))) a + S16x1000.size a ≤ S16384x1000.size a
  k0_off13_inb : ∀ i : grid0.Coords, ∀ a, (k0_off13 i) a + S16x1000.size a ≤ S16384x1000.size a
  k0_off14_inb : ∀ i : grid0.Coords, ∀ a, (k0_off14 i) a + S16.size a ≤ S512.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128.size a ≤ S128x128.size a
  hwx1_0 : ∀ i : grid1.Coords, EltTy.bits .i32 = 32 ∨ (Rect.block (s := S128x128) S16x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S128x128.size a
  hwx1_1 : ∀ i : grid1.Coords, EltTy.bits .f32 = 32 ∨ (Rect.block (s := S128x128) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1000.size a ≤ S16384x1000.size a
  hwx1_2 : ∀ i : grid1.Coords, EltTy.bits .f32 = 32 ∨ (Rect.block (s := S16384x1000) S2048x1000.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2

abbrev win1_0 : Pipeline.Window sig grid1 :=
  Pipeline.Window.ofSpec (Memref.whole main_v1) S16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2048x1000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384, .f32⟩
  | .hbm, ⟨3, _⟩ => ⟨S_, .i32⟩
  | .hbm, ⟨4, _⟩ => ⟨S16384x1, .i32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S16384x1x1, .i32⟩
  | .hbm, ⟨13, _⟩ => ⟨S1, .i32⟩
  | .hbm, ⟨14, _⟩ => ⟨S_, .i32⟩
  | .hbm, ⟨15, _⟩ => ⟨S16384x1x1, .i32⟩
  | .hbm, ⟨16, _⟩ => ⟨S16384x1x1, .i1⟩
  | .hbm, ⟨17, _⟩ => ⟨S1x1x1, .i32⟩
  | .hbm, ⟨18, _⟩ => ⟨S16384x1x1, .i32⟩
  | .hbm, ⟨19, _⟩ => ⟨S16384x1x1, .i1⟩
  | .hbm, ⟨20, _⟩ => ⟨S16384x1x1, .i1⟩
  | .hbm, ⟨21, _⟩ => ⟨S_, .i1⟩
  | .hbm, ⟨22, _⟩ => ⟨S16384x1, .i1⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  shapeCasts_S16384_S16384x1 : S16384.ShapeCasts S16384x1
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  shapeCasts_S16384x1_S16384 : S16384x1.ShapeCasts S16384
  reducesTo_S16384_S_d0 : S16384.ReducesTo [0] S_
  gather_S16384x1000_S16384x1x1_S16384x1_n_1_0_0_1_2_11_wf : GatherDims.WF S16384x1000 S16384x1x1 S16384x1 [] [1] [0] [1] [0] 2 ![1, 1]

variable [Facts₀]

def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.ScSetup.lean ====
/-
  The SparseCore side of the idealized kernel, as the launch theorem sees it: the program's configuration and
  variants, the resource algebra (the launch handshakes' rounds, the pipeline's staging cells' rounds, the local
  transfers' counters), the arrays as each kind of thread addresses them, and what the call's handshakes carry.

  The call hands each SparseCore a read share of `prob`, `target` and `reward` (all three are only read) and the
  sixteen 16-word pieces of the partial-sum array its tiles write: tile `(c, s)` is worker `w = 2 s + c`, reads rows
  `10240 + 192 w … + 191` of the three inputs in twelve chunks of sixteen rows and writes words `16 w … 16 w + 15`.
  Each tile hands its piece back at ONE whole-array function `scOut` of the launch contents: word `16 w + l` is the
  lane-`l` accumulator `((0 + v₀ r₀) + v₁ r₁) + … + v₁₁ r₁₁`, `v_k` the gathered entries `prob[row, target[row]]` of chunk
  `k`'s sixteen rows and `r_k` their rewards. Stated once for any float instance.
-/
import proofs.«207748_g59691455480232_cont_9to1c4b_13_25_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207748_g59691455480232_cont_9to1c4b_13_25_alg».proof.Proof.Gen.KernelIdeal
import proofs.«207748_g59691455480232_cont_9to1c4b_13_25_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

abbrev pLoc (d : Dev nD) : Loc nD τ sig := (SparseCore.T d).loc main_arg0
abbrev tLoc (d : Dev nD) : Loc nD τ sig := (SparseCore.T d).loc main_arg1
abbrev rLoc (d : Dev nD) : Loc nD τ sig := (SparseCore.T d).loc main_arg2
abbrev oLoc (d : Dev nD) : Loc nD τ sig := (SparseCore.T d).loc main_v0

end Cert.KernelIdeal.Sc

end
-- ==== Proof.ScVal.lean ====
/-
  The value one SparseCore tile computes, as a pure function of the three argument arrays.

  Worker `w` of 32 owns rows `10240 + 192 w … + 191`, in twelve chunks of sixteen rows: chunk `k`, lane `l` is row
  `10240 + 192 w + 16 k + l`. For each chunk it gathers, lane by lane, the table's entry of that row in the column the
  row's word names, multiplies by the row's weight and adds the product to a sixteen-lane accumulator that starts at
  zero: `((0 + g₀ r₀) + g₁ r₁) + … + g₁₁ r₁₁`. Word `16 w + l` of the output array is lane `l` of worker `w`'s
  accumulator. Stated for any float values.
-/
import proofs.«207748_g59691455480232_cont_9to1c4b_13_25_alg».proof.Proof.ScSetup
import proofs.«207748_g59691455480232_cont_9to1c4b_13_25_alg».proof.Proof.Gen.KernelIdeal.Skeleton
import Idealize.ShloMosaic.Lib.ValueIdx

noncomputable section

namespace Cert.KernelIdeal.ScVal

open Cert.KernelIdeal Cert.KernelIdeal.Gen Idealize.ShloMosaic Idealize.ShloMosaic.ValueIdx

variable {F : FTy → Type} [FloatOps F]

/-- Worker `w`, chunk `k`, lane `l`: the row. -/
def rowOf (w : Fin 32) (k : Fin 12) (l : Fin 16) : Fin 16384 := ⟨10240 + 192 * w.val + 16 * k.val + l.val, by omega⟩

/-- The column a word names (reduced below 1000, so that it is a column whatever the word). -/
def colOf (t : BitVec 32) : Fin 1000 := ⟨t.toNat % 1000, Nat.mod_lt _ (by decide)⟩

/-- Chunk `k` of worker `w`: per lane, the table's entry of the lane's row in the column its word names. -/
def gathered (prob : FVec F S16384x1000 .f32) (tgt : IVec S16384 32) (w : Fin 32) (k : Fin 12) : Vec F S16 .f32 :=
  fun x => prob (ix2 (rowOf w k (x 0)) (colOf (tgt (ix1 (rowOf w k (x 0))))))

/-- Chunk `k` of worker `w`: per lane, the row's weight. -/
def rewards (rew : FVec F S16384 .f32) (w : Fin 32) (k : Fin 12) : Vec F S16 .f32 :=
  fun x => rew (ix1 (rowOf w k (x 0)))

/-- Worker `w`'s accumulator after its twelve chunks, in the kernel's own order of additions. -/
def scAcc (prob : FVec F S16384x1000 .f32) (tgt : IVec S16384 32) (rew : FVec F S16384 .f32) (w : Fin 32) : FVec F S16 .f32 :=
  k0_pay1
    (k0_pay5
      (k0_pay4
        (k0_pay3 (k0_pay2 (gathered prob tgt w 0) (rewards rew w 0))
          (gathered prob tgt w 1) (rewards rew w 1) (gathered prob tgt w 2) (rewards rew w 2)
          (gathered prob tgt w 3) (rewards rew w 3))
        (gathered prob tgt w 4) (rewards rew w 4) (gathered prob tgt w 5) (rewards rew w 5)
        (gathered prob tgt w 6) (rewards rew w 6))
      (gathered prob tgt w 7) (rewards rew w 7) (gathered prob tgt w 8) (rewards rew w 8))
    (gathered prob tgt w 9) (rewards rew w 9) (gathered prob tgt w 10) (rewards rew w 10)
    (gathered prob tgt w 11) (rewards rew w 11)

/-- The 512-word output: word `j` is lane `j % 16` of worker `j / 16`'s accumulator. -/
def scOut (prob : FVec F S16384x1000 .f32) (tgt : IVec S16384 32) (rew : FVec F S16384 .f32) : FVec F S512 .f32 :=
  fun j => scAcc prob tgt rew ⟨(j 0).val / 16, by have h : (j 0).val < 512 := (j 0).isLt; omega⟩ (ix1 ⟨(j 0).val % 16, by omega⟩)

end Cert.KernelIdeal.ScVal

end
-- ==== Proof.ScPay.lean ====
/-
  What the SparseCore call's handshakes carry.

  The three inputs are only read, so they travel as read shares: the TensorCore keeps a remainder of each and hands
  SparseCore `c` the token `qC c`; that SparseCore's sequencer keeps a remainder of its token and hands tile `i` the
  token `qT c i`. The partial-sum array is cut into its thirty-two 16-word pieces; piece `w = 2 s + c` goes to tile
  `(c, s)` whole, and comes back holding that piece of `scOut` of the launch contents: word `16 w + l` is lane `l` of
  worker `w`'s accumulator.
-/
import proofs.«207748_g59691455480232_cont_9to1c4b_13_25_alg».proof.Proof.ScSetup
import proofs.«207748_g59691455480232_cont_9to1c4b_13_25_alg».proof.Proof.ScVal

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "oV" => (Memref.whole Cert.KernelIdeal.main_v0_scv : Memref Cert.KernelIdeal.sig Kind.scVector Space.hbm Cert.KernelIdeal.S512 EltTy.f32)

variable (m : (ℓ : Loc nD τ sig) → Buf (Elt F) ℓ) (ρ : Dev nD → PrngReg)

/-- Tile `(c, s)` is worker `2 s + c`. -/
def wid (c : Fin 2) (s : Fin 16) : Fin 32 := ⟨2 * s.val + c.val, by omega⟩

theorem odiv : 32 ∣ S512.size 0 := ⟨16, rfl⟩
/-- Piece `w` of the partial-sum array: words `16 w … 16 w + 15`. -/
abbrev orow (w : Fin 32) : Rect S512 := Rect.part (s := S512) (a₀ := 0) odiv w
abbrev oRowSet (w : Fin 32) : Finset S512.Idx := ((oV).view.slice (orow w)).set

/-- SparseCore `c`'s read token of an input, and tile `i`'s token of that. -/
abbrev qC (c : Fin 2) : PosShare TreeShare := Transfers.shareTok fullShare 2 c
abbrev qT (c : Fin 2) (i : Fin 16) : PosShare TreeShare := Transfers.shareTok (qC c) 16 i

variable [FloatOps F]

/-- The partial sums as one function of the launch contents of the three inputs. -/
def scBuf (d : Dev nD) : Buf (Elt F) (oLoc d) := ScVal.scOut (m (pLoc d)) (m (tLoc d)) (m (rLoc d))

abbrev pSh (d : Dev nD) (q : PosShare TreeShare) : sProp 𝕄 := pLoc d ↦{q} m (pLoc d)
abbrev tSh (d : Dev nD) (q : PosShare TreeShare) : sProp 𝕄 := tLoc d ↦{q} m (tLoc d)
abbrev rSh (d : Dev nD) (q : PosShare TreeShare) : sProp 𝕄 := rLoc d ↦{q} m (rLoc d)
abbrev oPts (d : Dev nD) (f : Buf (Elt F) (oLoc d)) : sProp 𝕄 := oLoc d ↦{fullShare} f
abbrev oRowPts (d : Dev nD) (w : Fin 32) (f : Buf (Elt F) (oLoc d)) : sProp 𝕄 := oLoc d ↦[oRowSet w]{fullShare} f

/-- The one call: per SparseCore its tokens of the inputs and its sixteen pieces; per tile its tokens and its piece;
    the pieces come back at `scBuf`. -/
def P : (K (F := F)).Pay (nD := nD) (Val := Elt F) (Name := ℕ) (U := UU) where
  st := fun q d c => match q with
    | 0 => iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (m (oLoc d)))
  dn := fun q d c => match q with
    | 0 => iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (scBuf m d))
  go := fun q d c i => match q with
    | 0 => iprop(pSh m d (qT (Fin.cast nCore_zero c) (Fin.cast nSub_zero i)) ∗ tSh m d (qT (Fin.cast nCore_zero c) (Fin.cast nSub_zero i))
        ∗ rSh m d (qT (Fin.cast nCore_zero c) (Fin.cast nSub_zero i))
        ∗ oRowPts d (wid (Fin.cast nCore_zero c) (Fin.cast nSub_zero i)) (m (oLoc d)))
  td := fun q d c i => match q with
    | 0 => iprop(pSh m d (qT (Fin.cast nCore_zero c) (Fin.cast nSub_zero i)) ∗ tSh m d (qT (Fin.cast nCore_zero c) (Fin.cast nSub_zero i))
        ∗ rSh m d (qT (Fin.cast nCore_zero c) (Fin.cast nSub_zero i))
        ∗ oRowPts d (wid (Fin.cast nCore_zero c) (Fin.cast nSub_zero i)) (scBuf m d))
  x := fun _ _ => iprop(emp)

instance P_storable : (P (F := F) m).IsStorable where
  st q d c := match q with
    | 0 => (inferInstance : BI.Storable (upEmb : UEmb _ 𝕄)
        iprop(pSh m d (qC (Fin.cast nCore_zero c)) ∗ tSh m d (qC (Fin.cast nCore_zero c)) ∗ rSh m d (qC (Fin.cast nCore_zero c))
          ∗ bigSep Finset.univ fun s : Fin 16 => oRowPts d (wid (Fin.cast nCore_zero c) s) (m (oLoc d))))
  dn q d c := match q with
    | 0 => (inferInstance : BI.Storable (upEmb : UEmb _ 𝕄)
        iprop(pSh m d (qC (Fin.cast nCore_zero c)) ∗ tSh m d (qC (Fin.cast nCore_zero c)) ∗ rSh m d (qC (Fin.cast nCore_zero c))
          ∗ bigSep Finset.univ fun s : Fin 16 => oRowPts d (wid (Fin.cast nCore_zero c) s) (scBuf m d)))
  go q d c i := match q with
    | 0 => (inferInstance : BI.Storable (upEmb : UEmb _ 𝕄)
        iprop(pSh m d (qT (Fin.cast nCore_zero c) (Fin.cast nSub_zero i)) ∗ tSh m d (qT (Fin.cast nCore_zero c) (Fin.cast nSub_zero i))
          ∗ rSh m d (qT (Fin.cast nCore_zero c) (Fin.cast nSub_zero i))
          ∗ oRowPts d (wid (Fin.cast nCore_zero c) (Fin.cast nSub_zero i)) (m (oLoc d))))
  td q d c i := match q with
    | 0 => (inferInstance : BI.Storable (upEmb : UEmb _ 𝕄)
        iprop(pSh m d (qT (Fin.cast nCore_zero c) (Fin.cast nSub_zero i)) ∗ tSh m d (qT (Fin.cast nCore_zero c) (Fin.cast nSub_zero i))
          ∗ rSh m d (qT (Fin.cast nCore_zero c) (Fin.cast nSub_zero i))
          ∗ oRowPts d (wid (Fin.cast nCore_zero c) (Fin.cast nSub_zero i)) (scBuf m d)))

end Cert.KernelIdeal.Sc

end
-- ==== Proof.ScValLemmas.lean ====
/-
  One SparseCore tile's loads and stores, read as values.

  A tile first copies its 192 words and 192 weights into two local buffers; a load of sixteen of them at offset
  `16 k` reads the words (weights) of rows `10240 + 192 w + 16 k + lane`. Each chunk of sixteen table rows is copied
  into one of two local chunk buffers; the indexed load out of it at (lane, the lane's word) reads the table's entry
  of the lane's row in the column the word names. So the accumulator the tile stores is `scAcc`, and the sixteen words
  it copies out land in the output array at `16 w + lane`: the array agrees there with `scOut`.
-/
import proofs.«207748_g59691455480232_cont_9to1c4b_13_25_alg».proof.Proof.ScVal
import Idealize.ShloMosaic.Lib.Writes
import Idealize.ShloMosaic.Lib.Exec.Geometry

noncomputable section

namespace Cert.KernelIdeal.ScVal

open Cert.KernelIdeal Cert.KernelIdeal.Gen Idealize.ShloMosaic Idealize.ShloMosaic.ValueIdx

variable {F : FTy → Type} [FloatOps F]

local notation "pV" => (Memref.whole Cert.KernelIdeal.main_arg0_scv : Memref Cert.KernelIdeal.sig Kind.scVector Space.hbm Cert.KernelIdeal.S16384x1000 EltTy.f32)
local notation "tV" => (Memref.whole Cert.KernelIdeal.main_arg1_scv : Memref Cert.KernelIdeal.sig Kind.scVector Space.hbm Cert.KernelIdeal.S16384 EltTy.i32)
local notation "rV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S512 EltTy.f32)
local notation "s0V" => (Memref.whole Cert.KernelIdeal.cc0_scratch0 : Memref Cert.KernelIdeal.sig Kind.scVector Space.vmem Cert.KernelIdeal.S192 EltTy.i32)
local notation "s1V" => (Memref.whole Cert.KernelIdeal.cc0_scratch1 : Memref Cert.KernelIdeal.sig Kind.scVector Space.vmem Cert.KernelIdeal.S192 EltTy.f32)
local notation "s2V" => (Memref.whole Cert.KernelIdeal.cc0_scratch2 : Memref Cert.KernelIdeal.sig Kind.scVector Space.vmem Cert.KernelIdeal.S16x1000 EltTy.f32)
local notation "s3V" => (Memref.whole Cert.KernelIdeal.cc0_scratch3 : Memref Cert.KernelIdeal.sig Kind.scVector Space.vmem Cert.KernelIdeal.S16x1000 EltTy.f32)
local notation "s4V" => (Memref.whole Cert.KernelIdeal.cc0_scratch4 : Memref Cert.KernelIdeal.sig Kind.scVector Space.vmem Cert.KernelIdeal.S16 EltTy.f32)

/-! ## The worker's rows -/

/-- The lane counter reads back as the lane. -/
theorem iota_toNat (x : S16.Idx) : (iota .scVector S16 32 [0] iota_S16_d0_w32_scVector x).toNat = (x 0).val := by
  have h16 : (x 0).val < 16 := (x 0).isLt
  simp only [iota, List.foldl_cons, List.foldl_nil, Nat.zero_mul, Nat.zero_add, BitVec.toNat_ofNat]
  omega

/-- A load of sixteen words at offset `16 k` of the local copy of the worker's 192 words: the words of chunk `k`'s rows. -/
theorem tgt_read (L : grid0.Coords) (w : Fin 32) (hw : w.val = 2 * (L 1).val + (L 0).val) (k : Fin 12)
    (off : Fin 1 → Nat) (hoff : off = ![16 * k.val]) (hin : ∀ a, off a + S16.size a ≤ S192.size a)
    (f0 : (s0V).view.ty.Contents (Elt F)) (T0 : S192.Idx → Elt F .i32) (tgtBuf : IVec S16384 32)
    (hT0 : T0 = ((tV).slice (Rect.unit (s := S16384) (k0_off1 L) S192.size (k0_off1_inb L)) (fun _ => rfl)).view.read (Elt F) tgtBuf)
    (x : S16.Idx) :
    (s0V).view.readAt (Elt F) (Rect.unit (s := S192) off S16.size hin).toLoadRect (View.write (Elt F) (s0V).view f0 T0 Finset.univ) x
      = tgtBuf (ix1 (rowOf w k (x 0))) := by
  subst hT0 hoff
  rw [View.write_whole_univ]
  simp only [View.readAt_apply, Memref.view_whole, View.read_whole]
  rw [View.read_apply, cast_eq]
  refine congrArg tgtBuf ((eq_ix1 _).trans (congrArg ix1 (Fin.ext ?_)))
  show k0_off1 L 0 + 1 * (16 * k.val + 1 * (x 0).val) = 10240 + 192 * w.val + 16 * k.val + (x 0).val
  rw [k0_off1_eq]
  show 384 * (L 1).val + 192 * (L 0).val + 10240 + 1 * (16 * k.val + 1 * (x 0).val) = _
  omega

/-- The same for the weights. -/
theorem rew_read (L : grid0.Coords) (w : Fin 32) (hw : w.val = 2 * (L 1).val + (L 0).val) (k : Fin 12)
    (off : Fin 1 → Nat) (hoff : off = ![16 * k.val]) (hin : ∀ a, off a + S16.size a ≤ S192.size a)
    (f1 : (s1V).view.ty.Contents (Elt F)) (R0 : S192.Idx → Elt F .f32) (rewBuf : FVec F S16384 .f32)
    (hR0 : R0 = ((rV).slice (Rect.unit (s := S16384) (k0_off1 L) S192.size (k0_off1_inb L)) (fun _ => rfl)).view.read (Elt F) rewBuf)
    (x : S16.Idx) :
    (s1V).view.readAt (Elt F) (Rect.unit (s := S192) off S16.size hin).toLoadRect (View.write (Elt F) (s1V).view f1 R0 Finset.univ) x
      = rewBuf (ix1 (rowOf w k (x 0))) := by
  subst hR0 hoff
  rw [View.write_whole_univ]
  simp only [View.readAt_apply, Memref.view_whole, View.read_whole]
  rw [View.read_apply, cast_eq]
  refine congrArg rewBuf ((eq_ix1 _).trans (congrArg ix1 (Fin.ext ?_)))
  show k0_off1 L 0 + 1 * (16 * k.val + 1 * (x 0).val) = 10240 + 192 * w.val + 16 * k.val + (x 0).val
  rw [k0_off1_eq]
  show 384 * (L 1).val + 192 * (L 0).val + 10240 + 1 * (16 * k.val + 1 * (x 0).val) = _
  omega

/-! ## The gather -/

/-- The gather out of a staged chunk (through `the first` chunk buffer): lane `x` reads the chunk's row `x` at the column the lane's
    word names, which is the table's entry of the lane's row in that column. -/
theorem gather_read2 (w : Fin 32) (k : Fin 12)
    (offp : Fin 2 → Nat) (hoffp : offp = ![10240 + 192 * w.val + 16 * k.val, 0])
    (hinp : ∀ a, offp a + S16x1000.size a ≤ S16384x1000.size a)
    (g : (s2V).view.ty.Contents (Elt F)) (C : S16x1000.Idx → Elt F .f32) (probBuf : FVec F S16384x1000 .f32)
    (hC : C = ((pV).slice (Rect.unit (s := S16384x1000) offp S16x1000.size hinp) (fun _ => rfl)).view.read (Elt F) probBuf)
    (v4 : IVec S16 32) (hv4 : v4 = iota .scVector S16 32 [0] iota_S16_d0_w32_scVector)
    (t : IVec S16 32) (tgtBuf : IVec S16384 32) (ht : ∀ x, t x = tgtBuf (ix1 (rowOf w k (x 0))))
    (hpre : ∀ j, (tgtBuf j).toNat < 1000)
    (h : ∀ a x, ((![v4, t] : Fin 2 → IVec S16 32) a x).toNat < S16x1000.size a) :
    loadIdx (View.read (Elt F) ((s2V).access (Rect.whole _)) (View.write (Elt F) (s2V).view g C Finset.univ)) ![v4, t] h
      = gathered probBuf tgtBuf w k := by
  subst hC hoffp hv4
  funext x
  unfold loadIdx
  rw [View.write_whole_univ, View.read_apply, cast_eq, View.read_apply, cast_eq]
  unfold gathered
  refine congrArg probBuf ((eq_ix2 _).trans (congrArg₂ ix2 (Fin.ext ?_) (Fin.ext ?_)))
  · show 10240 + 192 * w.val + 16 * k.val + 1 * (0 + 1 * (iota .scVector S16 32 [0] iota_S16_d0_w32_scVector x).toNat)
        = 10240 + 192 * w.val + 16 * k.val + (x 0).val
    rw [iota_toNat]; omega
  · show 0 + 1 * (0 + 1 * (t x).toNat) = (tgtBuf (ix1 (rowOf w k (x 0)))).toNat % 1000
    rw [ht x, Nat.mod_eq_of_lt (hpre _)]; omega

/-- The gather out of a staged chunk (through `the second` chunk buffer): lane `x` reads the chunk's row `x` at the column the lane's
    word names, which is the table's entry of the lane's row in that column. -/
theorem gather_read3 (w : Fin 32) (k : Fin 12)
    (offp : Fin 2 → Nat) (hoffp : offp = ![10240 + 192 * w.val + 16 * k.val, 0])
    (hinp : ∀ a, offp a + S16x1000.size a ≤ S16384x1000.size a)
    (g : (s3V).view.ty.Contents (Elt F)) (C : S16x1000.Idx → Elt F .f32) (probBuf : FVec F S16384x1000 .f32)
    (hC : C = ((pV).slice (Rect.unit (s := S16384x1000) offp S16x1000.size hinp) (fun _ => rfl)).view.read (Elt F) probBuf)
    (v4 : IVec S16 32) (hv4 : v4 = iota .scVector S16 32 [0] iota_S16_d0_w32_scVector)
    (t : IVec S16 32) (tgtBuf : IVec S16384 32) (ht : ∀ x, t x = tgtBuf (ix1 (rowOf w k (x 0))))
    (hpre : ∀ j, (tgtBuf j).toNat < 1000)
    (h : ∀ a x, ((![v4, t] : Fin 2 → IVec S16 32) a x).toNat < S16x1000.size a) :
    loadIdx (View.read (Elt F) ((s3V).access (Rect.whole _)) (View.write (Elt F) (s3V).view g C Finset.univ)) ![v4, t] h
      = gathered probBuf tgtBuf w k := by
  subst hC hoffp hv4
  funext x
  unfold loadIdx
  rw [View.write_whole_univ, View.read_apply, cast_eq, View.read_apply, cast_eq]
  unfold gathered
  refine congrArg probBuf ((eq_ix2 _).trans (congrArg₂ ix2 (Fin.ext ?_) (Fin.ext ?_)))
  · show 10240 + 192 * w.val + 16 * k.val + 1 * (0 + 1 * (iota .scVector S16 32 [0] iota_S16_d0_w32_scVector x).toNat)
        = 10240 + 192 * w.val + 16 * k.val + (x 0).val
    rw [iota_toNat]; omega
  · show 0 + 1 * (0 + 1 * (t x).toNat) = (tgtBuf (ix1 (rowOf w k (x 0)))).toNat % 1000
    rw [ht x, Nat.mod_eq_of_lt (hpre _)]; omega

/-! ## The twelve chunks' first rows, in closed form -/

theorem chunk_off_0 (L : grid0.Coords) (w : Fin 32) (hw : w.val = 2 * (L 1).val + (L 0).val) :
    k0_off2 L 0#32 = ![10240 + 192 * w.val + 16 * (0 : Fin 12).val, 0] := by
  refine (k0_off2_eq L ⟨0, by decide⟩).trans ?_
  show (![384 * (L 1).val + 192 * (L 0).val + 16 * 0 + 10240, 0] : Fin 2 → Nat) = ![10240 + 192 * w.val + 16 * 0, 0]
  rw [hw]
  exact congrArg (fun n : Nat => (![n, 0] : Fin 2 → Nat)) (by omega)

theorem chunk_off_1 (L : grid0.Coords) (w : Fin 32) (hw : w.val = 2 * (L 1).val + (L 0).val) :
    k0_off2 L 16#32 = ![10240 + 192 * w.val + 16 * (1 : Fin 12).val, 0] := by
  refine (k0_off2_eq L ⟨1, by decide⟩).trans ?_
  show (![384 * (L 1).val + 192 * (L 0).val + 16 * 1 + 10240, 0] : Fin 2 → Nat) = ![10240 + 192 * w.val + 16 * 1, 0]
  rw [hw]
  exact congrArg (fun n : Nat => (![n, 0] : Fin 2 → Nat)) (by omega)

theorem chunk_off_2 (L : grid0.Coords) (w : Fin 32) (hw : w.val = 2 * (L 1).val + (L 0).val) :
    k0_off3 L 32#32 = ![10240 + 192 * w.val + 16 * (2 : Fin 12).val, 0] := by
  refine (k0_off3_eq L ⟨1, by decide⟩).trans ?_
  show (![384 * (L 1).val + 192 * (L 0).val + 16 * 1 + 10256, 0] : Fin 2 → Nat) = ![10240 + 192 * w.val + 16 * 2, 0]
  rw [hw]
  exact congrArg (fun n : Nat => (![n, 0] : Fin 2 → Nat)) (by omega)

theorem chunk_off_3 (L : grid0.Coords) (w : Fin 32) (hw : w.val = 2 * (L 1).val + (L 0).val) :
    k0_off4 L 48#32 = ![10240 + 192 * w.val + 16 * (3 : Fin 12).val, 0] := by
  refine (k0_off4_eq L ⟨1, by decide⟩).trans ?_
  show (![384 * (L 1).val + 192 * (L 0).val + 16 * 1 + 10272, 0] : Fin 2 → Nat) = ![10240 + 192 * w.val + 16 * 3, 0]
  rw [hw]
  exact congrArg (fun n : Nat => (![n, 0] : Fin 2 → Nat)) (by omega)

theorem chunk_off_4 (L : grid0.Coords) (w : Fin 32) (hw : w.val = 2 * (L 1).val + (L 0).val) :
    k0_off5 L 64#32 = ![10240 + 192 * w.val + 16 * (4 : Fin 12).val, 0] := by
  refine (k0_off5_eq L ⟨1, by decide⟩).trans ?_
  show (![384 * (L 1).val + 192 * (L 0).val + 16 * 1 + 10288, 0] : Fin 2 → Nat) = ![10240 + 192 * w.val + 16 * 4, 0]
  rw [hw]
  exact congrArg (fun n : Nat => (![n, 0] : Fin 2 → Nat)) (by omega)

theorem chunk_off_5 (L : grid0.Coords) (w : Fin 32) (hw : w.val = 2 * (L 1).val + (L 0).val) :
    k0_off6 L 80#32 = ![10240 + 192 * w.val + 16 * (5 : Fin 12).val, 0] := by
  refine (k0_off6_eq L ⟨1, by decide⟩).trans ?_
  show (![384 * (L 1).val + 192 * (L 0).val + 16 * 1 + 10304, 0] : Fin 2 → Nat) = ![10240 + 192 * w.val + 16 * 5, 0]
  rw [hw]
  exact congrArg (fun n : Nat => (![n, 0] : Fin 2 → Nat)) (by omega)

theorem chunk_off_6 (L : grid0.Coords) (w : Fin 32) (hw : w.val = 2 * (L 1).val + (L 0).val) :
    k0_off7 L 96#32 = ![10240 + 192 * w.val + 16 * (6 : Fin 12).val, 0] := by
  refine (k0_off7_eq L ⟨1, by decide⟩).trans ?_
  show (![384 * (L 1).val + 192 * (L 0).val + 16 * 1 + 10320, 0] : Fin 2 → Nat) = ![10240 + 192 * w.val + 16 * 6, 0]
  rw [hw]
  exact congrArg (fun n : Nat => (![n, 0] : Fin 2 → Nat)) (by omega)

theorem chunk_off_7 (L : grid0.Coords) (w : Fin 32) (hw : w.val = 2 * (L 1).val + (L 0).val) :
    k0_off8 L 112#32 = ![10240 + 192 * w.val + 16 * (7 : Fin 12).val, 0] := by
  refine (k0_off8_eq L ⟨1, by decide⟩).trans ?_
  show (![384 * (L 1).val + 192 * (L 0).val + 16 * 1 + 10336, 0] : Fin 2 → Nat) = ![10240 + 192 * w.val + 16 * 7, 0]
  rw [hw]
  exact congrArg (fun n : Nat => (![n, 0] : Fin 2 → Nat)) (by omega)

theorem chunk_off_8 (L : grid0.Coords) (w : Fin 32) (hw : w.val = 2 * (L 1).val + (L 0).val) :
    k0_off9 L 128#32 = ![10240 + 192 * w.val + 16 * (8 : Fin 12).val, 0] := by
  refine (k0_off9_eq L ⟨1, by decide⟩).trans ?_
  show (![384 * (L 1).val + 192 * (L 0).val + 16 * 1 + 10352, 0] : Fin 2 → Nat) = ![10240 + 192 * w.val + 16 * 8, 0]
  rw [hw]
  exact congrArg (fun n : Nat => (![n, 0] : Fin 2 → Nat)) (by omega)

theorem chunk_off_9 (L : grid0.Coords) (w : Fin 32) (hw : w.val = 2 * (L 1).val + (L 0).val) :
    k0_off10 L 144#32 = ![10240 + 192 * w.val + 16 * (9 : Fin 12).val, 0] := by
  refine (k0_off10_eq L ⟨1, by decide⟩).trans ?_
  show (![384 * (L 1).val + 192 * (L 0).val + 16 * 1 + 10368, 0] : Fin 2 → Nat) = ![10240 + 192 * w.val + 16 * 9, 0]
  rw [hw]
  exact congrArg (fun n : Nat => (![n, 0] : Fin 2 → Nat)) (by omega)

theorem chunk_off_10 (L : grid0.Coords) (w : Fin 32) (hw : w.val = 2 * (L 1).val + (L 0).val) :
    k0_off11 L 160#32 = ![10240 + 192 * w.val + 16 * (10 : Fin 12).val, 0] := by
  refine (k0_off11_eq L ⟨1, by decide⟩).trans ?_
  show (![384 * (L 1).val + 192 * (L 0).val + 16 * 1 + 10384, 0] : Fin 2 → Nat) = ![10240 + 192 * w.val + 16 * 10, 0]
  rw [hw]
  exact congrArg (fun n : Nat => (![n, 0] : Fin 2 → Nat)) (by omega)

theorem chunk_off_11 (L : grid0.Coords) (w : Fin 32) (hw : w.val = 2 * (L 1).val + (L 0).val) :
    k0_off12 L 176#32 = ![10240 + 192 * w.val + 16 * (11 : Fin 12).val, 0] := by
  refine (k0_off12_eq L ⟨1, by decide⟩).trans ?_
  show (![384 * (L 1).val + 192 * (L 0).val + 16 * 1 + 10400, 0] : Fin 2 → Nat) = ![10240 + 192 * w.val + 16 * 11, 0]
  rw [hw]
  exact congrArg (fun n : Nat => (![n, 0] : Fin 2 → Nat)) (by omega)

/-! ## The stored accumulator -/

/-- The accumulator over VARIABLES for the twelve gathered vectors and weight vectors: when each is the chunk's, it is `scAcc`. -/
theorem stored_eq_vars (prob : FVec F S16384x1000 .f32) (tgt : IVec S16384 32) (rew : FVec F S16384 .f32) (w : Fin 32)
    (V R : Fin 12 → Vec F S16 .f32) (hV : ∀ k, V k = gathered prob tgt w k) (hR : ∀ k, R k = rewards rew w k) :
    k0_pay1
      (k0_pay5
        (k0_pay4
          (k0_pay3 (k0_pay2 (V 0) (R 0)) (V 1) (R 1) (V 2) (R 2) (V 3) (R 3))
          (V 4) (R 4) (V 5) (R 5) (V 6) (R 6))
        (V 7) (R 7) (V 8) (R 8))
      (V 9) (R 9) (V 10) (R 10) (V 11) (R 11) = scAcc prob tgt rew w := by
  simp only [hV, hR]
  rfl

set_option maxHeartbeats 4000000 in
/-- The accumulator the tile stores, over the loads as the run leaves them, is `scAcc` of the three argument arrays. -/
theorem stored_eq (L : grid0.Coords) (w : Fin 32) (hw : w.val = 2 * (L 1).val + (L 0).val)
    (probBuf : FVec F S16384x1000 .f32) (tgtBuf : IVec S16384 32) (rewBuf : FVec F S16384 .f32)
    (hpre : ∀ j, (tgtBuf j).toNat < 1000)
    (f0 : (s0V).view.ty.Contents (Elt F)) (T0 : S192.Idx → Elt F .i32)
    (hT0 : T0 = ((tV).slice (Rect.unit (s := S16384) (k0_off1 L) S192.size (k0_off1_inb L)) (fun _ => rfl)).view.read (Elt F) tgtBuf)
    (f1 : (s1V).view.ty.Contents (Elt F)) (R0 : S192.Idx → Elt F .f32)
    (hR0 : R0 = ((rV).slice (Rect.unit (s := S16384) (k0_off1 L) S192.size (k0_off1_inb L)) (fun _ => rfl)).view.read (Elt F) rewBuf)
    (v4 : IVec S16 32) (hv4 : v4 = iota .scVector S16 32 [0] iota_S16_d0_w32_scVector)
    (G0 : (s2V).view.ty.Contents (Elt F)) (C0 : S16x1000.Idx → Elt F .f32)
    (hC0 : C0 = ((pV).slice (Rect.unit (s := S16384x1000) (k0_off2 L 0#32) S16x1000.size (k0_off2_inb L 0)) (fun _ => rfl)).view.read (Elt F) probBuf)
    (h0 : ∀ a x, ((![v4, ((s0V).view.readAt (Elt F) (Rect.unit (s := S192) ![0] S16.size inb_S192_S16_0).toLoadRect (View.write (Elt F) (s0V).view f0 T0 Finset.univ))] : Fin 2 → IVec S16 32) a x).toNat < S16x1000.size a)
    (G1 : (s3V).view.ty.Contents (Elt F)) (C1 : S16x1000.Idx → Elt F .f32)
    (hC1 : C1 = ((pV).slice (Rect.unit (s := S16384x1000) (k0_off2 L 16#32) S16x1000.size (k0_off2_inb L 1)) (fun _ => rfl)).view.read (Elt F) probBuf)
    (h1 : ∀ a x, ((![v4, ((s0V).view.readAt (Elt F) (Rect.unit (s := S192) ![16] S16.size inb_S192_S16_16).toLoadRect (View.write (Elt F) (s0V).view f0 T0 Finset.univ))] : Fin 2 → IVec S16 32) a x).toNat < S16x1000.size a)
    (G2 : (s2V).view.ty.Contents (Elt F)) (C2 : S16x1000.Idx → Elt F .f32)
    (hC2 : C2 = ((pV).slice (Rect.unit (s := S16384x1000) (k0_off3 L 32#32) S16x1000.size (k0_off3_inb L 1)) (fun _ => rfl)).view.read (Elt F) probBuf)
    (h2 : ∀ a x, ((![v4, ((s0V).view.readAt (Elt F) (Rect.unit (s := S192) ![32] S16.size inb_S192_S16_32).toLoadRect (View.write (Elt F) (s0V).view f0 T0 Finset.univ))] : Fin 2 → IVec S16 32) a x).toNat < S16x1000.size a)
    (G3 : (s3V).view.ty.Contents (Elt F)) (C3 : S16x1000.Idx → Elt F .f32)
    (hC3 : C3 = ((pV).slice (Rect.unit (s := S16384x1000) (k0_off4 L 48#32) S16x1000.size (k0_off4_inb L 1)) (fun _ => rfl)).view.read (Elt F) probBuf)
    (h3 : ∀ a x, ((![v4, ((s0V).view.readAt (Elt F) (Rect.unit (s := S192) ![48] S16.size inb_S192_S16_48).toLoadRect (View.write (Elt F) (s0V).view f0 T0 Finset.univ))] : Fin 2 → IVec S16 32) a x).toNat < S16x1000.size a)
    (G4 : (s2V).view.ty.Contents (Elt F)) (C4 : S16x1000.Idx → Elt F .f32)
    (hC4 : C4 = ((pV).slice (Rect.unit (s := S16384x1000) (k0_off5 L 64#32) S16x1000.size (k0_off5_inb L 1)) (fun _ => rfl)).view.read (Elt F) probBuf)
    (h4 : ∀ a x, ((![v4, ((s0V).view.readAt (Elt F) (Rect.unit (s := S192) ![64] S16.size inb_S192_S16_64).toLoadRect (View.write (Elt F) (s0V).view f0 T0 Finset.univ))] : Fin 2 → IVec S16 32) a x).toNat < S16x1000.size a)
    (G5 : (s3V).view.ty.Contents (Elt F)) (C5 : S16x1000.Idx → Elt F .f32)
    (hC5 : C5 = ((pV).slice (Rect.unit (s := S16384x1000) (k0_off6 L 80#32) S16x1000.size (k0_off6_inb L 1)) (fun _ => rfl)).view.read (Elt F) probBuf)
    (h5 : ∀ a x, ((![v4, ((s0V).view.readAt (Elt F) (Rect.unit (s := S192) ![80] S16.size inb_S192_S16_80).toLoadRect (View.write (Elt F) (s0V).view f0 T0 Finset.univ))] : Fin 2 → IVec S16 32) a x).toNat < S16x1000.size a)
    (G6 : (s2V).view.ty.Contents (Elt F)) (C6 : S16x1000.Idx → Elt F .f32)
    (hC6 : C6 = ((pV).slice (Rect.unit (s := S16384x1000) (k0_off7 L 96#32) S16x1000.size (k0_off7_inb L 1)) (fun _ => rfl)).view.read (Elt F) probBuf)
    (h6 : ∀ a x, ((![v4, ((s0V).view.readAt (Elt F) (Rect.unit (s := S192) ![96] S16.size inb_S192_S16_96).toLoadRect (View.write (Elt F) (s0V).view f0 T0 Finset.univ))] : Fin 2 → IVec S16 32) a x).toNat < S16x1000.size a)
    (G7 : (s3V).view.ty.Contents (Elt F)) (C7 : S16x1000.Idx → Elt F .f32)
    (hC7 : C7 = ((pV).slice (Rect.unit (s := S16384x1000) (k0_off8 L 112#32) S16x1000.size (k0_off8_inb L 1)) (fun _ => rfl)).view.read (Elt F) probBuf)
    (h7 : ∀ a x, ((![v4, ((s0V).view.readAt (Elt F) (Rect.unit (s := S192) ![112] S16.size inb_S192_S16_112).toLoadRect (View.write (Elt F) (s0V).view f0 T0 Finset.univ))] : Fin 2 → IVec S16 32) a x).toNat < S16x1000.size a)
    (G8 : (s2V).view.ty.Contents (Elt F)) (C8 : S16x1000.Idx → Elt F .f32)
    (hC8 : C8 = ((pV).slice (Rect.unit (s := S16384x1000) (k0_off9 L 128#32) S16x1000.size (k0_off9_inb L 1)) (fun _ => rfl)).view.read (Elt F) probBuf)
    (h8 : ∀ a x, ((![v4, ((s0V).view.readAt (Elt F) (Rect.unit (s := S192) ![128] S16.size inb_S192_S16_128).toLoadRect (View.write (Elt F) (s0V).view f0 T0 Finset.univ))] : Fin 2 → IVec S16 32) a x).toNat < S16x1000.size a)
    (G9 : (s3V).view.ty.Contents (Elt F)) (C9 : S16x1000.Idx → Elt F .f32)
    (hC9 : C9 = ((pV).slice (Rect.unit (s := S16384x1000) (k0_off10 L 144#32) S16x1000.size (k0_off10_inb L 1)) (fun _ => rfl)).view.read (Elt F) probBuf)
    (h9 : ∀ a x, ((![v4, ((s0V).view.readAt (Elt F) (Rect.unit (s := S192) ![144] S16.size inb_S192_S16_144).toLoadRect (View.write (Elt F) (s0V).view f0 T0 Finset.univ))] : Fin 2 → IVec S16 32) a x).toNat < S16x1000.size a)
    (G10 : (s2V).view.ty.Contents (Elt F)) (C10 : S16x1000.Idx → Elt F .f32)
    (hC10 : C10 = ((pV).slice (Rect.unit (s := S16384x1000) (k0_off11 L 160#32) S16x1000.size (k0_off11_inb L 1)) (fun _ => rfl)).view.read (Elt F) probBuf)
    (h10 : ∀ a x, ((![v4, ((s0V).view.readAt (Elt F) (Rect.unit (s := S192) ![160] S16.size inb_S192_S16_160).toLoadRect (View.write (Elt F) (s0V).view f0 T0 Finset.univ))] : Fin 2 → IVec S16 32) a x).toNat < S16x1000.size a)
    (G11 : (s3V).view.ty.Contents (Elt F)) (C11 : S16x1000.Idx → Elt F .f32)
    (hC11 : C11 = ((pV).slice (Rect.unit (s := S16384x1000) (k0_off12 L 176#32) S16x1000.size (k0_off12_inb L 1)) (fun _ => rfl)).view.read (Elt F) probBuf)
    (h11 : ∀ a x, ((![v4, ((s0V).view.readAt (Elt F) (Rect.unit (s := S192) ![176] S16.size inb_S192_S16_176).toLoadRect (View.write (Elt F) (s0V).view f0 T0 Finset.univ))] : Fin 2 → IVec S16 32) a x).toNat < S16x1000.size a) :
    k0_pay1
      (k0_pay5
        (k0_pay4
          (k0_pay3 (k0_pay2 (loadIdx (View.read (Elt F) ((s2V).access (Rect.whole _)) (View.write (Elt F) (s2V).view G0 C0 Finset.univ)) ![v4, ((s0V).view.readAt (Elt F) (Rect.unit (s := S192) ![0] S16.size inb_S192_S16_0).toLoadRect (View.write (Elt F) (s0V).view f0 T0 Finset.univ))] h0) ((s1V).view.readAt (Elt F) (Rect.unit (s := S192) ![0] S16.size inb_S192_S16_0).toLoadRect (View.write (Elt F) (s1V).view f1 R0 Finset.univ)))
            (loadIdx (View.read (Elt F) ((s3V).access (Rect.whole _)) (View.write (Elt F) (s3V).view G1 C1 Finset.univ)) ![v4, ((s0V).view.readAt (Elt F) (Rect.unit (s := S192) ![16] S16.size inb_S192_S16_16).toLoadRect (View.write (Elt F) (s0V).view f0 T0 Finset.univ))] h1) ((s1V).view.readAt (Elt F) (Rect.unit (s := S192) ![16] S16.size inb_S192_S16_16).toLoadRect (View.write (Elt F) (s1V).view f1 R0 Finset.univ))
            (loadIdx (View.read (Elt F) ((s2V).access (Rect.whole _)) (View.write (Elt F) (s2V).view G2 C2 Finset.univ)) ![v4, ((s0V).view.readAt (Elt F) (Rect.unit (s := S192) ![32] S16.size inb_S192_S16_32).toLoadRect (View.write (Elt F) (s0V).view f0 T0 Finset.univ))] h2) ((s1V).view.readAt (Elt F) (Rect.unit (s := S192) ![32] S16.size inb_S192_S16_32).toLoadRect (View.write (Elt F) (s1V).view f1 R0 Finset.univ))
            (loadIdx (View.read (Elt F) ((s3V).access (Rect.whole _)) (View.write (Elt F) (s3V).view G3 C3 Finset.univ)) ![v4, ((s0V).view.readAt (Elt F) (Rect.unit (s := S192) ![48] S16.size inb_S192_S16_48).toLoadRect (View.write (Elt F) (s0V).view f0 T0 Finset.univ))] h3) ((s1V).view.readAt (Elt F) (Rect.unit (s := S192) ![48] S16.size inb_S192_S16_48).toLoadRect (View.write (Elt F) (s1V).view f1 R0 Finset.univ)))
          (loadIdx (View.read (Elt F) ((s2V).access (Rect.whole _)) (View.write (Elt F) (s2V).view G4 C4 Finset.univ)) ![v4, ((s0V).view.readAt (Elt F) (Rect.unit (s := S192) ![64] S16.size inb_S192_S16_64).toLoadRect (View.write (Elt F) (s0V).view f0 T0 Finset.univ))] h4) ((s1V).view.readAt (Elt F) (Rect.unit (s := S192) ![64] S16.size inb_S192_S16_64).toLoadRect (View.write (Elt F) (s1V).view f1 R0 Finset.univ))
          (loadIdx (View.read (Elt F) ((s3V).access (Rect.whole _)) (View.write (Elt F) (s3V).view G5 C5 Finset.univ)) ![v4, ((s0V).view.readAt (Elt F) (Rect.unit (s := S192) ![80] S16.size inb_S192_S16_80).toLoadRect (View.write (Elt F) (s0V).view f0 T0 Finset.univ))] h5) ((s1V).view.readAt (Elt F) (Rect.unit (s := S192) ![80] S16.size inb_S192_S16_80).toLoadRect (View.write (Elt F) (s1V).view f1 R0 Finset.univ))
          (loadIdx (View.read (Elt F) ((s2V).access (Rect.whole _)) (View.write (Elt F) (s2V).view G6 C6 Finset.univ)) ![v4, ((s0V).view.readAt (Elt F) (Rect.unit (s := S192) ![96] S16.size inb_S192_S16_96).toLoadRect (View.write (Elt F) (s0V).view f0 T0 Finset.univ))] h6) ((s1V).view.readAt (Elt F) (Rect.unit (s := S192) ![96] S16.size inb_S192_S16_96).toLoadRect (View.write (Elt F) (s1V).view f1 R0 Finset.univ)))
        (loadIdx (View.read (Elt F) ((s3V).access (Rect.whole _)) (View.write (Elt F) (s3V).view G7 C7 Finset.univ)) ![v4, ((s0V).view.readAt (Elt F) (Rect.unit (s := S192) ![112] S16.size inb_S192_S16_112).toLoadRect (View.write (Elt F) (s0V).view f0 T0 Finset.univ))] h7) ((s1V).view.readAt (Elt F) (Rect.unit (s := S192) ![112] S16.size inb_S192_S16_112).toLoadRect (View.write (Elt F) (s1V).view f1 R0 Finset.univ))
        (loadIdx (View.read (Elt F) ((s2V).access (Rect.whole _)) (View.write (Elt F) (s2V).view G8 C8 Finset.univ)) ![v4, ((s0V).view.readAt (Elt F) (Rect.unit (s := S192) ![128] S16.size inb_S192_S16_128).toLoadRect (View.write (Elt F) (s0V).view f0 T0 Finset.univ))] h8) ((s1V).view.readAt (Elt F) (Rect.unit (s := S192) ![128] S16.size inb_S192_S16_128).toLoadRect (View.write (Elt F) (s1V).view f1 R0 Finset.univ)))
      (loadIdx (View.read (Elt F) ((s3V).access (Rect.whole _)) (View.write (Elt F) (s3V).view G9 C9 Finset.univ)) ![v4, ((s0V).view.readAt (Elt F) (Rect.unit (s := S192) ![144] S16.size inb_S192_S16_144).toLoadRect (View.write (Elt F) (s0V).view f0 T0 Finset.univ))] h9) ((s1V).view.readAt (Elt F) (Rect.unit (s := S192) ![144] S16.size inb_S192_S16_144).toLoadRect (View.write (Elt F) (s1V).view f1 R0 Finset.univ))
      (loadIdx (View.read (Elt F) ((s2V).access (Rect.whole _)) (View.write (Elt F) (s2V).view G10 C10 Finset.univ)) ![v4, ((s0V).view.readAt (Elt F) (Rect.unit (s := S192) ![160] S16.size inb_S192_S16_160).toLoadRect (View.write (Elt F) (s0V).view f0 T0 Finset.univ))] h10) ((s1V).view.readAt (Elt F) (Rect.unit (s := S192) ![160] S16.size inb_S192_S16_160).toLoadRect (View.write (Elt F) (s1V).view f1 R0 Finset.univ))
      (loadIdx (View.read (Elt F) ((s3V).access (Rect.whole _)) (View.write (Elt F) (s3V).view G11 C11 Finset.univ)) ![v4, ((s0V).view.readAt (Elt F) (Rect.unit (s := S192) ![176] S16.size inb_S192_S16_176).toLoadRect (View.write (Elt F) (s0V).view f0 T0 Finset.univ))] h11) ((s1V).view.readAt (Elt F) (Rect.unit (s := S192) ![176] S16.size inb_S192_S16_176).toLoadRect (View.write (Elt F) (s1V).view f1 R0 Finset.univ))
      = scAcc probBuf tgtBuf rewBuf w := by
  have eV0 : (loadIdx (View.read (Elt F) ((s2V).access (Rect.whole _)) (View.write (Elt F) (s2V).view G0 C0 Finset.univ)) ![v4, ((s0V).view.readAt (Elt F) (Rect.unit (s := S192) ![0] S16.size inb_S192_S16_0).toLoadRect (View.write (Elt F) (s0V).view f0 T0 Finset.univ))] h0) = gathered probBuf tgtBuf w 0 :=
    gather_read2 w 0 _ (chunk_off_0 L w hw) _ G0 C0 probBuf hC0 v4 hv4 _ tgtBuf
      (fun x => tgt_read L w hw 0 _ rfl _ f0 T0 tgtBuf hT0 x) hpre h0
  have eR0 : ((s1V).view.readAt (Elt F) (Rect.unit (s := S192) ![0] S16.size inb_S192_S16_0).toLoadRect (View.write (Elt F) (s1V).view f1 R0 Finset.univ)) = rewards rewBuf w 0 :=
    funext fun x => rew_read L w hw 0 _ rfl _ f1 R0 rewBuf hR0 x
  have eV1 : (loadIdx (View.read (Elt F) ((s3V).access (Rect.whole _)) (View.write (Elt F) (s3V).view G1 C1 Finset.univ)) ![v4, ((s0V).view.readAt (Elt F) (Rect.unit (s := S192) ![16] S16.size inb_S192_S16_16).toLoadRect (View.write (Elt F) (s0V).view f0 T0 Finset.univ))] h1) = gathered probBuf tgtBuf w 1 :=
    gather_read3 w 1 _ (chunk_off_1 L w hw) _ G1 C1 probBuf hC1 v4 hv4 _ tgtBuf
      (fun x => tgt_read L w hw 1 _ rfl _ f0 T0 tgtBuf hT0 x) hpre h1
  have eR1 : ((s1V).view.readAt (Elt F) (Rect.unit (s := S192) ![16] S16.size inb_S192_S16_16).toLoadRect (View.write (Elt F) (s1V).view f1 R0 Finset.univ)) = rewards rewBuf w 1 :=
    funext fun x => rew_read L w hw 1 _ rfl _ f1 R0 rewBuf hR0 x
  have eV2 : (loadIdx (View.read (Elt F) ((s2V).access (Rect.whole _)) (View.write (Elt F) (s2V).view G2 C2 Finset.univ)) ![v4, ((s0V).view.readAt (Elt F) (Rect.unit (s := S192) ![32] S16.size inb_S192_S16_32).toLoadRect (View.write (Elt F) (s0V).view f0 T0 Finset.univ))] h2) = gathered probBuf tgtBuf w 2 :=
    gather_read2 w 2 _ (chunk_off_2 L w hw) _ G2 C2 probBuf hC2 v4 hv4 _ tgtBuf
      (fun x => tgt_read L w hw 2 _ rfl _ f0 T0 tgtBuf hT0 x) hpre h2
  have eR2 : ((s1V).view.readAt (Elt F) (Rect.unit (s := S192) ![32] S16.size inb_S192_S16_32).toLoadRect (View.write (Elt F) (s1V).view f1 R0 Finset.univ)) = rewards rewBuf w 2 :=
    funext fun x => rew_read L w hw 2 _ rfl _ f1 R0 rewBuf hR0 x
  have eV3 : (loadIdx (View.read (Elt F) ((s3V).access (Rect.whole _)) (View.write (Elt F) (s3V).view G3 C3 Finset.univ)) ![v4, ((s0V).view.readAt (Elt F) (Rect.unit (s := S192) ![48] S16.size inb_S192_S16_48).toLoadRect (View.write (Elt F) (s0V).view f0 T0 Finset.univ))] h3) = gathered probBuf tgtBuf w 3 :=
    gather_read3 w 3 _ (chunk_off_3 L w hw) _ G3 C3 probBuf hC3 v4 hv4 _ tgtBuf
      (fun x => tgt_read L w hw 3 _ rfl _ f0 T0 tgtBuf hT0 x) hpre h3
  have eR3 : ((s1V).view.readAt (Elt F) (Rect.unit (s := S192) ![48] S16.size inb_S192_S16_48).toLoadRect (View.write (Elt F) (s1V).view f1 R0 Finset.univ)) = rewards rewBuf w 3 :=
    funext fun x => rew_read L w hw 3 _ rfl _ f1 R0 rewBuf hR0 x
  have eV4 : (loadIdx (View.read (Elt F) ((s2V).access (Rect.whole _)) (View.write (Elt F) (s2V).view G4 C4 Finset.univ)) ![v4, ((s0V).view.readAt (Elt F) (Rect.unit (s := S192) ![64] S16.size inb_S192_S16_64).toLoadRect (View.write (Elt F) (s0V).view f0 T0 Finset.univ))] h4) = gathered probBuf tgtBuf w 4 :=
    gather_read2 w 4 _ (chunk_off_4 L w hw) _ G4 C4 probBuf hC4 v4 hv4 _ tgtBuf
      (fun x => tgt_read L w hw 4 _ rfl _ f0 T0 tgtBuf hT0 x) hpre h4
  have eR4 : ((s1V).view.readAt (Elt F) (Rect.unit (s := S192) ![64] S16.size inb_S192_S16_64).toLoadRect (View.write (Elt F) (s1V).view f1 R0 Finset.univ)) = rewards rewBuf w 4 :=
    funext fun x => rew_read L w hw 4 _ rfl _ f1 R0 rewBuf hR0 x
  have eV5 : (loadIdx (View.read (Elt F) ((s3V).access (Rect.whole _)) (View.write (Elt F) (s3V).view G5 C5 Finset.univ)) ![v4, ((s0V).view.readAt (Elt F) (Rect.unit (s := S192) ![80] S16.size inb_S192_S16_80).toLoadRect (View.write (Elt F) (s0V).view f0 T0 Finset.univ))] h5) = gathered probBuf tgtBuf w 5 :=
    gather_read3 w 5 _ (chunk_off_5 L w hw) _ G5 C5 probBuf hC5 v4 hv4 _ tgtBuf
      (fun x => tgt_read L w hw 5 _ rfl _ f0 T0 tgtBuf hT0 x) hpre h5
  have eR5 : ((s1V).view.readAt (Elt F) (Rect.unit (s := S192) ![80] S16.size inb_S192_S16_80).toLoadRect (View.write (Elt F) (s1V).view f1 R0 Finset.univ)) = rewards rewBuf w 5 :=
    funext fun x => rew_read L w hw 5 _ rfl _ f1 R0 rewBuf hR0 x
  have eV6 : (loadIdx (View.read (Elt F) ((s2V).access (Rect.whole _)) (View.write (Elt F) (s2V).view G6 C6 Finset.univ)) ![v4, ((s0V).view.readAt (Elt F) (Rect.unit (s := S192) ![96] S16.size inb_S192_S16_96).toLoadRect (View.write (Elt F) (s0V).view f0 T0 Finset.univ))] h6) = gathered probBuf tgtBuf w 6 :=
    gather_read2 w 6 _ (chunk_off_6 L w hw) _ G6 C6 probBuf hC6 v4 hv4 _ tgtBuf
      (fun x => tgt_read L w hw 6 _ rfl _ f0 T0 tgtBuf hT0 x) hpre h6
  have eR6 : ((s1V).view.readAt (Elt F) (Rect.unit (s := S192) ![96] S16.size inb_S192_S16_96).toLoadRect (View.write (Elt F) (s1V).view f1 R0 Finset.univ)) = rewards rewBuf w 6 :=
    funext fun x => rew_read L w hw 6 _ rfl _ f1 R0 rewBuf hR0 x
  have eV7 : (loadIdx (View.read (Elt F) ((s3V).access (Rect.whole _)) (View.write (Elt F) (s3V).view G7 C7 Finset.univ)) ![v4, ((s0V).view.readAt (Elt F) (Rect.unit (s := S192) ![112] S16.size inb_S192_S16_112).toLoadRect (View.write (Elt F) (s0V).view f0 T0 Finset.univ))] h7) = gathered probBuf tgtBuf w 7 :=
    gather_read3 w 7 _ (chunk_off_7 L w hw) _ G7 C7 probBuf hC7 v4 hv4 _ tgtBuf
      (fun x => tgt_read L w hw 7 _ rfl _ f0 T0 tgtBuf hT0 x) hpre h7
  have eR7 : ((s1V).view.readAt (Elt F) (Rect.unit (s := S192) ![112] S16.size inb_S192_S16_112).toLoadRect (View.write (Elt F) (s1V).view f1 R0 Finset.univ)) = rewards rewBuf w 7 :=
    funext fun x => rew_read L w hw 7 _ rfl _ f1 R0 rewBuf hR0 x
  have eV8 : (loadIdx (View.read (Elt F) ((s2V).access (Rect.whole _)) (View.write (Elt F) (s2V).view G8 C8 Finset.univ)) ![v4, ((s0V).view.readAt (Elt F) (Rect.unit (s := S192) ![128] S16.size inb_S192_S16_128).toLoadRect (View.write (Elt F) (s0V).view f0 T0 Finset.univ))] h8) = gathered probBuf tgtBuf w 8 :=
    gather_read2 w 8 _ (chunk_off_8 L w hw) _ G8 C8 probBuf hC8 v4 hv4 _ tgtBuf
      (fun x => tgt_read L w hw 8 _ rfl _ f0 T0 tgtBuf hT0 x) hpre h8
  have eR8 : ((s1V).view.readAt (Elt F) (Rect.unit (s := S192) ![128] S16.size inb_S192_S16_128).toLoadRect (View.write (Elt F) (s1V).view f1 R0 Finset.univ)) = rewards rewBuf w 8 :=
    funext fun x => rew_read L w hw 8 _ rfl _ f1 R0 rewBuf hR0 x
  have eV9 : (loadIdx (View.read (Elt F) ((s3V).access (Rect.whole _)) (View.write (Elt F) (s3V).view G9 C9 Finset.univ)) ![v4, ((s0V).view.readAt (Elt F) (Rect.unit (s := S192) ![144] S16.size inb_S192_S16_144).toLoadRect (View.write (Elt F) (s0V).view f0 T0 Finset.univ))] h9) = gathered probBuf tgtBuf w 9 :=
    gather_read3 w 9 _ (chunk_off_9 L w hw) _ G9 C9 probBuf hC9 v4 hv4 _ tgtBuf
      (fun x => tgt_read L w hw 9 _ rfl _ f0 T0 tgtBuf hT0 x) hpre h9
  have eR9 : ((s1V).view.readAt (Elt F) (Rect.unit (s := S192) ![144] S16.size inb_S192_S16_144).toLoadRect (View.write (Elt F) (s1V).view f1 R0 Finset.univ)) = rewards rewBuf w 9 :=
    funext fun x => rew_read L w hw 9 _ rfl _ f1 R0 rewBuf hR0 x
  have eV10 : (loadIdx (View.read (Elt F) ((s2V).access (Rect.whole _)) (View.write (Elt F) (s2V).view G10 C10 Finset.univ)) ![v4, ((s0V).view.readAt (Elt F) (Rect.unit (s := S192) ![160] S16.size inb_S192_S16_160).toLoadRect (View.write (Elt F) (s0V).view f0 T0 Finset.univ))] h10) = gathered probBuf tgtBuf w 10 :=
    gather_read2 w 10 _ (chunk_off_10 L w hw) _ G10 C10 probBuf hC10 v4 hv4 _ tgtBuf
      (fun x => tgt_read L w hw 10 _ rfl _ f0 T0 tgtBuf hT0 x) hpre h10
  have eR10 : ((s1V).view.readAt (Elt F) (Rect.unit (s := S192) ![160] S16.size inb_S192_S16_160).toLoadRect (View.write (Elt F) (s1V).view f1 R0 Finset.univ)) = rewards rewBuf w 10 :=
    funext fun x => rew_read L w hw 10 _ rfl _ f1 R0 rewBuf hR0 x
  have eV11 : (loadIdx (View.read (Elt F) ((s3V).access (Rect.whole _)) (View.write (Elt F) (s3V).view G11 C11 Finset.univ)) ![v4, ((s0V).view.readAt (Elt F) (Rect.unit (s := S192) ![176] S16.size inb_S192_S16_176).toLoadRect (View.write (Elt F) (s0V).view f0 T0 Finset.univ))] h11) = gathered probBuf tgtBuf w 11 :=
    gather_read3 w 11 _ (chunk_off_11 L w hw) _ G11 C11 probBuf hC11 v4 hv4 _ tgtBuf
      (fun x => tgt_read L w hw 11 _ rfl _ f0 T0 tgtBuf hT0 x) hpre h11
  have eR11 : ((s1V).view.readAt (Elt F) (Rect.unit (s := S192) ![176] S16.size inb_S192_S16_176).toLoadRect (View.write (Elt F) (s1V).view f1 R0 Finset.univ)) = rewards rewBuf w 11 :=
    funext fun x => rew_read L w hw 11 _ rfl _ f1 R0 rewBuf hR0 x
  rw [eV0, eV1, eV2, eV3, eV4, eV5, eV6, eV7, eV8, eV9, eV10, eV11, eR0, eR1, eR2, eR3, eR4, eR5, eR6, eR7, eR8, eR9, eR10, eR11]
  rfl

/-! ## The write-out -/

/-- The accumulator buffer after its one store reads back the stored vector. -/
theorem s4_read (f4 : (s4V).view.ty.Contents (Elt F)) (acc : S16.Idx → Elt F .f32) :
    View.read (Elt F) (s4V).view ((s4V).view.writes (Elt F) f4 [⟨Rect.unit (s := S16) ![0] ![16] inb_S16_S16_0, acc⟩]) = acc := by
  funext z
  have h := View.read_writes_cons_emb (s4V).view f4 (Rect.unit (s := S16) ![0] ![16] inb_S16_S16_0) acc [] z
  have e : (Rect.unit (s := S16) ![0] ![16] inb_S16_S16_0).emb z = z := by
    refine (eq_ix1 _).trans ((congrArg ix1 (Fin.ext ?_)).trans (eq_ix1 z).symm)
    show 0 + 1 * (z 0).val = (z 0).val
    omega
  rw [e] at h
  exact h

/-- The output array after the tile's copy-out, on the tile's sixteen words: word `j` holds lane `j % 16` of the copied vector. -/
theorem out_agree (L : grid0.Coords) (fo : (oV).view.ty.Contents (Elt F)) (W acc : S16.Idx → Elt F .f32) (hW : W = acc)
    (j : S512.Idx)
    (hj : j ∈ ((oV).slice (Rect.unit (s := S512) (k0_off14 L) S16.size (k0_off14_inb L)) (fun _ => rfl)).view.set) :
    (((oV).slice (Rect.unit (s := S512) (k0_off14 L) S16.size (k0_off14_inb L)) (fun _ => rfl)).view.writes (Elt F) fo
        [⟨Rect.whole S16, W⟩]) j
      = acc (ix1 ⟨(j 0).val % 16, Nat.mod_lt _ (by decide)⟩) := by
  subst hW
  obtain ⟨y, -, rfl⟩ := Finset.mem_map.mp hj
  have hout := congrFun (View.read_writes_whole
    ((oV).slice (Rect.unit (s := S512) (k0_off14 L) S16.size (k0_off14_inb L)) (fun _ => rfl)).view fo W) y
  rw [View.read_apply, cast_eq] at hout
  refine hout.trans (congrArg W ((eq_ix1 y).trans (congrArg ix1 (Fin.ext ?_))))
  show (y 0).val = (k0_off14 L 0 + 1 * (y 0).val) % 16
  have e : k0_off14 L 0 = 32 * (L 1).val + 16 * (L 0).val := congrFun (k0_off14_eq L) 0
  have h16 : (y 0).val < 16 := (y 0).isLt
  omega

/-- The same at the whole-array function: with the copied vector worker `w`'s accumulator, the tile's words are `scOut`'s. -/
theorem out_agree_scOut (L : grid0.Coords) (w : Fin 32) (hw : w.val = 2 * (L 1).val + (L 0).val)
    (probBuf : FVec F S16384x1000 .f32) (tgtBuf : IVec S16384 32) (rewBuf : FVec F S16384 .f32)
    (fo : (oV).view.ty.Contents (Elt F)) (W : S16.Idx → Elt F .f32) (hW : W = scAcc probBuf tgtBuf rewBuf w)
    (j : S512.Idx)
    (hj : j ∈ ((oV).slice (Rect.unit (s := S512) (k0_off14 L) S16.size (k0_off14_inb L)) (fun _ => rfl)).view.set) :
    (((oV).slice (Rect.unit (s := S512) (k0_off14 L) S16.size (k0_off14_inb L)) (fun _ => rfl)).view.writes (Elt F) fo
        [⟨Rect.whole S16, W⟩]) j
      = scOut probBuf tgtBuf rewBuf j := by
  rw [out_agree L fo W _ hW j hj]
  unfold scOut
  obtain ⟨y, -, rfl⟩ := Finset.mem_map.mp hj
  refine congrArg (fun v : Fin 32 => scAcc probBuf tgtBuf rewBuf v _) (Fin.ext ?_)
  show w.val = (k0_off14 L 0 + 1 * (y 0).val) / 16
  have e : k0_off14 L 0 = 32 * (L 1).val + 16 * (L 0).val := congrFun (k0_off14_eq L) 0
  have h16 : (y 0).val < 16 := (y 0).isLt
  omega

end Cert.KernelIdeal.ScVal

end
-- ==== Proof.ScTile.lean ====
/-
  One tile's task, at a symbolic tile `(L 0, L 1)` of device `d`.

  The tile fetches its 192 targets and rewards, then walks twelve chunks of sixteen rows of `prob` through two
  buffers: chunk `k + 1`'s copy is issued before chunk `k`'s is waited for, each buffer has its own semaphore, and a
  buffer is read (the gather of entry `target[row]` of each of its sixteen rows) only between the wait for its copy
  and the issue of the next copy into it — so no access races a copy. Each gather assumes its sixteen column numbers
  below 1000; they are words of `target` (what the first fetch landed), below 1000 by the precondition. The sixteen
  lane accumulators are stored and copied out to the tile's piece of the partial-sum array, which is handed back at
  `scBuf`: the tile's words of the whole-array function.
-/
import proofs.«207748_g59691455480232_cont_9to1c4b_13_25_alg».proof.Proof.ScPay
import proofs.«207748_g59691455480232_cont_9to1c4b_13_25_alg».proof.Proof.ScValLemmas

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pV" => (Memref.whole Cert.KernelIdeal.main_arg0_scv : Memref Cert.KernelIdeal.sig Kind.scVector Space.hbm Cert.KernelIdeal.S16384x1000 EltTy.f32)
local notation "tV" => (Memref.whole Cert.KernelIdeal.main_arg1_scv : Memref Cert.KernelIdeal.sig Kind.scVector Space.hbm Cert.KernelIdeal.S16384 EltTy.i32)
local notation "rV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S512 EltTy.f32)
local notation "s0V" => (Memref.whole Cert.KernelIdeal.cc0_scratch0 : Memref Cert.KernelIdeal.sig Kind.scVector Space.vmem Cert.KernelIdeal.S192 EltTy.i32)
local notation "s1V" => (Memref.whole Cert.KernelIdeal.cc0_scratch1 : Memref Cert.KernelIdeal.sig Kind.scVector Space.vmem Cert.KernelIdeal.S192 EltTy.f32)
local notation "s2V" => (Memref.whole Cert.KernelIdeal.cc0_scratch2 : Memref Cert.KernelIdeal.sig Kind.scVector Space.vmem Cert.KernelIdeal.S16x1000 EltTy.f32)
local notation "s3V" => (Memref.whole Cert.KernelIdeal.cc0_scratch3 : Memref Cert.KernelIdeal.sig Kind.scVector Space.vmem Cert.KernelIdeal.S16x1000 EltTy.f32)
local notation "s4V" => (Memref.whole Cert.KernelIdeal.cc0_scratch4 : Memref Cert.KernelIdeal.sig Kind.scVector Space.vmem Cert.KernelIdeal.S16 EltTy.f32)

variable (m : (ℓ : Loc nD τ sig) → Buf (Elt F) ℓ) (ρ : Dev nD → PrngReg)
variable [FloatOps F]
variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
/-- The tile's worker number. -/
abbrev widL (L : grid0.Coords) : Fin 32 := wid (cL L) (jL L)

/-! ## The tile's slices, as the program spells them -/

abbrev orowK (L : grid0.Coords) : Rect S512 := Rect.unit (s := S512) (k0_off14 L) S16.size (k0_off14_inb L)
abbrev oRowK (L : grid0.Coords) : Memref sig .scVector .hbm S16 .f32 := (oV).slice (orowK L) (fun _ => rfl)
abbrev tRowK (L : grid0.Coords) : Memref sig .scVector .hbm S192 .i32 := (tV).slice (Rect.unit (s := S16384) (k0_off1 L) S192.size (k0_off1_inb L)) (fun _ => rfl)

omit [FloatOps F] in
/-- The slice the write-out names is the worker's piece. -/
theorem orowK_eq : orowK L = orow (widL L) := by
  unfold orowK orow Rect.part Rect.block
  congr 1 <;> funext a
  · rw [k0_off14_eq]
    match a with
    | 0 => simp [Shape.partIx, Shape.partSize, wid]; omega
  · match a with
    | 0 => simp [Shape.partSize]
omit [FloatOps F] in
theorem set_oRowK : (oRowK L).view.set = oRowSet (widL L) := by
  show ((oV).view.slice (orowK L)).set = ((oV).view.slice (orow (widL L))).set
  exact orowK_eq L ▸ rfl

omit [FloatOps F] in
theorem pts_p (q : PosShare TreeShare) (f : Buf (Elt F) (pLoc d)) :
    ((pV).view.loc (V d (cV L) (jV L)) ↦{q} f : sProp 𝕄) = pLoc d ↦{q} f := rfl
omit [FloatOps F] in
theorem pts_t (q : PosShare TreeShare) (f : Buf (Elt F) (tLoc d)) :
    ((tV).view.loc (V d (cV L) (jV L)) ↦{q} f : sProp 𝕄) = tLoc d ↦{q} f := rfl
omit [FloatOps F] in
theorem pts_r (q : PosShare TreeShare) (f : Buf (Elt F) (rLoc d)) :
    ((rV).view.loc (V d (cV L) (jV L)) ↦{q} f : sProp 𝕄) = rLoc d ↦{q} f := rfl
omit [FloatOps F] in
theorem pts_o (f : Buf (Elt F) (oLoc d)) :
    ((oRowK L).view.loc (V d (cV L) (jV L)) ↦[(oRowK L).view.set]{fullShare} f : sProp 𝕄) = oLoc d ↦[oRowSet (widL L)]{fullShare} f := by
  rw [set_oRowK]
omit [FloatOps F] in
theorem pts_s0 (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
omit [FloatOps F] in
theorem pts_s4 (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
omit [FloatOps F] in
theorem pts_s2a (f : Buf (Elt F) ((V d (cV L) (jV L)).loc cc0_scratch2)) :
    (((s2V).access (.whole S16x1000)).loc (V d (cV L) (jV L)) ↦{fullShare} f : sProp 𝕄) = (s2V).view.loc (V d (cV L) (jV L)) ↦{fullShare} f := rfl
omit [FloatOps F] in
theorem pts_s3a (f : Buf (Elt F) ((V d (cV L) (jV L)).loc cc0_scratch3)) :
    (((s3V).access (.whole S16x1000)).loc (V d (cV L) (jV L)) ↦{fullShare} f : sProp 𝕄) = (s3V).view.loc (V d (cV L) (jV L)) ↦{fullShare} f := rfl

/-! ## The precondition, as the tile uses it -/

/-- What the proof asks of the launch memory: every word of `target` names a column. -/
def PreT : Prop := ∀ (d : Dev nD) (j : S16384.Idx), (m (tLoc d) j).toNat < 1000

omit [FloatOps F] in
/-- A gather's check passes: its row numbers are the lane numbers, below 16; its column numbers are sixteen words of
    what the first fetch landed, words of `target`, below 1000. -/
theorem chk_ok (hpre : PreT m) (v4 : IVec S16 32) (hv4 : v4 = iota .scVector S16 32 [0] iota_S16_d0_w32_scVector)
    (off : Fin 1 → Nat) (hin : ∀ a, off a + S16.size a ≤ S192.size a)
    (f0 : Buf (Elt F) ((V d (cV L) (jV L)).loc cc0_scratch0)) (pay : S192.Idx → Elt F .i32)
    (hpay : pay = (tRowK L).view.read (Elt F) (m (tLoc d))) :
    ∀ a x, ((![v4, (s0V).view.readAt (Elt F) (Rect.unit (s := S192) off S16.size hin).toLoadRect
        (View.write (Elt F) (s0V).view f0 pay Finset.univ)] : Fin 2 → IVec S16 32) a x).toNat < S16x1000.size a := by
  subst hpay hv4
  intro a x
  match a with
  | 0 =>
    have h16 : (x 0).val < 16 := (x 0).isLt
    show (iota .scVector S16 32 [0] iota_S16_d0_w32_scVector x).toNat < 16
    simp only [iota, List.foldl_cons, List.foldl_nil, Nat.zero_mul, Nat.zero_add, BitVec.toNat_ofNat]
    omega
  | 1 =>
    show ((s0V).view.readAt (Elt F) (Rect.unit (s := S192) off S16.size hin).toLoadRect
        (View.write (Elt F) (s0V).view f0 ((tRowK L).view.read (Elt F) (m (tLoc d))) Finset.univ) x).toNat < 1000
    rw [View.write_whole_univ]
    simp only [View.readAt_apply, Memref.view_whole, View.read_whole]
    rw [show ∀ j, (tRowK L).view.read (Elt F) (m (tLoc d)) j = m (tLoc d) ((tRowK L).view.emb j) from fun j => (View.read_apply _ _).trans (cast_eq _ _)]
    exact hpre d _

/-! ## The tile's own semaphores and buffers -/

abbrev cAcell (d : Dev nD) (c : Fin τ.nSC) (i : Fin τ.nSub) : GSem nD τ sig := (V d c i, .dma cc0_scratch5.sem)
abbrev cBcell (d : Dev nD) (c : Fin τ.nSC) (i : Fin τ.nSub) : GSem nD τ sig := (V d c i, .dma cc0_scratch6.sem)
abbrev cCcell (d : Dev nD) (c : Fin τ.nSC) (i : Fin τ.nSub) : GSem nD τ sig := (V d c i, .dma cc0_scoped0.sem)
abbrev cDcell (d : Dev nD) (c : Fin τ.nSC) (i : Fin τ.nSub) : GSem nD τ sig := (V d c i, .dma cc0_scoped1.sem)
abbrev cEcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0 ∗ semVal (cEcell d (cV L) (jV L)) 0
          ∗ bigSep ((((((ownCells (V d (cV L) (jV L))).erase (cAcell d (cV L) (jV L))).erase (cBcell d (cV L) (jV L))).erase (cCcell d (cV L) (jV L))).erase (cDcell d (cV L) (jV L))).erase (cEcell d (cV L) (jV L))) fun g => semVal g 0) := by
  unfold SparseCore.Cfg.ownSems0
  rw [SparseCore.bigSep_erase' ((mem_ownCells (g := (cAcell d (cV L) (jV L)))).mpr ⟨rfl, by show (SemLoc.dma cc0_scratch5.sem : SemLoc sig).isScoped .scVector = true; decide⟩),
    SparseCore.bigSep_erase' (Finset.mem_erase.mpr ⟨by simp [cAcell, cBcell]; decide, (mem_ownCells (g := (cBcell d (cV L) (jV L)))).mpr ⟨rfl, by show (SemLoc.dma cc0_scratch6.sem : SemLoc sig).isScoped .scVector = true; decide⟩⟩),
    SparseCore.bigSep_erase' (Finset.mem_erase.mpr ⟨by simp [cBcell, cCcell]; decide, Finset.mem_erase.mpr ⟨by simp [cAcell, cCcell]; decide, (mem_ownCells (g := (cCcell d (cV L) (jV L)))).mpr ⟨rfl, by show (SemLoc.dma cc0_scoped0.sem : SemLoc sig).isScoped .scVector = true; decide⟩⟩⟩),
    SparseCore.bigSep_erase' (Finset.mem_erase.mpr ⟨by simp [cCcell, cDcell]; decide, Finset.mem_erase.mpr ⟨by simp [cBcell, cDcell]; decide, Finset.mem_erase.mpr ⟨by simp [cAcell, cDcell]; decide, (mem_ownCells (g := (cDcell d (cV L) (jV L)))).mpr ⟨rfl, by show (SemLoc.dma cc0_scoped1.sem : SemLoc sig).isScoped .scVector = true; decide⟩⟩⟩⟩),
    SparseCore.bigSep_erase' (Finset.mem_erase.mpr ⟨by simp [cDcell, cEcell]; decide, Finset.mem_erase.mpr ⟨by simp [cCcell, cEcell]; decide, Finset.mem_erase.mpr ⟨by simp [cBcell, cEcell]; decide, Finset.mem_erase.mpr ⟨by simp [cAcell, cEcell]; decide, (mem_ownCells (g := (cEcell d (cV L) (jV L)))).mpr ⟨rfl, by show (SemLoc.dma cc0_scoped2.sem : SemLoc sig).isScoped .scVector = true; decide⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

/-! ## The task -/

set_option maxHeartbeats 16000000 in
/-- The task on vector subcore `(L 0, L 1)` of device `d`: the two fetches, the twelve chunks, the write-out. -/
theorem tile_body (hF : (K (F := F)).Facts) (hpre : PreT m) (O : CellTallies nD τ sig (HIx 1)) (W : Waits sig (HIx 1)) (hO : ∀ g, O g none = 0) :
    iprop(levAts (K (F := F)).L (K (F := F)).lev ∗ emp
        ∗ (pSh m d (qT (cL L) (jL L)) ∗ tSh m d (qT (cL L) (jL L)) ∗ rSh m d (qT (cL L) (jL L)) ∗ oRowPts d (widL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L pV (Memref.isWhole_whole _) tV (Memref.isWhole_whole _) rV (Memref.isWhole_whole _) oV (Memref.isWhole_whole _)
            s0V (Memref.isWhole_whole _) s1V (Memref.isWhole_whole _) s2V (Memref.isWhole_whole _) s3V (Memref.isWhole_whole _) s4V (Memref.isWhole_whole _)
            cc0_scratch5 cc0_scratch6 cc0_scoped0 cc0_scoped1 cc0_scoped2)
          fun _ => iprop((pSh m d (qT (cL L) (jL L)) ∗ tSh m d (qT (cL L) (jL L)) ∗ rSh m d (qT (cL L) (jL L)) ∗ oRowPts d (widL L) (scBuf m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (jV L), SparseCore.Cfg.scopedSems0_V (Val := Elt F) d (cV L) (jV L), ownSems0_V, ownBufs_V]
  iintro ⟨#Hlv, -, ⟨Hp, Ht, Hr, Ho⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (pts_p (F := F) d L _ _).symm) $$ Hp
  ihave Ht' := (Entails.of_eq (pts_t (F := F) d L _ _).symm) $$ Ht
  ihave Hr' := (Entails.of_eq (pts_r (F := F) d L _ _).symm) $$ Hr
  ihave Ho' := (Entails.of_eq (pts_o (F := F) d L _).symm) $$ Ho
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  -- the two fetches and their waits, the first two copies, the first wait, the first sixteen targets and their check
  sl_exec (disch := exact chk_ok m d L hpre _ rfl _ _ _ _ rfl)
  -- chunk 0: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 1: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 2: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 3: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 4: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 5: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 6: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 7: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 8: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 9: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 10: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 11: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  sl_step
  -- the tile's piece, at the whole-array function
  ihave Ho2 := (Entails.of_eq (pts_o (F := F) d L _)) $$ Ho'
  ihave Ho3 := (Entails.of_eq (pointsTo_congr (g := scBuf m d) ?hfin)) $$ Ho2
  case hfin =>
    intro i hi
    rw [← set_oRowK] at hi
    refine ScVal.out_agree_scOut L (widL L) rfl (m (pLoc d)) (m (tLoc d)) (m (rLoc d)) (m (oLoc d)) _ ?_ i hi
    exact (ScVal.s4_read f4 _).trans
      (ScVal.stored_eq L (widL L) rfl (m (pLoc d)) (m (tLoc d)) (m (rLoc d)) (hpre d) _ _ rfl _ _ rfl _ rfl
        _ _ rfl _ _ _ rfl _ _ _ rfl _ _ _ rfl _ _ _ rfl _ _ _ rfl _
        _ _ rfl _ _ _ rfl _ _ _ rfl _ _ _ rfl _ _ _ rfl _ _ _ rfl _)
  isplitl [Hp' Ht' Hr' Ho3]
  · isplitl [Hp']; · iapply (Entails.of_eq (pts_p (F := F) d L _ _)); iexact Hp'
    isplitl [Ht']; · iapply (Entails.of_eq (pts_t (F := F) d L _ _)); iexact Ht'
    isplitl [Hr']; · iapply (Entails.of_eq (pts_r (F := F) d L _ _)); iexact Hr'
    iexact Ho3
  isplitl [H0' H1' H2' H3' H4' Hbufs]
  · isplitl [H0']; · iexists _; iapply (Entails.of_eq (pts_s0 (F := F) d L _)); iexact H0'
    isplitl [H1']; · iexists _; iapply (Entails.of_eq (pts_s1 (F := F) d L _)); iexact H1'
    isplitl [H2']; · iexists _; iapply (Entails.of_eq (pts_s2 (F := F) d L _)); iexact H2'
    isplitl [H3']; · iexists _; iapply (Entails.of_eq (pts_s3 (F := F) d L _)); iexact H3'
    isplitl [H4']; · iexists _; iapply (Entails.of_eq (pts_s4 (F := F) d L _)); iexact H4'
    iexact Hbufs
  isplitl [Hs5 Hs6 Hc0 Hc1 Hc2 Hsems]
  · isplitl [Hs5]; · iexact Hs5
    isplitl [Hs6]; · iexact Hs6
    isplitl [Hc0]; · iexact Hc0
    isplitl [Hc1]; · iexact Hc1
    isplitl [Hc2]; · iexact Hc2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Sc

end
-- ==== Proof.ScLaunch.lean ====
/-
  The launch theorem's obligations for the SparseCore call: a tile's task as the launch theorem states it, and how
  one SparseCore's share of the operands splits among its sixteen tiles and comes back.

  The sequencer of SparseCore `c` holds the token `qC c` of each input; it keeps a remainder and hands tile `i` the
  token `qT c i` (the token split of a read share), and its sixteen pieces of the partial-sum array go one to each
  tile; at the end the tokens join the remainder again and the pieces come back at the whole-array function.
-/
import proofs.«207748_g59691455480232_cont_9to1c4b_13_25_alg».proof.Proof.ScTile

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pV" => (Memref.whole Cert.KernelIdeal.main_arg0_scv : Memref Cert.KernelIdeal.sig Kind.scVector Space.hbm Cert.KernelIdeal.S16384x1000 EltTy.f32)
local notation "tV" => (Memref.whole Cert.KernelIdeal.main_arg1_scv : Memref Cert.KernelIdeal.sig Kind.scVector Space.hbm Cert.KernelIdeal.S16384 EltTy.i32)
local notation "rV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S512 EltTy.f32)
local notation "s0V" => (Memref.whole Cert.KernelIdeal.cc0_scratch0 : Memref Cert.KernelIdeal.sig Kind.scVector Space.vmem Cert.KernelIdeal.S192 EltTy.i32)
local notation "s1V" => (Memref.whole Cert.KernelIdeal.cc0_scratch1 : Memref Cert.KernelIdeal.sig Kind.scVector Space.vmem Cert.KernelIdeal.S192 EltTy.f32)
local notation "s2V" => (Memref.whole Cert.KernelIdeal.cc0_scratch2 : Memref Cert.KernelIdeal.sig Kind.scVector Space.vmem Cert.KernelIdeal.S16x1000 EltTy.f32)
local notation "s3V" => (Memref.whole Cert.KernelIdeal.cc0_scratch3 : Memref Cert.KernelIdeal.sig Kind.scVector Space.vmem Cert.KernelIdeal.S16x1000 EltTy.f32)
local notation "s4V" => (Memref.whole Cert.KernelIdeal.cc0_scratch4 : Memref Cert.KernelIdeal.sig Kind.scVector Space.vmem Cert.KernelIdeal.S16 EltTy.f32)

variable (m : (ℓ : Loc nD τ sig) → Buf (Elt F) ℓ) (ρ : Dev nD → PrngReg)
variable [FloatOps F]

/-! ## The tile obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          pV (Memref.isWhole_whole _) tV (Memref.isWhole_whole _) rV (Memref.isWhole_whole _) oV (Memref.isWhole_whole _)
          s0V (Memref.isWhole_whole _) s1V (Memref.isWhole_whole _) s2V (Memref.isWhole_whole _) s3V (Memref.isWhole_whole _) s4V (Memref.isWhole_whole _)
          cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreT m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The split of one SparseCore's operands among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (m (oLoc d)))
    ⊢ |={Set.univ}=> iprop(
      (bigSep Finset.univ fun i : Fin ((K (F := F)).nSub 0) =>
        iprop(pSh m d (qT (Fin.cast nCore_zero c) (Fin.cast nSub_zero i)) ∗ tSh m d (qT (Fin.cast nCore_zero c) (Fin.cast nSub_zero i))
          ∗ rSh m d (qT (Fin.cast nCore_zero c) (Fin.cast nSub_zero i))
          ∗ oRowPts d (wid (Fin.cast nCore_zero c) (Fin.cast nSub_zero i)) (m (oLoc d))))
      ∗ ((bigSep Finset.univ fun i : Fin ((K (F := F)).nSub 0) =>
          iprop(pSh m d (qT (Fin.cast nCore_zero c) (Fin.cast nSub_zero i)) ∗ tSh m d (qT (Fin.cast nCore_zero c) (Fin.cast nSub_zero i))
            ∗ rSh m d (qT (Fin.cast nCore_zero c) (Fin.cast nSub_zero i))
            ∗ oRowPts d (wid (Fin.cast nCore_zero c) (Fin.cast nSub_zero i)) (scBuf m d)))
          -∗ iprop(pSh m d (qC (Fin.cast nCore_zero c)) ∗ tSh m d (qC (Fin.cast nCore_zero c)) ∗ rSh m d (qC (Fin.cast nCore_zero c))
            ∗ bigSep Finset.univ fun s : Fin 16 => oRowPts d (wid (Fin.cast nCore_zero c) s) (scBuf m d))))
  rw [bigSep_tasks (F := F) (fun i => iprop(pSh m d (qT (Fin.cast nCore_zero c) i) ∗ tSh m d (qT (Fin.cast nCore_zero c) i)
        ∗ rSh m d (qT (Fin.cast nCore_zero c) i) ∗ oRowPts d (wid (Fin.cast nCore_zero c) i) (m (oLoc d)))),
    bigSep_tasks (F := F) (fun i => iprop(pSh m d (qT (Fin.cast nCore_zero c) i) ∗ tSh m d (qT (Fin.cast nCore_zero c) i)
        ∗ rSh m d (qT (Fin.cast nCore_zero c) i) ∗ oRowPts d (wid (Fin.cast nCore_zero c) i) (scBuf m d))),
    bigSep_sep', bigSep_sep', bigSep_sep', bigSep_sep', bigSep_sep', bigSep_sep']
  iintro ⟨Hp, Ht, Hr, Ho⟩
  ihave Hp2 := (Transfers.pointsTo_toks (qC (Fin.cast nCore_zero c)) 16).1 $$ Hp
  icases Hp2 with ⟨Hpd, Hpt⟩
  ihave Ht2 := (Transfers.pointsTo_toks (qC (Fin.cast nCore_zero c)) 16).1 $$ Ht
  icases Ht2 with ⟨Htd, Htt⟩
  ihave Hr2 := (Transfers.pointsTo_toks (qC (Fin.cast nCore_zero c)) 16).1 $$ Hr
  icases Hr2 with ⟨Hrd, Hrt⟩
  imodintro
  isplitl [Hpt Htt Hrt Ho]
  · isplitl [Hpt]; · iexact Hpt
    isplitl [Htt]; · iexact Htt
    isplitl [Hrt]; · iexact Hrt
    iexact Ho
  iintro ⟨Hpt, Htt, Hrt, Ho⟩
  isplitl [Hpd Hpt]
  · iapply (Transfers.pointsTo_toks_join (qC (Fin.cast nCore_zero c)) 16); isplitl [Hpd] <;> iassumption
  isplitl [Htd Htt]
  · iapply (Transfers.pointsTo_toks_join (qC (Fin.cast nCore_zero c)) 16); isplitl [Htd] <;> iassumption
  isplitl [Hrd Hrt]
  · iapply (Transfers.pointsTo_toks_join (qC (Fin.cast nCore_zero c)) 16); isplitl [Hrd] <;> iassumption
  iexact Ho

end Cert.KernelIdeal.Sc

end
-- ==== Proof.ScSplit.lean ====
/-
  How the TensorCore prepares the SparseCore call's operands and reads its results.

  The partial-sum array is its thirty-two disjoint 16-word pieces, indexed by (SparseCore, subcore) through the worker
  number `2 s + c`; each input's full share is a remainder and one token per SparseCore. So what the call takes for the
  two SparseCores is assembled from the four whole arrays, and what it returns gives back the three inputs whole at their
  launch contents and the partial-sum array whole at the whole-array function.
-/
import proofs.«207748_g59691455480232_cont_9to1c4b_13_25_alg».proof.Proof.ScLaunch

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pV" => (Memref.whole Cert.KernelIdeal.main_arg0_scv : Memref Cert.KernelIdeal.sig Kind.scVector Space.hbm Cert.KernelIdeal.S16384x1000 EltTy.f32)
local notation "tV" => (Memref.whole Cert.KernelIdeal.main_arg1_scv : Memref Cert.KernelIdeal.sig Kind.scVector Space.hbm Cert.KernelIdeal.S16384 EltTy.i32)
local notation "rV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S512 EltTy.f32)
local notation "s0V" => (Memref.whole Cert.KernelIdeal.cc0_scratch0 : Memref Cert.KernelIdeal.sig Kind.scVector Space.vmem Cert.KernelIdeal.S192 EltTy.i32)
local notation "s1V" => (Memref.whole Cert.KernelIdeal.cc0_scratch1 : Memref Cert.KernelIdeal.sig Kind.scVector Space.vmem Cert.KernelIdeal.S192 EltTy.f32)
local notation "s2V" => (Memref.whole Cert.KernelIdeal.cc0_scratch2 : Memref Cert.KernelIdeal.sig Kind.scVector Space.vmem Cert.KernelIdeal.S16x1000 EltTy.f32)
local notation "s3V" => (Memref.whole Cert.KernelIdeal.cc0_scratch3 : Memref Cert.KernelIdeal.sig Kind.scVector Space.vmem Cert.KernelIdeal.S16x1000 EltTy.f32)
local notation "s4V" => (Memref.whole Cert.KernelIdeal.cc0_scratch4 : Memref Cert.KernelIdeal.sig Kind.scVector Space.vmem Cert.KernelIdeal.S16 EltTy.f32)

variable (m : (ℓ : Loc nD τ sig) → Buf (Elt F) ℓ) (ρ : Dev nD → PrngReg)

/-! ## The pieces cover the array -/

theorem oRowSet_eq (w : Fin 32) : oRowSet w = (orow w).set := by
  show ((View.whole (main_v0_scv : Ref sig .scVector)).slice (orow w)).set = _
  rw [View.set_slice]; exact Finset.map_refl
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem orows_cover : (Finset.univ : Finset (Fin 32)).biUnion oRowSet = Finset.univ :=
  (Finset.biUnion_congr rfl fun i _ => oRowSet_eq i).trans (Rect.biUnion_part odiv)

/-- (SparseCore, subcore) against the worker number. -/
def widEquiv : Fin 2 × Fin 16 ≃ Fin 32 where
  toFun p := wid p.1 p.2
  invFun w := (⟨w.val % 2, by omega⟩, ⟨w.val / 2, by omega⟩)
  left_inv p := by
    rcases p with ⟨c, s⟩
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val; omega

theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-- The whole partial-sum array is its pieces, per SparseCore and subcore. -/
theorem oPts_cs (d : Dev nD) (f : Buf (Elt F) (oLoc d)) :
    (oPts d f : sProp 𝕄) = bigSep Finset.univ fun c : Fin 2 => bigSep Finset.univ fun s : Fin 16 => oRowPts d (wid c s) f := by
  unfold oPts
  rw [oPts_rows, bigSep_univ_equiv widEquiv (fun w : Fin 32 => (oLoc d ↦[oRowSet w]{fullShare} f : sProp 𝕄)), bigSep_univ_prod]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-- What the call takes for the two SparseCores, -/
theorem st0_eq (d : Dev nD) : (bigSep Finset.univ fun c : Fin ((K (F := F)).nCore 0) => (P m).st 0 d c)
    = iprop((bigSep Finset.univ fun c : Fin 2 => pSh m d (qC c)) ∗ (bigSep Finset.univ fun c : Fin 2 => tSh m d (qC c))
        ∗ (bigSep Finset.univ fun c : Fin 2 => rSh m d (qC c)) ∗ oPts d (m (oLoc d))) := by
  show (bigSep Finset.univ fun c : Fin ((K (F := F)).nCore 0) =>
      iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (m (oLoc d)))) = _
  rw [bigSep_cores (F := F) (fun c => iprop(pSh m d (qC c) ∗ tSh m d (qC c) ∗ rSh m d (qC c) ∗ bigSep Finset.univ fun s : Fin 16 => oRowPts d (wid c s) (m (oLoc d)))),
    bigSep_sep', bigSep_sep', bigSep_sep', oPts_cs]
/-- and what it hands back. -/
theorem dn0_eq (d : Dev nD) : (bigSep Finset.univ fun c : Fin ((K (F := F)).nCore 0) => (P m).dn 0 d c)
    = iprop((bigSep Finset.univ fun c : Fin 2 => pSh m d (qC c)) ∗ (bigSep Finset.univ fun c : Fin 2 => tSh m d (qC c))
        ∗ (bigSep Finset.univ fun c : Fin 2 => rSh m d (qC c)) ∗ oPts d (scBuf m d)) := by
  show (bigSep Finset.univ fun c : Fin ((K (F := F)).nCore 0) =>
      iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (scBuf m d))) = _
  rw [bigSep_cores (F := F) (fun c => iprop(pSh m d (qC c) ∗ tSh m d (qC c) ∗ rSh m d (qC c) ∗ bigSep Finset.univ fun s : Fin 16 => oRowPts d (wid c s) (scBuf m d))),
    bigSep_sep', bigSep_sep', bigSep_sep', oPts_cs]

end Cert.KernelIdeal.Sc

end
-- ==== Proof.TcBody.lean ====
/-
  The body of the accumulating call, once, at a symbolic grid point.

  At a grid point the body reads a 16 × 128 block of words, a 16 × 128 block of weights and a 2048 × 1000 block of the
  table. Row `a` of the two small blocks goes with the band of rows `128 a … 128 a + 127` of the large one: for each of the
  sixteen bands it forms the sum, over the band's rows and the 1000 columns, of the entry times the row's weight where the
  column is the row's word and zero elsewhere, and adds the sixteen sums one after the other (`pointSum`). At the first
  point the one cell of the result is set to zero before the sum is added to it; at the later points the sum is added to
  what the cell already holds. Both cases are run here over any four whole staging buffers.
-/
import proofs.«207748_g59691455480232_cont_9to1c4b_13_25_alg».proof.Proof.Gen.KernelIdeal.Skeleton
import proofs.«207748_g59691455480232_cont_9to1c4b_13_25_alg».proof.Proof.Gen.KernelIdeal.Launch
import proofs.«207748_g59691455480232_cont_9to1c4b_13_25_alg».proof.Proof.Gen.KernelIdeal.Points
import Idealize.ShloMosaic.Lib.Pipeline.Regions
import Idealize.ShloMosaic.Lib.Pipeline.Kit
import Idealize.ShloMosaic.Lib.Pipeline.FrameBody
import Idealize.ShloMosaic.Lib.Pipeline.Value
import Idealize.ShloMosaic.Lib.ValueIdx
import Idealize.ShloMosaic.Lib.Tactic

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable [Facts]

/-- The branch of the body: taken exactly at the first grid point. -/
abbrev cond1 (i : grid1.Coords) : Prop := (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val % 5 = 0 :=
  (by decide +kernel : ∀ t : Fin grid1.N, cond1 (grid1.coords t) ↔ t.val % 5 = 0)

/-- The band of 128 rows of a 2048 × 1000 block that starts at row `off`. -/
abbrev band (x3 : Vec F S2048x1000 .f32) (off : ℕ) (h : ∀ a, (![off, 0] : Fin 2 → Nat) a + S128x1000.size a ≤ S2048x1000.size a) : Vec F S128x1000 .f32 :=
  View.ld x3 (Rect.unit (s := S2048x1000) ![off, 0] S128x1000.size h)

/-- What one grid point adds to the accumulator `acc`: from the point's 16 × 128 block of words `x1`, its 16 × 128 block of
    weights `x2` and its 2048 × 1000 block of the table `x3`, the sixteen bands' masked sums, added one after the other, then
    added to `acc`. -/
def pointSum (x1 : Vec F S16x128 .i32) (x2 : Vec F S16x128 .f32) (x3 : Vec F S2048x1000 .f32) (acc : Elt F .f32) : F .f32 :=
  let v2 : IVec S128x16 32 := k1_pay2 x1
  let v5 : FVec F S128x16 .f32 := k1_pay3 x2
  let v6 : IVec S128x1000 32 := iota .tc S128x1000 32 [1] iota_S128x1000_d1_w32
  let v38 := k1_pay4 x1 x2 (band x3 0 Gen.inb_S2048x1000_S128x1000_0_0) (band x3 128 Gen.inb_S2048x1000_S128x1000_128_0)
  let v86 := k1_pay7 v2 v5 v6 v38 (k1_pay5 x2) (band x3 256 Gen.inb_S2048x1000_S128x1000_256_0) (k1_pay6 x1)
    (band x3 384 Gen.inb_S2048x1000_S128x1000_384_0) (band x3 512 Gen.inb_S2048x1000_S128x1000_512_0)
  let v134 := k1_pay10 v2 v5 v6 v86 (k1_pay8 v5) (band x3 640 Gen.inb_S2048x1000_S128x1000_640_0) (k1_pay9 v2)
    (band x3 768 Gen.inb_S2048x1000_S128x1000_768_0) (band x3 896 Gen.inb_S2048x1000_S128x1000_896_0)
  let v182 := k1_pay13 v2 v5 v6 v134 (k1_pay11 v5) (band x3 1024 Gen.inb_S2048x1000_S128x1000_1024_0) (k1_pay12 v2)
    (band x3 1152 Gen.inb_S2048x1000_S128x1000_1152_0) (band x3 1280 Gen.inb_S2048x1000_S128x1000_1280_0)
  let v230 := k1_pay16 v2 v5 v6 v182 (k1_pay14 v5) (band x3 1408 Gen.inb_S2048x1000_S128x1000_1408_0) (k1_pay15 v2)
    (band x3 1536 Gen.inb_S2048x1000_S128x1000_1536_0) (band x3 1664 Gen.inb_S2048x1000_S128x1000_1664_0)
  k1_pay1 v2 v5 v6 v230 (k1_pay17 v5) (band x3 1792 Gen.inb_S2048x1000_S128x1000_1792_0) (k1_pay18 v2)
    (band x3 1920 Gen.inb_S2048x1000_S128x1000_1920_0) acc

/-- The one index of a 1 × 1 block. -/
abbrev i00 : S1x1.Idx := ValueIdx.ix2 (0 : Fin 1) (0 : Fin 1)

/-- A 1 × 1 block has one index. -/
theorem idx1x1_eq (a b : S1x1.Idx) : a = b := by
  funext d
  have ha : (a d).val < 1 := lt_of_lt_of_eq (a d).isLt (by fin_cases d <;> rfl)
  have hb : (b d).val < 1 := lt_of_lt_of_eq (b d).isLt (by fin_cases d <;> rfl)
  exact Fin.ext (by omega)

set_option maxHeartbeats 1000000 in
/-- The body at a grid point after the first: the three input blocks are read and kept, the accumulator cell ends holding the point's sum added to what it held. -/
theorem body_later (c : Dev nD) (i : grid1.Coords) (M1 : Memref sig .tc .vmem S16x128 .i32) (h1 : M1.IsWhole) (M2 : Memref sig .tc .vmem S16x128 .f32) (h2 : M2.IsWhole)
    (M3 : Memref sig .tc .vmem S2048x1000 .f32) (h3 : M3.IsWhole) (M4 : Memref sig .tc .smem S1x1 .f32) (h4 : M4.IsWhole) (hc : ¬cond1 i)
    (x1 : Vec F S16x128 .i32) (x2 : Vec F S16x128 .f32) (x3 : Vec F S2048x1000 .f32) (x4 : Vec F S1x1 .f32)
    (E : Set Name) (Q : PUnit → sProp 𝕄) :
      iprop(owns (Ix := Ix) (Name := Name) (U := U) (Lvl := Lvl) (c : Thread nD τ) M1 fullShare x1 ∗ owns (Ix := Ix) (Name := Name) (U := U) (Lvl := Lvl) (c : Thread nD τ) M2 fullShare x2 ∗ owns (Ix := Ix) (Name := Name) (U := U) (Lvl := Lvl) (c : Thread nD τ) M3 fullShare x3 ∗ owns (Ix := Ix) (Name := Name) (U := U) (Lvl := Lvl) (c : Thread nD τ) M4 fullShare x4
          ∗ (iprop(owns (Ix := Ix) (Name := Name) (U := U) (Lvl := Lvl) (c : Thread nD τ) M1 fullShare x1 ∗ owns (Ix := Ix) (Name := Name) (U := U) (Lvl := Lvl) (c : Thread nD τ) M2 fullShare x2 ∗ owns (Ix := Ix) (Name := Name) (U := U) (Lvl := Lvl) (c : Thread nD τ) M3 fullShare x3
              ∗ owns (Ix := Ix) (Name := Name) (U := U) (Lvl := Lvl) (c : Thread nD τ) M4 fullShare (fun _ => pointSum x1 x2 x3 (x4 i00))) -∗ Q ⟨⟩))
        ⊢ wp frame (wpE (defs₀ (F := F)) Variants.none (c : Thread nD τ) none) E (cc1__tc_body (F := F) i M1 h1 M2 h2 M3 h3 M4 h4) Q := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, Hk⟩
  obtain rfl := h1.eq_unread hf1; obtain rfl := h2.eq_unread hf2; obtain rfl := h3.eq_unread hf3; obtain rfl := h4.eq_unread hf4
  sl_exec_parts (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  have hz : (![0, 0] : Fin 2 → Nat) = fun _ => 0 := by funext a; fin_cases a <;> rfl

  rw [View.read_writes_eq_canon _ _ _ (fun y => ⟨_, List.mem_singleton_self _, View.mem_set_unit_zero hz Gen.inb_S1x1_S1x1_0_0 y⟩),
    View.canon_unit_zero hz]
  funext x
  sl_unfold_words
  simp only [View.readAt_eq_ld, h1.read_unread, h2.read_unread, h3.read_unread, h4.read_unread, View.ld_unit_zero (S := S16x128) hz,
    View.ld_unit_zero (S := S1x1) hz]
  unfold pointSum band
  exact congrArg _ (congrArg x4 (idx1x1_eq _ _))

set_option maxHeartbeats 1000000 in
/-- The body at the first grid point: the accumulator cell is zeroed first, whatever it held, and ends holding the point's sum added to zero. -/
theorem body_first (c : Dev nD) (i : grid1.Coords) (M1 : Memref sig .tc .vmem S16x128 .i32) (h1 : M1.IsWhole) (M2 : Memref sig .tc .vmem S16x128 .f32) (h2 : M2.IsWhole)
    (M3 : Memref sig .tc .vmem S2048x1000 .f32) (h3 : M3.IsWhole) (M4 : Memref sig .tc .smem S1x1 .f32) (h4 : M4.IsWhole) (hc : cond1 i)
    (x1 : Vec F S16x128 .i32) (x2 : Vec F S16x128 .f32) (x3 : Vec F S2048x1000 .f32) (x4 : Vec F S1x1 .f32)
    (E : Set Name) (Q : PUnit → sProp 𝕄) :
      iprop(owns (Ix := Ix) (Name := Name) (U := U) (Lvl := Lvl) (c : Thread nD τ) M1 fullShare x1 ∗ owns (Ix := Ix) (Name := Name) (U := U) (Lvl := Lvl) (c : Thread nD τ) M2 fullShare x2 ∗ owns (Ix := Ix) (Name := Name) (U := U) (Lvl := Lvl) (c : Thread nD τ) M3 fullShare x3 ∗ owns (Ix := Ix) (Name := Name) (U := U) (Lvl := Lvl) (c : Thread nD τ) M4 fullShare x4
          ∗ (iprop(owns (Ix := Ix) (Name := Name) (U := U) (Lvl := Lvl) (c : Thread nD τ) M1 fullShare x1 ∗ owns (Ix := Ix) (Name := Name) (U := U) (Lvl := Lvl) (c : Thread nD τ) M2 fullShare x2 ∗ owns (Ix := Ix) (Name := Name) (U := U) (Lvl := Lvl) (c : Thread nD τ) M3 fullShare x3
              ∗ owns (Ix := Ix) (Name := Name) (U := U) (Lvl := Lvl) (c : Thread nD τ) M4 fullShare (fun _ => pointSum x1 x2 x3 (Scalar.ofBits .f32 0x00000000#32))) -∗ Q ⟨⟩))
        ⊢ wp frame (wpE (defs₀ (F := F)) Variants.none (c : Thread nD τ) none) E (cc1__tc_body (F := F) i M1 h1 M2 h2 M3 h3 M4 h4) Q := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, Hk⟩
  obtain rfl := h1.eq_unread hf1; obtain rfl := h2.eq_unread hf2; obtain rfl := h3.eq_unread hf3; obtain rfl := h4.eq_unread hf4
  sl_exec_parts (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  have hz : (![0, 0] : Fin 2 → Nat) = fun _ => 0 := by funext a; fin_cases a <;> rfl

  rw [View.read_writes_eq_canon _ _ _ (fun y => ⟨_, List.mem_cons_self, View.mem_set_unit_zero hz Gen.inb_S1x1_S1x1_0_0 y⟩),
    View.canon_cons_unit_zero hz]
  funext x
  sl_unfold_words
  simp only [View.readAt_eq_ld, h1.read_unread, h2.read_unread, h3.read_unread, View.ld_unit_zero (S := S16x128) hz]
  unfold pointSum band
  rfl

end Cert.KernelIdeal.Tc
end
-- ==== Proof.TcData.lean ====
/-
  The proof data of the accumulating call, and its body obligation.

  The call runs over five grid points. At point `t` its three inputs are fetched: rows `16 t … 16 t + 15` of the two
  128 × 128 tables (words and weights) and rows `2048 t … 2048 t + 2047` of the 16384 × 1000 table. Its one result cell is
  staged in one buffer that is written back after the last point only, so between points it carries the running sum:
  `accAt n` is what it holds after point `n` — zero plus the first point's sum, then each later point's sum added on.
  The final 1 × 1 result is `accAt 4`, a function of the three inputs alone (`tcOut`).
-/
import proofs.«207748_g59691455480232_cont_9to1c4b_13_25_alg».proof.Proof.Gen.KernelIdeal.Skeleton
import proofs.«207748_g59691455480232_cont_9to1c4b_13_25_alg».proof.Proof.Gen.KernelIdeal.Launch
import proofs.«207748_g59691455480232_cont_9to1c4b_13_25_alg».proof.Proof.Gen.KernelIdeal.Points
import Idealize.ShloMosaic.Lib.Pipeline.Regions
import Idealize.ShloMosaic.Lib.Pipeline.Kit
import Idealize.ShloMosaic.Lib.Pipeline.FrameBody
import Idealize.ShloMosaic.Lib.Pipeline.Value
import Idealize.ShloMosaic.Lib.ValueIdx
import Idealize.ShloMosaic.Lib.Tactic
import proofs.«207748_g59691455480232_cont_9to1c4b_13_25_alg».proof.Proof.TcBody

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable [Facts]

/-! ## The blocks a grid point sees, and the accumulation over the grid -/

/-- The pipeline has no prefetched tables. -/
abbrev adm : (p : Fin 1) → (pcfgs (F := F) p).Adm := fun p => (cfgs p).toPCfg_adm

/-- Block `t` of the 128 × 128 table of words: its rows `16 t … 16 t + 15`. -/
def blk0 (f1 : Vec F S128x128 .i32) (t : Fin cfg1.N) : (cfg1.win 0).block.Idx → Elt F (cfg1.win 0).elt := ((cfg1.win 0).blk t).view.read (Elt F) f1
/-- Block `t` of the 128 × 128 table of weights: its rows `16 t … 16 t + 15`. -/
def blk1 (f2 : Vec F S128x128 .f32) (t : Fin cfg1.N) : (cfg1.win 1).block.Idx → Elt F (cfg1.win 1).elt := ((cfg1.win 1).blk t).view.read (Elt F) f2
/-- Block `t` of the 16384 × 1000 table: its rows `2048 t … 2048 t + 2047`. -/
def blk2 (f0 : Vec F S16384x1000 .f32) (t : Fin cfg1.N) : (cfg1.win 2).block.Idx → Elt F (cfg1.win 2).elt := ((cfg1.win 2).blk t).view.read (Elt F) f0

theorem N1 : cfg1.N = 5 := N_1

/-- The grid point numbered `n` (numbers past the grid wrap; never used there). -/
def ptOf (n : ℕ) : Fin cfg1.N := ⟨n % 5, lt_of_lt_of_eq (Nat.mod_lt n (by decide)) N1.symm⟩

theorem ptOf_val (t : Fin cfg1.N) : ptOf t.val = t :=
  Fin.ext (Nat.mod_eq_of_lt (lt_of_lt_of_eq t.isLt N1))

/-- THE ACCUMULATION. What the accumulator cell holds after the body at point `n`: the point's sum added to zero at
    the first point, to what the point before left at the later ones. -/
def accAt (f1 : Vec F S128x128 .i32) (f2 : Vec F S128x128 .f32) (f0 : Vec F S16384x1000 .f32) : ℕ → Elt F .f32
  | 0 => pointSum (blk0 f1 (ptOf 0)) (blk1 f2 (ptOf 0)) (blk2 f0 (ptOf 0)) (Scalar.ofBits .f32 0x00000000#32)
  | n + 1 => pointSum (blk0 f1 (ptOf (n + 1))) (blk1 f2 (ptOf (n + 1))) (blk2 f0 (ptOf (n + 1))) (accAt f1 f2 f0 n)

/-- What the 1 × 1 result holds after the region: the accumulation over the five grid points. -/
def tcOut (f1 : Vec F S128x128 .i32) (f2 : Vec F S128x128 .f32) (f0 : Vec F S16384x1000 .f32) : Vec F S1x1 .f32 :=
  fun _ => accAt f1 f2 f0 4

theorem accAt_first (f1 : Vec F S128x128 .i32) (f2 : Vec F S128x128 .f32) (f0 : Vec F S16384x1000 .f32) (t : Fin cfg1.N) (h : t.val = 0) :
    accAt f1 f2 f0 t.val = pointSum (blk0 f1 t) (blk1 f2 t) (blk2 f0 t) (Scalar.ofBits .f32 0x00000000#32) := by
  have e : ptOf 0 = t := by rw [← h]; exact ptOf_val t
  rw [h]; unfold accAt; rw [e]

theorem accAt_later (f1 : Vec F S128x128 .i32) (f2 : Vec F S128x128 .f32) (f0 : Vec F S16384x1000 .f32) (t : Fin cfg1.N) (h : t.val ≠ 0) :
    accAt f1 f2 f0 t.val = pointSum (blk0 f1 t) (blk1 f2 t) (blk2 f0 t) (accAt f1 f2 f0 (t.val - 1)) := by
  obtain ⟨n, hn⟩ : ∃ n, t.val = n + 1 := ⟨t.val - 1, by omega⟩
  have e : ptOf (n + 1) = t := by rw [← hn]; exact ptOf_val t
  have e1 : t.val - 1 = n := by omega
  rw [e1, hn]
  show pointSum (blk0 f1 (ptOf (n + 1))) (blk1 f2 (ptOf (n + 1))) (blk2 f0 (ptOf (n + 1))) (accAt f1 f2 f0 n) = _
  rw [e]

/-! ## The pipeline's proof data -/

variable (V : (c : Dev nD) → (b : Ref sig .tc) → Buf (Elt F) ((c : Thread nD τ).loc b)) (O : Dev nD → CellTallies nD τ sig Ix)
  (W : Dev nD → Waits sig Ix)

/-- The proof data of the pipeline on core `c`: the four arrays as the region finds them (`V c`); after the body at
    point `t` each input's buffer at its block and the result's at the accumulation; no invariant of its own; the core
    owing `O c` throughout (the body pays nothing and takes on nothing), its recorded waits within `W c` and the
    pipeline's own; full shares. -/
def dat (c : Dev nD) : Pipeline.Dat τ (Elt F) Ix Name U Lvl cfg1 c where
  A w := V c (Pipeline.arrRef spec1 w)
  after w t := match w with
    | ⟨0, _⟩ => blk0 (V c main_v1) t
    | ⟨1, _⟩ => blk1 (V c main_v2) t
    | ⟨2, _⟩ => blk2 (V c main_arg0) t
    | ⟨3, _⟩ => fun _ => accAt (V c main_v1) (V c main_v2) (V c main_arg0) t.val
  Φ _ := iprop(emp)
  q _ := fullShare
  owed _ := O c
  recorded _ := ↑(W c)

theorem A_eq (c : Dev nD) (w : Fin cfg1.W) : (dat (Name := Name) (U := U) (Lvl := Lvl) V O W c).A w = V c (Pipeline.arrRef spec1 w) := by
  dsimp only [dat]

theorem after_0 (c : Dev nD) (t : Fin cfg1.N) : (dat (Name := Name) (U := U) (Lvl := Lvl) V O W c).after 0 t = blk0 (V c main_v1) t := rfl
theorem after_1 (c : Dev nD) (t : Fin cfg1.N) : (dat (Name := Name) (U := U) (Lvl := Lvl) V O W c).after 1 t = blk1 (V c main_v2) t := rfl
theorem after_2 (c : Dev nD) (t : Fin cfg1.N) : (dat (Name := Name) (U := U) (Lvl := Lvl) V O W c).after 2 t = blk2 (V c main_arg0) t := rfl
theorem after_3 (c : Dev nD) (t : Fin cfg1.N) :
    (dat (Name := Name) (U := U) (Lvl := Lvl) V O W c).after 3 t = fun _ => accAt (V c main_v1) (V c main_v2) (V c main_arg0) t.val := rfl

/-- Each input is fetched at every point: its current buffer holds its block. -/
theorem before_0 (c : Dev nD) (t : Fin cfg1.N) (d) : (dat (Name := Name) (U := U) (Lvl := Lvl) V O W c).before 0 t d = blk0 (V c main_v1) t := by
  refine (Pipeline.Dat.before_fetched _ 0 t (fetch1_0 t) d).trans ?_
  unfold Pipeline.Dat.fetched Pipeline.Dat.blockOf blk0; rw [A_eq]; rfl
theorem before_1 (c : Dev nD) (t : Fin cfg1.N) (d) : (dat (Name := Name) (U := U) (Lvl := Lvl) V O W c).before 1 t d = blk1 (V c main_v2) t := by
  refine (Pipeline.Dat.before_fetched _ 1 t (fetch1_1 t) d).trans ?_
  unfold Pipeline.Dat.fetched Pipeline.Dat.blockOf blk1; rw [A_eq]; rfl
theorem before_2 (c : Dev nD) (t : Fin cfg1.N) (d) : (dat (Name := Name) (U := U) (Lvl := Lvl) V O W c).before 2 t d = blk2 (V c main_arg0) t := by
  refine (Pipeline.Dat.before_fetched _ 2 t (fetch1_2 t) d).trans ?_
  unfold Pipeline.Dat.fetched Pipeline.Dat.blockOf blk2; rw [A_eq]; rfl

/-- The result's buffer at the first point holds anything. -/
theorem before_3_first (c : Dev nD) (t : Fin cfg1.N) (h0 : t.val = 0) (d) : (dat (Name := Name) (U := U) (Lvl := Lvl) V O W c).before 3 t d = d :=
  Pipeline.Dat.before_out_reset _ 3 rfl t (.inl h0) d

/-- At a later point it holds what the point before left: it is written back after the last point only. -/
theorem before_3_later (c : Dev nD) (t : Fin cfg1.N) (h0 : t.val ≠ 0) (d) :
    (dat (Name := Name) (U := U) (Lvl := Lvl) V O W c).before 3 t d = fun _ => accAt (V c main_v1) (V c main_v2) (V c main_arg0) (t.val - 1) := by
  have hN : t.val < 5 := lt_of_lt_of_eq t.isLt N1
  refine (Pipeline.Dat.before_out_kept _ 3 rfl t h0 (Bool.eq_false_iff.mpr fun h => by have := (flush1_3 _).mp h; dsimp only at this; omega)
    (fun _ => rfl) (fun _ _ => rfl) d).trans ?_
  rfl

/-! ## The body obligation -/

set_option maxHeartbeats 800000 in
/-- The body at any point: every input's current buffer holds its block; at the first point the result's buffer holds
    anything and the body zeroes it before adding; at a later point it holds what the point before left, and the body adds
    to that. Nothing the core owes is touched. -/
theorem sound_body (ι : Ix) (c : Dev nD) (t : Fin cfg1.N) :
    iprop((dat (Name := Name) (U := U) (Lvl := Lvl) V O W c).Φ t.castSucc ∗ (dat (Name := Name) (U := U) (Lvl := Lvl) V O W c).owesAt ι t.castSucc
      ∗ (∃ d, owns (Ix := Ix) (Name := Name) (U := U) (Lvl := Lvl) (c : Thread nD τ) (st1_0 t) fullShare ((dat (Name := Name) (U := U) (Lvl := Lvl) V O W c).before 0 t d))
      ∗ (∃ d, owns (Ix := Ix) (Name := Name) (U := U) (Lvl := Lvl) (c : Thread nD τ) (st1_1 t) fullShare ((dat (Name := Name) (U := U) (Lvl := Lvl) V O W c).before 1 t d))
      ∗ (∃ d, owns (Ix := Ix) (Name := Name) (U := U) (Lvl := Lvl) (c : Thread nD τ) (st1_2 t) fullShare ((dat (Name := Name) (U := U) (Lvl := Lvl) V O W c).before 2 t d))
      ∗ (∃ d, owns (Ix := Ix) (Name := Name) (U := U) (Lvl := Lvl) (c : Thread nD τ) (st1_3 t) fullShare ((dat (Name := Name) (U := U) (Lvl := Lvl) V O W c).before 3 t d)))
    ⊢ wp frame (wpE (defs₀ (F := F)) Variants.none (c : Thread nD τ) none) Set.univ (bodyAt1 (F := F) t) (fun _ =>
      iprop((dat (Name := Name) (U := U) (Lvl := Lvl) V O W c).Φ t.succ ∗ (dat (Name := Name) (U := U) (Lvl := Lvl) V O W c).owesAt ι t.succ
        ∗ owns (Ix := Ix) (Name := Name) (U := U) (Lvl := Lvl) (c : Thread nD τ) (st1_0 t) fullShare ((dat (Name := Name) (U := U) (Lvl := Lvl) V O W c).after 0 t)
        ∗ owns (Ix := Ix) (Name := Name) (U := U) (Lvl := Lvl) (c : Thread nD τ) (st1_1 t) fullShare ((dat (Name := Name) (U := U) (Lvl := Lvl) V O W c).after 1 t)
        ∗ owns (Ix := Ix) (Name := Name) (U := U) (Lvl := Lvl) (c : Thread nD τ) (st1_2 t) fullShare ((dat (Name := Name) (U := U) (Lvl := Lvl) V O W c).after 2 t)
        ∗ owns (Ix := Ix) (Name := Name) (U := U) (Lvl := Lvl) (c : Thread nD τ) (st1_3 t) fullShare ((dat (Name := Name) (U := U) (Lvl := Lvl) V O W c).after 3 t))) := by
  unfold bodyAt1
  simp only [before_0, before_1, before_2]
  rw [show (dat (Name := Name) (U := U) (Lvl := Lvl) V O W c).Φ t.succ = (dat (Name := Name) (U := U) (Lvl := Lvl) V O W c).Φ t.castSucc from rfl,
    show (dat (Name := Name) (U := U) (Lvl := Lvl) V O W c).owesAt ι t.succ = (dat (Name := Name) (U := U) (Lvl := Lvl) V O W c).owesAt ι t.castSucc from rfl,
    after_0, after_1, after_2, after_3]
  have hN : t.val < 5 := lt_of_lt_of_eq t.isLt N1
  by_cases h0 : t.val = 0
  · rw [accAt_first _ _ _ t h0]
    simp only [before_3_first V O W c t h0]
    iintro ⟨HΦ, Ho, ⟨%d0, H0⟩, ⟨%d1, H1⟩, ⟨%d2, H2⟩, ⟨%d3, H3⟩⟩
    iapply (body_first c (grid1.coords t) _ _ _ _ _ _ _ _ ((hcond1 t).mpr (by omega)) _ _ _ d3 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later _ _ _ t h0]
    simp only [before_3_later V O W c t h0]
    iintro ⟨HΦ, Ho, ⟨%d0, H0⟩, ⟨%d1, H1⟩, ⟨%d2, H2⟩, ⟨%d3, H3⟩⟩
    iapply (body_later c (grid1.coords t) _ _ _ _ _ _ _ _ (fun h => h0 (by have := (hcond1 t).mp h; omega)) _ _ _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (ι : Ix) (c : Dev nD) :
    BodyObligation (dat (Name := Name) (U := U) (Lvl := Lvl) V O W c) (defs₀ (F := F)) Variants.none ι Set.univ := fun t => by
  rw [bigSep_W1, bigSep_W1]
  exact sound_body V O W ι c t

end Cert.KernelIdeal.Tc
end
-- ==== Proof.TcRegion.lean ====
/-
  The accumulating call as one step of the program's TensorCore thread.

  The call moves four arrays: the two 128 × 128 tables (words, weights), the 16384 × 1000 table, and its 1 × 1 result. It
  is entered holding them whole; it leaves the three inputs as they were and the result at the accumulation over the five
  grid points (`tcOut`, a function of the three inputs alone: the result's old contents are overwritten at the first
  point). The thread may owe other threads units while it runs the call: it owes the same afterwards, and every wait the
  call records is one of the pipeline's own, at the pipeline's index. The record below is what the library's region rule
  takes; `tcRegion_wp` is that rule applied to it.
-/
import proofs.«207748_g59691455480232_cont_9to1c4b_13_25_alg».proof.Proof.Gen.KernelIdeal.Skeleton
import proofs.«207748_g59691455480232_cont_9to1c4b_13_25_alg».proof.Proof.Gen.KernelIdeal.Launch
import proofs.«207748_g59691455480232_cont_9to1c4b_13_25_alg».proof.Proof.Gen.KernelIdeal.Points
import Idealize.ShloMosaic.Lib.Pipeline.Regions
import Idealize.ShloMosaic.Lib.Pipeline.Kit
import Idealize.ShloMosaic.Lib.Pipeline.FrameBody
import Idealize.ShloMosaic.Lib.Pipeline.Value
import Idealize.ShloMosaic.Lib.ValueIdx
import Idealize.ShloMosaic.Lib.Tactic
import proofs.«207748_g59691455480232_cont_9to1c4b_13_25_alg».proof.Proof.TcData

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable [Facts]

variable (V : (c : Dev nD) → (b : Ref sig .tc) → Buf (Elt F) ((c : Thread nD τ).loc b)) (O : Dev nD → CellTallies nD τ sig Ix)
  (W : Dev nD → Waits sig Ix)

/-- The program's one pipeline's proof data, as the region rule takes it. -/
def pdats : (p : Fin 1) → (c : Dev nD) → Pipeline.Dat τ (Elt F) Ix Name U Lvl (Pipeline.pin (pcfgs (F := F)) adm p) c
  | 0 => dat V O W

/-- Buffer `b` of core `c` held whole at `f`. -/
abbrev pl (c : Dev nD) (b : Ref sig .tc) (f : Buf (Elt F) ((c : Thread nD τ).loc b)) : sProp 𝕄 :=
  ((c : Thread nD τ).loc b) ↦{fullShare} f

/-- The region's arrays at contents `Fa` are the two reshaped tables, the large table and the result, held. -/
theorem arrays_eq (c : Dev nD) (Fa) :
    ((pdats (Name := Name) (U := U) (Lvl := Lvl) V O W 0 c).arrays Fa : sProp 𝕄)
      = iprop(pl c main_v1 (Fa 0) ∗ pl c main_v2 (Fa 1) ∗ pl c main_arg0 (Fa 2) ∗ pl c main_v3 (Fa 3)) := by
  rw [Pipeline.arrays_eq (Pipeline.pin (pcfgs (F := F)) adm) (pdats V O W) 0 c launch1.arr_whole ((pdats (Name := Name) (U := U) (Lvl := Lvl) V O W 0 c).share_full fun _ => rfl) Fa, bigSep_W1]

/-- The three inputs reach the exit as they entered. -/
theorem arrAt_v1 (c : Dev nD) (n : ℕ) : (pdats (Name := Name) (U := U) (Lvl := Lvl) V O W 0 c).arrAt 0 n = V c main_v1 :=
  (dat (Name := Name) (U := U) (Lvl := Lvl) V O W c).arrAt_in 0 rfl n
theorem arrAt_v2 (c : Dev nD) (n : ℕ) : (pdats (Name := Name) (U := U) (Lvl := Lvl) V O W 0 c).arrAt 1 n = V c main_v2 :=
  (dat (Name := Name) (U := U) (Lvl := Lvl) V O W c).arrAt_in 1 rfl n
theorem arrAt_arg0 (c : Dev nD) (n : ℕ) : (pdats (Name := Name) (U := U) (Lvl := Lvl) V O W 0 c).arrAt 2 n = V c main_arg0 :=
  (dat (Name := Name) (U := U) (Lvl := Lvl) V O W c).arrAt_in 2 rfl n

/-- The result's one block is the whole 1 × 1 array, at every point. -/
theorem mem_blk3 (t : Fin cfg1.N) (i : S1x1.Idx) : i ∈ ((cfg1.win 3).blk t).view.set := by
  show i ∈ ((View.whole main_v3).slice (win1_3.rect t)).set
  rw [View.set_slice_whole, Rect.mem_set_unit]
  intro a
  have := (i a).isLt
  fin_cases a <;> exact ⟨Nat.zero_le _, this⟩

/-- The result's one block is written back after the last point, with the accumulation over the five points. -/
theorem arrAt_v3 (c : Dev nD) :
    (pdats (Name := Name) (U := U) (Lvl := Lvl) V O W 0 c).arrAt 3 (Pipeline.pin (pcfgs (F := F)) adm 0).N = tcOut (V c main_v1) (V c main_v2) (V c main_arg0) := by
  refine (dat (Name := Name) (U := U) (Lvl := Lvl) V O W c).arrAt_eq_of_cover 3 (tcOut (V c main_v1) (V c main_v2) (V c main_arg0)) (fun t hf => ?_) (fun i => ?_)
  · have ht : t.val % 5 = 4 := (flush1_3 t).mp hf
    have hN : t.val < 5 := lt_of_lt_of_eq t.isLt N1
    have e : t.val = 4 := by omega
    show (cfg1.win 3).cut (grid1.coords t) ((dat (Name := Name) (U := U) (Lvl := Lvl) V O W c).after 3 t) = _
    rw [after_3, e]
    rfl
  · refine ⟨⟨4, lt_of_lt_of_eq (by decide) N1.symm⟩, (flush1_3 _).mpr rfl, ?_⟩
    exact mem_blk3 _ i

/-! ## The region, as the library's record -/

variable (ι : Ix) (L : GSem nD τ sig → Finset Ix) (lv : GSem nD τ sig → Ix → Lvl)

/-- The thread state the region is entered from: the four arrays held whole at `V c`, the core owing `O c` with its
    recorded waits `W c`. -/
def tcPre (c : Dev nD) : sProp 𝕄 :=
  iprop(pl c main_v1 (V c main_v1) ∗ pl c main_v2 (V c main_v2) ∗ pl c main_arg0 (V c main_arg0) ∗ pl c main_v3 (V c main_v3)
    ∗ owes (c : Thread nD τ) (O c) (W c))

/-- The thread state it leaves: the three inputs as they were, the result at the accumulation, the core owing the same,
    every wait recorded meanwhile being at the pipeline's index `ι`. -/
def tcPost (c : Dev nD) : sProp 𝕄 :=
  iprop(pl c main_v1 (V c main_v1) ∗ pl c main_v2 (V c main_v2) ∗ pl c main_arg0 (V c main_arg0)
    ∗ pl c main_v3 (tcOut (V c main_v1) (V c main_v2) (V c main_arg0))
    ∗ ∃ W', ⌜∀ p ∈ W', p ∈ W c ∨ p.2 = ι⌝ ∗ owes (c : Thread nD τ) (O c) W')

/-- THE REGION: the four arrays into the pipeline and back, nothing else entering or bypassing; the core owes `O c`
    throughout, and may wait on the staging cells at index `ι` owing that (`hmw`). -/
def tcRegion (hmw : ∀ (c : Dev nD) (sm : SemLoc sig), (levAts L lv : sProp 𝕄) ⊢ MayWait (c : Thread nD τ) sm ι (O c)) :
    Pipeline.RegionSeg (pcfgs (F := F)) adm (pdats (Name := Name) (U := U) (Lvl := Lvl) V O W) ι defs₀ Variants.none L lv (0 : Fin 1) where
  win := launch1.win.to₀
  block_pos := launch1.block_pos
  stage_whole := launch1.stage_whole
  K := PEmpty
  osem k := k.elim
  ho := Pipeline.OwnSemFacts.none _
  hbody c := (body_obligation V O W ι c).loose
  hwaits c := Pipeline.cellsWaits_intro _ (pdats V O W) ι 0 c fun w s t => hmw c _
  pre := tcPre V O W
  post := tcPost V O W ι
  X _ := iprop(emp)
  Y _ := iprop(emp)
  Z _ := iprop(emp)
  hentry c := by
    rw [Pipeline.ownSems0_none, arrays_eq]
    unfold tcPre
    iintro ⟨⟨H1, H2, H0, H3, HO⟩, -, -⟩
    imodintro
    isplitl [H1 H2 H0 H3]
    · isplitl [H1]; · iexact H1
      isplitl [H2]; · iexact H2
      isplitl [H0]; · iexact H0
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W c; isplitr; · ipureintro; exact fun _ h => Or.inl h
      iexact HO
    isplitr <;> iempintro
  hin c := by iintro -; iempintro
  hout c := by
    rw [Pipeline.ownSems0_none, scopedRest1_eq]
    iintro -; isplitr; · iempintro
    isplitr <;> iempintro
  hexit c := by
    rw [arrays_eq, arrAt_v1, arrAt_v2, arrAt_arg0, arrAt_v3]
    unfold tcPost
    iintro ⟨⟨H1, H2, H0, H3⟩, HO, -, -⟩
    imodintro
    isplitl [H1]; · iexact H1
    isplitl [H2]; · iexact H2
    isplitl [H0]; · iexact H0
    isplitl [H3]; · iexact H3
    unfold Pipeline.Dat.owesAt Pipeline.owesWithin
    icases HO with ⟨%W', %hW', HO⟩; iexists W'; isplitr
    · ipureintro
      intro p hp
      rcases hW' (Finset.mem_coe.mpr hp) with h | ⟨w, s, rfl⟩
      · exact Or.inl (Finset.mem_coe.mp h)
      · exact Or.inr rfl
    iexact HO

theorem tcRegion_pre (hmw) : (tcRegion (F := F) (Name := Name) (U := U) V O W ι L lv hmw).pre = tcPre V O W := rfl
theorem tcRegion_post (hmw) : (tcRegion (F := F) (Name := Name) (U := U) V O W ι L lv hmw).post = tcPost V O W ι := rfl

/-- The staging cells of the program's one pipeline are pairwise distinct (what the region rule and the launch's funding
    of the cells ask). -/
theorem cells_inj : Function.Injective (Pipeline.cellOf (nD := nD) (τ := τ) (Pipeline.pin (pcfgs (F := F)) adm)) := cellOf_inj

/-- THE REGION, RUN: from the boundary, the entry state, the level facts and the pipeline's launch ghost state (its cells'
    and its duty tokens, consumed), the call runs to the boundary and the exit state for the continuation. -/
theorem tcRegion_wp [Infinite Name] (EP : Emb (URounds (GSem nD τ sig) Unit) (MT nD τ sig Ix (Elt F) Name U Lvl))
    [EP.LandsIn (upEmb : UEmb _ (MT nD τ sig Ix (Elt F) Name U Lvl))]
    (hmw : ∀ (c : Dev nD) (sm : SemLoc sig), (levAts L lv : sProp 𝕄) ⊢ MayWait (c : Thread nD τ) sm ι (O c)) (c : Dev nD)
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ tcPost V O W ι c)
            -∗ wp frame (wpE (Pipeline.defs (pcfgs (F := F)) defs₀) (Variants.lift Variants.none) (c.tc : Thread nD τ) none) Set.univ (k ⟨⟩) Q)
        ∗ boundary (c.tc : Thread nD τ) ∗ tcPre V O W c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift Variants.none) (c.tc : Thread nD τ) none) Set.univ
          (.op (.customCall (Pipeline.entry 0) ()) k) Q :=
  Pipeline.RegionSeg.wp (pcfgs (F := F)) adm (pdats V O W) ι cells_inj EP defs₀ Variants.none L lv (tcRegion V O W ι L lv hmw) c none
    (fun _ h => by cases h) k Q

end Cert.KernelIdeal.Tc
end
-- ==== Proof.ScMain.lean ====
/-
  @main on the TensorCore, and the launch element.

  @main starts the SparseCore call and waits for it, reshapes `target` and `reward` to 128 × 128, runs the TensorCore
  kernel's region, and finishes with seven host operations. Its arrays are followed as one valuation of the
  TensorCore's unscoped buffers: `V1` after the call (the partial-sum array at the whole-array function, the inputs
  back whole), `V2` after the reshapes, `V3` after the region (its result at the region's function of the reshaped
  tables and `prob`), `V4` at the end. The launch element funds the handshakes' rounds and the pipeline's staging cells.
-/
import proofs.«207748_g59691455480232_cont_9to1c4b_13_25_alg».proof.Proof.ScSplit
import proofs.«207748_g59691455480232_cont_9to1c4b_13_25_alg».proof.Proof.TcRegion
import Idealize.ShloMosaic.Lib.Pipeline.Frame

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sub_split held_congr held_sdiff_result wp_hlo_within wp_seq after)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

/-- The one pipeline's configuration, as the region library names it. -/
abbrev pinC : Fin 1 → Pipeline.Cfg sig Λ₀ := Pipeline.pin (pcfgs (F := F)) Tc.adm

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

def u₀ : UU := (initOf (K (F := F)).hsCells (K (F := F)).hsToks,
  (initOf (Pipeline.cells (pinC (F := F)) Tc.cells_inj) (Pipeline.launchToks (pinC (F := F)) Tc.cells_inj), 1))

/-- What @main's proof starts from beyond what the launch deals: the pipeline's cells' ghost state and duty tokens. -/
def G (d : Dev nD) : sProp 𝕄 :=
  iprop((bigSep Finset.univ fun p : Fin 1 => Pipeline.cellsGhost (pinC (F := F)) EP p d)
    ∗ bigSep Finset.univ fun p : Fin 1 => (Pipeline.toksInit (pinC (F := F)) EP p d : sProp 𝕄))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HB⟩
  imod (Pipeline.fund_ghost (pinC (F := F)) EP Tc.cells_inj) $$ HB with ⟨Hg, Htk⟩
  imodintro
  isplitl [HH]; · iexact HH
  isplitl [Hg Htk]
  · unfold G
    rw [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main's buffers and valuations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev cst' : DevRef τ sig := Proc.devRef .tc (main_cst : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev cst0' : DevRef τ sig := Proc.devRef .tc (main_cst_0 : Ref sig .tc)
abbrev v8' : DevRef τ sig := Proc.devRef .tc (main_v8 : Ref sig .tc)

/-- The launch valuation. -/
def V0 (d : Dev nD) : Valuation τ sig (Elt F) := fun b => m (d, b)
/-- After the SparseCore call: the partial sums at the whole-array function. -/
def V1 (d : Dev nD) : Valuation τ sig (Elt F) := Function.update (V0 m d) v0' (scBuf m d)

/-- The two reshapes before the region, and the seven operations after it. -/
abbrev ops1 : List (HloOp τ sig (Elt F)) :=
  [StableHlo.reshape main_arg1 main_v1 rfl shapeCasts_S16384_S128x128, StableHlo.reshape main_arg2 main_v2 rfl shapeCasts_S16384_S128x128]
abbrev ops2 : List (HloOp τ sig (Elt F)) :=
  [StableHlo.reshape main_v3 main_v4 rfl shapeCasts_S1x1_S_,
    StableHlo.nullary main_cst (constant S_ .f32 0x00000000#32),
    StableHlo.binary main_v0 main_cst main_v5 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.binary main_v4 main_v5 main_v6 (addf : (⟨S_, .f32⟩ : BufTy).Contents (Elt F) → (⟨S_, .f32⟩ : BufTy).Contents (Elt F) → (⟨S_, .f32⟩ : BufTy).Contents (Elt F)),
    StableHlo.unary main_v6 main_v7 (Host.negf : (⟨S_, .f32⟩ : BufTy).Contents (Elt F) → (⟨S_, .f32⟩ : BufTy).Contents (Elt F)),
    StableHlo.nullary main_cst_0 (constant S_ .f32 0x38800000#32),
    StableHlo.binary main_v7 main_cst_0 main_v8 (mulf : (⟨S_, .f32⟩ : BufTy).Contents (Elt F) → (⟨S_, .f32⟩ : BufTy).Contents (Elt F) → (⟨S_, .f32⟩ : BufTy).Contents (Elt F))]

def V2 (d : Dev nD) : Valuation τ sig (Elt F) := after ops1 (V1 m d)
/-- The region's arrays, as the region library indexes them. -/
def Vt (d : Dev nD) (b : Ref sig .tc) : Buf (Elt F) ((d.tc : Thread nD τ).loc b) := V2 m d (Proc.devRef .tc b)
def V3 (d : Dev nD) : Valuation τ sig (Elt F) :=
  Function.update (V2 m d) v3' (Tc.tcOut (Vt m d main_v1) (Vt m d main_v2) (Vt m d main_arg0))
def V4 (d : Dev nD) : Valuation τ sig (Elt F) := after ops2 (V3 m d)

theorem main_eq (d : Dev nD) : main (F := F) d = (do
    sc.run d 0
    StableHlo.seq ops1
    Prog.lift (.customCall (SparseCore.inner (Pipeline.entry 0)) ())
    StableHlo.seq ops2) := rfl

/-! ## The held set and the SparseCore call's four arrays -/

omit [FloatOps F] in
theorem unscoped_held (d : Dev nD) :
    (unscopedBufs d (fun b => m ((SparseCore.T d).loc b)) : sProp 𝕄) = held (T d) (Pipeline.ucRefs τ sig) (V0 m d) :=
  Pipeline.unscopedBufs_held d (V0 m d)

abbrev SC4 : Finset (DevRef τ sig) := {a0', a1', a2', v0'}
theorem SC4_sub : SC4 ⊆ Pipeline.ucRefs τ sig := by decide

omit [FloatOps F] in
theorem held_SC4 (d : Dev nD) (W : Valuation τ sig (Elt F)) :
    (held (T d) SC4 W : sProp 𝕄) = iprop((pLoc d ↦{fullShare} W a0') ∗ (tLoc d ↦{fullShare} W a1') ∗ (rLoc d ↦{fullShare} W a2') ∗ oLoc d ↦{fullShare} W v0') := by
  unfold held SC4
  rw [SparseCore.bigSep_insert' (by decide), SparseCore.bigSep_insert' (by decide), SparseCore.bigSep_insert' (by decide), bigSep_singleton]

theorem V1_a0 (d : Dev nD) : V1 m d a0' = m (pLoc d) := Function.update_of_ne (show a0' ≠ v0' by decide) _ _
theorem V1_a1 (d : Dev nD) : V1 m d a1' = m (tLoc d) := Function.update_of_ne (show a1' ≠ v0' by decide) _ _
theorem V1_a2 (d : Dev nD) : V1 m d a2' = m (rLoc d) := Function.update_of_ne (show a2' ≠ v0' by decide) _ _
theorem V1_v0 (d : Dev nD) : V1 m d v0' = scBuf m d := Function.update_self _ _ _

theorem held_rest1 (d : Dev nD) :
    (held (T d) (Pipeline.ucRefs τ sig \ SC4) (V0 m d) : sProp 𝕄) = held (T d) (Pipeline.ucRefs τ sig \ SC4) (V1 m d) :=
  held_congr (T d) fun b hb => (Function.update_of_ne (fun e => (Finset.mem_sdiff.mp hb).2 (by rw [e]; decide)) _ _).symm

/-! ## The host operations' buffers; the region's four arrays; the TensorCore's state opened -/

theorem hS1 : ∀ op ∈ (ops1 : List (HloOp τ sig (Elt F))), op.bufs ⊆ Pipeline.ucRefs τ sig :=
  List.forall_mem_cons.mpr ⟨Pipeline.sub_ucRefs _ (StableHlo.reshape_bufs_sub ..), List.forall_mem_cons.mpr ⟨Pipeline.sub_ucRefs _ (StableHlo.reshape_bufs_sub ..), fun _ h => nomatch h⟩⟩
theorem hf1 : ∀ op ∈ (ops1 : List (HloOp τ sig (Elt F))), op.fresh = ∅ :=
  List.forall_mem_cons.mpr ⟨rfl, List.forall_mem_cons.mpr ⟨rfl, fun _ h => nomatch h⟩⟩
theorem hS2 : ∀ op ∈ (ops2 : List (HloOp τ sig (Elt F))), op.bufs ⊆ Pipeline.ucRefs τ sig :=
  List.forall_mem_cons.mpr ⟨Pipeline.sub_ucRefs _ (StableHlo.reshape_bufs_sub ..), List.forall_mem_cons.mpr ⟨Pipeline.sub_ucRefs _ (StableHlo.nullary_bufs_sub ..), List.forall_mem_cons.mpr ⟨Pipeline.sub_ucRefs _ (StableHlo.binary_bufs_sub ..), List.forall_mem_cons.mpr ⟨Pipeline.sub_ucRefs _ (StableHlo.binary_bufs_sub ..), List.forall_mem_cons.mpr ⟨Pipeline.sub_ucRefs _ (StableHlo.unary_bufs_sub ..), List.forall_mem_cons.mpr ⟨Pipeline.sub_ucRefs _ (StableHlo.nullary_bufs_sub ..), List.forall_mem_cons.mpr ⟨Pipeline.sub_ucRefs _ (StableHlo.binary_bufs_sub ..), fun _ h => nomatch h⟩⟩⟩⟩⟩⟩⟩
theorem hf2 : ∀ op ∈ (ops2 : List (HloOp τ sig (Elt F))), op.fresh = ∅ :=
  List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩⟩⟩

abbrev TC4 : Finset (DevRef τ sig) := {v1', v2', a0', v3'}
theorem TC4_sub : TC4 ⊆ Pipeline.ucRefs τ sig := by decide

omit [FloatOps F] in
theorem held_TC4 (d : Dev nD) (W : Valuation τ sig (Elt F)) :
    (held (T d) TC4 W : sProp 𝕄) = iprop(((d, v1') ↦{fullShare} W v1') ∗ ((d, v2') ↦{fullShare} W v2') ∗ ((d, a0') ↦{fullShare} W a0') ∗ (d, v3') ↦{fullShare} W v3') := by
  unfold held TC4
  rw [SparseCore.bigSep_insert' (by decide), SparseCore.bigSep_insert' (by decide), SparseCore.bigSep_insert' (by decide), bigSep_singleton]

theorem V3_v1 (d : Dev nD) : V3 m d v1' = V2 m d v1' := Function.update_of_ne (show v1' ≠ v3' by decide) _ _
theorem V3_v2 (d : Dev nD) : V3 m d v2' = V2 m d v2' := Function.update_of_ne (show v2' ≠ v3' by decide) _ _
theorem V3_a0 (d : Dev nD) : V3 m d a0' = V2 m d a0' := Function.update_of_ne (show a0' ≠ v3' by decide) _ _
theorem V3_v3 (d : Dev nD) : V3 m d v3' = Tc.tcOut (Vt m d main_v1) (Vt m d main_v2) (Vt m d main_arg0) := Function.update_self _ _ _

theorem held_rest3 (d : Dev nD) :
    (held (T d) (Pipeline.ucRefs τ sig \ TC4) (V2 m d) : sProp 𝕄) = held (T d) (Pipeline.ucRefs τ sig \ TC4) (V3 m d) :=
  held_congr (T d) fun b hb => (Function.update_of_ne (fun e => (Finset.mem_sdiff.mp hb).2 (by rw [e]; decide)) _ _).symm

/-- The TensorCore's handshake state after the one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_one (d : Dev nD) : ((K (F := F)).tcSt EH d 1 : sProp 𝕄)
    = iprop((∃ W, ⌜(K (F := F)).WBelow (T d) W (8 * 1)⌝ ∗ owes (T d) ((K (F := F)).Otc d 1) W) ∗ tcRest (F := F) d) := rfl

omit [FloatOps F] in
/-- After the one call the TensorCore owes nothing at the kernels' own index. -/
theorem Otc_one_none (d : Dev nD) : ∀ g, (K (F := F)).Otc d 1 g none = 0 := by
  intro g
  have h : (K (F := F)).Otc d 1 = 0 := by
    unfold SparseCore.Cfg.Otc
    exact Finset.sum_eq_zero fun q _ => if_neg (by have := q.isLt; omega)
  rw [h]; rfl

/-- What @main leaves the claim: every unscoped buffer at the last valuation. -/
abbrev FIN (d : Dev nD) : sProp 𝕄 := held (T d) (Pipeline.ucRefs τ sig) (V4 m d)

set_option maxHeartbeats 4000000 in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, Hsems, Hprng⟩, HG⟩
  ihave Hh := (Entails.of_eq (held_sub_split (T d) SC4_sub (V0 m d))) $$ Hheld
  icases Hh with ⟨H4, Hrest⟩
  ihave H4' := (Entails.of_eq (held_SC4 (F := F) d _)) $$ H4
  icases H4' with ⟨Hp, Ht, Hr, Ho⟩
  ihave Hp2 := (Transfers.pointsTo_toks fullShare 2).1 $$ Hp
  icases Hp2 with ⟨Hpd, Hpt⟩
  ihave Ht2 := (Transfers.pointsTo_toks fullShare 2).1 $$ Ht
  icases Ht2 with ⟨Htd, Htt⟩
  ihave Hr2 := (Transfers.pointsTo_toks fullShare 2).1 $$ Hr
  icases Hr2 with ⟨Hrd, Hrt⟩
  rw [wp_bind]
  -- the call: each SparseCore its tokens of the inputs and its pieces of the partial-sum array
  iapply ((K (F := F)).wp_run (D (F := F)) 𝒱 (EH := EH) (P := P m) κ d 0) $$ [Hst Hpt Htt Hrt Ho Hpd Htd Hrd Hrest Hb HG]
  isplitr; · iexact Hctx
  isplitl [Hst]; · iexact Hst
  isplitl [Hpt Htt Hrt Ho]
  · rw [st0_eq]
    isplitl [Hpt]; · iexact Hpt
    isplitl [Htt]; · iexact Htt
    isplitl [Hrt]; · iexact Hrt
    iexact Ho
  iintro ⟨Hst, Hdn⟩
  ihave Hdn' := (Entails.of_eq (dn0_eq m d)) $$ Hdn
  icases Hdn' with ⟨Hpt, Htt, Hrt, Ho⟩
  ihave Hp := (Transfers.pointsTo_toks_join fullShare 2) $$ [Hpd Hpt]
  · isplitl [Hpd]; · iexact Hpd
    iexact Hpt
  ihave Ht := (Transfers.pointsTo_toks_join fullShare 2) $$ [Htd Htt]
  · isplitl [Htd]; · iexact Htd
    iexact Htt
  ihave Hr := (Transfers.pointsTo_toks_join fullShare 2) $$ [Hrd Hrt]
  · isplitl [Hrd]; · iexact Hrd
    iexact Hrt
  ihave H4 := (Entails.of_eq (held_SC4 (F := F) d (V1 m d)).symm) $$ [Hp Ht Hr Ho]
  · rw [V1_a0, V1_a1, V1_a2, V1_v0]
    isplitl [Hp]; · iexact Hp
    isplitl [Ht]; · iexact Ht
    isplitl [Hr]; · iexact Hr
    iexact Ho
  ihave Hrest' := (Entails.of_eq (held_rest1 m d)) $$ Hrest
  ihave Hheld := (Entails.of_eq (held_sub_split (T d) SC4_sub (V1 m d)).symm) $$ [H4 Hrest']; · isplitl [H4] <;> iassumption
  -- the two reshapes
  iapply (wp_seq 𝒱 none Set.univ d (Pipeline.ucRefs τ sig) _ ops1 hS1 hf1 (V1 m d)) $$ [Hb Hheld]
  · isplitl [Hb]; · iexact Hb
    iexact Hheld
  iintro ⟨Hb, Hheld⟩
  ihave Hheld := (Entails.of_eq (show (held (d.tc : Thread nD τ) (Pipeline.ucRefs τ sig) (after ops1 (V1 m d)) : sProp 𝕄)
      = held (T d) (Pipeline.ucRefs τ sig) (V2 m d) from rfl)) $$ Hheld
  -- the region: its four arrays out of the held set, what the TensorCore owes out of its handshake state
  rw [wp_bind]
  ihave Hh := (Entails.of_eq (held_sub_split (T d) TC4_sub (V2 m d))) $$ Hheld
  icases Hh with ⟨H4, Hrest⟩
  ihave H4' := (Entails.of_eq (held_TC4 (F := F) d _)) $$ H4
  icases H4' with ⟨Hv1, Hv2, Ha0, Hv3⟩
  ihave Hst := (Entails.of_eq (show ((K (F := F)).tcSt EH d ((0 : Fin 1).val + 1) : sProp 𝕄) = (K (F := F)).tcSt EH d 1 from rfl)) $$ Hst
  ihave Hst' := (Entails.of_eq (tcSt_one (F := F) d)) $$ Hst
  icases Hst' with ⟨⟨%W0, %hW0, HO⟩, HstR⟩
  ihave Hlev := (SparseCore.Cfg.ctx_levAts κ) $$ Hctx
  unfold G
  icases HG with ⟨HG1, HG2⟩
  ihave HG1' := (Entails.of_eq (bigSep_univ_of_subsingleton (0 : Fin 1))) $$ HG1
  ihave HG2' := (Entails.of_eq (bigSep_univ_of_subsingleton (0 : Fin 1))) $$ HG2
  iapply ((K (F := F)).wp_liftProg (D (F := F)) 𝒱 (SparseCore.T d) Set.univ none (.op (.customCall (Pipeline.entry 0) ()) fun x => .ret x) _)
  iapply (Tc.tcRegion_wp (Vt m) (fun d => (K (F := F)).Otc d 1) (fun _ => W0) none (K (F := F)).L (K (F := F)).lev EP
      (fun c sm => (K (F := F)).mayWait_none sm (Otc_one_none (F := F) c)) d (fun x => .ret x) _) $$ [Hb Hv1 Hv2 Ha0 Hv3 HO Hlev HG1' HG2' HstR Hrest]
  isplitr [Hb Hv1 Hv2 Ha0 Hv3 HO HG1' HG2']
  swap
  · isplitl [Hb]; · iexact Hb
    isplitl [Hv1 Hv2 Ha0 Hv3 HO]
    · unfold Tc.tcPre Tc.pl
      isplitl [Hv1]; · iexact Hv1
      isplitl [Hv2]; · iexact Hv2
      isplitl [Ha0]; · iexact Ha0
      isplitl [Hv3]; · iexact Hv3
      iexact HO
    isplitr; · iexact Hlev
    isplitl [HG1']; · iexact HG1'
    iexact HG2'
  iintro ⟨Hb, Hpost⟩
  unfold Tc.tcPost Tc.pl
  icases Hpost with ⟨Hv1, Hv2, Ha0, Hv3, %W', %hW', HO⟩
  rw [wp_ret]; imodintro
  -- the held set again, the region's result at its function of the reshaped tables and prob
  ihave H4 := (Entails.of_eq (held_TC4 (F := F) d (V3 m d)).symm) $$ [Hv1 Hv2 Ha0 Hv3]
  · rw [V3_v1, V3_v2, V3_a0, V3_v3]
    isplitl [Hv1]; · iexact Hv1
    isplitl [Hv2]; · iexact Hv2
    isplitl [Ha0]; · iexact Ha0
    iexact Hv3
  ihave Hrest' := (Entails.of_eq (held_rest3 m d)) $$ Hrest
  ihave Hheld := (Entails.of_eq (held_sub_split (T d) TC4_sub (V3 m d)).symm) $$ [H4 Hrest']
  · isplitl [H4]; · iexact H4
    iexact Hrest'
  -- the seven last operations
  rw [← bind_pure (StableHlo.seq (ops2 (F := F)))]
  iapply (wp_seq 𝒱 none Set.univ d (Pipeline.ucRefs τ sig) _ ops2 hS2 hf2 (V3 m d)) $$ [Hb Hheld]
  · isplitl [Hb]; · iexact Hb
    iexact Hheld
  iintro ⟨Hb, Hheld⟩
  rw [Prog.pure_eq_ret, wp_ret]; imodintro
  isplitl [HstR HO]
  · iapply (Entails.of_eq (tcSt_one (F := F) d).symm)
    isplitr [HstR]
    · iexists W'; isplitr
      · ipureintro
        intro p hp
        rcases hW' p hp with h | h
        · exact hW0 p h
        · rw [h]; exact Nat.zero_le _
      · iexact HO
    · iexact HstR
  · iapply (Entails.of_eq (show (held (d.tc : Thread nD τ) (Pipeline.ucRefs τ sig) (after ops2 (V3 m d)) : sProp 𝕄) = FIN m d from rfl))
    iexact Hheld

end Cert.KernelIdeal.Sc

end
-- ==== Proof.ScFinal.lean ====
/-
  The whole program's run, and what its last valuation holds.

  The claim is read off the final memory at five buffers: the result and the four arguments. The arguments end at
  their launch contents (no operation writes them; the SparseCore call and the region hand them back unchanged). The
  result is the seven last host operations applied to the region's result and the partial sums:
  `(-(reshape(tcOut(reshape target, reshape reward, prob)) + Σ scOut)) · 2^-14`.
-/
import proofs.«207748_g59691455480232_cont_9to1c4b_13_25_alg».proof.Proof.ScMain

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sub_split held_congr held_sdiff_result wp_hlo_within wp_seq after)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## Reading the claim off the final memory -/

abbrev FIN5 : Finset (DevRef τ sig) := {v8', a0', a1', a2', a3'}
theorem FIN5_sub : FIN5 ⊆ Pipeline.ucRefs τ sig := by decide

omit [FloatOps F] in
theorem held_FIN5 (d : Dev nD) (W : Valuation τ sig (Elt F)) :
    (held (T d) FIN5 W : sProp 𝕄) = iprop(((d, v8') ↦{fullShare} W v8') ∗ ((d, a0') ↦{fullShare} W a0') ∗ ((d, a1') ↦{fullShare} W a1')
      ∗ ((d, a2') ↦{fullShare} W a2') ∗ (d, a3') ↦{fullShare} W a3') := by
  unfold held FIN5
  rw [SparseCore.bigSep_insert' (by decide), SparseCore.bigSep_insert' (by decide), SparseCore.bigSep_insert' (by decide),
    SparseCore.bigSep_insert' (by decide), bigSep_singleton]

def fq (d : Dev nD) (s' : Phys nD τ sig (Elt F)) : Prop :=
  s'.mem.mem (d, v8') = V4 m d v8' ∧ s'.mem.mem (d, a0') = V4 m d a0' ∧ s'.mem.mem (d, a1') = V4 m d a1'
    ∧ s'.mem.mem (d, a2') = V4 m d a2' ∧ s'.mem.mem (d, a3') = V4 m d a3'

set_option maxRecDepth 16384 in
theorem hfin (d : Dev nD) (s' : Phys nD τ sig (Elt F)) : iprop(FIN m d ∗ SI s') ⊢ (⌜fq m d s'⌝ : sProp 𝕄) := by
  rw [show (FIN m d : sProp 𝕄) = iprop(held (T d) FIN5 (V4 m d) ∗ held (T d) (Pipeline.ucRefs τ sig \ FIN5) (V4 m d)) from
    held_sub_split (T d) FIN5_sub (V4 m d), held_FIN5]
  iintro ⟨⟨⟨H8, H0, H1, H2, H3⟩, -⟩, HSI⟩
  ihave H := (persistent_entails_right (SI_pointsTo_agree (st := s') (ℓ := (d, v8')) (I := Finset.univ) (q := fullShare) (f := V4 m d v8'))) $$ [HSI H8]
  · isplitl [HSI] <;> iassumption
  icases H with ⟨%h8, HSI, -⟩
  ihave H := (persistent_entails_right (SI_pointsTo_agree (st := s') (ℓ := (d, a0')) (I := Finset.univ) (q := fullShare) (f := V4 m d a0'))) $$ [HSI H0]
  · isplitl [HSI] <;> iassumption
  icases H with ⟨%h0, HSI, -⟩
  ihave H := (persistent_entails_right (SI_pointsTo_agree (st := s') (ℓ := (d, a1')) (I := Finset.univ) (q := fullShare) (f := V4 m d a1'))) $$ [HSI H1]
  · isplitl [HSI] <;> iassumption
  icases H with ⟨%h1, HSI, -⟩
  ihave H := (persistent_entails_right (SI_pointsTo_agree (st := s') (ℓ := (d, a2')) (I := Finset.univ) (q := fullShare) (f := V4 m d a2'))) $$ [HSI H2]
  · isplitl [HSI] <;> iassumption
  icases H with ⟨%h2, HSI, -⟩
  ihave H := (SI_pointsTo_agree (st := s') (ℓ := (d, a3')) (I := Finset.univ) (q := fullShare) (f := V4 m d a3')) $$ [HSI H3]
  · isplitl [HSI] <;> iassumption
  icases H with %h3
  ipureintro
  exact ⟨funext fun i => h8 i (Finset.mem_univ i), funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (c, v8') = V4 m c v8' ∧ r.2.mem (c, a0') = V4 m c a0' ∧ r.2.mem (c, a1') = V4 m c a1'
    ∧ r.2.mem (c, a2') = V4 m c a2' ∧ r.2.mem (c, a3') = V4 m c a3'

theorem run_main [∀ e, Nonempty (Elt F e)] (hpre : PreT m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.KernelIdeal.Sc

end
-- ==== Proof.ScValues.lean ====
/-
  What the valuations hold at the buffers the claim reads.

  The reshapes write only the two 128 × 128 tables, the region only its result, the seven last operations only their
  own results: so the arguments keep their launch contents throughout, the partial sums stay at the whole-array
  function, and the result buffer holds the seven last operations' composed term.
-/
import proofs.«207748_g59691455480232_cont_9to1c4b_13_25_alg».proof.Proof.ScMain

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (after)
open Idealize.ShloMosaic.StableHlo

variable {F : FTy → Type}
variable (m : (ℓ : Loc nD τ sig) → Buf (Elt F) ℓ)
variable [FloatOps F]

/-! ## After the reshapes -/

theorem V2_v1 (d : Dev nD) : V2 m d v1' = shapeCast _ (V1 m d a1') shapeCasts_S16384_S128x128 := by
  unfold V2; after_results <;> rfl
theorem V2_v2 (d : Dev nD) : V2 m d v2' = shapeCast _ (V1 m d a2') shapeCasts_S16384_S128x128 := by
  unfold V2; after_results <;> rfl
theorem V2_a0 (d : Dev nD) : V2 m d a0' = V1 m d a0' := by unfold V2; after_results <;> rfl
theorem V2_a1 (d : Dev nD) : V2 m d a1' = V1 m d a1' := by unfold V2; after_results <;> rfl
theorem V2_a2 (d : Dev nD) : V2 m d a2' = V1 m d a2' := by unfold V2; after_results <;> rfl
theorem V2_a3 (d : Dev nD) : V2 m d a3' = V1 m d a3' := by unfold V2; after_results <;> rfl
theorem V2_v0 (d : Dev nD) : V2 m d v0' = V1 m d v0' := by unfold V2; after_results <;> rfl

theorem V1_a3 (d : Dev nD) : V1 m d a3' = m (d, a3') := Function.update_of_ne (show a3' ≠ v0' by decide) _ _

/-! ## After the region -/

theorem V3_a1 (d : Dev nD) : V3 m d a1' = V2 m d a1' := Function.update_of_ne (show a1' ≠ v3' by decide) _ _
theorem V3_a2 (d : Dev nD) : V3 m d a2' = V2 m d a2' := Function.update_of_ne (show a2' ≠ v3' by decide) _ _
theorem V3_a3 (d : Dev nD) : V3 m d a3' = V2 m d a3' := Function.update_of_ne (show a3' ≠ v3' by decide) _ _
theorem V3_v0 (d : Dev nD) : V3 m d v0' = V2 m d v0' := Function.update_of_ne (show v0' ≠ v3' by decide) _ _

/-! ## At the end -/

theorem V4_a0 (d : Dev nD) : V4 m d a0' = m (d, a0') := by
  have h : V4 m d a0' = V3 m d a0' := by unfold V4; after_results <;> rfl
  rw [h, V3_a0, V2_a0, V1_a0]
theorem V4_a1 (d : Dev nD) : V4 m d a1' = m (d, a1') := by
  have h : V4 m d a1' = V3 m d a1' := by unfold V4; after_results <;> rfl
  rw [h, V3_a1, V2_a1, V1_a1]
theorem V4_a2 (d : Dev nD) : V4 m d a2' = m (d, a2') := by
  have h : V4 m d a2' = V3 m d a2' := by unfold V4; after_results <;> rfl
  rw [h, V3_a2, V2_a2, V1_a2]
theorem V4_a3 (d : Dev nD) : V4 m d a3' = m (d, a3') := by
  have h : V4 m d a3' = V3 m d a3' := by unfold V4; after_results <;> rfl
  rw [h, V3_a3, V2_a3, V1_a3]

/-- The result: the seven last operations over the region's result and the partial sums. -/
theorem V4_v8 (d : Dev nD) : V4 m d v8' =
    mulf (Host.negf (addf (shapeCast _ (Tc.tcOut (shapeCast _ (m (d, a1')) shapeCasts_S16384_S128x128)
        (shapeCast _ (m (d, a2')) shapeCasts_S16384_S128x128) (m (d, a0'))) shapeCasts_S1x1_S_)
      (Host.reduceAdd (scBuf m d) (constant S_ .f32 0x00000000#32) reducesTo_S512_S_d0 h_S_))) (constant S_ .f32 0x38800000#32) := by
  have h : V4 m d v8' = mulf (Host.negf (addf (shapeCast _ (V3 m d v3') shapeCasts_S1x1_S_)
      (Host.reduceAdd (V3 m d v0') (constant S_ .f32 0x00000000#32) reducesTo_S512_S_d0 h_S_))) (constant S_ .f32 0x38800000#32) := by
    unfold V4; after_results <;> rfl
  rw [h, V3_v3, V3_v0, V2_v0, V1_v0]
  unfold Vt
  rw [V2_v1, V2_v2, V2_a0, V1_a0, V1_a1, V1_a2]

end Cert.KernelIdeal.Sc

end
-- ==== Proof.KScSetup.lean ====
/-
  The SparseCore side of the kernel as printed, as the launch theorem sees it: the program's configuration and
  variants, the resource algebra (the launch handshakes' rounds, the pipeline's staging cells' rounds, the local
  transfers' counters), the arrays as each kind of thread addresses them, and what the call's handshakes carry.

  The call hands each SparseCore a read share of `prob`, `target` and `reward` (all three are only read) and the
  sixteen 16-word pieces of the partial-sum array its tiles write: tile `(c, s)` is worker `w = 2 s + c`, reads rows
  `10240 + 192 w … + 191` of the three inputs in twelve chunks of sixteen rows and writes words `16 w … 16 w + 15`.
  Each tile hands its piece back at ONE whole-array function `scOut` of the launch contents: word `16 w + l` is the
  lane-`l` accumulator `((0 + v₀ r₀) + v₁ r₁) + … + v₁₁ r₁₁`, `v_k` the gathered entries `prob[row, target[row]]` of chunk
  `k`'s sixteen rows and `r_k` their rewards. Stated once for any float instance.
-/
import proofs.«207748_g59691455480232_cont_9to1c4b_13_25_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207748_g59691455480232_cont_9to1c4b_13_25_alg».proof.Proof.Gen.Kernel
import proofs.«207748_g59691455480232_cont_9to1c4b_13_25_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

abbrev pLoc (d : Dev nD) : Loc nD τ sig := (SparseCore.T d).loc main_arg0
abbrev tLoc (d : Dev nD) : Loc nD τ sig := (SparseCore.T d).loc main_arg1
abbrev rLoc (d : Dev nD) : Loc nD τ sig := (SparseCore.T d).loc main_arg2
abbrev oLoc (d : Dev nD) : Loc nD τ sig := (SparseCore.T d).loc main_v0

end Cert.Kernel.Sc

end
-- ==== Proof.KScVal.lean ====
/-
  The value one SparseCore tile computes, as a pure function of the three argument arrays.

  Worker `w` of 32 owns rows `10240 + 192 w … + 191`, in twelve chunks of sixteen rows: chunk `k`, lane `l` is row
  `10240 + 192 w + 16 k + l`. For each chunk it gathers, lane by lane, the table's entry of that row in the column the
  row's word names, multiplies by the row's weight and adds the product to a sixteen-lane accumulator that starts at
  zero: `((0 + g₀ r₀) + g₁ r₁) + … + g₁₁ r₁₁`. Word `16 w + l` of the output array is lane `l` of worker `w`'s
  accumulator. Stated for any float values.
-/
import proofs.«207748_g59691455480232_cont_9to1c4b_13_25_alg».proof.Proof.KScSetup
import proofs.«207748_g59691455480232_cont_9to1c4b_13_25_alg».proof.Proof.Gen.Kernel.Skeleton
import Idealize.ShloMosaic.Lib.ValueIdx

noncomputable section

namespace Cert.Kernel.ScVal

open Cert.Kernel Cert.Kernel.Gen Idealize.ShloMosaic Idealize.ShloMosaic.ValueIdx

variable {F : FTy → Type} [FloatOps F]

/-- Worker `w`, chunk `k`, lane `l`: the row. -/
def rowOf (w : Fin 32) (k : Fin 12) (l : Fin 16) : Fin 16384 := ⟨10240 + 192 * w.val + 16 * k.val + l.val, by omega⟩

/-- The column a word names (reduced below 1000, so that it is a column whatever the word). -/
def colOf (t : BitVec 32) : Fin 1000 := ⟨t.toNat % 1000, Nat.mod_lt _ (by decide)⟩

/-- Chunk `k` of worker `w`: per lane, the table's entry of the lane's row in the column its word names. -/
def gathered (prob : FVec F S16384x1000 .f32) (tgt : IVec S16384 32) (w : Fin 32) (k : Fin 12) : Vec F S16 .f32 :=
  fun x => prob (ix2 (rowOf w k (x 0)) (colOf (tgt (ix1 (rowOf w k (x 0))))))

/-- Chunk `k` of worker `w`: per lane, the row's weight. -/
def rewards (rew : FVec F S16384 .f32) (w : Fin 32) (k : Fin 12) : Vec F S16 .f32 :=
  fun x => rew (ix1 (rowOf w k (x 0)))

/-- Worker `w`'s accumulator after its twelve chunks, in the kernel's own order of additions. -/
def scAcc (prob : FVec F S16384x1000 .f32) (tgt : IVec S16384 32) (rew : FVec F S16384 .f32) (w : Fin 32) : FVec F S16 .f32 :=
  k0_pay1
    (k0_pay5
      (k0_pay4
        (k0_pay3 (k0_pay2 (gathered prob tgt w 0) (rewards rew w 0))
          (gathered prob tgt w 1) (rewards rew w 1) (gathered prob tgt w 2) (rewards rew w 2)
          (gathered prob tgt w 3) (rewards rew w 3))
        (gathered prob tgt w 4) (rewards rew w 4) (gathered prob tgt w 5) (rewards rew w 5)
        (gathered prob tgt w 6) (rewards rew w 6))
      (gathered prob tgt w 7) (rewards rew w 7) (gathered prob tgt w 8) (rewards rew w 8))
    (gathered prob tgt w 9) (rewards rew w 9) (gathered prob tgt w 10) (rewards rew w 10)
    (gathered prob tgt w 11) (rewards rew w 11)

/-- The 512-word output: word `j` is lane `j % 16` of worker `j / 16`'s accumulator. -/
def scOut (prob : FVec F S16384x1000 .f32) (tgt : IVec S16384 32) (rew : FVec F S16384 .f32) : FVec F S512 .f32 :=
  fun j => scAcc prob tgt rew ⟨(j 0).val / 16, by have h : (j 0).val < 512 := (j 0).isLt; omega⟩ (ix1 ⟨(j 0).val % 16, by omega⟩)

end Cert.Kernel.ScVal

end
-- ==== Proof.KScPay.lean ====
/-
  What the SparseCore call's handshakes carry.

  The three inputs are only read, so they travel as read shares: the TensorCore keeps a remainder of each and hands
  SparseCore `c` the token `qC c`; that SparseCore's sequencer keeps a remainder of its token and hands tile `i` the
  token `qT c i`. The partial-sum array is cut into its thirty-two 16-word pieces; piece `w = 2 s + c` goes to tile
  `(c, s)` whole, and comes back holding that piece of `scOut` of the launch contents: word `16 w + l` is lane `l` of
  worker `w`'s accumulator.
-/
import proofs.«207748_g59691455480232_cont_9to1c4b_13_25_alg».proof.Proof.KScSetup
import proofs.«207748_g59691455480232_cont_9to1c4b_13_25_alg».proof.Proof.KScVal

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "oV" => (Memref.whole Cert.Kernel.main_v0_scv : Memref Cert.Kernel.sig Kind.scVector Space.hbm Cert.Kernel.S512 EltTy.f32)

variable (m : (ℓ : Loc nD τ sig) → Buf (Elt F) ℓ) (ρ : Dev nD → PrngReg)

/-- Tile `(c, s)` is worker `2 s + c`. -/
def wid (c : Fin 2) (s : Fin 16) : Fin 32 := ⟨2 * s.val + c.val, by omega⟩

theorem odiv : 32 ∣ S512.size 0 := ⟨16, rfl⟩
/-- Piece `w` of the partial-sum array: words `16 w … 16 w + 15`. -/
abbrev orow (w : Fin 32) : Rect S512 := Rect.part (s := S512) (a₀ := 0) odiv w
abbrev oRowSet (w : Fin 32) : Finset S512.Idx := ((oV).view.slice (orow w)).set

/-- SparseCore `c`'s read token of an input, and tile `i`'s token of that. -/
abbrev qC (c : Fin 2) : PosShare TreeShare := Transfers.shareTok fullShare 2 c
abbrev qT (c : Fin 2) (i : Fin 16) : PosShare TreeShare := Transfers.shareTok (qC c) 16 i

variable [FloatOps F]

/-- The partial sums as one function of the launch contents of the three inputs. -/
def scBuf (d : Dev nD) : Buf (Elt F) (oLoc d) := ScVal.scOut (m (pLoc d)) (m (tLoc d)) (m (rLoc d))

abbrev pSh (d : Dev nD) (q : PosShare TreeShare) : sProp 𝕄 := pLoc d ↦{q} m (pLoc d)
abbrev tSh (d : Dev nD) (q : PosShare TreeShare) : sProp 𝕄 := tLoc d ↦{q} m (tLoc d)
abbrev rSh (d : Dev nD) (q : PosShare TreeShare) : sProp 𝕄 := rLoc d ↦{q} m (rLoc d)
abbrev oPts (d : Dev nD) (f : Buf (Elt F) (oLoc d)) : sProp 𝕄 := oLoc d ↦{fullShare} f
abbrev oRowPts (d : Dev nD) (w : Fin 32) (f : Buf (Elt F) (oLoc d)) : sProp 𝕄 := oLoc d ↦[oRowSet w]{fullShare} f

/-- The one call: per SparseCore its tokens of the inputs and its sixteen pieces; per tile its tokens and its piece;
    the pieces come back at `scBuf`. -/
def P : (K (F := F)).Pay (nD := nD) (Val := Elt F) (Name := ℕ) (U := UU) where
  st := fun q d c => match q with
    | 0 => iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (m (oLoc d)))
  dn := fun q d c => match q with
    | 0 => iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (scBuf m d))
  go := fun q d c i => match q with
    | 0 => iprop(pSh m d (qT (Fin.cast nCore_zero c) (Fin.cast nSub_zero i)) ∗ tSh m d (qT (Fin.cast nCore_zero c) (Fin.cast nSub_zero i))
        ∗ rSh m d (qT (Fin.cast nCore_zero c) (Fin.cast nSub_zero i))
        ∗ oRowPts d (wid (Fin.cast nCore_zero c) (Fin.cast nSub_zero i)) (m (oLoc d)))
  td := fun q d c i => match q with
    | 0 => iprop(pSh m d (qT (Fin.cast nCore_zero c) (Fin.cast nSub_zero i)) ∗ tSh m d (qT (Fin.cast nCore_zero c) (Fin.cast nSub_zero i))
        ∗ rSh m d (qT (Fin.cast nCore_zero c) (Fin.cast nSub_zero i))
        ∗ oRowPts d (wid (Fin.cast nCore_zero c) (Fin.cast nSub_zero i)) (scBuf m d))
  x := fun _ _ => iprop(emp)

instance P_storable : (P (F := F) m).IsStorable where
  st q d c := match q with
    | 0 => (inferInstance : BI.Storable (upEmb : UEmb _ 𝕄)
        iprop(pSh m d (qC (Fin.cast nCore_zero c)) ∗ tSh m d (qC (Fin.cast nCore_zero c)) ∗ rSh m d (qC (Fin.cast nCore_zero c))
          ∗ bigSep Finset.univ fun s : Fin 16 => oRowPts d (wid (Fin.cast nCore_zero c) s) (m (oLoc d))))
  dn q d c := match q with
    | 0 => (inferInstance : BI.Storable (upEmb : UEmb _ 𝕄)
        iprop(pSh m d (qC (Fin.cast nCore_zero c)) ∗ tSh m d (qC (Fin.cast nCore_zero c)) ∗ rSh m d (qC (Fin.cast nCore_zero c))
          ∗ bigSep Finset.univ fun s : Fin 16 => oRowPts d (wid (Fin.cast nCore_zero c) s) (scBuf m d)))
  go q d c i := match q with
    | 0 => (inferInstance : BI.Storable (upEmb : UEmb _ 𝕄)
        iprop(pSh m d (qT (Fin.cast nCore_zero c) (Fin.cast nSub_zero i)) ∗ tSh m d (qT (Fin.cast nCore_zero c) (Fin.cast nSub_zero i))
          ∗ rSh m d (qT (Fin.cast nCore_zero c) (Fin.cast nSub_zero i))
          ∗ oRowPts d (wid (Fin.cast nCore_zero c) (Fin.cast nSub_zero i)) (m (oLoc d))))
  td q d c i := match q with
    | 0 => (inferInstance : BI.Storable (upEmb : UEmb _ 𝕄)
        iprop(pSh m d (qT (Fin.cast nCore_zero c) (Fin.cast nSub_zero i)) ∗ tSh m d (qT (Fin.cast nCore_zero c) (Fin.cast nSub_zero i))
          ∗ rSh m d (qT (Fin.cast nCore_zero c) (Fin.cast nSub_zero i))
          ∗ oRowPts d (wid (Fin.cast nCore_zero c) (Fin.cast nSub_zero i)) (scBuf m d)))

end Cert.Kernel.Sc

end
-- ==== Proof.KScValLemmas.lean ====
/-
  One SparseCore tile's loads and stores, read as values.

  A tile first copies its 192 words and 192 weights into two local buffers; a load of sixteen of them at offset
  `16 k` reads the words (weights) of rows `10240 + 192 w + 16 k + lane`. Each chunk of sixteen table rows is copied
  into one of two local chunk buffers; the indexed load out of it at (lane, the lane's word) reads the table's entry
  of the lane's row in the column the word names. So the accumulator the tile stores is `scAcc`, and the sixteen words
  it copies out land in the output array at `16 w + lane`: the array agrees there with `scOut`.
-/
import proofs.«207748_g59691455480232_cont_9to1c4b_13_25_alg».proof.Proof.KScVal
import Idealize.ShloMosaic.Lib.Writes
import Idealize.ShloMosaic.Lib.Exec.Geometry

noncomputable section

namespace Cert.Kernel.ScVal

open Cert.Kernel Cert.Kernel.Gen Idealize.ShloMosaic Idealize.ShloMosaic.ValueIdx

variable {F : FTy → Type} [FloatOps F]

local notation "pV" => (Memref.whole Cert.Kernel.main_arg0_scv : Memref Cert.Kernel.sig Kind.scVector Space.hbm Cert.Kernel.S16384x1000 EltTy.f32)
local notation "tV" => (Memref.whole Cert.Kernel.main_arg1_scv : Memref Cert.Kernel.sig Kind.scVector Space.hbm Cert.Kernel.S16384 EltTy.i32)
local notation "rV" => (Memref.whole Cert.Kernel.main_arg2_scv : Memref Cert.Kernel.sig Kind.scVector Space.hbm Cert.Kernel.S16384 EltTy.f32)
local notation "oV" => (Memref.whole Cert.Kernel.main_v0_scv : Memref Cert.Kernel.sig Kind.scVector Space.hbm Cert.Kernel.S512 EltTy.f32)
local notation "s0V" => (Memref.whole Cert.Kernel.cc0_scratch0 : Memref Cert.Kernel.sig Kind.scVector Space.vmem Cert.Kernel.S192 EltTy.i32)
local notation "s1V" => (Memref.whole Cert.Kernel.cc0_scratch1 : Memref Cert.Kernel.sig Kind.scVector Space.vmem Cert.Kernel.S192 EltTy.f32)
local notation "s2V" => (Memref.whole Cert.Kernel.cc0_scratch2 : Memref Cert.Kernel.sig Kind.scVector Space.vmem Cert.Kernel.S16x1000 EltTy.f32)
local notation "s3V" => (Memref.whole Cert.Kernel.cc0_scratch3 : Memref Cert.Kernel.sig Kind.scVector Space.vmem Cert.Kernel.S16x1000 EltTy.f32)
local notation "s4V" => (Memref.whole Cert.Kernel.cc0_scratch4 : Memref Cert.Kernel.sig Kind.scVector Space.vmem Cert.Kernel.S16 EltTy.f32)

/-! ## The worker's rows -/

/-- The lane counter reads back as the lane. -/
theorem iota_toNat (x : S16.Idx) : (iota .scVector S16 32 [0] iota_S16_d0_w32_scVector x).toNat = (x 0).val := by
  have h16 : (x 0).val < 16 := (x 0).isLt
  simp only [iota, List.foldl_cons, List.foldl_nil, Nat.zero_mul, Nat.zero_add, BitVec.toNat_ofNat]
  omega

/-- A load of sixteen words at offset `16 k` of the local copy of the worker's 192 words: the words of chunk `k`'s rows. -/
theorem tgt_read (L : grid0.Coords) (w : Fin 32) (hw : w.val = 2 * (L 1).val + (L 0).val) (k : Fin 12)
    (off : Fin 1 → Nat) (hoff : off = ![16 * k.val]) (hin : ∀ a, off a + S16.size a ≤ S192.size a)
    (f0 : (s0V).view.ty.Contents (Elt F)) (T0 : S192.Idx → Elt F .i32) (tgtBuf : IVec S16384 32)
    (hT0 : T0 = ((tV).slice (Rect.unit (s := S16384) (k0_off1 L) S192.size (k0_off1_inb L)) (fun _ => rfl)).view.read (Elt F) tgtBuf)
    (x : S16.Idx) :
    (s0V).view.readAt (Elt F) (Rect.unit (s := S192) off S16.size hin).toLoadRect (View.write (Elt F) (s0V).view f0 T0 Finset.univ) x
      = tgtBuf (ix1 (rowOf w k (x 0))) := by
  subst hT0 hoff
  rw [View.write_whole_univ]
  simp only [View.readAt_apply, Memref.view_whole, View.read_whole]
  rw [View.read_apply, cast_eq]
  refine congrArg tgtBuf ((eq_ix1 _).trans (congrArg ix1 (Fin.ext ?_)))
  show k0_off1 L 0 + 1 * (16 * k.val + 1 * (x 0).val) = 10240 + 192 * w.val + 16 * k.val + (x 0).val
  rw [k0_off1_eq]
  show 384 * (L 1).val + 192 * (L 0).val + 10240 + 1 * (16 * k.val + 1 * (x 0).val) = _
  omega

/-- The same for the weights. -/
theorem rew_read (L : grid0.Coords) (w : Fin 32) (hw : w.val = 2 * (L 1).val + (L 0).val) (k : Fin 12)
    (off : Fin 1 → Nat) (hoff : off = ![16 * k.val]) (hin : ∀ a, off a + S16.size a ≤ S192.size a)
    (f1 : (s1V).view.ty.Contents (Elt F)) (R0 : S192.Idx → Elt F .f32) (rewBuf : FVec F S16384 .f32)
    (hR0 : R0 = ((rV).slice (Rect.unit (s := S16384) (k0_off1 L) S192.size (k0_off1_inb L)) (fun _ => rfl)).view.read (Elt F) rewBuf)
    (x : S16.Idx) :
    (s1V).view.readAt (Elt F) (Rect.unit (s := S192) off S16.size hin).toLoadRect (View.write (Elt F) (s1V).view f1 R0 Finset.univ) x
      = rewBuf (ix1 (rowOf w k (x 0))) := by
  subst hR0 hoff
  rw [View.write_whole_univ]
  simp only [View.readAt_apply, Memref.view_whole, View.read_whole]
  rw [View.read_apply, cast_eq]
  refine congrArg rewBuf ((eq_ix1 _).trans (congrArg ix1 (Fin.ext ?_)))
  show k0_off1 L 0 + 1 * (16 * k.val + 1 * (x 0).val) = 10240 + 192 * w.val + 16 * k.val + (x 0).val
  rw [k0_off1_eq]
  show 384 * (L 1).val + 192 * (L 0).val + 10240 + 1 * (16 * k.val + 1 * (x 0).val) = _
  omega

/-! ## The gather -/

/-- The gather out of a staged chunk (through `the first` chunk buffer): lane `x` reads the chunk's row `x` at the column the lane's
    word names, which is the table's entry of the lane's row in that column. -/
theorem gather_read2 (w : Fin 32) (k : Fin 12)
    (offp : Fin 2 → Nat) (hoffp : offp = ![10240 + 192 * w.val + 16 * k.val, 0])
    (hinp : ∀ a, offp a + S16x1000.size a ≤ S16384x1000.size a)
    (g : (s2V).view.ty.Contents (Elt F)) (C : S16x1000.Idx → Elt F .f32) (probBuf : FVec F S16384x1000 .f32)
    (hC : C = ((pV).slice (Rect.unit (s := S16384x1000) offp S16x1000.size hinp) (fun _ => rfl)).view.read (Elt F) probBuf)
    (v4 : IVec S16 32) (hv4 : v4 = iota .scVector S16 32 [0] iota_S16_d0_w32_scVector)
    (t : IVec S16 32) (tgtBuf : IVec S16384 32) (ht : ∀ x, t x = tgtBuf (ix1 (rowOf w k (x 0))))
    (hpre : ∀ j, (tgtBuf j).toNat < 1000)
    (h : ∀ a x, ((![v4, t] : Fin 2 → IVec S16 32) a x).toNat < S16x1000.size a) :
    loadIdx (View.read (Elt F) ((s2V).access (Rect.whole _)) (View.write (Elt F) (s2V).view g C Finset.univ)) ![v4, t] h
      = gathered probBuf tgtBuf w k := by
  subst hC hoffp hv4
  funext x
  unfold loadIdx
  rw [View.write_whole_univ, View.read_apply, cast_eq, View.read_apply, cast_eq]
  unfold gathered
  refine congrArg probBuf ((eq_ix2 _).trans (congrArg₂ ix2 (Fin.ext ?_) (Fin.ext ?_)))
  · show 10240 + 192 * w.val + 16 * k.val + 1 * (0 + 1 * (iota .scVector S16 32 [0] iota_S16_d0_w32_scVector x).toNat)
        = 10240 + 192 * w.val + 16 * k.val + (x 0).val
    rw [iota_toNat]; omega
  · show 0 + 1 * (0 + 1 * (t x).toNat) = (tgtBuf (ix1 (rowOf w k (x 0)))).toNat % 1000
    rw [ht x, Nat.mod_eq_of_lt (hpre _)]; omega

/-- The gather out of a staged chunk (through `the second` chunk buffer): lane `x` reads the chunk's row `x` at the column the lane's
    word names, which is the table's entry of the lane's row in that column. -/
theorem gather_read3 (w : Fin 32) (k : Fin 12)
    (offp : Fin 2 → Nat) (hoffp : offp = ![10240 + 192 * w.val + 16 * k.val, 0])
    (hinp : ∀ a, offp a + S16x1000.size a ≤ S16384x1000.size a)
    (g : (s3V).view.ty.Contents (Elt F)) (C : S16x1000.Idx → Elt F .f32) (probBuf : FVec F S16384x1000 .f32)
    (hC : C = ((pV).slice (Rect.unit (s := S16384x1000) offp S16x1000.size hinp) (fun _ => rfl)).view.read (Elt F) probBuf)
    (v4 : IVec S16 32) (hv4 : v4 = iota .scVector S16 32 [0] iota_S16_d0_w32_scVector)
    (t : IVec S16 32) (tgtBuf : IVec S16384 32) (ht : ∀ x, t x = tgtBuf (ix1 (rowOf w k (x 0))))
    (hpre : ∀ j, (tgtBuf j).toNat < 1000)
    (h : ∀ a x, ((![v4, t] : Fin 2 → IVec S16 32) a x).toNat < S16x1000.size a) :
    loadIdx (View.read (Elt F) ((s3V).access (Rect.whole _)) (View.write (Elt F) (s3V).view g C Finset.univ)) ![v4, t] h
      = gathered probBuf tgtBuf w k := by
  subst hC hoffp hv4
  funext x
  unfold loadIdx
  rw [View.write_whole_univ, View.read_apply, cast_eq, View.read_apply, cast_eq]
  unfold gathered
  refine congrArg probBuf ((eq_ix2 _).trans (congrArg₂ ix2 (Fin.ext ?_) (Fin.ext ?_)))
  · show 10240 + 192 * w.val + 16 * k.val + 1 * (0 + 1 * (iota .scVector S16 32 [0] iota_S16_d0_w32_scVector x).toNat)
        = 10240 + 192 * w.val + 16 * k.val + (x 0).val
    rw [iota_toNat]; omega
  · show 0 + 1 * (0 + 1 * (t x).toNat) = (tgtBuf (ix1 (rowOf w k (x 0)))).toNat % 1000
    rw [ht x, Nat.mod_eq_of_lt (hpre _)]; omega

/-! ## The twelve chunks' first rows, in closed form -/

theorem chunk_off_0 (L : grid0.Coords) (w : Fin 32) (hw : w.val = 2 * (L 1).val + (L 0).val) :
    k0_off2 L 0#32 = ![10240 + 192 * w.val + 16 * (0 : Fin 12).val, 0] := by
  refine (k0_off2_eq L ⟨0, by decide⟩).trans ?_
  show (![384 * (L 1).val + 192 * (L 0).val + 16 * 0 + 10240, 0] : Fin 2 → Nat) = ![10240 + 192 * w.val + 16 * 0, 0]
  rw [hw]
  exact congrArg (fun n : Nat => (![n, 0] : Fin 2 → Nat)) (by omega)

theorem chunk_off_1 (L : grid0.Coords) (w : Fin 32) (hw : w.val = 2 * (L 1).val + (L 0).val) :
    k0_off2 L 16#32 = ![10240 + 192 * w.val + 16 * (1 : Fin 12).val, 0] := by
  refine (k0_off2_eq L ⟨1, by decide⟩).trans ?_
  show (![384 * (L 1).val + 192 * (L 0).val + 16 * 1 + 10240, 0] : Fin 2 → Nat) = ![10240 + 192 * w.val + 16 * 1, 0]
  rw [hw]
  exact congrArg (fun n : Nat => (![n, 0] : Fin 2 → Nat)) (by omega)

theorem chunk_off_2 (L : grid0.Coords) (w : Fin 32) (hw : w.val = 2 * (L 1).val + (L 0).val) :
    k0_off3 L 32#32 = ![10240 + 192 * w.val + 16 * (2 : Fin 12).val, 0] := by
  refine (k0_off3_eq L ⟨1, by decide⟩).trans ?_
  show (![384 * (L 1).val + 192 * (L 0).val + 16 * 1 + 10256, 0] : Fin 2 → Nat) = ![10240 + 192 * w.val + 16 * 2, 0]
  rw [hw]
  exact congrArg (fun n : Nat => (![n, 0] : Fin 2 → Nat)) (by omega)

theorem chunk_off_3 (L : grid0.Coords) (w : Fin 32) (hw : w.val = 2 * (L 1).val + (L 0).val) :
    k0_off4 L 48#32 = ![10240 + 192 * w.val + 16 * (3 : Fin 12).val, 0] := by
  refine (k0_off4_eq L ⟨1, by decide⟩).trans ?_
  show (![384 * (L 1).val + 192 * (L 0).val + 16 * 1 + 10272, 0] : Fin 2 → Nat) = ![10240 + 192 * w.val + 16 * 3, 0]
  rw [hw]
  exact congrArg (fun n : Nat => (![n, 0] : Fin 2 → Nat)) (by omega)

theorem chunk_off_4 (L : grid0.Coords) (w : Fin 32) (hw : w.val = 2 * (L 1).val + (L 0).val) :
    k0_off5 L 64#32 = ![10240 + 192 * w.val + 16 * (4 : Fin 12).val, 0] := by
  refine (k0_off5_eq L ⟨1, by decide⟩).trans ?_
  show (![384 * (L 1).val + 192 * (L 0).val + 16 * 1 + 10288, 0] : Fin 2 → Nat) = ![10240 + 192 * w.val + 16 * 4, 0]
  rw [hw]
  exact congrArg (fun n : Nat => (![n, 0] : Fin 2 → Nat)) (by omega)

theorem chunk_off_5 (L : grid0.Coords) (w : Fin 32) (hw : w.val = 2 * (L 1).val + (L 0).val) :
    k0_off6 L 80#32 = ![10240 + 192 * w.val + 16 * (5 : Fin 12).val, 0] := by
  refine (k0_off6_eq L ⟨1, by decide⟩).trans ?_
  show (![384 * (L 1).val + 192 * (L 0).val + 16 * 1 + 10304, 0] : Fin 2 → Nat) = ![10240 + 192 * w.val + 16 * 5, 0]
  rw [hw]
  exact congrArg (fun n : Nat => (![n, 0] : Fin 2 → Nat)) (by omega)

theorem chunk_off_6 (L : grid0.Coords) (w : Fin 32) (hw : w.val = 2 * (L 1).val + (L 0).val) :
    k0_off7 L 96#32 = ![10240 + 192 * w.val + 16 * (6 : Fin 12).val, 0] := by
  refine (k0_off7_eq L ⟨1, by decide⟩).trans ?_
  show (![384 * (L 1).val + 192 * (L 0).val + 16 * 1 + 10320, 0] : Fin 2 → Nat) = ![10240 + 192 * w.val + 16 * 6, 0]
  rw [hw]
  exact congrArg (fun n : Nat => (![n, 0] : Fin 2 → Nat)) (by omega)

theorem chunk_off_7 (L : grid0.Coords) (w : Fin 32) (hw : w.val = 2 * (L 1).val + (L 0).val) :
    k0_off8 L 112#32 = ![10240 + 192 * w.val + 16 * (7 : Fin 12).val, 0] := by
  refine (k0_off8_eq L ⟨1, by decide⟩).trans ?_
  show (![384 * (L 1).val + 192 * (L 0).val + 16 * 1 + 10336, 0] : Fin 2 → Nat) = ![10240 + 192 * w.val + 16 * 7, 0]
  rw [hw]
  exact congrArg (fun n : Nat => (![n, 0] : Fin 2 → Nat)) (by omega)

theorem chunk_off_8 (L : grid0.Coords) (w : Fin 32) (hw : w.val = 2 * (L 1).val + (L 0).val) :
    k0_off9 L 128#32 = ![10240 + 192 * w.val + 16 * (8 : Fin 12).val, 0] := by
  refine (k0_off9_eq L ⟨1, by decide⟩).trans ?_
  show (![384 * (L 1).val + 192 * (L 0).val + 16 * 1 + 10352, 0] : Fin 2 → Nat) = ![10240 + 192 * w.val + 16 * 8, 0]
  rw [hw]
  exact congrArg (fun n : Nat => (![n, 0] : Fin 2 → Nat)) (by omega)

theorem chunk_off_9 (L : grid0.Coords) (w : Fin 32) (hw : w.val = 2 * (L 1).val + (L 0).val) :
    k0_off10 L 144#32 = ![10240 + 192 * w.val + 16 * (9 : Fin 12).val, 0] := by
  refine (k0_off10_eq L ⟨1, by decide⟩).trans ?_
  show (![384 * (L 1).val + 192 * (L 0).val + 16 * 1 + 10368, 0] : Fin 2 → Nat) = ![10240 + 192 * w.val + 16 * 9, 0]
  rw [hw]
  exact congrArg (fun n : Nat => (![n, 0] : Fin 2 → Nat)) (by omega)

theorem chunk_off_10 (L : grid0.Coords) (w : Fin 32) (hw : w.val = 2 * (L 1).val + (L 0).val) :
    k0_off11 L 160#32 = ![10240 + 192 * w.val + 16 * (10 : Fin 12).val, 0] := by
  refine (k0_off11_eq L ⟨1, by decide⟩).trans ?_
  show (![384 * (L 1).val + 192 * (L 0).val + 16 * 1 + 10384, 0] : Fin 2 → Nat) = ![10240 + 192 * w.val + 16 * 10, 0]
  rw [hw]
  exact congrArg (fun n : Nat => (![n, 0] : Fin 2 → Nat)) (by omega)

theorem chunk_off_11 (L : grid0.Coords) (w : Fin 32) (hw : w.val = 2 * (L 1).val + (L 0).val) :
    k0_off12 L 176#32 = ![10240 + 192 * w.val + 16 * (11 : Fin 12).val, 0] := by
  refine (k0_off12_eq L ⟨1, by decide⟩).trans ?_
  show (![384 * (L 1).val + 192 * (L 0).val + 16 * 1 + 10400, 0] : Fin 2 → Nat) = ![10240 + 192 * w.val + 16 * 11, 0]
  rw [hw]
  exact congrArg (fun n : Nat => (![n, 0] : Fin 2 → Nat)) (by omega)

/-! ## The stored accumulator -/

/-- The accumulator over VARIABLES for the twelve gathered vectors and weight vectors: when each is the chunk's, it is `scAcc`. -/
theorem stored_eq_vars (prob : FVec F S16384x1000 .f32) (tgt : IVec S16384 32) (rew : FVec F S16384 .f32) (w : Fin 32)
    (V R : Fin 12 → Vec F S16 .f32) (hV : ∀ k, V k = gathered prob tgt w k) (hR : ∀ k, R k = rewards rew w k) :
    k0_pay1
      (k0_pay5
        (k0_pay4
          (k0_pay3 (k0_pay2 (V 0) (R 0)) (V 1) (R 1) (V 2) (R 2) (V 3) (R 3))
          (V 4) (R 4) (V 5) (R 5) (V 6) (R 6))
        (V 7) (R 7) (V 8) (R 8))
      (V 9) (R 9) (V 10) (R 10) (V 11) (R 11) = scAcc prob tgt rew w := by
  simp only [hV, hR]
  rfl

set_option maxHeartbeats 4000000 in
/-- The accumulator the tile stores, over the loads as the run leaves them, is `scAcc` of the three argument arrays. -/
theorem stored_eq (L : grid0.Coords) (w : Fin 32) (hw : w.val = 2 * (L 1).val + (L 0).val)
    (probBuf : FVec F S16384x1000 .f32) (tgtBuf : IVec S16384 32) (rewBuf : FVec F S16384 .f32)
    (hpre : ∀ j, (tgtBuf j).toNat < 1000)
    (f0 : (s0V).view.ty.Contents (Elt F)) (T0 : S192.Idx → Elt F .i32)
    (hT0 : T0 = ((tV).slice (Rect.unit (s := S16384) (k0_off1 L) S192.size (k0_off1_inb L)) (fun _ => rfl)).view.read (Elt F) tgtBuf)
    (f1 : (s1V).view.ty.Contents (Elt F)) (R0 : S192.Idx → Elt F .f32)
    (hR0 : R0 = ((rV).slice (Rect.unit (s := S16384) (k0_off1 L) S192.size (k0_off1_inb L)) (fun _ => rfl)).view.read (Elt F) rewBuf)
    (v4 : IVec S16 32) (hv4 : v4 = iota .scVector S16 32 [0] iota_S16_d0_w32_scVector)
    (G0 : (s2V).view.ty.Contents (Elt F)) (C0 : S16x1000.Idx → Elt F .f32)
    (hC0 : C0 = ((pV).slice (Rect.unit (s := S16384x1000) (k0_off2 L 0#32) S16x1000.size (k0_off2_inb L 0)) (fun _ => rfl)).view.read (Elt F) probBuf)
    (h0 : ∀ a x, ((![v4, ((s0V).view.readAt (Elt F) (Rect.unit (s := S192) ![0] S16.size inb_S192_S16_0).toLoadRect (View.write (Elt F) (s0V).view f0 T0 Finset.univ))] : Fin 2 → IVec S16 32) a x).toNat < S16x1000.size a)
    (G1 : (s3V).view.ty.Contents (Elt F)) (C1 : S16x1000.Idx → Elt F .f32)
    (hC1 : C1 = ((pV).slice (Rect.unit (s := S16384x1000) (k0_off2 L 16#32) S16x1000.size (k0_off2_inb L 1)) (fun _ => rfl)).view.read (Elt F) probBuf)
    (h1 : ∀ a x, ((![v4, ((s0V).view.readAt (Elt F) (Rect.unit (s := S192) ![16] S16.size inb_S192_S16_16).toLoadRect (View.write (Elt F) (s0V).view f0 T0 Finset.univ))] : Fin 2 → IVec S16 32) a x).toNat < S16x1000.size a)
    (G2 : (s2V).view.ty.Contents (Elt F)) (C2 : S16x1000.Idx → Elt F .f32)
    (hC2 : C2 = ((pV).slice (Rect.unit (s := S16384x1000) (k0_off3 L 32#32) S16x1000.size (k0_off3_inb L 1)) (fun _ => rfl)).view.read (Elt F) probBuf)
    (h2 : ∀ a x, ((![v4, ((s0V).view.readAt (Elt F) (Rect.unit (s := S192) ![32] S16.size inb_S192_S16_32).toLoadRect (View.write (Elt F) (s0V).view f0 T0 Finset.univ))] : Fin 2 → IVec S16 32) a x).toNat < S16x1000.size a)
    (G3 : (s3V).view.ty.Contents (Elt F)) (C3 : S16x1000.Idx → Elt F .f32)
    (hC3 : C3 = ((pV).slice (Rect.unit (s := S16384x1000) (k0_off4 L 48#32) S16x1000.size (k0_off4_inb L 1)) (fun _ => rfl)).view.read (Elt F) probBuf)
    (h3 : ∀ a x, ((![v4, ((s0V).view.readAt (Elt F) (Rect.unit (s := S192) ![48] S16.size inb_S192_S16_48).toLoadRect (View.write (Elt F) (s0V).view f0 T0 Finset.univ))] : Fin 2 → IVec S16 32) a x).toNat < S16x1000.size a)
    (G4 : (s2V).view.ty.Contents (Elt F)) (C4 : S16x1000.Idx → Elt F .f32)
    (hC4 : C4 = ((pV).slice (Rect.unit (s := S16384x1000) (k0_off5 L 64#32) S16x1000.size (k0_off5_inb L 1)) (fun _ => rfl)).view.read (Elt F) probBuf)
    (h4 : ∀ a x, ((![v4, ((s0V).view.readAt (Elt F) (Rect.unit (s := S192) ![64] S16.size inb_S192_S16_64).toLoadRect (View.write (Elt F) (s0V).view f0 T0 Finset.univ))] : Fin 2 → IVec S16 32) a x).toNat < S16x1000.size a)
    (G5 : (s3V).view.ty.Contents (Elt F)) (C5 : S16x1000.Idx → Elt F .f32)
    (hC5 : C5 = ((pV).slice (Rect.unit (s := S16384x1000) (k0_off6 L 80#32) S16x1000.size (k0_off6_inb L 1)) (fun _ => rfl)).view.read (Elt F) probBuf)
    (h5 : ∀ a x, ((![v4, ((s0V).view.readAt (Elt F) (Rect.unit (s := S192) ![80] S16.size inb_S192_S16_80).toLoadRect (View.write (Elt F) (s0V).view f0 T0 Finset.univ))] : Fin 2 → IVec S16 32) a x).toNat < S16x1000.size a)
    (G6 : (s2V).view.ty.Contents (Elt F)) (C6 : S16x1000.Idx → Elt F .f32)
    (hC6 : C6 = ((pV).slice (Rect.unit (s := S16384x1000) (k0_off7 L 96#32) S16x1000.size (k0_off7_inb L 1)) (fun _ => rfl)).view.read (Elt F) probBuf)
    (h6 : ∀ a x, ((![v4, ((s0V).view.readAt (Elt F) (Rect.unit (s := S192) ![96] S16.size inb_S192_S16_96).toLoadRect (View.write (Elt F) (s0V).view f0 T0 Finset.univ))] : Fin 2 → IVec S16 32) a x).toNat < S16x1000.size a)
    (G7 : (s3V).view.ty.Contents (Elt F)) (C7 : S16x1000.Idx → Elt F .f32)
    (hC7 : C7 = ((pV).slice (Rect.unit (s := S16384x1000) (k0_off8 L 112#32) S16x1000.size (k0_off8_inb L 1)) (fun _ => rfl)).view.read (Elt F) probBuf)
    (h7 : ∀ a x, ((![v4, ((s0V).view.readAt (Elt F) (Rect.unit (s := S192) ![112] S16.size inb_S192_S16_112).toLoadRect (View.write (Elt F) (s0V).view f0 T0 Finset.univ))] : Fin 2 → IVec S16 32) a x).toNat < S16x1000.size a)
    (G8 : (s2V).view.ty.Contents (Elt F)) (C8 : S16x1000.Idx → Elt F .f32)
    (hC8 : C8 = ((pV).slice (Rect.unit (s := S16384x1000) (k0_off9 L 128#32) S16x1000.size (k0_off9_inb L 1)) (fun _ => rfl)).view.read (Elt F) probBuf)
    (h8 : ∀ a x, ((![v4, ((s0V).view.readAt (Elt F) (Rect.unit (s := S192) ![128] S16.size inb_S192_S16_128).toLoadRect (View.write (Elt F) (s0V).view f0 T0 Finset.univ))] : Fin 2 → IVec S16 32) a x).toNat < S16x1000.size a)
    (G9 : (s3V).view.ty.Contents (Elt F)) (C9 : S16x1000.Idx → Elt F .f32)
    (hC9 : C9 = ((pV).slice (Rect.unit (s := S16384x1000) (k0_off10 L 144#32) S16x1000.size (k0_off10_inb L 1)) (fun _ => rfl)).view.read (Elt F) probBuf)
    (h9 : ∀ a x, ((![v4, ((s0V).view.readAt (Elt F) (Rect.unit (s := S192) ![144] S16.size inb_S192_S16_144).toLoadRect (View.write (Elt F) (s0V).view f0 T0 Finset.univ))] : Fin 2 → IVec S16 32) a x).toNat < S16x1000.size a)
    (G10 : (s2V).view.ty.Contents (Elt F)) (C10 : S16x1000.Idx → Elt F .f32)
    (hC10 : C10 = ((pV).slice (Rect.unit (s := S16384x1000) (k0_off11 L 160#32) S16x1000.size (k0_off11_inb L 1)) (fun _ => rfl)).view.read (Elt F) probBuf)
    (h10 : ∀ a x, ((![v4, ((s0V).view.readAt (Elt F) (Rect.unit (s := S192) ![160] S16.size inb_S192_S16_160).toLoadRect (View.write (Elt F) (s0V).view f0 T0 Finset.univ))] : Fin 2 → IVec S16 32) a x).toNat < S16x1000.size a)
    (G11 : (s3V).view.ty.Contents (Elt F)) (C11 : S16x1000.Idx → Elt F .f32)
    (hC11 : C11 = ((pV).slice (Rect.unit (s := S16384x1000) (k0_off12 L 176#32) S16x1000.size (k0_off12_inb L 1)) (fun _ => rfl)).view.read (Elt F) probBuf)
    (h11 : ∀ a x, ((![v4, ((s0V).view.readAt (Elt F) (Rect.unit (s := S192) ![176] S16.size inb_S192_S16_176).toLoadRect (View.write (Elt F) (s0V).view f0 T0 Finset.univ))] : Fin 2 → IVec S16 32) a x).toNat < S16x1000.size a) :
    k0_pay1
      (k0_pay5
        (k0_pay4
          (k0_pay3 (k0_pay2 (loadIdx (View.read (Elt F) ((s2V).access (Rect.whole _)) (View.write (Elt F) (s2V).view G0 C0 Finset.univ)) ![v4, ((s0V).view.readAt (Elt F) (Rect.unit (s := S192) ![0] S16.size inb_S192_S16_0).toLoadRect (View.write (Elt F) (s0V).view f0 T0 Finset.univ))] h0) ((s1V).view.readAt (Elt F) (Rect.unit (s := S192) ![0] S16.size inb_S192_S16_0).toLoadRect (View.write (Elt F) (s1V).view f1 R0 Finset.univ)))
            (loadIdx (View.read (Elt F) ((s3V).access (Rect.whole _)) (View.write (Elt F) (s3V).view G1 C1 Finset.univ)) ![v4, ((s0V).view.readAt (Elt F) (Rect.unit (s := S192) ![16] S16.size inb_S192_S16_16).toLoadRect (View.write (Elt F) (s0V).view f0 T0 Finset.univ))] h1) ((s1V).view.readAt (Elt F) (Rect.unit (s := S192) ![16] S16.size inb_S192_S16_16).toLoadRect (View.write (Elt F) (s1V).view f1 R0 Finset.univ))
            (loadIdx (View.read (Elt F) ((s2V).access (Rect.whole _)) (View.write (Elt F) (s2V).view G2 C2 Finset.univ)) ![v4, ((s0V).view.readAt (Elt F) (Rect.unit (s := S192) ![32] S16.size inb_S192_S16_32).toLoadRect (View.write (Elt F) (s0V).view f0 T0 Finset.univ))] h2) ((s1V).view.readAt (Elt F) (Rect.unit (s := S192) ![32] S16.size inb_S192_S16_32).toLoadRect (View.write (Elt F) (s1V).view f1 R0 Finset.univ))
            (loadIdx (View.read (Elt F) ((s3V).access (Rect.whole _)) (View.write (Elt F) (s3V).view G3 C3 Finset.univ)) ![v4, ((s0V).view.readAt (Elt F) (Rect.unit (s := S192) ![48] S16.size inb_S192_S16_48).toLoadRect (View.write (Elt F) (s0V).view f0 T0 Finset.univ))] h3) ((s1V).view.readAt (Elt F) (Rect.unit (s := S192) ![48] S16.size inb_S192_S16_48).toLoadRect (View.write (Elt F) (s1V).view f1 R0 Finset.univ)))
          (loadIdx (View.read (Elt F) ((s2V).access (Rect.whole _)) (View.write (Elt F) (s2V).view G4 C4 Finset.univ)) ![v4, ((s0V).view.readAt (Elt F) (Rect.unit (s := S192) ![64] S16.size inb_S192_S16_64).toLoadRect (View.write (Elt F) (s0V).view f0 T0 Finset.univ))] h4) ((s1V).view.readAt (Elt F) (Rect.unit (s := S192) ![64] S16.size inb_S192_S16_64).toLoadRect (View.write (Elt F) (s1V).view f1 R0 Finset.univ))
          (loadIdx (View.read (Elt F) ((s3V).access (Rect.whole _)) (View.write (Elt F) (s3V).view G5 C5 Finset.univ)) ![v4, ((s0V).view.readAt (Elt F) (Rect.unit (s := S192) ![80] S16.size inb_S192_S16_80).toLoadRect (View.write (Elt F) (s0V).view f0 T0 Finset.univ))] h5) ((s1V).view.readAt (Elt F) (Rect.unit (s := S192) ![80] S16.size inb_S192_S16_80).toLoadRect (View.write (Elt F) (s1V).view f1 R0 Finset.univ))
          (loadIdx (View.read (Elt F) ((s2V).access (Rect.whole _)) (View.write (Elt F) (s2V).view G6 C6 Finset.univ)) ![v4, ((s0V).view.readAt (Elt F) (Rect.unit (s := S192) ![96] S16.size inb_S192_S16_96).toLoadRect (View.write (Elt F) (s0V).view f0 T0 Finset.univ))] h6) ((s1V).view.readAt (Elt F) (Rect.unit (s := S192) ![96] S16.size inb_S192_S16_96).toLoadRect (View.write (Elt F) (s1V).view f1 R0 Finset.univ)))
        (loadIdx (View.read (Elt F) ((s3V).access (Rect.whole _)) (View.write (Elt F) (s3V).view G7 C7 Finset.univ)) ![v4, ((s0V).view.readAt (Elt F) (Rect.unit (s := S192) ![112] S16.size inb_S192_S16_112).toLoadRect (View.write (Elt F) (s0V).view f0 T0 Finset.univ))] h7) ((s1V).view.readAt (Elt F) (Rect.unit (s := S192) ![112] S16.size inb_S192_S16_112).toLoadRect (View.write (Elt F) (s1V).view f1 R0 Finset.univ))
        (loadIdx (View.read (Elt F) ((s2V).access (Rect.whole _)) (View.write (Elt F) (s2V).view G8 C8 Finset.univ)) ![v4, ((s0V).view.readAt (Elt F) (Rect.unit (s := S192) ![128] S16.size inb_S192_S16_128).toLoadRect (View.write (Elt F) (s0V).view f0 T0 Finset.univ))] h8) ((s1V).view.readAt (Elt F) (Rect.unit (s := S192) ![128] S16.size inb_S192_S16_128).toLoadRect (View.write (Elt F) (s1V).view f1 R0 Finset.univ)))
      (loadIdx (View.read (Elt F) ((s3V).access (Rect.whole _)) (View.write (Elt F) (s3V).view G9 C9 Finset.univ)) ![v4, ((s0V).view.readAt (Elt F) (Rect.unit (s := S192) ![144] S16.size inb_S192_S16_144).toLoadRect (View.write (Elt F) (s0V).view f0 T0 Finset.univ))] h9) ((s1V).view.readAt (Elt F) (Rect.unit (s := S192) ![144] S16.size inb_S192_S16_144).toLoadRect (View.write (Elt F) (s1V).view f1 R0 Finset.univ))
      (loadIdx (View.read (Elt F) ((s2V).access (Rect.whole _)) (View.write (Elt F) (s2V).view G10 C10 Finset.univ)) ![v4, ((s0V).view.readAt (Elt F) (Rect.unit (s := S192) ![160] S16.size inb_S192_S16_160).toLoadRect (View.write (Elt F) (s0V).view f0 T0 Finset.univ))] h10) ((s1V).view.readAt (Elt F) (Rect.unit (s := S192) ![160] S16.size inb_S192_S16_160).toLoadRect (View.write (Elt F) (s1V).view f1 R0 Finset.univ))
      (loadIdx (View.read (Elt F) ((s3V).access (Rect.whole _)) (View.write (Elt F) (s3V).view G11 C11 Finset.univ)) ![v4, ((s0V).view.readAt (Elt F) (Rect.unit (s := S192) ![176] S16.size inb_S192_S16_176).toLoadRect (View.write (Elt F) (s0V).view f0 T0 Finset.univ))] h11) ((s1V).view.readAt (Elt F) (Rect.unit (s := S192) ![176] S16.size inb_S192_S16_176).toLoadRect (View.write (Elt F) (s1V).view f1 R0 Finset.univ))
      = scAcc probBuf tgtBuf rewBuf w := by
  have eV0 : (loadIdx (View.read (Elt F) ((s2V).access (Rect.whole _)) (View.write (Elt F) (s2V).view G0 C0 Finset.univ)) ![v4, ((s0V).view.readAt (Elt F) (Rect.unit (s := S192) ![0] S16.size inb_S192_S16_0).toLoadRect (View.write (Elt F) (s0V).view f0 T0 Finset.univ))] h0) = gathered probBuf tgtBuf w 0 :=
    gather_read2 w 0 _ (chunk_off_0 L w hw) _ G0 C0 probBuf hC0 v4 hv4 _ tgtBuf
      (fun x => tgt_read L w hw 0 _ rfl _ f0 T0 tgtBuf hT0 x) hpre h0
  have eR0 : ((s1V).view.readAt (Elt F) (Rect.unit (s := S192) ![0] S16.size inb_S192_S16_0).toLoadRect (View.write (Elt F) (s1V).view f1 R0 Finset.univ)) = rewards rewBuf w 0 :=
    funext fun x => rew_read L w hw 0 _ rfl _ f1 R0 rewBuf hR0 x
  have eV1 : (loadIdx (View.read (Elt F) ((s3V).access (Rect.whole _)) (View.write (Elt F) (s3V).view G1 C1 Finset.univ)) ![v4, ((s0V).view.readAt (Elt F) (Rect.unit (s := S192) ![16] S16.size inb_S192_S16_16).toLoadRect (View.write (Elt F) (s0V).view f0 T0 Finset.univ))] h1) = gathered probBuf tgtBuf w 1 :=
    gather_read3 w 1 _ (chunk_off_1 L w hw) _ G1 C1 probBuf hC1 v4 hv4 _ tgtBuf
      (fun x => tgt_read L w hw 1 _ rfl _ f0 T0 tgtBuf hT0 x) hpre h1
  have eR1 : ((s1V).view.readAt (Elt F) (Rect.unit (s := S192) ![16] S16.size inb_S192_S16_16).toLoadRect (View.write (Elt F) (s1V).view f1 R0 Finset.univ)) = rewards rewBuf w 1 :=
    funext fun x => rew_read L w hw 1 _ rfl _ f1 R0 rewBuf hR0 x
  have eV2 : (loadIdx (View.read (Elt F) ((s2V).access (Rect.whole _)) (View.write (Elt F) (s2V).view G2 C2 Finset.univ)) ![v4, ((s0V).view.readAt (Elt F) (Rect.unit (s := S192) ![32] S16.size inb_S192_S16_32).toLoadRect (View.write (Elt F) (s0V).view f0 T0 Finset.univ))] h2) = gathered probBuf tgtBuf w 2 :=
    gather_read2 w 2 _ (chunk_off_2 L w hw) _ G2 C2 probBuf hC2 v4 hv4 _ tgtBuf
      (fun x => tgt_read L w hw 2 _ rfl _ f0 T0 tgtBuf hT0 x) hpre h2
  have eR2 : ((s1V).view.readAt (Elt F) (Rect.unit (s := S192) ![32] S16.size inb_S192_S16_32).toLoadRect (View.write (Elt F) (s1V).view f1 R0 Finset.univ)) = rewards rewBuf w 2 :=
    funext fun x => rew_read L w hw 2 _ rfl _ f1 R0 rewBuf hR0 x
  have eV3 : (loadIdx (View.read (Elt F) ((s3V).access (Rect.whole _)) (View.write (Elt F) (s3V).view G3 C3 Finset.univ)) ![v4, ((s0V).view.readAt (Elt F) (Rect.unit (s := S192) ![48] S16.size inb_S192_S16_48).toLoadRect (View.write (Elt F) (s0V).view f0 T0 Finset.univ))] h3) = gathered probBuf tgtBuf w 3 :=
    gather_read3 w 3 _ (chunk_off_3 L w hw) _ G3 C3 probBuf hC3 v4 hv4 _ tgtBuf
      (fun x => tgt_read L w hw 3 _ rfl _ f0 T0 tgtBuf hT0 x) hpre h3
  have eR3 : ((s1V).view.readAt (Elt F) (Rect.unit (s := S192) ![48] S16.size inb_S192_S16_48).toLoadRect (View.write (Elt F) (s1V).view f1 R0 Finset.univ)) = rewards rewBuf w 3 :=
    funext fun x => rew_read L w hw 3 _ rfl _ f1 R0 rewBuf hR0 x
  have eV4 : (loadIdx (View.read (Elt F) ((s2V).access (Rect.whole _)) (View.write (Elt F) (s2V).view G4 C4 Finset.univ)) ![v4, ((s0V).view.readAt (Elt F) (Rect.unit (s := S192) ![64] S16.size inb_S192_S16_64).toLoadRect (View.write (Elt F) (s0V).view f0 T0 Finset.univ))] h4) = gathered probBuf tgtBuf w 4 :=
    gather_read2 w 4 _ (chunk_off_4 L w hw) _ G4 C4 probBuf hC4 v4 hv4 _ tgtBuf
      (fun x => tgt_read L w hw 4 _ rfl _ f0 T0 tgtBuf hT0 x) hpre h4
  have eR4 : ((s1V).view.readAt (Elt F) (Rect.unit (s := S192) ![64] S16.size inb_S192_S16_64).toLoadRect (View.write (Elt F) (s1V).view f1 R0 Finset.univ)) = rewards rewBuf w 4 :=
    funext fun x => rew_read L w hw 4 _ rfl _ f1 R0 rewBuf hR0 x
  have eV5 : (loadIdx (View.read (Elt F) ((s3V).access (Rect.whole _)) (View.write (Elt F) (s3V).view G5 C5 Finset.univ)) ![v4, ((s0V).view.readAt (Elt F) (Rect.unit (s := S192) ![80] S16.size inb_S192_S16_80).toLoadRect (View.write (Elt F) (s0V).view f0 T0 Finset.univ))] h5) = gathered probBuf tgtBuf w 5 :=
    gather_read3 w 5 _ (chunk_off_5 L w hw) _ G5 C5 probBuf hC5 v4 hv4 _ tgtBuf
      (fun x => tgt_read L w hw 5 _ rfl _ f0 T0 tgtBuf hT0 x) hpre h5
  have eR5 : ((s1V).view.readAt (Elt F) (Rect.unit (s := S192) ![80] S16.size inb_S192_S16_80).toLoadRect (View.write (Elt F) (s1V).view f1 R0 Finset.univ)) = rewards rewBuf w 5 :=
    funext fun x => rew_read L w hw 5 _ rfl _ f1 R0 rewBuf hR0 x
  have eV6 : (loadIdx (View.read (Elt F) ((s2V).access (Rect.whole _)) (View.write (Elt F) (s2V).view G6 C6 Finset.univ)) ![v4, ((s0V).view.readAt (Elt F) (Rect.unit (s := S192) ![96] S16.size inb_S192_S16_96).toLoadRect (View.write (Elt F) (s0V).view f0 T0 Finset.univ))] h6) = gathered probBuf tgtBuf w 6 :=
    gather_read2 w 6 _ (chunk_off_6 L w hw) _ G6 C6 probBuf hC6 v4 hv4 _ tgtBuf
      (fun x => tgt_read L w hw 6 _ rfl _ f0 T0 tgtBuf hT0 x) hpre h6
  have eR6 : ((s1V).view.readAt (Elt F) (Rect.unit (s := S192) ![96] S16.size inb_S192_S16_96).toLoadRect (View.write (Elt F) (s1V).view f1 R0 Finset.univ)) = rewards rewBuf w 6 :=
    funext fun x => rew_read L w hw 6 _ rfl _ f1 R0 rewBuf hR0 x
  have eV7 : (loadIdx (View.read (Elt F) ((s3V).access (Rect.whole _)) (View.write (Elt F) (s3V).view G7 C7 Finset.univ)) ![v4, ((s0V).view.readAt (Elt F) (Rect.unit (s := S192) ![112] S16.size inb_S192_S16_112).toLoadRect (View.write (Elt F) (s0V).view f0 T0 Finset.univ))] h7) = gathered probBuf tgtBuf w 7 :=
    gather_read3 w 7 _ (chunk_off_7 L w hw) _ G7 C7 probBuf hC7 v4 hv4 _ tgtBuf
      (fun x => tgt_read L w hw 7 _ rfl _ f0 T0 tgtBuf hT0 x) hpre h7
  have eR7 : ((s1V).view.readAt (Elt F) (Rect.unit (s := S192) ![112] S16.size inb_S192_S16_112).toLoadRect (View.write (Elt F) (s1V).view f1 R0 Finset.univ)) = rewards rewBuf w 7 :=
    funext fun x => rew_read L w hw 7 _ rfl _ f1 R0 rewBuf hR0 x
  have eV8 : (loadIdx (View.read (Elt F) ((s2V).access (Rect.whole _)) (View.write (Elt F) (s2V).view G8 C8 Finset.univ)) ![v4, ((s0V).view.readAt (Elt F) (Rect.unit (s := S192) ![128] S16.size inb_S192_S16_128).toLoadRect (View.write (Elt F) (s0V).view f0 T0 Finset.univ))] h8) = gathered probBuf tgtBuf w 8 :=
    gather_read2 w 8 _ (chunk_off_8 L w hw) _ G8 C8 probBuf hC8 v4 hv4 _ tgtBuf
      (fun x => tgt_read L w hw 8 _ rfl _ f0 T0 tgtBuf hT0 x) hpre h8
  have eR8 : ((s1V).view.readAt (Elt F) (Rect.unit (s := S192) ![128] S16.size inb_S192_S16_128).toLoadRect (View.write (Elt F) (s1V).view f1 R0 Finset.univ)) = rewards rewBuf w 8 :=
    funext fun x => rew_read L w hw 8 _ rfl _ f1 R0 rewBuf hR0 x
  have eV9 : (loadIdx (View.read (Elt F) ((s3V).access (Rect.whole _)) (View.write (Elt F) (s3V).view G9 C9 Finset.univ)) ![v4, ((s0V).view.readAt (Elt F) (Rect.unit (s := S192) ![144] S16.size inb_S192_S16_144).toLoadRect (View.write (Elt F) (s0V).view f0 T0 Finset.univ))] h9) = gathered probBuf tgtBuf w 9 :=
    gather_read3 w 9 _ (chunk_off_9 L w hw) _ G9 C9 probBuf hC9 v4 hv4 _ tgtBuf
      (fun x => tgt_read L w hw 9 _ rfl _ f0 T0 tgtBuf hT0 x) hpre h9
  have eR9 : ((s1V).view.readAt (Elt F) (Rect.unit (s := S192) ![144] S16.size inb_S192_S16_144).toLoadRect (View.write (Elt F) (s1V).view f1 R0 Finset.univ)) = rewards rewBuf w 9 :=
    funext fun x => rew_read L w hw 9 _ rfl _ f1 R0 rewBuf hR0 x
  have eV10 : (loadIdx (View.read (Elt F) ((s2V).access (Rect.whole _)) (View.write (Elt F) (s2V).view G10 C10 Finset.univ)) ![v4, ((s0V).view.readAt (Elt F) (Rect.unit (s := S192) ![160] S16.size inb_S192_S16_160).toLoadRect (View.write (Elt F) (s0V).view f0 T0 Finset.univ))] h10) = gathered probBuf tgtBuf w 10 :=
    gather_read2 w 10 _ (chunk_off_10 L w hw) _ G10 C10 probBuf hC10 v4 hv4 _ tgtBuf
      (fun x => tgt_read L w hw 10 _ rfl _ f0 T0 tgtBuf hT0 x) hpre h10
  have eR10 : ((s1V).view.readAt (Elt F) (Rect.unit (s := S192) ![160] S16.size inb_S192_S16_160).toLoadRect (View.write (Elt F) (s1V).view f1 R0 Finset.univ)) = rewards rewBuf w 10 :=
    funext fun x => rew_read L w hw 10 _ rfl _ f1 R0 rewBuf hR0 x
  have eV11 : (loadIdx (View.read (Elt F) ((s3V).access (Rect.whole _)) (View.write (Elt F) (s3V).view G11 C11 Finset.univ)) ![v4, ((s0V).view.readAt (Elt F) (Rect.unit (s := S192) ![176] S16.size inb_S192_S16_176).toLoadRect (View.write (Elt F) (s0V).view f0 T0 Finset.univ))] h11) = gathered probBuf tgtBuf w 11 :=
    gather_read3 w 11 _ (chunk_off_11 L w hw) _ G11 C11 probBuf hC11 v4 hv4 _ tgtBuf
      (fun x => tgt_read L w hw 11 _ rfl _ f0 T0 tgtBuf hT0 x) hpre h11
  have eR11 : ((s1V).view.readAt (Elt F) (Rect.unit (s := S192) ![176] S16.size inb_S192_S16_176).toLoadRect (View.write (Elt F) (s1V).view f1 R0 Finset.univ)) = rewards rewBuf w 11 :=
    funext fun x => rew_read L w hw 11 _ rfl _ f1 R0 rewBuf hR0 x
  rw [eV0, eV1, eV2, eV3, eV4, eV5, eV6, eV7, eV8, eV9, eV10, eV11, eR0, eR1, eR2, eR3, eR4, eR5, eR6, eR7, eR8, eR9, eR10, eR11]
  rfl

/-! ## The write-out -/

/-- The accumulator buffer after its one store reads back the stored vector. -/
theorem s4_read (f4 : (s4V).view.ty.Contents (Elt F)) (acc : S16.Idx → Elt F .f32) :
    View.read (Elt F) (s4V).view ((s4V).view.writes (Elt F) f4 [⟨Rect.unit (s := S16) ![0] ![16] inb_S16_S16_0, acc⟩]) = acc := by
  funext z
  have h := View.read_writes_cons_emb (s4V).view f4 (Rect.unit (s := S16) ![0] ![16] inb_S16_S16_0) acc [] z
  have e : (Rect.unit (s := S16) ![0] ![16] inb_S16_S16_0).emb z = z := by
    refine (eq_ix1 _).trans ((congrArg ix1 (Fin.ext ?_)).trans (eq_ix1 z).symm)
    show 0 + 1 * (z 0).val = (z 0).val
    omega
  rw [e] at h
  exact h

/-- The output array after the tile's copy-out, on the tile's sixteen words: word `j` holds lane `j % 16` of the copied vector. -/
theorem out_agree (L : grid0.Coords) (fo : (oV).view.ty.Contents (Elt F)) (W acc : S16.Idx → Elt F .f32) (hW : W = acc)
    (j : S512.Idx)
    (hj : j ∈ ((oV).slice (Rect.unit (s := S512) (k0_off14 L) S16.size (k0_off14_inb L)) (fun _ => rfl)).view.set) :
    (((oV).slice (Rect.unit (s := S512) (k0_off14 L) S16.size (k0_off14_inb L)) (fun _ => rfl)).view.writes (Elt F) fo
        [⟨Rect.whole S16, W⟩]) j
      = acc (ix1 ⟨(j 0).val % 16, Nat.mod_lt _ (by decide)⟩) := by
  subst hW
  obtain ⟨y, -, rfl⟩ := Finset.mem_map.mp hj
  have hout := congrFun (View.read_writes_whole
    ((oV).slice (Rect.unit (s := S512) (k0_off14 L) S16.size (k0_off14_inb L)) (fun _ => rfl)).view fo W) y
  rw [View.read_apply, cast_eq] at hout
  refine hout.trans (congrArg W ((eq_ix1 y).trans (congrArg ix1 (Fin.ext ?_))))
  show (y 0).val = (k0_off14 L 0 + 1 * (y 0).val) % 16
  have e : k0_off14 L 0 = 32 * (L 1).val + 16 * (L 0).val := congrFun (k0_off14_eq L) 0
  have h16 : (y 0).val < 16 := (y 0).isLt
  omega

/-- The same at the whole-array function: with the copied vector worker `w`'s accumulator, the tile's words are `scOut`'s. -/
theorem out_agree_scOut (L : grid0.Coords) (w : Fin 32) (hw : w.val = 2 * (L 1).val + (L 0).val)
    (probBuf : FVec F S16384x1000 .f32) (tgtBuf : IVec S16384 32) (rewBuf : FVec F S16384 .f32)
    (fo : (oV).view.ty.Contents (Elt F)) (W : S16.Idx → Elt F .f32) (hW : W = scAcc probBuf tgtBuf rewBuf w)
    (j : S512.Idx)
    (hj : j ∈ ((oV).slice (Rect.unit (s := S512) (k0_off14 L) S16.size (k0_off14_inb L)) (fun _ => rfl)).view.set) :
    (((oV).slice (Rect.unit (s := S512) (k0_off14 L) S16.size (k0_off14_inb L)) (fun _ => rfl)).view.writes (Elt F) fo
        [⟨Rect.whole S16, W⟩]) j
      = scOut probBuf tgtBuf rewBuf j := by
  rw [out_agree L fo W _ hW j hj]
  unfold scOut
  obtain ⟨y, -, rfl⟩ := Finset.mem_map.mp hj
  refine congrArg (fun v : Fin 32 => scAcc probBuf tgtBuf rewBuf v _) (Fin.ext ?_)
  show w.val = (k0_off14 L 0 + 1 * (y 0).val) / 16
  have e : k0_off14 L 0 = 32 * (L 1).val + 16 * (L 0).val := congrFun (k0_off14_eq L) 0
  have h16 : (y 0).val < 16 := (y 0).isLt
  omega

end Cert.Kernel.ScVal

end
-- ==== Proof.KScTile.lean ====
/-
  One tile's task, at a symbolic tile `(L 0, L 1)` of device `d`.

  The tile fetches its 192 targets and rewards, then walks twelve chunks of sixteen rows of `prob` through two
  buffers: chunk `k + 1`'s copy is issued before chunk `k`'s is waited for, each buffer has its own semaphore, and a
  buffer is read (the gather of entry `target[row]` of each of its sixteen rows) only between the wait for its copy
  and the issue of the next copy into it — so no access races a copy. Each gather assumes its sixteen column numbers
  below 1000; they are words of `target` (what the first fetch landed), below 1000 by the precondition. The sixteen
  lane accumulators are stored and copied out to the tile's piece of the partial-sum array, which is handed back at
  `scBuf`: the tile's words of the whole-array function.
-/
import proofs.«207748_g59691455480232_cont_9to1c4b_13_25_alg».proof.Proof.KScPay
import proofs.«207748_g59691455480232_cont_9to1c4b_13_25_alg».proof.Proof.KScValLemmas

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pV" => (Memref.whole Cert.Kernel.main_arg0_scv : Memref Cert.Kernel.sig Kind.scVector Space.hbm Cert.Kernel.S16384x1000 EltTy.f32)
local notation "tV" => (Memref.whole Cert.Kernel.main_arg1_scv : Memref Cert.Kernel.sig Kind.scVector Space.hbm Cert.Kernel.S16384 EltTy.i32)
local notation "rV" => (Memref.whole Cert.Kernel.main_arg2_scv : Memref Cert.Kernel.sig Kind.scVector Space.hbm Cert.Kernel.S16384 EltTy.f32)
local notation "oV" => (Memref.whole Cert.Kernel.main_v0_scv : Memref Cert.Kernel.sig Kind.scVector Space.hbm Cert.Kernel.S512 EltTy.f32)
local notation "s0V" => (Memref.whole Cert.Kernel.cc0_scratch0 : Memref Cert.Kernel.sig Kind.scVector Space.vmem Cert.Kernel.S192 EltTy.i32)
local notation "s1V" => (Memref.whole Cert.Kernel.cc0_scratch1 : Memref Cert.Kernel.sig Kind.scVector Space.vmem Cert.Kernel.S192 EltTy.f32)
local notation "s2V" => (Memref.whole Cert.Kernel.cc0_scratch2 : Memref Cert.Kernel.sig Kind.scVector Space.vmem Cert.Kernel.S16x1000 EltTy.f32)
local notation "s3V" => (Memref.whole Cert.Kernel.cc0_scratch3 : Memref Cert.Kernel.sig Kind.scVector Space.vmem Cert.Kernel.S16x1000 EltTy.f32)
local notation "s4V" => (Memref.whole Cert.Kernel.cc0_scratch4 : Memref Cert.Kernel.sig Kind.scVector Space.vmem Cert.Kernel.S16 EltTy.f32)

variable (m : (ℓ : Loc nD τ sig) → Buf (Elt F) ℓ) (ρ : Dev nD → PrngReg)
variable [FloatOps F]
variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
/-- The tile's worker number. -/
abbrev widL (L : grid0.Coords) : Fin 32 := wid (cL L) (jL L)

/-! ## The tile's slices, as the program spells them -/

abbrev orowK (L : grid0.Coords) : Rect S512 := Rect.unit (s := S512) (k0_off14 L) S16.size (k0_off14_inb L)
abbrev oRowK (L : grid0.Coords) : Memref sig .scVector .hbm S16 .f32 := (oV).slice (orowK L) (fun _ => rfl)
abbrev tRowK (L : grid0.Coords) : Memref sig .scVector .hbm S192 .i32 := (tV).slice (Rect.unit (s := S16384) (k0_off1 L) S192.size (k0_off1_inb L)) (fun _ => rfl)

omit [FloatOps F] in
/-- The slice the write-out names is the worker's piece. -/
theorem orowK_eq : orowK L = orow (widL L) := by
  unfold orowK orow Rect.part Rect.block
  congr 1 <;> funext a
  · rw [k0_off14_eq]
    match a with
    | 0 => simp [Shape.partIx, Shape.partSize, wid]; omega
  · match a with
    | 0 => simp [Shape.partSize]
omit [FloatOps F] in
theorem set_oRowK : (oRowK L).view.set = oRowSet (widL L) := by
  show ((oV).view.slice (orowK L)).set = ((oV).view.slice (orow (widL L))).set
  exact orowK_eq L ▸ rfl

omit [FloatOps F] in
theorem pts_p (q : PosShare TreeShare) (f : Buf (Elt F) (pLoc d)) :
    ((pV).view.loc (V d (cV L) (jV L)) ↦{q} f : sProp 𝕄) = pLoc d ↦{q} f := rfl
omit [FloatOps F] in
theorem pts_t (q : PosShare TreeShare) (f : Buf (Elt F) (tLoc d)) :
    ((tV).view.loc (V d (cV L) (jV L)) ↦{q} f : sProp 𝕄) = tLoc d ↦{q} f := rfl
omit [FloatOps F] in
theorem pts_r (q : PosShare TreeShare) (f : Buf (Elt F) (rLoc d)) :
    ((rV).view.loc (V d (cV L) (jV L)) ↦{q} f : sProp 𝕄) = rLoc d ↦{q} f := rfl
omit [FloatOps F] in
theorem pts_o (f : Buf (Elt F) (oLoc d)) :
    ((oRowK L).view.loc (V d (cV L) (jV L)) ↦[(oRowK L).view.set]{fullShare} f : sProp 𝕄) = oLoc d ↦[oRowSet (widL L)]{fullShare} f := by
  rw [set_oRowK]
omit [FloatOps F] in
theorem pts_s0 (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
omit [FloatOps F] in
theorem pts_s4 (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
omit [FloatOps F] in
theorem pts_s2a (f : Buf (Elt F) ((V d (cV L) (jV L)).loc cc0_scratch2)) :
    (((s2V).access (.whole S16x1000)).loc (V d (cV L) (jV L)) ↦{fullShare} f : sProp 𝕄) = (s2V).view.loc (V d (cV L) (jV L)) ↦{fullShare} f := rfl
omit [FloatOps F] in
theorem pts_s3a (f : Buf (Elt F) ((V d (cV L) (jV L)).loc cc0_scratch3)) :
    (((s3V).access (.whole S16x1000)).loc (V d (cV L) (jV L)) ↦{fullShare} f : sProp 𝕄) = (s3V).view.loc (V d (cV L) (jV L)) ↦{fullShare} f := rfl

/-! ## The precondition, as the tile uses it -/

/-- What the proof asks of the launch memory: every word of `target` names a column. -/
def PreT : Prop := ∀ (d : Dev nD) (j : S16384.Idx), (m (tLoc d) j).toNat < 1000

omit [FloatOps F] in
/-- A gather's check passes: its row numbers are the lane numbers, below 16; its column numbers are sixteen words of
    what the first fetch landed, words of `target`, below 1000. -/
theorem chk_ok (hpre : PreT m) (v4 : IVec S16 32) (hv4 : v4 = iota .scVector S16 32 [0] iota_S16_d0_w32_scVector)
    (off : Fin 1 → Nat) (hin : ∀ a, off a + S16.size a ≤ S192.size a)
    (f0 : Buf (Elt F) ((V d (cV L) (jV L)).loc cc0_scratch0)) (pay : S192.Idx → Elt F .i32)
    (hpay : pay = (tRowK L).view.read (Elt F) (m (tLoc d))) :
    ∀ a x, ((![v4, (s0V).view.readAt (Elt F) (Rect.unit (s := S192) off S16.size hin).toLoadRect
        (View.write (Elt F) (s0V).view f0 pay Finset.univ)] : Fin 2 → IVec S16 32) a x).toNat < S16x1000.size a := by
  subst hpay hv4
  intro a x
  match a with
  | 0 =>
    have h16 : (x 0).val < 16 := (x 0).isLt
    show (iota .scVector S16 32 [0] iota_S16_d0_w32_scVector x).toNat < 16
    simp only [iota, List.foldl_cons, List.foldl_nil, Nat.zero_mul, Nat.zero_add, BitVec.toNat_ofNat]
    omega
  | 1 =>
    show ((s0V).view.readAt (Elt F) (Rect.unit (s := S192) off S16.size hin).toLoadRect
        (View.write (Elt F) (s0V).view f0 ((tRowK L).view.read (Elt F) (m (tLoc d))) Finset.univ) x).toNat < 1000
    rw [View.write_whole_univ]
    simp only [View.readAt_apply, Memref.view_whole, View.read_whole]
    rw [show ∀ j, (tRowK L).view.read (Elt F) (m (tLoc d)) j = m (tLoc d) ((tRowK L).view.emb j) from fun j => (View.read_apply _ _).trans (cast_eq _ _)]
    exact hpre d _

/-! ## The tile's own semaphores and buffers -/

abbrev cAcell (d : Dev nD) (c : Fin τ.nSC) (i : Fin τ.nSub) : GSem nD τ sig := (V d c i, .dma cc0_scratch5.sem)
abbrev cBcell (d : Dev nD) (c : Fin τ.nSC) (i : Fin τ.nSub) : GSem nD τ sig := (V d c i, .dma cc0_scratch6.sem)
abbrev cCcell (d : Dev nD) (c : Fin τ.nSC) (i : Fin τ.nSub) : GSem nD τ sig := (V d c i, .dma cc0_scoped0.sem)
abbrev cDcell (d : Dev nD) (c : Fin τ.nSC) (i : Fin τ.nSub) : GSem nD τ sig := (V d c i, .dma cc0_scoped1.sem)
abbrev cEcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0 ∗ semVal (cEcell d (cV L) (jV L)) 0
          ∗ bigSep ((((((ownCells (V d (cV L) (jV L))).erase (cAcell d (cV L) (jV L))).erase (cBcell d (cV L) (jV L))).erase (cCcell d (cV L) (jV L))).erase (cDcell d (cV L) (jV L))).erase (cEcell d (cV L) (jV L))) fun g => semVal g 0) := by
  unfold SparseCore.Cfg.ownSems0
  rw [SparseCore.bigSep_erase' ((mem_ownCells (g := (cAcell d (cV L) (jV L)))).mpr ⟨rfl, by show (SemLoc.dma cc0_scratch5.sem : SemLoc sig).isScoped .scVector = true; decide⟩),
    SparseCore.bigSep_erase' (Finset.mem_erase.mpr ⟨by simp [cAcell, cBcell]; decide, (mem_ownCells (g := (cBcell d (cV L) (jV L)))).mpr ⟨rfl, by show (SemLoc.dma cc0_scratch6.sem : SemLoc sig).isScoped .scVector = true; decide⟩⟩),
    SparseCore.bigSep_erase' (Finset.mem_erase.mpr ⟨by simp [cBcell, cCcell]; decide, Finset.mem_erase.mpr ⟨by simp [cAcell, cCcell]; decide, (mem_ownCells (g := (cCcell d (cV L) (jV L)))).mpr ⟨rfl, by show (SemLoc.dma cc0_scoped0.sem : SemLoc sig).isScoped .scVector = true; decide⟩⟩⟩),
    SparseCore.bigSep_erase' (Finset.mem_erase.mpr ⟨by simp [cCcell, cDcell]; decide, Finset.mem_erase.mpr ⟨by simp [cBcell, cDcell]; decide, Finset.mem_erase.mpr ⟨by simp [cAcell, cDcell]; decide, (mem_ownCells (g := (cDcell d (cV L) (jV L)))).mpr ⟨rfl, by show (SemLoc.dma cc0_scoped1.sem : SemLoc sig).isScoped .scVector = true; decide⟩⟩⟩⟩),
    SparseCore.bigSep_erase' (Finset.mem_erase.mpr ⟨by simp [cDcell, cEcell]; decide, Finset.mem_erase.mpr ⟨by simp [cCcell, cEcell]; decide, Finset.mem_erase.mpr ⟨by simp [cBcell, cEcell]; decide, Finset.mem_erase.mpr ⟨by simp [cAcell, cEcell]; decide, (mem_ownCells (g := (cEcell d (cV L) (jV L)))).mpr ⟨rfl, by show (SemLoc.dma cc0_scoped2.sem : SemLoc sig).isScoped .scVector = true; decide⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

/-! ## The task -/

set_option maxHeartbeats 16000000 in
/-- The task on vector subcore `(L 0, L 1)` of device `d`: the two fetches, the twelve chunks, the write-out. -/
theorem tile_body (hF : (K (F := F)).Facts) (hpre : PreT m) (O : CellTallies nD τ sig (HIx 1)) (W : Waits sig (HIx 1)) (hO : ∀ g, O g none = 0) :
    iprop(levAts (K (F := F)).L (K (F := F)).lev ∗ emp
        ∗ (pSh m d (qT (cL L) (jL L)) ∗ tSh m d (qT (cL L) (jL L)) ∗ rSh m d (qT (cL L) (jL L)) ∗ oRowPts d (widL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L pV (Memref.isWhole_whole _) tV (Memref.isWhole_whole _) rV (Memref.isWhole_whole _) oV (Memref.isWhole_whole _)
            s0V (Memref.isWhole_whole _) s1V (Memref.isWhole_whole _) s2V (Memref.isWhole_whole _) s3V (Memref.isWhole_whole _) s4V (Memref.isWhole_whole _)
            cc0_scratch5 cc0_scratch6 cc0_scoped0 cc0_scoped1 cc0_scoped2)
          fun _ => iprop((pSh m d (qT (cL L) (jL L)) ∗ tSh m d (qT (cL L) (jL L)) ∗ rSh m d (qT (cL L) (jL L)) ∗ oRowPts d (widL L) (scBuf m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (jV L), SparseCore.Cfg.scopedSems0_V (Val := Elt F) d (cV L) (jV L), ownSems0_V, ownBufs_V]
  iintro ⟨#Hlv, -, ⟨Hp, Ht, Hr, Ho⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (pts_p (F := F) d L _ _).symm) $$ Hp
  ihave Ht' := (Entails.of_eq (pts_t (F := F) d L _ _).symm) $$ Ht
  ihave Hr' := (Entails.of_eq (pts_r (F := F) d L _ _).symm) $$ Hr
  ihave Ho' := (Entails.of_eq (pts_o (F := F) d L _).symm) $$ Ho
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  -- the two fetches and their waits, the first two copies, the first wait, the first sixteen targets and their check
  sl_exec (disch := exact chk_ok m d L hpre _ rfl _ _ _ _ rfl)
  -- chunk 0: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 1: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 2: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 3: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 4: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 5: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 6: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 7: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 8: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 9: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  -- chunk 10: the gather out of the buffer its copy landed in, then on to the next check
  try rw [bind_assoc]
  ihave Ha := (Entails.of_eq (pts_s2a (F := F) d L _).symm) $$ H2'
  iapply (SparseCore.wp_vectorLoadIdx 𝒱₀ (V d (cV L) (jV L)) none Set.univ (base := s2V) (S := Finset.univ) (q := fullShare) (Finset.subset_univ _)) $$ Ha; iintro Ha
  ihave H2' := (Entails.of_eq (pts_s2a (F := F) d L _)) $$ Ha
  sl_exec (disch := exact chk_ok m d L hpre _ rfl _ _ _ _ rfl)
  -- chunk 11: the gather out of the buffer its copy landed in, then on to the next check
  try rw [bind_assoc]
  ihave Ha := (Entails.of_eq (pts_s3a (F := F) d L _).symm) $$ H3'
  iapply (SparseCore.wp_vectorLoadIdx 𝒱₀ (V d (cV L) (jV L)) none Set.univ (base := s3V) (S := Finset.univ) (q := fullShare) (Finset.subset_univ _)) $$ Ha; iintro Ha
  ihave H3' := (Entails.of_eq (pts_s3a (F := F) d L _)) $$ Ha
  sl_exec (disch := exact chk_ok m d L hpre _ rfl _ _ _ _ rfl)
  sl_step
  -- the tile's piece, at the whole-array function
  ihave Ho2 := (Entails.of_eq (pts_o (F := F) d L _)) $$ Ho'
  ihave Ho3 := (Entails.of_eq (pointsTo_congr (g := scBuf m d) ?hfin)) $$ Ho2
  case hfin =>
    intro i hi
    rw [← set_oRowK] at hi
    refine ScVal.out_agree_scOut L (widL L) rfl (m (pLoc d)) (m (tLoc d)) (m (rLoc d)) (m (oLoc d)) _ ?_ i hi
    exact (ScVal.s4_read f4 _).trans
      (ScVal.stored_eq L (widL L) rfl (m (pLoc d)) (m (tLoc d)) (m (rLoc d)) (hpre d) _ _ rfl _ _ rfl _ rfl
        _ _ rfl _ _ _ rfl _ _ _ rfl _ _ _ rfl _ _ _ rfl _ _ _ rfl _
        _ _ rfl _ _ _ rfl _ _ _ rfl _ _ _ rfl _ _ _ rfl _ _ _ rfl _)
  isplitl [Hp' Ht' Hr' Ho3]
  · isplitl [Hp']; · iapply (Entails.of_eq (pts_p (F := F) d L _ _)); iexact Hp'
    isplitl [Ht']; · iapply (Entails.of_eq (pts_t (F := F) d L _ _)); iexact Ht'
    isplitl [Hr']; · iapply (Entails.of_eq (pts_r (F := F) d L _ _)); iexact Hr'
    iexact Ho3
  isplitl [H0' H1' H2' H3' H4' Hbufs]
  · isplitl [H0']; · iexists _; iapply (Entails.of_eq (pts_s0 (F := F) d L _)); iexact H0'
    isplitl [H1']; · iexists _; iapply (Entails.of_eq (pts_s1 (F := F) d L _)); iexact H1'
    isplitl [H2']; · iexists _; iapply (Entails.of_eq (pts_s2 (F := F) d L _)); iexact H2'
    isplitl [H3']; · iexists _; iapply (Entails.of_eq (pts_s3 (F := F) d L _)); iexact H3'
    isplitl [H4']; · iexists _; iapply (Entails.of_eq (pts_s4 (F := F) d L _)); iexact H4'
    iexact Hbufs
  isplitl [Hs5 Hs6 Hc0 Hc1 Hc2 Hsems]
  · isplitl [Hs5]; · iexact Hs5
    isplitl [Hs6]; · iexact Hs6
    isplitl [Hc0]; · iexact Hc0
    isplitl [Hc1]; · iexact Hc1
    isplitl [Hc2]; · iexact Hc2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Kernel.Sc

end
-- ==== Proof.KScLaunch.lean ====
/-
  The launch theorem's obligations for the SparseCore call: a tile's task as the launch theorem states it, and how
  one SparseCore's share of the operands splits among its sixteen tiles and comes back.

  The sequencer of SparseCore `c` holds the token `qC c` of each input; it keeps a remainder and hands tile `i` the
  token `qT c i` (the token split of a read share), and its sixteen pieces of the partial-sum array go one to each
  tile; at the end the tokens join the remainder again and the pieces come back at the whole-array function.
-/
import proofs.«207748_g59691455480232_cont_9to1c4b_13_25_alg».proof.Proof.KScTile

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pV" => (Memref.whole Cert.Kernel.main_arg0_scv : Memref Cert.Kernel.sig Kind.scVector Space.hbm Cert.Kernel.S16384x1000 EltTy.f32)
local notation "tV" => (Memref.whole Cert.Kernel.main_arg1_scv : Memref Cert.Kernel.sig Kind.scVector Space.hbm Cert.Kernel.S16384 EltTy.i32)
local notation "rV" => (Memref.whole Cert.Kernel.main_arg2_scv : Memref Cert.Kernel.sig Kind.scVector Space.hbm Cert.Kernel.S16384 EltTy.f32)
local notation "oV" => (Memref.whole Cert.Kernel.main_v0_scv : Memref Cert.Kernel.sig Kind.scVector Space.hbm Cert.Kernel.S512 EltTy.f32)
local notation "s0V" => (Memref.whole Cert.Kernel.cc0_scratch0 : Memref Cert.Kernel.sig Kind.scVector Space.vmem Cert.Kernel.S192 EltTy.i32)
local notation "s1V" => (Memref.whole Cert.Kernel.cc0_scratch1 : Memref Cert.Kernel.sig Kind.scVector Space.vmem Cert.Kernel.S192 EltTy.f32)
local notation "s2V" => (Memref.whole Cert.Kernel.cc0_scratch2 : Memref Cert.Kernel.sig Kind.scVector Space.vmem Cert.Kernel.S16x1000 EltTy.f32)
local notation "s3V" => (Memref.whole Cert.Kernel.cc0_scratch3 : Memref Cert.Kernel.sig Kind.scVector Space.vmem Cert.Kernel.S16x1000 EltTy.f32)
local notation "s4V" => (Memref.whole Cert.Kernel.cc0_scratch4 : Memref Cert.Kernel.sig Kind.scVector Space.vmem Cert.Kernel.S16 EltTy.f32)

variable (m : (ℓ : Loc nD τ sig) → Buf (Elt F) ℓ) (ρ : Dev nD → PrngReg)
variable [FloatOps F]

/-! ## The tile obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          pV (Memref.isWhole_whole _) tV (Memref.isWhole_whole _) rV (Memref.isWhole_whole _) oV (Memref.isWhole_whole _)
          s0V (Memref.isWhole_whole _) s1V (Memref.isWhole_whole _) s2V (Memref.isWhole_whole _) s3V (Memref.isWhole_whole _) s4V (Memref.isWhole_whole _)
          cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreT m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The split of one SparseCore's operands among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (m (oLoc d)))
    ⊢ |={Set.univ}=> iprop(
      (bigSep Finset.univ fun i : Fin ((K (F := F)).nSub 0) =>
        iprop(pSh m d (qT (Fin.cast nCore_zero c) (Fin.cast nSub_zero i)) ∗ tSh m d (qT (Fin.cast nCore_zero c) (Fin.cast nSub_zero i))
          ∗ rSh m d (qT (Fin.cast nCore_zero c) (Fin.cast nSub_zero i))
          ∗ oRowPts d (wid (Fin.cast nCore_zero c) (Fin.cast nSub_zero i)) (m (oLoc d))))
      ∗ ((bigSep Finset.univ fun i : Fin ((K (F := F)).nSub 0) =>
          iprop(pSh m d (qT (Fin.cast nCore_zero c) (Fin.cast nSub_zero i)) ∗ tSh m d (qT (Fin.cast nCore_zero c) (Fin.cast nSub_zero i))
            ∗ rSh m d (qT (Fin.cast nCore_zero c) (Fin.cast nSub_zero i))
            ∗ oRowPts d (wid (Fin.cast nCore_zero c) (Fin.cast nSub_zero i)) (scBuf m d)))
          -∗ iprop(pSh m d (qC (Fin.cast nCore_zero c)) ∗ tSh m d (qC (Fin.cast nCore_zero c)) ∗ rSh m d (qC (Fin.cast nCore_zero c))
            ∗ bigSep Finset.univ fun s : Fin 16 => oRowPts d (wid (Fin.cast nCore_zero c) s) (scBuf m d))))
  rw [bigSep_tasks (F := F) (fun i => iprop(pSh m d (qT (Fin.cast nCore_zero c) i) ∗ tSh m d (qT (Fin.cast nCore_zero c) i)
        ∗ rSh m d (qT (Fin.cast nCore_zero c) i) ∗ oRowPts d (wid (Fin.cast nCore_zero c) i) (m (oLoc d)))),
    bigSep_tasks (F := F) (fun i => iprop(pSh m d (qT (Fin.cast nCore_zero c) i) ∗ tSh m d (qT (Fin.cast nCore_zero c) i)
        ∗ rSh m d (qT (Fin.cast nCore_zero c) i) ∗ oRowPts d (wid (Fin.cast nCore_zero c) i) (scBuf m d))),
    bigSep_sep', bigSep_sep', bigSep_sep', bigSep_sep', bigSep_sep', bigSep_sep']
  iintro ⟨Hp, Ht, Hr, Ho⟩
  ihave Hp2 := (Transfers.pointsTo_toks (qC (Fin.cast nCore_zero c)) 16).1 $$ Hp
  icases Hp2 with ⟨Hpd, Hpt⟩
  ihave Ht2 := (Transfers.pointsTo_toks (qC (Fin.cast nCore_zero c)) 16).1 $$ Ht
  icases Ht2 with ⟨Htd, Htt⟩
  ihave Hr2 := (Transfers.pointsTo_toks (qC (Fin.cast nCore_zero c)) 16).1 $$ Hr
  icases Hr2 with ⟨Hrd, Hrt⟩
  imodintro
  isplitl [Hpt Htt Hrt Ho]
  · isplitl [Hpt]; · iexact Hpt
    isplitl [Htt]; · iexact Htt
    isplitl [Hrt]; · iexact Hrt
    iexact Ho
  iintro ⟨Hpt, Htt, Hrt, Ho⟩
  isplitl [Hpd Hpt]
  · iapply (Transfers.pointsTo_toks_join (qC (Fin.cast nCore_zero c)) 16); isplitl [Hpd] <;> iassumption
  isplitl [Htd Htt]
  · iapply (Transfers.pointsTo_toks_join (qC (Fin.cast nCore_zero c)) 16); isplitl [Htd] <;> iassumption
  isplitl [Hrd Hrt]
  · iapply (Transfers.pointsTo_toks_join (qC (Fin.cast nCore_zero c)) 16); isplitl [Hrd] <;> iassumption
  iexact Ho

end Cert.Kernel.Sc

end
-- ==== Proof.KScSplit.lean ====
/-
  How the TensorCore prepares the SparseCore call's operands and reads its results.

  The partial-sum array is its thirty-two disjoint 16-word pieces, indexed by (SparseCore, subcore) through the worker
  number `2 s + c`; each input's full share is a remainder and one token per SparseCore. So what the call takes for the
  two SparseCores is assembled from the four whole arrays, and what it returns gives back the three inputs whole at their
  launch contents and the partial-sum array whole at the whole-array function.
-/
import proofs.«207748_g59691455480232_cont_9to1c4b_13_25_alg».proof.Proof.KScLaunch

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "pV" => (Memref.whole Cert.Kernel.main_arg0_scv : Memref Cert.Kernel.sig Kind.scVector Space.hbm Cert.Kernel.S16384x1000 EltTy.f32)
local notation "tV" => (Memref.whole Cert.Kernel.main_arg1_scv : Memref Cert.Kernel.sig Kind.scVector Space.hbm Cert.Kernel.S16384 EltTy.i32)
local notation "rV" => (Memref.whole Cert.Kernel.main_arg2_scv : Memref Cert.Kernel.sig Kind.scVector Space.hbm Cert.Kernel.S16384 EltTy.f32)
local notation "oV" => (Memref.whole Cert.Kernel.main_v0_scv : Memref Cert.Kernel.sig Kind.scVector Space.hbm Cert.Kernel.S512 EltTy.f32)
local notation "s0V" => (Memref.whole Cert.Kernel.cc0_scratch0 : Memref Cert.Kernel.sig Kind.scVector Space.vmem Cert.Kernel.S192 EltTy.i32)
local notation "s1V" => (Memref.whole Cert.Kernel.cc0_scratch1 : Memref Cert.Kernel.sig Kind.scVector Space.vmem Cert.Kernel.S192 EltTy.f32)
local notation "s2V" => (Memref.whole Cert.Kernel.cc0_scratch2 : Memref Cert.Kernel.sig Kind.scVector Space.vmem Cert.Kernel.S16x1000 EltTy.f32)
local notation "s3V" => (Memref.whole Cert.Kernel.cc0_scratch3 : Memref Cert.Kernel.sig Kind.scVector Space.vmem Cert.Kernel.S16x1000 EltTy.f32)
local notation "s4V" => (Memref.whole Cert.Kernel.cc0_scratch4 : Memref Cert.Kernel.sig Kind.scVector Space.vmem Cert.Kernel.S16 EltTy.f32)

variable (m : (ℓ : Loc nD τ sig) → Buf (Elt F) ℓ) (ρ : Dev nD → PrngReg)

/-! ## The pieces cover the array -/

theorem oRowSet_eq (w : Fin 32) : oRowSet w = (orow w).set := by
  show ((View.whole (main_v0_scv : Ref sig .scVector)).slice (orow w)).set = _
  rw [View.set_slice]; exact Finset.map_refl
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem orows_cover : (Finset.univ : Finset (Fin 32)).biUnion oRowSet = Finset.univ :=
  (Finset.biUnion_congr rfl fun i _ => oRowSet_eq i).trans (Rect.biUnion_part odiv)

/-- (SparseCore, subcore) against the worker number. -/
def widEquiv : Fin 2 × Fin 16 ≃ Fin 32 where
  toFun p := wid p.1 p.2
  invFun w := (⟨w.val % 2, by omega⟩, ⟨w.val / 2, by omega⟩)
  left_inv p := by
    rcases p with ⟨c, s⟩
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val; omega

theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-- The whole partial-sum array is its pieces, per SparseCore and subcore. -/
theorem oPts_cs (d : Dev nD) (f : Buf (Elt F) (oLoc d)) :
    (oPts d f : sProp 𝕄) = bigSep Finset.univ fun c : Fin 2 => bigSep Finset.univ fun s : Fin 16 => oRowPts d (wid c s) f := by
  unfold oPts
  rw [oPts_rows, bigSep_univ_equiv widEquiv (fun w : Fin 32 => (oLoc d ↦[oRowSet w]{fullShare} f : sProp 𝕄)), bigSep_univ_prod]
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-- What the call takes for the two SparseCores, -/
theorem st0_eq (d : Dev nD) : (bigSep Finset.univ fun c : Fin ((K (F := F)).nCore 0) => (P m).st 0 d c)
    = iprop((bigSep Finset.univ fun c : Fin 2 => pSh m d (qC c)) ∗ (bigSep Finset.univ fun c : Fin 2 => tSh m d (qC c))
        ∗ (bigSep Finset.univ fun c : Fin 2 => rSh m d (qC c)) ∗ oPts d (m (oLoc d))) := by
  show (bigSep Finset.univ fun c : Fin ((K (F := F)).nCore 0) =>
      iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (m (oLoc d)))) = _
  rw [bigSep_cores (F := F) (fun c => iprop(pSh m d (qC c) ∗ tSh m d (qC c) ∗ rSh m d (qC c) ∗ bigSep Finset.univ fun s : Fin 16 => oRowPts d (wid c s) (m (oLoc d)))),
    bigSep_sep', bigSep_sep', bigSep_sep', oPts_cs]
/-- and what it hands back. -/
theorem dn0_eq (d : Dev nD) : (bigSep Finset.univ fun c : Fin ((K (F := F)).nCore 0) => (P m).dn 0 d c)
    = iprop((bigSep Finset.univ fun c : Fin 2 => pSh m d (qC c)) ∗ (bigSep Finset.univ fun c : Fin 2 => tSh m d (qC c))
        ∗ (bigSep Finset.univ fun c : Fin 2 => rSh m d (qC c)) ∗ oPts d (scBuf m d)) := by
  show (bigSep Finset.univ fun c : Fin ((K (F := F)).nCore 0) =>
      iprop(pSh m d (qC (Fin.cast nCore_zero c)) ∗ tSh m d (qC (Fin.cast nCore_zero c)) ∗ rSh m d (qC (Fin.cast nCore_zero c))
        ∗ bigSep Finset.univ fun s : Fin 16 => oRowPts d (wid (Fin.cast nCore_zero c) s) (scBuf m d))) = _
  rw [bigSep_cores (F := F) (fun c => iprop(pSh m d (qC c) ∗ tSh m d (qC c) ∗ rSh m d (qC c) ∗ bigSep Finset.univ fun s : Fin 16 => oRowPts d (wid c s) (scBuf m d))),
    bigSep_sep', bigSep_sep', bigSep_sep', oPts_cs]

end Cert.Kernel.Sc

end
-- ==== Proof.KTcBody.lean ====
/-
  The body of the accumulating call, once, at a symbolic grid point.

  At a grid point the body reads a 16 × 128 block of words, a 16 × 128 block of weights and a 2048 × 1000 block of the
  table. Row `a` of the two small blocks goes with the band of rows `128 a … 128 a + 127` of the large one: for each of the
  sixteen bands it forms the sum, over the band's rows and the 1000 columns, of the entry times the row's weight where the
  column is the row's word and zero elsewhere, and adds the sixteen sums one after the other (`pointSum`). At the first
  point the one cell of the result is set to zero before the sum is added to it; at the later points the sum is added to
  what the cell already holds. Both cases are run here over any four whole staging buffers.
-/
import proofs.«207748_g59691455480232_cont_9to1c4b_13_25_alg».proof.Proof.Gen.Kernel.Skeleton
import proofs.«207748_g59691455480232_cont_9to1c4b_13_25_alg».proof.Proof.Gen.Kernel.Launch
import proofs.«207748_g59691455480232_cont_9to1c4b_13_25_alg».proof.Proof.Gen.Kernel.Points
import Idealize.ShloMosaic.Lib.Pipeline.Regions
import Idealize.ShloMosaic.Lib.Pipeline.Kit
import Idealize.ShloMosaic.Lib.Pipeline.FrameBody
import Idealize.ShloMosaic.Lib.Pipeline.Value
import Idealize.ShloMosaic.Lib.ValueIdx
import Idealize.ShloMosaic.Lib.Tactic

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable [Facts]

/-- The branch of the body: taken exactly at the first grid point. -/
abbrev cond1 (i : grid1.Coords) : Prop := (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val % 5 = 0 :=
  (by decide +kernel : ∀ t : Fin grid1.N, cond1 (grid1.coords t) ↔ t.val % 5 = 0)

/-- The band of 128 rows of a 2048 × 1000 block that starts at row `off`. -/
abbrev band (x3 : Vec F S2048x1000 .f32) (off : ℕ) (h : ∀ a, (![off, 0] : Fin 2 → Nat) a + S128x1000.size a ≤ S2048x1000.size a) : Vec F S128x1000 .f32 :=
  View.ld x3 (Rect.unit (s := S2048x1000) ![off, 0] S128x1000.size h)

/-- What one grid point adds to the accumulator `acc`: from the point's 16 × 128 block of words `x1`, its 16 × 128 block of
    weights `x2` and its 2048 × 1000 block of the table `x3`, the sixteen bands' masked sums, added one after the other, then
    added to `acc`. -/
def pointSum (x1 : Vec F S16x128 .i32) (x2 : Vec F S16x128 .f32) (x3 : Vec F S2048x1000 .f32) (acc : Elt F .f32) : F .f32 :=
  let v2 : IVec S128x16 32 := k1_pay2 x1
  let v5 : FVec F S128x16 .f32 := k1_pay3 x2
  let v6 : IVec S128x1000 32 := iota .tc S128x1000 32 [1] iota_S128x1000_d1_w32
  let v38 := k1_pay4 x1 x2 (band x3 0 Gen.inb_S2048x1000_S128x1000_0_0) (band x3 128 Gen.inb_S2048x1000_S128x1000_128_0)
  let v86 := k1_pay7 v2 v5 v6 v38 (k1_pay5 x2) (band x3 256 Gen.inb_S2048x1000_S128x1000_256_0) (k1_pay6 x1)
    (band x3 384 Gen.inb_S2048x1000_S128x1000_384_0) (band x3 512 Gen.inb_S2048x1000_S128x1000_512_0)
  let v134 := k1_pay10 v2 v5 v6 v86 (k1_pay8 v5) (band x3 640 Gen.inb_S2048x1000_S128x1000_640_0) (k1_pay9 v2)
    (band x3 768 Gen.inb_S2048x1000_S128x1000_768_0) (band x3 896 Gen.inb_S2048x1000_S128x1000_896_0)
  let v182 := k1_pay13 v2 v5 v6 v134 (k1_pay11 v5) (band x3 1024 Gen.inb_S2048x1000_S128x1000_1024_0) (k1_pay12 v2)
    (band x3 1152 Gen.inb_S2048x1000_S128x1000_1152_0) (band x3 1280 Gen.inb_S2048x1000_S128x1000_1280_0)
  let v230 := k1_pay16 v2 v5 v6 v182 (k1_pay14 v5) (band x3 1408 Gen.inb_S2048x1000_S128x1000_1408_0) (k1_pay15 v2)
    (band x3 1536 Gen.inb_S2048x1000_S128x1000_1536_0) (band x3 1664 Gen.inb_S2048x1000_S128x1000_1664_0)
  k1_pay1 v2 v5 v6 v230 (k1_pay17 v5) (band x3 1792 Gen.inb_S2048x1000_S128x1000_1792_0) (k1_pay18 v2)
    (band x3 1920 Gen.inb_S2048x1000_S128x1000_1920_0) acc

/-- The one index of a 1 × 1 block. -/
abbrev i00 : S1x1.Idx := ValueIdx.ix2 (0 : Fin 1) (0 : Fin 1)

/-- A 1 × 1 block has one index. -/
theorem idx1x1_eq (a b : S1x1.Idx) : a = b := by
  funext d
  have ha : (a d).val < 1 := lt_of_lt_of_eq (a d).isLt (by fin_cases d <;> rfl)
  have hb : (b d).val < 1 := lt_of_lt_of_eq (b d).isLt (by fin_cases d <;> rfl)
  exact Fin.ext (by omega)

set_option maxHeartbeats 1000000 in
/-- The body at a grid point after the first: the three input blocks are read and kept, the accumulator cell ends holding the point's sum added to what it held. -/
theorem body_later (c : Dev nD) (i : grid1.Coords) (M1 : Memref sig .tc .vmem S16x128 .i32) (h1 : M1.IsWhole) (M2 : Memref sig .tc .vmem S16x128 .f32) (h2 : M2.IsWhole)
    (M3 : Memref sig .tc .vmem S2048x1000 .f32) (h3 : M3.IsWhole) (M4 : Memref sig .tc .smem S1x1 .f32) (h4 : M4.IsWhole) (hc : ¬cond1 i)
    (x1 : Vec F S16x128 .i32) (x2 : Vec F S16x128 .f32) (x3 : Vec F S2048x1000 .f32) (x4 : Vec F S1x1 .f32)
    (E : Set Name) (Q : PUnit → sProp 𝕄) :
      iprop(owns (Ix := Ix) (Name := Name) (U := U) (Lvl := Lvl) (c : Thread nD τ) M1 fullShare x1 ∗ owns (Ix := Ix) (Name := Name) (U := U) (Lvl := Lvl) (c : Thread nD τ) M2 fullShare x2 ∗ owns (Ix := Ix) (Name := Name) (U := U) (Lvl := Lvl) (c : Thread nD τ) M3 fullShare x3 ∗ owns (Ix := Ix) (Name := Name) (U := U) (Lvl := Lvl) (c : Thread nD τ) M4 fullShare x4
          ∗ (iprop(owns (Ix := Ix) (Name := Name) (U := U) (Lvl := Lvl) (c : Thread nD τ) M1 fullShare x1 ∗ owns (Ix := Ix) (Name := Name) (U := U) (Lvl := Lvl) (c : Thread nD τ) M2 fullShare x2 ∗ owns (Ix := Ix) (Name := Name) (U := U) (Lvl := Lvl) (c : Thread nD τ) M3 fullShare x3
              ∗ owns (Ix := Ix) (Name := Name) (U := U) (Lvl := Lvl) (c : Thread nD τ) M4 fullShare (fun _ => pointSum x1 x2 x3 (x4 i00))) -∗ Q ⟨⟩))
        ⊢ wp frame (wpE (defs₀ (F := F)) Variants.none (c : Thread nD τ) none) E (cc1__tc_body (F := F) i M1 h1 M2 h2 M3 h3 M4 h4) Q := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, Hk⟩
  obtain rfl := h1.eq_unread hf1; obtain rfl := h2.eq_unread hf2; obtain rfl := h3.eq_unread hf3; obtain rfl := h4.eq_unread hf4
  sl_exec_parts (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  have hz : (![0, 0] : Fin 2 → Nat) = fun _ => 0 := by funext a; fin_cases a <;> rfl

  rw [View.read_writes_eq_canon _ _ _ (fun y => ⟨_, List.mem_singleton_self _, View.mem_set_unit_zero hz Gen.inb_S1x1_S1x1_0_0 y⟩),
    View.canon_unit_zero hz]
  funext x
  sl_unfold_words
  simp only [View.readAt_eq_ld, h1.read_unread, h2.read_unread, h3.read_unread, h4.read_unread, View.ld_unit_zero (S := S16x128) hz,
    View.ld_unit_zero (S := S1x1) hz]
  unfold pointSum band
  exact congrArg _ (congrArg x4 (idx1x1_eq _ _))

set_option maxHeartbeats 1000000 in
/-- The body at the first grid point: the accumulator cell is zeroed first, whatever it held, and ends holding the point's sum added to zero. -/
theorem body_first (c : Dev nD) (i : grid1.Coords) (M1 : Memref sig .tc .vmem S16x128 .i32) (h1 : M1.IsWhole) (M2 : Memref sig .tc .vmem S16x128 .f32) (h2 : M2.IsWhole)
    (M3 : Memref sig .tc .vmem S2048x1000 .f32) (h3 : M3.IsWhole) (M4 : Memref sig .tc .smem S1x1 .f32) (h4 : M4.IsWhole) (hc : cond1 i)
    (x1 : Vec F S16x128 .i32) (x2 : Vec F S16x128 .f32) (x3 : Vec F S2048x1000 .f32) (x4 : Vec F S1x1 .f32)
    (E : Set Name) (Q : PUnit → sProp 𝕄) :
      iprop(owns (Ix := Ix) (Name := Name) (U := U) (Lvl := Lvl) (c : Thread nD τ) M1 fullShare x1 ∗ owns (Ix := Ix) (Name := Name) (U := U) (Lvl := Lvl) (c : Thread nD τ) M2 fullShare x2 ∗ owns (Ix := Ix) (Name := Name) (U := U) (Lvl := Lvl) (c : Thread nD τ) M3 fullShare x3 ∗ owns (Ix := Ix) (Name := Name) (U := U) (Lvl := Lvl) (c : Thread nD τ) M4 fullShare x4
          ∗ (iprop(owns (Ix := Ix) (Name := Name) (U := U) (Lvl := Lvl) (c : Thread nD τ) M1 fullShare x1 ∗ owns (Ix := Ix) (Name := Name) (U := U) (Lvl := Lvl) (c : Thread nD τ) M2 fullShare x2 ∗ owns (Ix := Ix) (Name := Name) (U := U) (Lvl := Lvl) (c : Thread nD τ) M3 fullShare x3
              ∗ owns (Ix := Ix) (Name := Name) (U := U) (Lvl := Lvl) (c : Thread nD τ) M4 fullShare (fun _ => pointSum x1 x2 x3 (Scalar.ofBits .f32 0x00000000#32))) -∗ Q ⟨⟩))
        ⊢ wp frame (wpE (defs₀ (F := F)) Variants.none (c : Thread nD τ) none) E (cc1__tc_body (F := F) i M1 h1 M2 h2 M3 h3 M4 h4) Q := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, Hk⟩
  obtain rfl := h1.eq_unread hf1; obtain rfl := h2.eq_unread hf2; obtain rfl := h3.eq_unread hf3; obtain rfl := h4.eq_unread hf4
  sl_exec_parts (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  have hz : (![0, 0] : Fin 2 → Nat) = fun _ => 0 := by funext a; fin_cases a <;> rfl

  rw [View.read_writes_eq_canon _ _ _ (fun y => ⟨_, List.mem_cons_self, View.mem_set_unit_zero hz Gen.inb_S1x1_S1x1_0_0 y⟩),
    View.canon_cons_unit_zero hz]
  funext x
  sl_unfold_words
  simp only [View.readAt_eq_ld, h1.read_unread, h2.read_unread, h3.read_unread, View.ld_unit_zero (S := S16x128) hz]
  unfold pointSum band
  rfl

end Cert.Kernel.Tc
end
-- ==== Proof.KTcData.lean ====
/-
  The proof data of the accumulating call, and its body obligation.

  The call runs over five grid points. At point `t` its three inputs are fetched: rows `16 t … 16 t + 15` of the two
  128 × 128 tables (words and weights) and rows `2048 t … 2048 t + 2047` of the 16384 × 1000 table. Its one result cell is
  staged in one buffer that is written back after the last point only, so between points it carries the running sum:
  `accAt n` is what it holds after point `n` — zero plus the first point's sum, then each later point's sum added on.
  The final 1 × 1 result is `accAt 4`, a function of the three inputs alone (`tcOut`).
-/
import proofs.«207748_g59691455480232_cont_9to1c4b_13_25_alg».proof.Proof.Gen.Kernel.Skeleton
import proofs.«207748_g59691455480232_cont_9to1c4b_13_25_alg».proof.Proof.Gen.Kernel.Launch
import proofs.«207748_g59691455480232_cont_9to1c4b_13_25_alg».proof.Proof.Gen.Kernel.Points
import Idealize.ShloMosaic.Lib.Pipeline.Regions
import Idealize.ShloMosaic.Lib.Pipeline.Kit
import Idealize.ShloMosaic.Lib.Pipeline.FrameBody
import Idealize.ShloMosaic.Lib.Pipeline.Value
import Idealize.ShloMosaic.Lib.ValueIdx
import Idealize.ShloMosaic.Lib.Tactic
import proofs.«207748_g59691455480232_cont_9to1c4b_13_25_alg».proof.Proof.KTcBody

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable [Facts]

/-! ## The blocks a grid point sees, and the accumulation over the grid -/

/-- The pipeline has no prefetched tables. -/
abbrev adm : (p : Fin 1) → (pcfgs (F := F) p).Adm := fun p => (cfgs p).toPCfg_adm

/-- Block `t` of the 128 × 128 table of words: its rows `16 t … 16 t + 15`. -/
def blk0 (f1 : Vec F S128x128 .i32) (t : Fin cfg1.N) : (cfg1.win 0).block.Idx → Elt F (cfg1.win 0).elt := ((cfg1.win 0).blk t).view.read (Elt F) f1
/-- Block `t` of the 128 × 128 table of weights: its rows `16 t … 16 t + 15`. -/
def blk1 (f2 : Vec F S128x128 .f32) (t : Fin cfg1.N) : (cfg1.win 1).block.Idx → Elt F (cfg1.win 1).elt := ((cfg1.win 1).blk t).view.read (Elt F) f2
/-- Block `t` of the 16384 × 1000 table: its rows `2048 t … 2048 t + 2047`. -/
def blk2 (f0 : Vec F S16384x1000 .f32) (t : Fin cfg1.N) : (cfg1.win 2).block.Idx → Elt F (cfg1.win 2).elt := ((cfg1.win 2).blk t).view.read (Elt F) f0

theorem N1 : cfg1.N = 5 := N_1

/-- The grid point numbered `n` (numbers past the grid wrap; never used there). -/
def ptOf (n : ℕ) : Fin cfg1.N := ⟨n % 5, lt_of_lt_of_eq (Nat.mod_lt n (by decide)) N1.symm⟩

theorem ptOf_val (t : Fin cfg1.N) : ptOf t.val = t :=
  Fin.ext (Nat.mod_eq_of_lt (lt_of_lt_of_eq t.isLt N1))

/-- THE ACCUMULATION. What the accumulator cell holds after the body at point `n`: the point's sum added to zero at
    the first point, to what the point before left at the later ones. -/
def accAt (f1 : Vec F S128x128 .i32) (f2 : Vec F S128x128 .f32) (f0 : Vec F S16384x1000 .f32) : ℕ → Elt F .f32
  | 0 => pointSum (blk0 f1 (ptOf 0)) (blk1 f2 (ptOf 0)) (blk2 f0 (ptOf 0)) (Scalar.ofBits .f32 0x00000000#32)
  | n + 1 => pointSum (blk0 f1 (ptOf (n + 1))) (blk1 f2 (ptOf (n + 1))) (blk2 f0 (ptOf (n + 1))) (accAt f1 f2 f0 n)

/-- What the 1 × 1 result holds after the region: the accumulation over the five grid points. -/
def tcOut (f1 : Vec F S128x128 .i32) (f2 : Vec F S128x128 .f32) (f0 : Vec F S16384x1000 .f32) : Vec F S1x1 .f32 :=
  fun _ => accAt f1 f2 f0 4

theorem accAt_first (f1 : Vec F S128x128 .i32) (f2 : Vec F S128x128 .f32) (f0 : Vec F S16384x1000 .f32) (t : Fin cfg1.N) (h : t.val = 0) :
    accAt f1 f2 f0 t.val = pointSum (blk0 f1 t) (blk1 f2 t) (blk2 f0 t) (Scalar.ofBits .f32 0x00000000#32) := by
  have e : ptOf 0 = t := by rw [← h]; exact ptOf_val t
  rw [h]; unfold accAt; rw [e]

theorem accAt_later (f1 : Vec F S128x128 .i32) (f2 : Vec F S128x128 .f32) (f0 : Vec F S16384x1000 .f32) (t : Fin cfg1.N) (h : t.val ≠ 0) :
    accAt f1 f2 f0 t.val = pointSum (blk0 f1 t) (blk1 f2 t) (blk2 f0 t) (accAt f1 f2 f0 (t.val - 1)) := by
  obtain ⟨n, hn⟩ : ∃ n, t.val = n + 1 := ⟨t.val - 1, by omega⟩
  have e : ptOf (n + 1) = t := by rw [← hn]; exact ptOf_val t
  have e1 : t.val - 1 = n := by omega
  rw [e1, hn]
  show pointSum (blk0 f1 (ptOf (n + 1))) (blk1 f2 (ptOf (n + 1))) (blk2 f0 (ptOf (n + 1))) (accAt f1 f2 f0 n) = _
  rw [e]

/-! ## The pipeline's proof data -/

variable (V : (c : Dev nD) → (b : Ref sig .tc) → Buf (Elt F) ((c : Thread nD τ).loc b)) (O : Dev nD → CellTallies nD τ sig Ix)
  (W : Dev nD → Waits sig Ix)

/-- The proof data of the pipeline on core `c`: the four arrays as the region finds them (`V c`); after the body at
    point `t` each input's buffer at its block and the result's at the accumulation; no invariant of its own; the core
    owing `O c` throughout (the body pays nothing and takes on nothing), its recorded waits within `W c` and the
    pipeline's own; full shares. -/
def dat (c : Dev nD) : Pipeline.Dat τ (Elt F) Ix Name U Lvl cfg1 c where
  A w := V c (Pipeline.arrRef spec1 w)
  after w t := match w with
    | ⟨0, _⟩ => blk0 (V c main_v1) t
    | ⟨1, _⟩ => blk1 (V c main_v2) t
    | ⟨2, _⟩ => blk2 (V c main_arg0) t
    | ⟨3, _⟩ => fun _ => accAt (V c main_v1) (V c main_v2) (V c main_arg0) t.val
  Φ _ := iprop(emp)
  q _ := fullShare
  owed _ := O c
  recorded _ := ↑(W c)

theorem A_eq (c : Dev nD) (w : Fin cfg1.W) : (dat (Name := Name) (U := U) (Lvl := Lvl) V O W c).A w = V c (Pipeline.arrRef spec1 w) := by
  dsimp only [dat]

theorem after_0 (c : Dev nD) (t : Fin cfg1.N) : (dat (Name := Name) (U := U) (Lvl := Lvl) V O W c).after 0 t = blk0 (V c main_v1) t := rfl
theorem after_1 (c : Dev nD) (t : Fin cfg1.N) : (dat (Name := Name) (U := U) (Lvl := Lvl) V O W c).after 1 t = blk1 (V c main_v2) t := rfl
theorem after_2 (c : Dev nD) (t : Fin cfg1.N) : (dat (Name := Name) (U := U) (Lvl := Lvl) V O W c).after 2 t = blk2 (V c main_arg0) t := rfl
theorem after_3 (c : Dev nD) (t : Fin cfg1.N) :
    (dat (Name := Name) (U := U) (Lvl := Lvl) V O W c).after 3 t = fun _ => accAt (V c main_v1) (V c main_v2) (V c main_arg0) t.val := rfl

/-- Each input is fetched at every point: its current buffer holds its block. -/
theorem before_0 (c : Dev nD) (t : Fin cfg1.N) (d) : (dat (Name := Name) (U := U) (Lvl := Lvl) V O W c).before 0 t d = blk0 (V c main_v1) t := by
  refine (Pipeline.Dat.before_fetched _ 0 t (fetch1_0 t) d).trans ?_
  unfold Pipeline.Dat.fetched Pipeline.Dat.blockOf blk0; rw [A_eq]; rfl
theorem before_1 (c : Dev nD) (t : Fin cfg1.N) (d) : (dat (Name := Name) (U := U) (Lvl := Lvl) V O W c).before 1 t d = blk1 (V c main_v2) t := by
  refine (Pipeline.Dat.before_fetched _ 1 t (fetch1_1 t) d).trans ?_
  unfold Pipeline.Dat.fetched Pipeline.Dat.blockOf blk1; rw [A_eq]; rfl
theorem before_2 (c : Dev nD) (t : Fin cfg1.N) (d) : (dat (Name := Name) (U := U) (Lvl := Lvl) V O W c).before 2 t d = blk2 (V c main_arg0) t := by
  refine (Pipeline.Dat.before_fetched _ 2 t (fetch1_2 t) d).trans ?_
  unfold Pipeline.Dat.fetched Pipeline.Dat.blockOf blk2; rw [A_eq]; rfl

/-- The result's buffer at the first point holds anything. -/
theorem before_3_first (c : Dev nD) (t : Fin cfg1.N) (h0 : t.val = 0) (d) : (dat (Name := Name) (U := U) (Lvl := Lvl) V O W c).before 3 t d = d :=
  Pipeline.Dat.before_out_reset _ 3 rfl t (.inl h0) d

/-- At a later point it holds what the point before left: it is written back after the last point only. -/
theorem before_3_later (c : Dev nD) (t : Fin cfg1.N) (h0 : t.val ≠ 0) (d) :
    (dat (Name := Name) (U := U) (Lvl := Lvl) V O W c).before 3 t d = fun _ => accAt (V c main_v1) (V c main_v2) (V c main_arg0) (t.val - 1) := by
  have hN : t.val < 5 := lt_of_lt_of_eq t.isLt N1
  refine (Pipeline.Dat.before_out_kept _ 3 rfl t h0 (Bool.eq_false_iff.mpr fun h => by have := (flush1_3 _).mp h; dsimp only at this; omega)
    (fun _ => rfl) (fun _ _ => rfl) d).trans ?_
  rfl

/-! ## The body obligation -/

set_option maxHeartbeats 800000 in
/-- The body at any point: every input's current buffer holds its block; at the first point the result's buffer holds
    anything and the body zeroes it before adding; at a later point it holds what the point before left, and the body adds
    to that. Nothing the core owes is touched. -/
theorem sound_body (ι : Ix) (c : Dev nD) (t : Fin cfg1.N) :
    iprop((dat (Name := Name) (U := U) (Lvl := Lvl) V O W c).Φ t.castSucc ∗ (dat (Name := Name) (U := U) (Lvl := Lvl) V O W c).owesAt ι t.castSucc
      ∗ (∃ d, owns (Ix := Ix) (Name := Name) (U := U) (Lvl := Lvl) (c : Thread nD τ) (st1_0 t) fullShare ((dat (Name := Name) (U := U) (Lvl := Lvl) V O W c).before 0 t d))
      ∗ (∃ d, owns (Ix := Ix) (Name := Name) (U := U) (Lvl := Lvl) (c : Thread nD τ) (st1_1 t) fullShare ((dat (Name := Name) (U := U) (Lvl := Lvl) V O W c).before 1 t d))
      ∗ (∃ d, owns (Ix := Ix) (Name := Name) (U := U) (Lvl := Lvl) (c : Thread nD τ) (st1_2 t) fullShare ((dat (Name := Name) (U := U) (Lvl := Lvl) V O W c).before 2 t d))
      ∗ (∃ d, owns (Ix := Ix) (Name := Name) (U := U) (Lvl := Lvl) (c : Thread nD τ) (st1_3 t) fullShare ((dat (Name := Name) (U := U) (Lvl := Lvl) V O W c).before 3 t d)))
    ⊢ wp frame (wpE (defs₀ (F := F)) Variants.none (c : Thread nD τ) none) Set.univ (bodyAt1 (F := F) t) (fun _ =>
      iprop((dat (Name := Name) (U := U) (Lvl := Lvl) V O W c).Φ t.succ ∗ (dat (Name := Name) (U := U) (Lvl := Lvl) V O W c).owesAt ι t.succ
        ∗ owns (Ix := Ix) (Name := Name) (U := U) (Lvl := Lvl) (c : Thread nD τ) (st1_0 t) fullShare ((dat (Name := Name) (U := U) (Lvl := Lvl) V O W c).after 0 t)
        ∗ owns (Ix := Ix) (Name := Name) (U := U) (Lvl := Lvl) (c : Thread nD τ) (st1_1 t) fullShare ((dat (Name := Name) (U := U) (Lvl := Lvl) V O W c).after 1 t)
        ∗ owns (Ix := Ix) (Name := Name) (U := U) (Lvl := Lvl) (c : Thread nD τ) (st1_2 t) fullShare ((dat (Name := Name) (U := U) (Lvl := Lvl) V O W c).after 2 t)
        ∗ owns (Ix := Ix) (Name := Name) (U := U) (Lvl := Lvl) (c : Thread nD τ) (st1_3 t) fullShare ((dat (Name := Name) (U := U) (Lvl := Lvl) V O W c).after 3 t))) := by
  unfold bodyAt1
  simp only [before_0, before_1, before_2]
  rw [show (dat (Name := Name) (U := U) (Lvl := Lvl) V O W c).Φ t.succ = (dat (Name := Name) (U := U) (Lvl := Lvl) V O W c).Φ t.castSucc from rfl,
    show (dat (Name := Name) (U := U) (Lvl := Lvl) V O W c).owesAt ι t.succ = (dat (Name := Name) (U := U) (Lvl := Lvl) V O W c).owesAt ι t.castSucc from rfl,
    after_0, after_1, after_2, after_3]
  have hN : t.val < 5 := lt_of_lt_of_eq t.isLt N1
  by_cases h0 : t.val = 0
  · rw [accAt_first _ _ _ t h0]
    simp only [before_3_first V O W c t h0]
    iintro ⟨HΦ, Ho, ⟨%d0, H0⟩, ⟨%d1, H1⟩, ⟨%d2, H2⟩, ⟨%d3, H3⟩⟩
    iapply (body_first c (grid1.coords t) _ _ _ _ _ _ _ _ ((hcond1 t).mpr (by omega)) _ _ _ d3 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later _ _ _ t h0]
    simp only [before_3_later V O W c t h0]
    iintro ⟨HΦ, Ho, ⟨%d0, H0⟩, ⟨%d1, H1⟩, ⟨%d2, H2⟩, ⟨%d3, H3⟩⟩
    iapply (body_later c (grid1.coords t) _ _ _ _ _ _ _ _ (fun h => h0 (by have := (hcond1 t).mp h; omega)) _ _ _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (ι : Ix) (c : Dev nD) :
    BodyObligation (dat (Name := Name) (U := U) (Lvl := Lvl) V O W c) (defs₀ (F := F)) Variants.none ι Set.univ := fun t => by
  rw [bigSep_W1, bigSep_W1]
  exact sound_body V O W ι c t

end Cert.Kernel.Tc
end
-- ==== Proof.KTcRegion.lean ====
/-
  The accumulating call as one step of the program's TensorCore thread.

  The call moves four arrays: the two 128 × 128 tables (words, weights), the 16384 × 1000 table, and its 1 × 1 result. It
  is entered holding them whole; it leaves the three inputs as they were and the result at the accumulation over the five
  grid points (`tcOut`, a function of the three inputs alone: the result's old contents are overwritten at the first
  point). The thread may owe other threads units while it runs the call: it owes the same afterwards, and every wait the
  call records is one of the pipeline's own, at the pipeline's index. The record below is what the library's region rule
  takes; `tcRegion_wp` is that rule applied to it.
-/
import proofs.«207748_g59691455480232_cont_9to1c4b_13_25_alg».proof.Proof.Gen.Kernel.Skeleton
import proofs.«207748_g59691455480232_cont_9to1c4b_13_25_alg».proof.Proof.Gen.Kernel.Launch
import proofs.«207748_g59691455480232_cont_9to1c4b_13_25_alg».proof.Proof.Gen.Kernel.Points
import Idealize.ShloMosaic.Lib.Pipeline.Regions
import Idealize.ShloMosaic.Lib.Pipeline.Kit
import Idealize.ShloMosaic.Lib.Pipeline.FrameBody
import Idealize.ShloMosaic.Lib.Pipeline.Value
import Idealize.ShloMosaic.Lib.ValueIdx
import Idealize.ShloMosaic.Lib.Tactic
import proofs.«207748_g59691455480232_cont_9to1c4b_13_25_alg».proof.Proof.KTcData

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable [Facts]

variable (V : (c : Dev nD) → (b : Ref sig .tc) → Buf (Elt F) ((c : Thread nD τ).loc b)) (O : Dev nD → CellTallies nD τ sig Ix)
  (W : Dev nD → Waits sig Ix)

/-- The program's one pipeline's proof data, as the region rule takes it. -/
def pdats : (p : Fin 1) → (c : Dev nD) → Pipeline.Dat τ (Elt F) Ix Name U Lvl (Pipeline.pin (pcfgs (F := F)) adm p) c
  | 0 => dat V O W

/-- Buffer `b` of core `c` held whole at `f`. -/
abbrev pl (c : Dev nD) (b : Ref sig .tc) (f : Buf (Elt F) ((c : Thread nD τ).loc b)) : sProp 𝕄 :=
  ((c : Thread nD τ).loc b) ↦{fullShare} f

/-- The region's arrays at contents `Fa` are the two reshaped tables, the large table and the result, held. -/
theorem arrays_eq (c : Dev nD) (Fa) :
    ((pdats (Name := Name) (U := U) (Lvl := Lvl) V O W 0 c).arrays Fa : sProp 𝕄)
      = iprop(pl c main_v1 (Fa 0) ∗ pl c main_v2 (Fa 1) ∗ pl c main_arg0 (Fa 2) ∗ pl c main_v3 (Fa 3)) := by
  rw [Pipeline.arrays_eq (Pipeline.pin (pcfgs (F := F)) adm) (pdats V O W) 0 c launch1.arr_whole ((pdats (Name := Name) (U := U) (Lvl := Lvl) V O W 0 c).share_full fun _ => rfl) Fa, bigSep_W1]

/-- The three inputs reach the exit as they entered. -/
theorem arrAt_v1 (c : Dev nD) (n : ℕ) : (pdats (Name := Name) (U := U) (Lvl := Lvl) V O W 0 c).arrAt 0 n = V c main_v1 :=
  (dat (Name := Name) (U := U) (Lvl := Lvl) V O W c).arrAt_in 0 rfl n
theorem arrAt_v2 (c : Dev nD) (n : ℕ) : (pdats (Name := Name) (U := U) (Lvl := Lvl) V O W 0 c).arrAt 1 n = V c main_v2 :=
  (dat (Name := Name) (U := U) (Lvl := Lvl) V O W c).arrAt_in 1 rfl n
theorem arrAt_arg0 (c : Dev nD) (n : ℕ) : (pdats (Name := Name) (U := U) (Lvl := Lvl) V O W 0 c).arrAt 2 n = V c main_arg0 :=
  (dat (Name := Name) (U := U) (Lvl := Lvl) V O W c).arrAt_in 2 rfl n

/-- The result's one block is the whole 1 × 1 array, at every point. -/
theorem mem_blk3 (t : Fin cfg1.N) (i : S1x1.Idx) : i ∈ ((cfg1.win 3).blk t).view.set := by
  show i ∈ ((View.whole main_v3).slice (win1_3.rect t)).set
  rw [View.set_slice_whole, Rect.mem_set_unit]
  intro a
  have := (i a).isLt
  fin_cases a <;> exact ⟨Nat.zero_le _, this⟩

/-- The result's one block is written back after the last point, with the accumulation over the five points. -/
theorem arrAt_v3 (c : Dev nD) :
    (pdats (Name := Name) (U := U) (Lvl := Lvl) V O W 0 c).arrAt 3 (Pipeline.pin (pcfgs (F := F)) adm 0).N = tcOut (V c main_v1) (V c main_v2) (V c main_arg0) := by
  refine (dat (Name := Name) (U := U) (Lvl := Lvl) V O W c).arrAt_eq_of_cover 3 (tcOut (V c main_v1) (V c main_v2) (V c main_arg0)) (fun t hf => ?_) (fun i => ?_)
  · have ht : t.val % 5 = 4 := (flush1_3 t).mp hf
    have hN : t.val < 5 := lt_of_lt_of_eq t.isLt N1
    have e : t.val = 4 := by omega
    show (cfg1.win 3).cut (grid1.coords t) ((dat (Name := Name) (U := U) (Lvl := Lvl) V O W c).after 3 t) = _
    rw [after_3, e]
    rfl
  · refine ⟨⟨4, lt_of_lt_of_eq (by decide) N1.symm⟩, (flush1_3 _).mpr rfl, ?_⟩
    exact mem_blk3 _ i

/-! ## The region, as the library's record -/

variable (ι : Ix) (L : GSem nD τ sig → Finset Ix) (lv : GSem nD τ sig → Ix → Lvl)

/-- The thread state the region is entered from: the four arrays held whole at `V c`, the core owing `O c` with its
    recorded waits `W c`. -/
def tcPre (c : Dev nD) : sProp 𝕄 :=
  iprop(pl c main_v1 (V c main_v1) ∗ pl c main_v2 (V c main_v2) ∗ pl c main_arg0 (V c main_arg0) ∗ pl c main_v3 (V c main_v3)
    ∗ owes (c : Thread nD τ) (O c) (W c))

/-- The thread state it leaves: the three inputs as they were, the result at the accumulation, the core owing the same,
    every wait recorded meanwhile being at the pipeline's index `ι`. -/
def tcPost (c : Dev nD) : sProp 𝕄 :=
  iprop(pl c main_v1 (V c main_v1) ∗ pl c main_v2 (V c main_v2) ∗ pl c main_arg0 (V c main_arg0)
    ∗ pl c main_v3 (tcOut (V c main_v1) (V c main_v2) (V c main_arg0))
    ∗ ∃ W', ⌜∀ p ∈ W', p ∈ W c ∨ p.2 = ι⌝ ∗ owes (c : Thread nD τ) (O c) W')

/-- THE REGION: the four arrays into the pipeline and back, nothing else entering or bypassing; the core owes `O c`
    throughout, and may wait on the staging cells at index `ι` owing that (`hmw`). -/
def tcRegion (hmw : ∀ (c : Dev nD) (sm : SemLoc sig), (levAts L lv : sProp 𝕄) ⊢ MayWait (c : Thread nD τ) sm ι (O c)) :
    Pipeline.RegionSeg (pcfgs (F := F)) adm (pdats (Name := Name) (U := U) (Lvl := Lvl) V O W) ι defs₀ Variants.none L lv (0 : Fin 1) where
  win := launch1.win.to₀
  block_pos := launch1.block_pos
  stage_whole := launch1.stage_whole
  K := PEmpty
  osem k := k.elim
  ho := Pipeline.OwnSemFacts.none _
  hbody c := (body_obligation V O W ι c).loose
  hwaits c := Pipeline.cellsWaits_intro _ (pdats V O W) ι 0 c fun w s t => hmw c _
  pre := tcPre V O W
  post := tcPost V O W ι
  X _ := iprop(emp)
  Y _ := iprop(emp)
  Z _ := iprop(emp)
  hentry c := by
    rw [Pipeline.ownSems0_none, arrays_eq]
    unfold tcPre
    iintro ⟨⟨H1, H2, H0, H3, HO⟩, -, -⟩
    imodintro
    isplitl [H1 H2 H0 H3]
    · isplitl [H1]; · iexact H1
      isplitl [H2]; · iexact H2
      isplitl [H0]; · iexact H0
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W c; isplitr; · ipureintro; exact fun _ h => Or.inl h
      iexact HO
    isplitr <;> iempintro
  hin c := by iintro -; iempintro
  hout c := by
    rw [Pipeline.ownSems0_none, scopedRest1_eq]
    iintro -; isplitr; · iempintro
    isplitr <;> iempintro
  hexit c := by
    rw [arrays_eq, arrAt_v1, arrAt_v2, arrAt_arg0, arrAt_v3]
    unfold tcPost
    iintro ⟨⟨H1, H2, H0, H3⟩, HO, -, -⟩
    imodintro
    isplitl [H1]; · iexact H1
    isplitl [H2]; · iexact H2
    isplitl [H0]; · iexact H0
    isplitl [H3]; · iexact H3
    unfold Pipeline.Dat.owesAt Pipeline.owesWithin
    icases HO with ⟨%W', %hW', HO⟩; iexists W'; isplitr
    · ipureintro
      intro p hp
      rcases hW' (Finset.mem_coe.mpr hp) with h | ⟨w, s, rfl⟩
      · exact Or.inl (Finset.mem_coe.mp h)
      · exact Or.inr rfl
    iexact HO

theorem tcRegion_pre (hmw) : (tcRegion (F := F) (Name := Name) (U := U) V O W ι L lv hmw).pre = tcPre V O W := rfl
theorem tcRegion_post (hmw) : (tcRegion (F := F) (Name := Name) (U := U) V O W ι L lv hmw).post = tcPost V O W ι := rfl

/-- The staging cells of the program's one pipeline are pairwise distinct (what the region rule and the launch's funding
    of the cells ask). -/
theorem cells_inj : Function.Injective (Pipeline.cellOf (nD := nD) (τ := τ) (Pipeline.pin (pcfgs (F := F)) adm)) := cellOf_inj

/-- THE REGION, RUN: from the boundary, the entry state, the level facts and the pipeline's launch ghost state (its cells'
    and its duty tokens, consumed), the call runs to the boundary and the exit state for the continuation. -/
theorem tcRegion_wp [Infinite Name] (EP : Emb (URounds (GSem nD τ sig) Unit) (MT nD τ sig Ix (Elt F) Name U Lvl))
    [EP.LandsIn (upEmb : UEmb _ (MT nD τ sig Ix (Elt F) Name U Lvl))]
    (hmw : ∀ (c : Dev nD) (sm : SemLoc sig), (levAts L lv : sProp 𝕄) ⊢ MayWait (c : Thread nD τ) sm ι (O c)) (c : Dev nD)
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ tcPost V O W ι c)
            -∗ wp frame (wpE (Pipeline.defs (pcfgs (F := F)) defs₀) (Variants.lift Variants.none) (c.tc : Thread nD τ) none) Set.univ (k ⟨⟩) Q)
        ∗ boundary (c.tc : Thread nD τ) ∗ tcPre V O W c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift Variants.none) (c.tc : Thread nD τ) none) Set.univ
          (.op (.customCall (Pipeline.entry 0) ()) k) Q :=
  Pipeline.RegionSeg.wp (pcfgs (F := F)) adm (pdats V O W) ι cells_inj EP defs₀ Variants.none L lv (tcRegion V O W ι L lv hmw) c none
    (fun _ h => by cases h) k Q

end Cert.Kernel.Tc
end
-- ==== Proof.KScMain.lean ====
/-
  @main on the TensorCore, and the launch element.

  @main starts the SparseCore call and waits for it, reshapes `target` and `reward` to 128 × 128, runs the TensorCore
  kernel's region, and finishes with seven host operations. Its arrays are followed as one valuation of the
  TensorCore's unscoped buffers: `V1` after the call (the partial-sum array at the whole-array function, the inputs
  back whole), `V2` after the reshapes, `V3` after the region (its result at the region's function of the reshaped
  tables and `prob`), `V4` at the end. The launch element funds the handshakes' rounds and the pipeline's staging cells.
-/
import proofs.«207748_g59691455480232_cont_9to1c4b_13_25_alg».proof.Proof.KScSplit
import proofs.«207748_g59691455480232_cont_9to1c4b_13_25_alg».proof.Proof.KTcRegion
import Idealize.ShloMosaic.Lib.Pipeline.Frame

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sub_split held_congr held_sdiff_result wp_hlo_within wp_seq after)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

/-- The one pipeline's configuration, as the region library names it. -/
abbrev pinC : Fin 1 → Pipeline.Cfg sig Λ₀ := Pipeline.pin (pcfgs (F := F)) Tc.adm

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

def u₀ : UU := (initOf (K (F := F)).hsCells (K (F := F)).hsToks,
  (initOf (Pipeline.cells (pinC (F := F)) Tc.cells_inj) (Pipeline.launchToks (pinC (F := F)) Tc.cells_inj), 1))

/-- What @main's proof starts from beyond what the launch deals: the pipeline's cells' ghost state and duty tokens. -/
def G (d : Dev nD) : sProp 𝕄 :=
  iprop((bigSep Finset.univ fun p : Fin 1 => Pipeline.cellsGhost (pinC (F := F)) EP p d)
    ∗ bigSep Finset.univ fun p : Fin 1 => (Pipeline.toksInit (pinC (F := F)) EP p d : sProp 𝕄))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HB⟩
  imod (Pipeline.fund_ghost (pinC (F := F)) EP Tc.cells_inj) $$ HB with ⟨Hg, Htk⟩
  imodintro
  isplitl [HH]; · iexact HH
  isplitl [Hg Htk]
  · unfold G
    rw [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main's buffers and valuations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev cst' : DevRef τ sig := Proc.devRef .tc (main_cst : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev cst0' : DevRef τ sig := Proc.devRef .tc (main_cst_0 : Ref sig .tc)
abbrev v8' : DevRef τ sig := Proc.devRef .tc (main_v8 : Ref sig .tc)

/-- The launch valuation. -/
def V0 (d : Dev nD) : Valuation τ sig (Elt F) := fun b => m (d, b)
/-- After the SparseCore call: the partial sums at the whole-array function. -/
def V1 (d : Dev nD) : Valuation τ sig (Elt F) := Function.update (V0 m d) v0' (scBuf m d)

/-- The two reshapes before the region, and the seven operations after it. -/
abbrev ops1 : List (HloOp τ sig (Elt F)) :=
  [StableHlo.reshape main_arg1 main_v1 rfl shapeCasts_S16384_S128x128, StableHlo.reshape main_arg2 main_v2 rfl shapeCasts_S16384_S128x128]
abbrev ops2 : List (HloOp τ sig (Elt F)) :=
  [StableHlo.reshape main_v3 main_v4 rfl shapeCasts_S1x1_S_,
    StableHlo.nullary main_cst (constant S_ .f32 0x00000000#32),
    StableHlo.binary main_v0 main_cst main_v5 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.binary main_v4 main_v5 main_v6 (addf : (⟨S_, .f32⟩ : BufTy).Contents (Elt F) → (⟨S_, .f32⟩ : BufTy).Contents (Elt F) → (⟨S_, .f32⟩ : BufTy).Contents (Elt F)),
    StableHlo.unary main_v6 main_v7 (Host.negf : (⟨S_, .f32⟩ : BufTy).Contents (Elt F) → (⟨S_, .f32⟩ : BufTy).Contents (Elt F)),
    StableHlo.nullary main_cst_0 (constant S_ .f32 0x38800000#32),
    StableHlo.binary main_v7 main_cst_0 main_v8 (mulf : (⟨S_, .f32⟩ : BufTy).Contents (Elt F) → (⟨S_, .f32⟩ : BufTy).Contents (Elt F) → (⟨S_, .f32⟩ : BufTy).Contents (Elt F))]

def V2 (d : Dev nD) : Valuation τ sig (Elt F) := after ops1 (V1 m d)
/-- The region's arrays, as the region library indexes them. -/
def Vt (d : Dev nD) (b : Ref sig .tc) : Buf (Elt F) ((d.tc : Thread nD τ).loc b) := V2 m d (Proc.devRef .tc b)
def V3 (d : Dev nD) : Valuation τ sig (Elt F) :=
  Function.update (V2 m d) v3' (Tc.tcOut (Vt m d main_v1) (Vt m d main_v2) (Vt m d main_arg0))
def V4 (d : Dev nD) : Valuation τ sig (Elt F) := after ops2 (V3 m d)

theorem main_eq (d : Dev nD) : main (F := F) d = (do
    sc.run d 0
    StableHlo.seq ops1
    Prog.lift (.customCall (SparseCore.inner (Pipeline.entry 0)) ())
    StableHlo.seq ops2) := rfl

/-! ## The held set and the SparseCore call's four arrays -/

omit [FloatOps F] in
theorem unscoped_held (d : Dev nD) :
    (unscopedBufs d (fun b => m ((SparseCore.T d).loc b)) : sProp 𝕄) = held (T d) (Pipeline.ucRefs τ sig) (V0 m d) :=
  Pipeline.unscopedBufs_held d (V0 m d)

abbrev SC4 : Finset (DevRef τ sig) := {a0', a1', a2', v0'}
theorem SC4_sub : SC4 ⊆ Pipeline.ucRefs τ sig := by decide

omit [FloatOps F] in
theorem held_SC4 (d : Dev nD) (W : Valuation τ sig (Elt F)) :
    (held (T d) SC4 W : sProp 𝕄) = iprop((pLoc d ↦{fullShare} W a0') ∗ (tLoc d ↦{fullShare} W a1') ∗ (rLoc d ↦{fullShare} W a2') ∗ oLoc d ↦{fullShare} W v0') := by
  unfold held SC4
  rw [SparseCore.bigSep_insert' (by decide), SparseCore.bigSep_insert' (by decide), SparseCore.bigSep_insert' (by decide), bigSep_singleton]

theorem V1_a0 (d : Dev nD) : V1 m d a0' = m (pLoc d) := Function.update_of_ne (show a0' ≠ v0' by decide) _ _
theorem V1_a1 (d : Dev nD) : V1 m d a1' = m (tLoc d) := Function.update_of_ne (show a1' ≠ v0' by decide) _ _
theorem V1_a2 (d : Dev nD) : V1 m d a2' = m (rLoc d) := Function.update_of_ne (show a2' ≠ v0' by decide) _ _
theorem V1_v0 (d : Dev nD) : V1 m d v0' = scBuf m d := Function.update_self _ _ _

theorem held_rest1 (d : Dev nD) :
    (held (T d) (Pipeline.ucRefs τ sig \ SC4) (V0 m d) : sProp 𝕄) = held (T d) (Pipeline.ucRefs τ sig \ SC4) (V1 m d) :=
  held_congr (T d) fun b hb => (Function.update_of_ne (fun e => (Finset.mem_sdiff.mp hb).2 (by rw [e]; decide)) _ _).symm

/-! ## The host operations' buffers; the region's four arrays; the TensorCore's state opened -/

theorem hS1 : ∀ op ∈ (ops1 : List (HloOp τ sig (Elt F))), op.bufs ⊆ Pipeline.ucRefs τ sig :=
  List.forall_mem_cons.mpr ⟨Pipeline.sub_ucRefs _ (StableHlo.reshape_bufs_sub ..), List.forall_mem_cons.mpr ⟨Pipeline.sub_ucRefs _ (StableHlo.reshape_bufs_sub ..), fun _ h => nomatch h⟩⟩
theorem hf1 : ∀ op ∈ (ops1 : List (HloOp τ sig (Elt F))), op.fresh = ∅ :=
  List.forall_mem_cons.mpr ⟨rfl, List.forall_mem_cons.mpr ⟨rfl, fun _ h => nomatch h⟩⟩
theorem hS2 : ∀ op ∈ (ops2 : List (HloOp τ sig (Elt F))), op.bufs ⊆ Pipeline.ucRefs τ sig :=
  List.forall_mem_cons.mpr ⟨Pipeline.sub_ucRefs _ (StableHlo.reshape_bufs_sub ..), List.forall_mem_cons.mpr ⟨Pipeline.sub_ucRefs _ (StableHlo.nullary_bufs_sub ..), List.forall_mem_cons.mpr ⟨Pipeline.sub_ucRefs _ (StableHlo.binary_bufs_sub ..), List.forall_mem_cons.mpr ⟨Pipeline.sub_ucRefs _ (StableHlo.binary_bufs_sub ..), List.forall_mem_cons.mpr ⟨Pipeline.sub_ucRefs _ (StableHlo.unary_bufs_sub ..), List.forall_mem_cons.mpr ⟨Pipeline.sub_ucRefs _ (StableHlo.nullary_bufs_sub ..), List.forall_mem_cons.mpr ⟨Pipeline.sub_ucRefs _ (StableHlo.binary_bufs_sub ..), fun _ h => nomatch h⟩⟩⟩⟩⟩⟩⟩
theorem hf2 : ∀ op ∈ (ops2 : List (HloOp τ sig (Elt F))), op.fresh = ∅ :=
  List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, List.forall_mem_cons.mpr ⟨rfl, fun _ h => nomatch h⟩⟩⟩⟩⟩⟩⟩

abbrev TC4 : Finset (DevRef τ sig) := {v1', v2', a0', v3'}
theorem TC4_sub : TC4 ⊆ Pipeline.ucRefs τ sig := by decide

omit [FloatOps F] in
theorem held_TC4 (d : Dev nD) (W : Valuation τ sig (Elt F)) :
    (held (T d) TC4 W : sProp 𝕄) = iprop(((d, v1') ↦{fullShare} W v1') ∗ ((d, v2') ↦{fullShare} W v2') ∗ ((d, a0') ↦{fullShare} W a0') ∗ (d, v3') ↦{fullShare} W v3') := by
  unfold held TC4
  rw [SparseCore.bigSep_insert' (by decide), SparseCore.bigSep_insert' (by decide), SparseCore.bigSep_insert' (by decide), bigSep_singleton]

theorem V3_v1 (d : Dev nD) : V3 m d v1' = V2 m d v1' := Function.update_of_ne (show v1' ≠ v3' by decide) _ _
theorem V3_v2 (d : Dev nD) : V3 m d v2' = V2 m d v2' := Function.update_of_ne (show v2' ≠ v3' by decide) _ _
theorem V3_a0 (d : Dev nD) : V3 m d a0' = V2 m d a0' := Function.update_of_ne (show a0' ≠ v3' by decide) _ _
theorem V3_v3 (d : Dev nD) : V3 m d v3' = Tc.tcOut (Vt m d main_v1) (Vt m d main_v2) (Vt m d main_arg0) := Function.update_self _ _ _

theorem held_rest3 (d : Dev nD) :
    (held (T d) (Pipeline.ucRefs τ sig \ TC4) (V2 m d) : sProp 𝕄) = held (T d) (Pipeline.ucRefs τ sig \ TC4) (V3 m d) :=
  held_congr (T d) fun b hb => (Function.update_of_ne (fun e => (Finset.mem_sdiff.mp hb).2 (by rw [e]; decide)) _ _).symm

/-- The TensorCore's handshake state after the one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_one (d : Dev nD) : ((K (F := F)).tcSt EH d 1 : sProp 𝕄)
    = iprop((∃ W, ⌜(K (F := F)).WBelow (T d) W (8 * 1)⌝ ∗ owes (T d) ((K (F := F)).Otc d 1) W) ∗ tcRest (F := F) d) := rfl

omit [FloatOps F] in
/-- After the one call the TensorCore owes nothing at the kernels' own index. -/
theorem Otc_one_none (d : Dev nD) : ∀ g, (K (F := F)).Otc d 1 g none = 0 := by
  intro g
  have h : (K (F := F)).Otc d 1 = 0 := by
    unfold SparseCore.Cfg.Otc
    exact Finset.sum_eq_zero fun q _ => if_neg (by have := q.isLt; omega)
  rw [h]; rfl

/-- What @main leaves the claim: every unscoped buffer at the last valuation. -/
abbrev FIN (d : Dev nD) : sProp 𝕄 := held (T d) (Pipeline.ucRefs τ sig) (V4 m d)

set_option maxHeartbeats 4000000 in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, Hsems, Hprng⟩, HG⟩
  ihave Hh := (Entails.of_eq (held_sub_split (T d) SC4_sub (V0 m d))) $$ Hheld
  icases Hh with ⟨H4, Hrest⟩
  ihave H4' := (Entails.of_eq (held_SC4 (F := F) d _)) $$ H4
  icases H4' with ⟨Hp, Ht, Hr, Ho⟩
  ihave Hp2 := (Transfers.pointsTo_toks fullShare 2).1 $$ Hp
  icases Hp2 with ⟨Hpd, Hpt⟩
  ihave Ht2 := (Transfers.pointsTo_toks fullShare 2).1 $$ Ht
  icases Ht2 with ⟨Htd, Htt⟩
  ihave Hr2 := (Transfers.pointsTo_toks fullShare 2).1 $$ Hr
  icases Hr2 with ⟨Hrd, Hrt⟩
  rw [wp_bind]
  -- the call: each SparseCore its tokens of the inputs and its pieces of the partial-sum array
  iapply ((K (F := F)).wp_run (D (F := F)) 𝒱 (EH := EH) (P := P m) κ d 0) $$ [Hst Hpt Htt Hrt Ho Hpd Htd Hrd Hrest Hb HG]
  isplitr; · iexact Hctx
  isplitl [Hst]; · iexact Hst
  isplitl [Hpt Htt Hrt Ho]
  · rw [st0_eq]
    isplitl [Hpt]; · iexact Hpt
    isplitl [Htt]; · iexact Htt
    isplitl [Hrt]; · iexact Hrt
    iexact Ho
  iintro ⟨Hst, Hdn⟩
  ihave Hdn' := (Entails.of_eq (dn0_eq m d)) $$ Hdn
  icases Hdn' with ⟨Hpt, Htt, Hrt, Ho⟩
  ihave Hp := (Transfers.pointsTo_toks_join fullShare 2) $$ [Hpd Hpt]
  · isplitl [Hpd]; · iexact Hpd
    iexact Hpt
  ihave Ht := (Transfers.pointsTo_toks_join fullShare 2) $$ [Htd Htt]
  · isplitl [Htd]; · iexact Htd
    iexact Htt
  ihave Hr := (Transfers.pointsTo_toks_join fullShare 2) $$ [Hrd Hrt]
  · isplitl [Hrd]; · iexact Hrd
    iexact Hrt
  ihave H4 := (Entails.of_eq (held_SC4 (F := F) d (V1 m d)).symm) $$ [Hp Ht Hr Ho]
  · rw [V1_a0, V1_a1, V1_a2, V1_v0]
    isplitl [Hp]; · iexact Hp
    isplitl [Ht]; · iexact Ht
    isplitl [Hr]; · iexact Hr
    iexact Ho
  ihave Hrest' := (Entails.of_eq (held_rest1 m d)) $$ Hrest
  ihave Hheld := (Entails.of_eq (held_sub_split (T d) SC4_sub (V1 m d)).symm) $$ [H4 Hrest']; · isplitl [H4] <;> iassumption
  -- the two reshapes
  iapply (wp_seq 𝒱 none Set.univ d (Pipeline.ucRefs τ sig) _ ops1 hS1 hf1 (V1 m d)) $$ [Hb Hheld]
  · isplitl [Hb]; · iexact Hb
    iexact Hheld
  iintro ⟨Hb, Hheld⟩
  ihave Hheld := (Entails.of_eq (show (held (d.tc : Thread nD τ) (Pipeline.ucRefs τ sig) (after ops1 (V1 m d)) : sProp 𝕄)
      = held (T d) (Pipeline.ucRefs τ sig) (V2 m d) from rfl)) $$ Hheld
  -- the region: its four arrays out of the held set, what the TensorCore owes out of its handshake state
  rw [wp_bind]
  ihave Hh := (Entails.of_eq (held_sub_split (T d) TC4_sub (V2 m d))) $$ Hheld
  icases Hh with ⟨H4, Hrest⟩
  ihave H4' := (Entails.of_eq (held_TC4 (F := F) d _)) $$ H4
  icases H4' with ⟨Hv1, Hv2, Ha0, Hv3⟩
  ihave Hst := (Entails.of_eq (show ((K (F := F)).tcSt EH d ((0 : Fin 1).val + 1) : sProp 𝕄) = (K (F := F)).tcSt EH d 1 from rfl)) $$ Hst
  ihave Hst' := (Entails.of_eq (tcSt_one (F := F) d)) $$ Hst
  icases Hst' with ⟨⟨%W0, %hW0, HO⟩, HstR⟩
  ihave Hlev := (SparseCore.Cfg.ctx_levAts κ) $$ Hctx
  unfold G
  icases HG with ⟨HG1, HG2⟩
  ihave HG1' := (Entails.of_eq (bigSep_univ_of_subsingleton (0 : Fin 1))) $$ HG1
  ihave HG2' := (Entails.of_eq (bigSep_univ_of_subsingleton (0 : Fin 1))) $$ HG2
  iapply ((K (F := F)).wp_liftProg (D (F := F)) 𝒱 (SparseCore.T d) Set.univ none (.op (.customCall (Pipeline.entry 0) ()) fun x => .ret x) _)
  iapply (Tc.tcRegion_wp (Vt m) (fun d => (K (F := F)).Otc d 1) (fun _ => W0) none (K (F := F)).L (K (F := F)).lev EP
      (fun c sm => (K (F := F)).mayWait_none sm (Otc_one_none (F := F) c)) d (fun x => .ret x) _) $$ [Hb Hv1 Hv2 Ha0 Hv3 HO Hlev HG1' HG2' HstR Hrest]
  isplitr [Hb Hv1 Hv2 Ha0 Hv3 HO HG1' HG2']
  swap
  · isplitl [Hb]; · iexact Hb
    isplitl [Hv1 Hv2 Ha0 Hv3 HO]
    · unfold Tc.tcPre Tc.pl
      isplitl [Hv1]; · iexact Hv1
      isplitl [Hv2]; · iexact Hv2
      isplitl [Ha0]; · iexact Ha0
      isplitl [Hv3]; · iexact Hv3
      iexact HO
    isplitr; · iexact Hlev
    isplitl [HG1']; · iexact HG1'
    iexact HG2'
  iintro ⟨Hb, Hpost⟩
  unfold Tc.tcPost Tc.pl
  icases Hpost with ⟨Hv1, Hv2, Ha0, Hv3, %W', %hW', HO⟩
  rw [wp_ret]; imodintro
  -- the held set again, the region's result at its function of the reshaped tables and prob
  ihave H4 := (Entails.of_eq (held_TC4 (F := F) d (V3 m d)).symm) $$ [Hv1 Hv2 Ha0 Hv3]
  · rw [V3_v1, V3_v2, V3_a0, V3_v3]
    isplitl [Hv1]; · iexact Hv1
    isplitl [Hv2]; · iexact Hv2
    isplitl [Ha0]; · iexact Ha0
    iexact Hv3
  ihave Hrest' := (Entails.of_eq (held_rest3 m d)) $$ Hrest
  ihave Hheld := (Entails.of_eq (held_sub_split (T d) TC4_sub (V3 m d)).symm) $$ [H4 Hrest']
  · isplitl [H4]; · iexact H4
    iexact Hrest'
  -- the seven last operations
  rw [← bind_pure (StableHlo.seq (ops2 (F := F)))]
  iapply (wp_seq 𝒱 none Set.univ d (Pipeline.ucRefs τ sig) _ ops2 hS2 hf2 (V3 m d)) $$ [Hb Hheld]
  · isplitl [Hb]; · iexact Hb
    iexact Hheld
  iintro ⟨Hb, Hheld⟩
  rw [Prog.pure_eq_ret, wp_ret]; imodintro
  isplitl [HstR HO]
  · iapply (Entails.of_eq (tcSt_one (F := F) d).symm)
    isplitr [HstR]
    · iexists W'; isplitr
      · ipureintro
        intro p hp
        rcases hW' p hp with h | h
        · exact hW0 p h
        · rw [h]; exact Nat.zero_le _
      · iexact HO
    · iexact HstR
  · iapply (Entails.of_eq (show (held (d.tc : Thread nD τ) (Pipeline.ucRefs τ sig) (after ops2 (V3 m d)) : sProp 𝕄) = FIN m d from rfl))
    iexact Hheld

end Cert.Kernel.Sc

end
-- ==== Proof.KScFinal.lean ====
/-
  The whole program's run, and what its last valuation holds.

  The claim is read off the final memory at five buffers: the result and the four arguments. The arguments end at
  their launch contents (no operation writes them; the SparseCore call and the region hand them back unchanged). The
  result is the seven last host operations applied to the region's result and the partial sums:
  `(-(reshape(tcOut(reshape target, reshape reward, prob)) + Σ scOut)) · 2^-14`.
-/
import proofs.«207748_g59691455480232_cont_9to1c4b_13_25_alg».proof.Proof.KScMain

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sub_split held_congr held_sdiff_result wp_hlo_within wp_seq after)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## Reading the claim off the final memory -/

abbrev FIN5 : Finset (DevRef τ sig) := {v8', a0', a1', a2', a3'}
theorem FIN5_sub : FIN5 ⊆ Pipeline.ucRefs τ sig := by decide

omit [FloatOps F] in
theorem held_FIN5 (d : Dev nD) (W : Valuation τ sig (Elt F)) :
    (held (T d) FIN5 W : sProp 𝕄) = iprop(((d, v8') ↦{fullShare} W v8') ∗ ((d, a0') ↦{fullShare} W a0') ∗ ((d, a1') ↦{fullShare} W a1')
      ∗ ((d, a2') ↦{fullShare} W a2') ∗ (d, a3') ↦{fullShare} W a3') := by
  unfold held FIN5
  rw [SparseCore.bigSep_insert' (by decide), SparseCore.bigSep_insert' (by decide), SparseCore.bigSep_insert' (by decide),
    SparseCore.bigSep_insert' (by decide), bigSep_singleton]

def fq (d : Dev nD) (s' : Phys nD τ sig (Elt F)) : Prop :=
  s'.mem.mem (d, v8') = V4 m d v8' ∧ s'.mem.mem (d, a0') = V4 m d a0' ∧ s'.mem.mem (d, a1') = V4 m d a1'
    ∧ s'.mem.mem (d, a2') = V4 m d a2' ∧ s'.mem.mem (d, a3') = V4 m d a3'

set_option maxRecDepth 16384 in
theorem hfin (d : Dev nD) (s' : Phys nD τ sig (Elt F)) : iprop(FIN m d ∗ SI s') ⊢ (⌜fq m d s'⌝ : sProp 𝕄) := by
  rw [show (FIN m d : sProp 𝕄) = iprop(held (T d) FIN5 (V4 m d) ∗ held (T d) (Pipeline.ucRefs τ sig \ FIN5) (V4 m d)) from
    held_sub_split (T d) FIN5_sub (V4 m d), held_FIN5]
  iintro ⟨⟨⟨H8, H0, H1, H2, H3⟩, -⟩, HSI⟩
  ihave H := (persistent_entails_right (SI_pointsTo_agree (st := s') (ℓ := (d, v8')) (I := Finset.univ) (q := fullShare) (f := V4 m d v8'))) $$ [HSI H8]
  · isplitl [HSI] <;> iassumption
  icases H with ⟨%h8, HSI, -⟩
  ihave H := (persistent_entails_right (SI_pointsTo_agree (st := s') (ℓ := (d, a0')) (I := Finset.univ) (q := fullShare) (f := V4 m d a0'))) $$ [HSI H0]
  · isplitl [HSI] <;> iassumption
  icases H with ⟨%h0, HSI, -⟩
  ihave H := (persistent_entails_right (SI_pointsTo_agree (st := s') (ℓ := (d, a1')) (I := Finset.univ) (q := fullShare) (f := V4 m d a1'))) $$ [HSI H1]
  · isplitl [HSI] <;> iassumption
  icases H with ⟨%h1, HSI, -⟩
  ihave H := (persistent_entails_right (SI_pointsTo_agree (st := s') (ℓ := (d, a2')) (I := Finset.univ) (q := fullShare) (f := V4 m d a2'))) $$ [HSI H2]
  · isplitl [HSI] <;> iassumption
  icases H with ⟨%h2, HSI, -⟩
  ihave H := (SI_pointsTo_agree (st := s') (ℓ := (d, a3')) (I := Finset.univ) (q := fullShare) (f := V4 m d a3')) $$ [HSI H3]
  · isplitl [HSI] <;> iassumption
  icases H with %h3
  ipureintro
  exact ⟨funext fun i => h8 i (Finset.mem_univ i), funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (c, v8') = V4 m c v8' ∧ r.2.mem (c, a0') = V4 m c a0' ∧ r.2.mem (c, a1') = V4 m c a1'
    ∧ r.2.mem (c, a2') = V4 m c a2' ∧ r.2.mem (c, a3') = V4 m c a3'

theorem run_main [∀ e, Nonempty (Elt F e)] (hpre : PreT m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.Kernel.Sc

end
-- ==== Proof.KScValues.lean ====
/-
  What the valuations hold at the buffers the claim reads.

  The reshapes write only the two 128 × 128 tables, the region only its result, the seven last operations only their
  own results: so the arguments keep their launch contents throughout, the partial sums stay at the whole-array
  function, and the result buffer holds the seven last operations' composed term.
-/
import proofs.«207748_g59691455480232_cont_9to1c4b_13_25_alg».proof.Proof.KScMain

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (after)
open Idealize.ShloMosaic.StableHlo

variable {F : FTy → Type}
variable (m : (ℓ : Loc nD τ sig) → Buf (Elt F) ℓ)
variable [FloatOps F]

/-! ## After the reshapes -/

theorem V2_v1 (d : Dev nD) : V2 m d v1' = shapeCast _ (V1 m d a1') shapeCasts_S16384_S128x128 := by
  unfold V2; after_results <;> rfl
theorem V2_v2 (d : Dev nD) : V2 m d v2' = shapeCast _ (V1 m d a2') shapeCasts_S16384_S128x128 := by
  unfold V2; after_results <;> rfl
theorem V2_a0 (d : Dev nD) : V2 m d a0' = V1 m d a0' := by unfold V2; after_results <;> rfl
theorem V2_a1 (d : Dev nD) : V2 m d a1' = V1 m d a1' := by unfold V2; after_results <;> rfl
theorem V2_a2 (d : Dev nD) : V2 m d a2' = V1 m d a2' := by unfold V2; after_results <;> rfl
theorem V2_a3 (d : Dev nD) : V2 m d a3' = V1 m d a3' := by unfold V2; after_results <;> rfl
theorem V2_v0 (d : Dev nD) : V2 m d v0' = V1 m d v0' := by unfold V2; after_results <;> rfl

theorem V1_a3 (d : Dev nD) : V1 m d a3' = m (d, a3') := Function.update_of_ne (show a3' ≠ v0' by decide) _ _

/-! ## After the region -/

theorem V3_a1 (d : Dev nD) : V3 m d a1' = V2 m d a1' := Function.update_of_ne (show a1' ≠ v3' by decide) _ _
theorem V3_a2 (d : Dev nD) : V3 m d a2' = V2 m d a2' := Function.update_of_ne (show a2' ≠ v3' by decide) _ _
theorem V3_a3 (d : Dev nD) : V3 m d a3' = V2 m d a3' := Function.update_of_ne (show a3' ≠ v3' by decide) _ _
theorem V3_v0 (d : Dev nD) : V3 m d v0' = V2 m d v0' := Function.update_of_ne (show v0' ≠ v3' by decide) _ _

/-! ## At the end -/

theorem V4_a0 (d : Dev nD) : V4 m d a0' = m (d, a0') := by
  have h : V4 m d a0' = V3 m d a0' := by unfold V4; after_results <;> rfl
  rw [h, V3_a0, V2_a0, V1_a0]
theorem V4_a1 (d : Dev nD) : V4 m d a1' = m (d, a1') := by
  have h : V4 m d a1' = V3 m d a1' := by unfold V4; after_results <;> rfl
  rw [h, V3_a1, V2_a1, V1_a1]
theorem V4_a2 (d : Dev nD) : V4 m d a2' = m (d, a2') := by
  have h : V4 m d a2' = V3 m d a2' := by unfold V4; after_results <;> rfl
  rw [h, V3_a2, V2_a2, V1_a2]
theorem V4_a3 (d : Dev nD) : V4 m d a3' = m (d, a3') := by
  have h : V4 m d a3' = V3 m d a3' := by unfold V4; after_results <;> rfl
  rw [h, V3_a3, V2_a3, V1_a3]

/-- The result: the seven last operations over the region's result and the partial sums. -/
theorem V4_v8 (d : Dev nD) : V4 m d v8' =
    mulf (Host.negf (addf (shapeCast _ (Tc.tcOut (shapeCast _ (m (d, a1')) shapeCasts_S16384_S128x128)
        (shapeCast _ (m (d, a2')) shapeCasts_S16384_S128x128) (m (d, a0'))) shapeCasts_S1x1_S_)
      (Host.reduceAdd (scBuf m d) (constant S_ .f32 0x00000000#32) reducesTo_S512_S_d0 h_S_))) (constant S_ .f32 0x38800000#32) := by
  have h : V4 m d v8' = mulf (Host.negf (addf (shapeCast _ (V3 m d v3') shapeCasts_S1x1_S_)
      (Host.reduceAdd (V3 m d v0') (constant S_ .f32 0x00000000#32) reducesTo_S512_S_d0 h_S_))) (constant S_ .f32 0x38800000#32) := by
    unfold V4; after_results <;> rfl
  rw [h, V3_v3, V3_v0, V2_v0, V1_v0]
  unfold Vt
  rw [V2_v1, V2_v2, V2_a0, V1_a0, V1_a1, V1_a2]

end Cert.Kernel.Sc

end
-- ==== Proof.LibHostCalls.lean ====
/-
  Two general facts for reading back, by hand, the run of a host program that calls module-local functions.

  The operations of an inlined callee are built over typed references, which carry contents to the buffer's own type and
  back; after the run's fold is unfolded every intermediate value sits inside such a round trip. The round trip is the
  identity, for ANY typed reference (no computation on the reference is needed), so one rewriting pass removes them all;
  leaving them to a single definitional check costs time and memory that grow with the nesting (at shapes of a hundred
  million elements, gigabytes). And the contents after two lines of operations run in a row are the second line's from
  the first's, which lets a long line be read in pieces.
-/
import Idealize.ShloMosaic.Lib.StableHlo.Run

noncomputable section

namespace Cert.LibHostCalls

open Idealize.ShloMosaic Idealize.ShloMosaic.StableHlo

variable {τ : Topo} {sig : RefSig} {Val : EltTy → Type}

/-- Contents carried to a typed reference's buffer and back are the contents. -/
theorem ofBuf_toBuf {T : BufTy} (x : TRef sig T) (v : T.Contents Val) : x.ofBuf (x.toBuf v) = v := by
  obtain ⟨r, h, h1, h2⟩ := x
  subst h
  rfl

/-- The contents after two lines of operations in a row are the second line's from the first's. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibHostCalls

end
-- ==== Proof.RefRun.lean ====
/-
  The reference program's run, read back.

  The reference is a straight line of thirty host operations: the word of each row is reshaped to a column, wrapped
  (a negative word has the row length 1000 added), the table is gathered at the wrapped word row by row, an entry
  whose wrapped word is outside `[0, 999]` is replaced by the not-a-number word, the column is flattened, multiplied
  by the weights, summed, divided by 16384 and negated. `refTerm` is that composition as one pure function of the
  three argument arrays, for any float values; `run` says every weakly fair execution of the program terminates with
  the result buffer at `refTerm` of the arguments' launch contents and the arguments unchanged.
-/
import proofs.«207748_g59691455480232_cont_9to1c4b_13_25_alg».proof.Proof.Gen.ReferenceIdeal
import proofs.«207748_g59691455480232_cont_9to1c4b_13_25_alg».proof.Proof.LibHostCalls
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The words as a column `[16384, 1]`. -/
def col (tgt : IVec S16384 32) : IVec S16384x1 32 := shapeCast _ tgt shapeCasts_S16384_S16384x1

/-- The wrapped words, as `[16384, 1, 1]`: a word below zero (signed) has 1000 added. -/
def wrapped (tgt : IVec S16384 32) : IVec S16384x1x1 32 :=
  shapeCast _ (select (cmpi .slt (col tgt) (broadcastInDim S16384x1 ![] bcast_S_S16384x1 (constantI S_ 32 0#32)))
      (addi (col tgt) (broadcastInDim S16384x1 ![] bcast_S_S16384x1 (constantI S_ 32 1000#32))) (col tgt))
    shapeCasts_S16384x1_S16384x1x1

/-- Per row: is the wrapped word in `[0, 999]` (signed)? The conjunction over the unit axis. -/
def inRange (w : IVec S16384x1x1 32) : IVec S16384x1 1 :=
  Host.reduce IntOp.andi
    (andi (cmpi .sge w (broadcastInDim S16384x1x1 ![] bcast_S_S16384x1x1 (constantI S_ 32 0#32)))
      (cmpi .sle w (broadcastInDim S16384x1x1 ![0, 1, 2] bcast_S1x1x1_S16384x1x1_0_1_2
        (broadcastInDim S1x1x1 ![2] bcast_S1_S1x1x1_2 (constantI S1 32 999#32)))))
    (constantI S_ 1 1#1) reducesTo_S16384x1x1_S16384x1_d2 h_S_

/-- The table's entry at each row's wrapped word, or the not-a-number word where the word is out of range. -/
def taken (prob : FVec F S16384x1000 .f32) (tgt : IVec S16384 32) : FVec F S16384x1 .f32 :=
  select (inRange (wrapped tgt))
    (Host.gather gather_S16384x1000_S16384x1x1_S16384x1_n_1_0_0_1_2_11 prob (wrapped tgt))
    (broadcastInDim S16384x1 ![] bcast_S_S16384x1 (constant S_ .f32 0x7FC00000#32))

/-- The operations' composed pure term: minus the sum over rows of entry times weight, divided by 16384. -/
def refTerm (prob : FVec F S16384x1000 .f32) (tgt : IVec S16384 32) (rew : FVec F S16384 .f32) : FVec F S_ .f32 :=
  Host.negf (Host.divf
    (Host.reduceAdd (mulf (shapeCast _ (taken prob tgt) shapeCasts_S16384x1_S16384) rew)
      (constant S_ .f32 0x00000000#32) reducesTo_S16384_S_d0 h_S_)
    (constant S_ .f32 0x46800000#32))

/-- @main's 30 operations, in order (the called function's operations stand in its call's place). -/
abbrev ops : List (HloOp τ sig (Elt F)) :=
  [ reshape main_arg1 main_v0 rfl shapeCasts_S16384_S16384x1,
    TRef.nullary (TRef.of (T := ⟨S_, .i32⟩) main_call0_c) (constantI S_ 32 0#32),
    TRef.unary (TRef.of (T := ⟨S_, .i32⟩) main_call0_c) (TRef.of (T := ⟨S16384x1, .i32⟩) main_call0_v0) (broadcastInDim S16384x1 ![] bcast_S_S16384x1),
    TRef.binary (TRef.of (T := ⟨S16384x1, .i32⟩) main_v0) (TRef.of (T := ⟨S16384x1, .i32⟩) main_call0_v0) (TRef.of (T := ⟨S16384x1, .i1⟩) main_call0_v1) (cmpi .slt),
    TRef.nullary (TRef.of (T := ⟨S_, .i32⟩) main_call0_c_0) (constantI S_ 32 1000#32),
    TRef.unary (TRef.of (T := ⟨S_, .i32⟩) main_call0_c_0) (TRef.of (T := ⟨S16384x1, .i32⟩) main_call0_v2) (broadcastInDim S16384x1 ![] bcast_S_S16384x1),
    TRef.binary (TRef.of (T := ⟨S16384x1, .i32⟩) main_v0) (TRef.of (T := ⟨S16384x1, .i32⟩) main_call0_v2) (TRef.of (T := ⟨S16384x1, .i32⟩) main_call0_v3) addi,
    TRef.ternary (TRef.of (T := ⟨S16384x1, .i1⟩) main_call0_v1) (TRef.of (T := ⟨S16384x1, .i32⟩) main_call0_v3) (TRef.of (T := ⟨S16384x1, .i32⟩) main_v0) (TRef.of (T := ⟨S16384x1, .i32⟩) main_call0_v4) select,
    TRef.reshape (TRef.of (T := ⟨S16384x1, .i32⟩) main_call0_v4) (TRef.of (T := ⟨S16384x1x1, .i32⟩) main_call0_v5) rfl shapeCasts_S16384x1_S16384x1x1,
    TRef.nullary (TRef.of (T := ⟨S1, .i32⟩) main_call0_c_1) (constantI S1 32 999#32),
    TRef.nullary (TRef.of (T := ⟨S_, .i32⟩) main_call0_c_2) (constantI S_ 32 0#32),
    TRef.unary (TRef.of (T := ⟨S_, .i32⟩) main_call0_c_2) (TRef.of (T := ⟨S16384x1x1, .i32⟩) main_call0_v6) (broadcastInDim S16384x1x1 ![] bcast_S_S16384x1x1),
    TRef.binary (TRef.of (T := ⟨S16384x1x1, .i32⟩) main_call0_v5) (TRef.of (T := ⟨S16384x1x1, .i32⟩) main_call0_v6) (TRef.of (T := ⟨S16384x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S16384x1x1, .i32⟩) main_call0_v9) (broadcastInDim S16384x1x1 ![0, 1, 2] bcast_S1x1x1_S16384x1x1_0_1_2),
    TRef.binary (TRef.of (T := ⟨S16384x1x1, .i32⟩) main_call0_v5) (TRef.of (T := ⟨S16384x1x1, .i32⟩) main_call0_v9) (TRef.of (T := ⟨S16384x1x1, .i1⟩) main_call0_v10) (cmpi .sle),
    TRef.binary (TRef.of (T := ⟨S16384x1x1, .i1⟩) main_call0_v7) (TRef.of (T := ⟨S16384x1x1, .i1⟩) main_call0_v10) (TRef.of (T := ⟨S16384x1x1, .i1⟩) main_call0_v11) andi,
    TRef.nullary (TRef.of (T := ⟨S_, .i1⟩) main_call0_c_3) (constantI S_ 1 1#1),
    TRef.binary (TRef.of (T := ⟨S16384x1x1, .i1⟩) main_call0_v11) (TRef.of (T := ⟨S_, .i1⟩) main_call0_c_3) (TRef.of (T := ⟨S16384x1, .i1⟩) main_call0_v12) (fun x v => Host.reduce IntOp.andi x v reducesTo_S16384x1x1_S16384x1_d2 h_S_),
    TRef.binary (TRef.of (T := ⟨S16384x1000, .f32⟩) main_arg0) (TRef.of (T := ⟨S16384x1x1, .i32⟩) main_call0_v5) (TRef.of (T := ⟨S16384x1, .f32⟩) main_call0_v13) (fun x i => Host.gather gather_S16384x1000_S16384x1x1_S16384x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S16384x1, .f32⟩) main_call0_v14) (broadcastInDim S16384x1 ![] bcast_S_S16384x1),
    TRef.ternary (TRef.of (T := ⟨S16384x1, .i1⟩) main_call0_v12) (TRef.of (T := ⟨S16384x1, .f32⟩) main_call0_v13) (TRef.of (T := ⟨S16384x1, .f32⟩) main_call0_v14) (TRef.of (T := ⟨S16384x1, .f32⟩) main_v1) select,
    reshape main_v1 main_v2 rfl shapeCasts_S16384x1_S16384,
    binary main_v2 main_arg2 main_v3 (mulf : (⟨S16384, .f32⟩ : BufTy).Contents (Elt F) → (⟨S16384, .f32⟩ : BufTy).Contents (Elt F) → (⟨S16384, .f32⟩ : BufTy).Contents (Elt F)),
    nullary main_cst (constant S_ .f32 0x00000000#32),
    binary main_v3 main_cst main_v4 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_0 (constant S_ .f32 0x46800000#32),
    binary main_v4 main_cst_0 main_v5 (Host.divf : (⟨S_, .f32⟩ : BufTy).Contents (Elt F) → (⟨S_, .f32⟩ : BufTy).Contents (Elt F) → (⟨S_, .f32⟩ : BufTy).Contents (Elt F)),
    unary main_v5 main_v6 (Host.negf : (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., nullary_bufs_sub .., binary_bufs_sub .., nullary_bufs_sub .., binary_bufs_sub .., unary_bufs_sub ..⟩

attribute [local irreducible] Host.reduce Host.reduceAdd Host.gather in
/-- The result buffer after the thirty operations, from any contents: the composed term of the three arguments.
    Each operation's result is read at its own buffer; the transports of a called function's values to their
    buffers' types and back are identities at these literal buffers; what is left differs from `refTerm` only by
    unfolding its definitions. The folds over the arrays (the two reductions, the gather) are kept closed: the
    equation never looks inside them. -/
theorem out_eq (V : Valuation τ sig (Elt F)) :
    after ops V (main_v6 : DevRef τ sig)
      = refTerm (V (main_arg0 : DevRef τ sig)) (V (main_arg1 : DevRef τ sig)) (V (main_arg2 : DevRef τ sig)) := by
  after_results
  simp only [Cert.LibHostCalls.ofBuf_toBuf, TRef.ofBuf, TRef.toBuf, cast_eq]
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = refTerm (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.Spec.lean ====
/-
  The specification both programs are compared with.

  For a table `prob` of 16384 rows and 1000 columns, a word `tgt n` per row and a weight `rew n` per row, the
  term of row `n` is the entry of that row in the column the word names, times the weight:
  `∑ c, [tgt n = c] · prob (n, c) · rew n`, a sum with at most one non-zero summand. The total is the sum of the
  terms over all rows. Both programs compute `-(total / 16384)`; they differ in how the rows are grouped.
  The lemmas below are pure: a term with its word in range is one product, and sums over rows may be regrouped
  along any bijection of the row set.
-/
import Idealize.ShloMosaic.PureOps.Ideal
import Idealize.ShloMosaic.Lib.ValueIdx

noncomputable section

namespace Cert.Spec

open Idealize.ShloMosaic Idealize.ShloMosaic.ValueIdx
open scoped BigOperators

/-- The table's shape: 16384 rows, 1000 columns. -/
abbrev SP : Shape := ⟨2, ![16384, 1000]⟩
/-- One entry per row. -/
abbrev SN : Shape := ⟨1, ![16384]⟩

/-- Row `n`'s term: the entry in the column that `tgt n` names, times the row's weight (zero if no column is named). -/
def term (prob : SP.Idx → EReal) (tgt : SN.Idx → BitVec 32) (rew : SN.Idx → EReal) (n : Fin 16384) : EReal :=
  ∑ c : Fin 1000, if (tgt (ix1 n)).toNat = c.val then prob (ix2 n c) * rew (ix1 n) else 0

/-- The sum of all rows' terms. -/
def total (prob : SP.Idx → EReal) (tgt : SN.Idx → BitVec 32) (rew : SN.Idx → EReal) : EReal :=
  ∑ n : Fin 16384, term prob tgt rew n

/-- With the word in range the term is a single product. -/
theorem term_of_lt (prob : SP.Idx → EReal) (tgt : SN.Idx → BitVec 32) (rew : SN.Idx → EReal) (n : Fin 16384)
    (h : (tgt (ix1 n)).toNat < 1000) :
    term prob tgt rew n = prob (ix2 n ⟨(tgt (ix1 n)).toNat, h⟩) * rew (ix1 n) := by
  unfold term
  rw [Finset.sum_eq_single (⟨(tgt (ix1 n)).toNat, h⟩ : Fin 1000)]
  · simp
  · intro c _ hc
    rw [if_neg]
    intro e
    exact hc (Fin.ext e.symm)
  · intro hn
    exact absurd (Finset.mem_univ _) hn

/-- The total written over any family of rows in bijection with the row set. -/
theorem total_reindex {ι : Type*} [Fintype ι] (e : ι ≃ Fin 16384)
    (prob : SP.Idx → EReal) (tgt : SN.Idx → BitVec 32) (rew : SN.Idx → EReal) :
    ∑ i : ι, term prob tgt rew (e i) = total prob tgt rew :=
  Equiv.sum_comp e _

end Cert.Spec

end
-- ==== Proof.Tail.lean ====
/-
  The kernel's closing host arithmetic, and the regrouping of the rows.

  The kernel program ends on the host with: the TensorCore's partial sum plus the sum of the 512 lane sums the
  SparseCore tiles wrote, negated, times the float word 0x38800000. That word is exactly 2^-14 = 1/16384, and
  multiplying by the reciprocal of a non-zero real is dividing by it on the extended reals, so the result is
  `-((tc + Σ lanes) / 16384)`.

  The rows are split between the two units: rows 0..10239 go to the TensorCore (5 grid points of 16 sub-blocks of
  128 rows), rows 10240..16383 to 32 SparseCore tiles of 192 rows each, every tile working through 12 chunks of 16
  rows, lane by lane. Lane sum `j` (tile `j / 16`, lane `j % 16`) collects rows
  `10240 + 192 (j / 16) + 16 k + j % 16` for `k < 12`. Each grouping is a bijection with the row set, and a sum in
  a commutative monoid does not depend on the grouping.
-/
import proofs.«207748_g59691455480232_cont_9to1c4b_13_25_alg».proof.Proof.Spec
import Idealize.ShloMosaic.PureOps.Ideal.Laws

noncomputable section

namespace Cert.Tail

open Idealize.ShloMosaic Idealize.ShloMosaic.ValueIdx
open scoped BigOperators

/-! ## Two float words -/

/-- The word 0x38800000 is 2^-14 = 1/16384. -/
theorem ofBits_inv16384 : Ideal.ofBits .f32 0x38800000#32 = ((1 / 16384 : ℝ) : EReal) := by
  simp [Ideal.ofBits, Ideal.ieee]
  first
    | (rw [← EReal.coe_mul]; exact congrArg _ (by norm_num))
    | (norm_cast; norm_num)

/-- The word 0x46800000 is 16384. -/
theorem ofBits_16384 : Ideal.ofBits .f32 0x46800000#32 = ((16384 : ℝ) : EReal) := by
  simp [Ideal.ofBits, Ideal.ieee]
  first
    | (rw [← EReal.coe_mul]; exact congrArg _ (by norm_num))
    | (norm_cast; norm_num)

/-- Negating and multiplying by 1/16384 is dividing by 16384 and negating. -/
theorem neg_mul_inv16384 (x : EReal) : -x * ((1 / 16384 : ℝ) : EReal) = -(Ideal.div x ((16384 : ℝ) : EReal)) := by
  rw [Ideal.div_coe (by norm_num : (16384 : ℝ) ≠ 0), EReal.neg_mul]

/-! ## A host sum of a vector into a scalar -/

/-- A vector's indices are its one coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp idxEquiv1.symm f).symm

/-- The host's sum of a vector from the zero word, at the ideal instance: the sum of the entries. -/
theorem reduceAdd_vec {n : Nat} (x : FVec Ideal ⟨1, ![n]⟩ .f32)
    (hred : (⟨1, ![n]⟩ : Shape).ReducesTo [0] ⟨0, ![]⟩) (hpos : 0 < (⟨0, ![]⟩ : Shape).numel) (i : (⟨0, ![]⟩ : Shape).Idx) :
    Host.reduceAdd (F := Ideal) x (constant (F := Ideal) ⟨0, ![]⟩ .f32 0x00000000#32) hred hpos i
      = ∑ a : Fin n, x (ix1 a) := by
  show Ideal.hostReduceAdd hred x (Ideal.ofBits .f32 0x00000000#32) i = _
  rw [Ideal.hostReduceAdd_total hred (fun b => b.elim0), Ideal.ofBits_zero_f32, zero_add, sum_idx1]

/-! ## The closing arithmetic -/

/-- The kernel's host tail: partial sum plus the lane sums, negated, times 2^-14. -/
theorem host_tail (tcv : FVec Ideal ⟨0, ![]⟩ .f32) (scv : FVec Ideal ⟨1, ![512]⟩ .f32)
    (hred : (⟨1, ![512]⟩ : Shape).ReducesTo [0] ⟨0, ![]⟩) (hpos : 0 < (⟨0, ![]⟩ : Shape).numel) :
    mulf (Host.negf (addf tcv (Host.reduceAdd (F := Ideal) scv (constant (F := Ideal) ⟨0, ![]⟩ .f32 0x00000000#32) hred hpos)))
        (constant (F := Ideal) ⟨0, ![]⟩ .f32 0x38800000#32)
      = fun _ => -(Ideal.div (tcv ix0 + ∑ j : Fin 512, scv (ix1 j)) ((16384 : ℝ) : EReal)) := by
  funext i
  obtain rfl : i = ix0 := eq_ix0 i
  show -(tcv ix0 + Host.reduceAdd (F := Ideal) scv (constant (F := Ideal) ⟨0, ![]⟩ .f32 0x00000000#32) hred hpos ix0)
      * Ideal.ofBits .f32 0x38800000#32 = _
  rw [reduceAdd_vec, ofBits_inv16384, neg_mul_inv16384]

/-! ## Regrouping the rows -/

section Regroup
variable {M : Type*} [AddCommMonoid M]

/-- Rows below 10240, and the 6144 rows from 10240 on. -/
def splitEquiv : Fin 10240 ⊕ Fin 6144 ≃ Fin 16384 where
  toFun := Sum.elim (fun n => ⟨n.val, by omega⟩) (fun i => ⟨10240 + i.val, by omega⟩)
  invFun n := if h : n.val < 10240 then .inl ⟨n.val, h⟩ else .inr ⟨n.val - 10240, by omega⟩
  left_inv s := by
    rcases s with n | i
    · simp
    · have h : ¬ (10240 + i.val < 10240) := by omega
      simp [h]
  right_inv n := by
    by_cases h : n.val < 10240
    · simp [h]
    · simp [h]
      apply Fin.ext
      simp
      omega

theorem sum_split (f : Fin 16384 → M) :
    (∑ n : Fin 10240, f ⟨n.val, by omega⟩) + ∑ i : Fin 6144, f ⟨10240 + i.val, by omega⟩ = ∑ n, f n := by
  rw [← Equiv.sum_comp splitEquiv f, Fintype.sum_sum_type]
  rfl

/-- Lane sum `j` of 512 and chunk `k` of 12 name row `192 (j / 16) + 16 k + j % 16` of the 6144. -/
def tileEquiv : Fin 512 × Fin 12 ≃ Fin 6144 where
  toFun p := ⟨192 * (p.1.val / 16) + 16 * p.2.val + p.1.val % 16, by omega⟩
  invFun i := (⟨16 * (i.val / 192) + i.val % 16, by omega⟩, ⟨i.val % 192 / 16, by omega⟩)
  left_inv p := by
    obtain ⟨⟨j, hj⟩, ⟨k, hk⟩⟩ := p
    refine Prod.ext (Fin.ext ?_) (Fin.ext ?_)
    · show 16 * ((192 * (j / 16) + 16 * k + j % 16) / 192) + (192 * (j / 16) + 16 * k + j % 16) % 16 = j
      omega
    · show (192 * (j / 16) + 16 * k + j % 16) % 192 / 16 = k
      omega
  right_inv i := by
    obtain ⟨i, hi⟩ := i
    refine Fin.ext ?_
    show 192 * ((16 * (i / 192) + i % 16) / 16) + 16 * (i % 192 / 16) + (16 * (i / 192) + i % 16) % 16 = i
    omega

theorem sum_tiles (g : Fin 6144 → M) :
    ∑ j : Fin 512, ∑ k : Fin 12, g ⟨192 * (j.val / 16) + 16 * k.val + j.val % 16, by omega⟩ = ∑ i, g i := by
  rw [← Equiv.sum_comp tileEquiv g, Fintype.sum_prod_type]
  rfl

/-- Grid point `p` of 5, sub-block `a` of 16 and row `r` of 128 name row `2048 p + 128 a + r` of the 10240. -/
def gridEquiv : Fin 5 × Fin 16 × Fin 128 ≃ Fin 10240 where
  toFun p := ⟨2048 * p.1.val + 128 * p.2.1.val + p.2.2.val, by omega⟩
  invFun i := (⟨i.val / 2048, by omega⟩, ⟨i.val % 2048 / 128, by omega⟩, ⟨i.val % 128, by omega⟩)
  left_inv p := by
    obtain ⟨⟨g, hg⟩, ⟨a, ha⟩, ⟨r, hr⟩⟩ := p
    refine Prod.ext (Fin.ext ?_) (Prod.ext (Fin.ext ?_) (Fin.ext ?_))
    · show (2048 * g + 128 * a + r) / 2048 = g
      omega
    · show (2048 * g + 128 * a + r) % 2048 / 128 = a
      omega
    · show (2048 * g + 128 * a + r) % 128 = r
      omega
  right_inv i := by
    obtain ⟨i, hi⟩ := i
    refine Fin.ext ?_
    show 2048 * (i / 2048) + 128 * (i % 2048 / 128) + i % 128 = i
    omega

theorem sum_grid (g : Fin 10240 → M) :
    ∑ p : Fin 5, ∑ a : Fin 16, ∑ r : Fin 128, g ⟨2048 * p.val + 128 * a.val + r.val, by omega⟩ = ∑ i, g i := by
  rw [← Equiv.sum_comp gridEquiv g, Fintype.sum_prod_type]
  refine Finset.sum_congr rfl fun p _ => ?_
  rw [Fintype.sum_prod_type]
  rfl

/-- The two units' rows together are all rows. -/
theorem regroup (f : Fin 16384 → M) :
    (∑ n : Fin 10240, f ⟨n.val, by omega⟩)
      + ∑ j : Fin 512, ∑ k : Fin 12, f ⟨10240 + 192 * (j.val / 16) + 16 * k.val + j.val % 16, by omega⟩
      = ∑ n, f n := by
  rw [← sum_split f, ← sum_tiles fun i => f ⟨10240 + i.val, by omega⟩]
  refine congrArg _ (Finset.sum_congr rfl fun j _ => Finset.sum_congr rfl fun k _ => congrArg f (Fin.ext ?_))
  show 10240 + 192 * (j.val / 16) + 16 * k.val + j.val % 16 = 10240 + (192 * (j.val / 16) + 16 * k.val + j.val % 16)
  omega

/-- The same with the TensorCore's rows by grid point, sub-block and row. -/
theorem regroup_grid (f : Fin 16384 → M) :
    (∑ p : Fin 5, ∑ a : Fin 16, ∑ r : Fin 128, f ⟨2048 * p.val + 128 * a.val + r.val, by omega⟩)
      + ∑ j : Fin 512, ∑ k : Fin 12, f ⟨10240 + 192 * (j.val / 16) + 16 * k.val + j.val % 16, by omega⟩
      = ∑ n, f n := by
  rw [← regroup f, ← sum_grid fun i => f ⟨i.val, by omega⟩]

end Regroup

/-- The specification's total, by unit: rows 0..10239, and the 512 lane sums of 12 rows each. -/
theorem total_regroup (prob : Spec.SP.Idx → EReal) (tgt : Spec.SN.Idx → BitVec 32) (rew : Spec.SN.Idx → EReal) :
    (∑ n : Fin 10240, Spec.term prob tgt rew ⟨n.val, by omega⟩)
      + ∑ j : Fin 512, ∑ k : Fin 12, Spec.term prob tgt rew ⟨10240 + 192 * (j.val / 16) + 16 * k.val + j.val % 16, by omega⟩
      = Spec.total prob tgt rew :=
  regroup (Spec.term prob tgt rew)

/-- The same with the TensorCore's rows by grid point, sub-block and row. -/
theorem total_regroup_grid (prob : Spec.SP.Idx → EReal) (tgt : Spec.SN.Idx → BitVec 32) (rew : Spec.SN.Idx → EReal) :
    (∑ p : Fin 5, ∑ a : Fin 16, ∑ r : Fin 128, Spec.term prob tgt rew ⟨2048 * p.val + 128 * a.val + r.val, by omega⟩)
      + ∑ j : Fin 512, ∑ k : Fin 12, Spec.term prob tgt rew ⟨10240 + 192 * (j.val / 16) + 16 * k.val + j.val % 16, by omega⟩
      = Spec.total prob tgt rew :=
  regroup_grid (Spec.term prob tgt rew)

end Cert.Tail

end
-- ==== Proof.RefValue.lean ====
/-
  The reference's value at the ideal instance.

  Under the hypothesis that every row's word is below 1000 (read unsigned), the reference's composed term is
  `-(total / 16384)` of the specification. Row by row: a word below 1000 is not negative read signed, so the wrap
  keeps it; it is between 0 and 999 read signed, so the range mask is all true and the select keeps the gathered
  entry; the gather reads row `n` of the table at the column the word names (the clamp into `[0, 999]` changes
  nothing); the host's sum from the zero word is the sum of the products; the word 0x46800000 is 16384.
-/
import proofs.«207748_g59691455480232_cont_9to1c4b_13_25_alg».proof.Proof.RefRun
import proofs.«207748_g59691455480232_cont_9to1c4b_13_25_alg».proof.Proof.Spec
import proofs.«207748_g59691455480232_cont_9to1c4b_13_25_alg».proof.Proof.Tail
import Idealize.ShloMosaic.Lib.Pipeline.Value
import Idealize.ShloMosaic.Lib.Affine

noncomputable section

namespace Cert.ReferenceIdeal.RefValue

open Cert.ReferenceIdeal Cert.ReferenceIdeal.Gen Idealize.ShloMosaic Idealize.ShloMosaic.ValueIdx
open Cert.ReferenceIdeal.RefRun
open scoped BigOperators

/-! ## Words below 1000 -/

/-- A word below 1000 reads the same signed and unsigned. -/
theorem toInt_of_lt (w : BitVec 32) (h : w.toNat < 1000) : w.toInt = (w.toNat : Int) :=
  BitVec.toInt_eq_toNat_of_lt (by omega)

/-- A word below 1000 is not below zero, read signed. -/
theorem slt_zero_of_lt (w : BitVec 32) (h : w.toNat < 1000) : IntOp.cmpi .slt w 0#32 = 0#1 := by
  apply eq_zero_of_ne_one
  rw [IntOp.cmpi_slt, toInt_of_lt w h]
  have e0 : (0#32 : BitVec 32).toInt = 0 := by decide
  omega

/-- A word below 1000 is at least 0 and at most 999, read signed. -/
theorem inrange_of_lt (w : BitVec 32) (h : w.toNat < 1000) :
    IntOp.andi (IntOp.cmpi .sge w 0#32) (IntOp.cmpi .sle w 999#32) = 1#1 := by
  rw [IntOp.andi_eq_one, IntOp.cmpi_sge, IntOp.cmpi_sle, toInt_of_lt w h]
  have e0 : (0#32 : BitVec 32).toInt = 0 := by decide
  have e9 : (999#32 : BitVec 32).toInt = 999 := by decide
  omega

/-! ## A conjunction over an array of ones -/

theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..), show IntOp.andi 1#1 1#1 = 1#1 from by decide]
    exact ih fun n hn => hf n (List.mem_cons_of_mem _ hn)

/-- The host's reduction by `and` from 1 of an array of ones is 1. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_one x _ fun n _ => hx n

/-! ## The stages at a row -/

/-- The column of words at row `n`. -/
theorem col_apply (tgt : IVec S16384 32) (n : Fin 16384) : col tgt (ix2 n (0 : Fin 1)) = tgt (ix1 n) := by
  unfold col
  refine shapeCast_apply tgt _ _ (ix1 n) ?_
  rw [Shape.rowMajor_val_one, Shape.rowMajor_val_two]
  show n.val = n.val * 1 + 0
  omega

/-- A word below 1000 is kept by the wrap. -/
theorem wrapped_apply (tgt : IVec S16384 32) (n : Fin 16384) (h : (tgt (ix1 n)).toNat < 1000) :
    wrapped tgt (ix3 n (0 : Fin 1) (0 : Fin 1)) = tgt (ix1 n) := by
  unfold wrapped
  refine (shapeCast_apply _ _ _ (ix2 n (0 : Fin 1)) ?_).trans ?_
  · rw [Shape.rowMajor_val_two, Shape.rowMajor_val_three]
    show n.val * 1 + 0 = (n.val * 1 + 0) * 1 + 0
    omega
  · show Scalar.select (IntOp.cmpi .slt (col tgt (ix2 n (0 : Fin 1))) 0#32)
        (IntOp.addi (col tgt (ix2 n (0 : Fin 1))) 1000#32) (col tgt (ix2 n (0 : Fin 1))) = _
    rw [col_apply, slt_zero_of_lt _ h]
    exact select_zero _ _

/-- With every word below 1000 the range mask is all true. -/
theorem inRange_one (tgt : IVec S16384 32) (ht : ∀ j, (tgt j).toNat < 1000) (j : S16384x1.Idx) :
    inRange (wrapped tgt) j = 1#1 := by
  unfold inRange
  refine reduce_andi_one _ _ _ _ j (fun i => ?_) rfl
  obtain ⟨a, b, c, rfl⟩ : ∃ (a : Fin 16384) (b : Fin 1) (c : Fin 1), i = ix3 a b c := ⟨i 0, i 1, i 2, eq_ix3 i⟩
  obtain rfl : b = 0 := Subsingleton.elim _ _
  obtain rfl : c = 0 := Subsingleton.elim _ _
  show IntOp.andi (IntOp.cmpi .sge (wrapped tgt (ix3 a (0 : Fin 1) (0 : Fin 1))) 0#32)
      (IntOp.cmpi .sle (wrapped tgt (ix3 a (0 : Fin 1) (0 : Fin 1))) 999#32) = 1#1
  rw [wrapped_apply tgt a (ht _)]
  exact inrange_of_lt _ (ht _)

/-- The gather reads row `n` of the table at the column its start index names, read signed and clamped into `[0, 999]`. -/
theorem gather_row {α : Type} (x : S16384x1000.Idx → α) (idx : IVec S16384x1x1 32) (n : Fin 16384) :
    Host.gather gather_S16384x1000_S16384x1x1_S16384x1_n_1_0_0_1_2_11 x idx (ix2 n (0 : Fin 1))
      = x (ix2 n ⟨min (idx (ix3 n (0 : Fin 1) (0 : Fin 1))).toInt.toNat 999, by omega⟩) := by
  unfold Host.gather
  refine congrArg x (funext fun a => Fin.ext ?_)
  match a with
  | ⟨0, _⟩ =>
    show gather_S16384x1000_S16384x1x1_S16384x1_n_1_0_0_1_2_11.start (ix2 n (0 : Fin 1)) idx 0
        + gather_S16384x1000_S16384x1x1_S16384x1_n_1_0_0_1_2_11.batchCoord (ix2 n (0 : Fin 1)) 0
        + gather_S16384x1000_S16384x1x1_S16384x1_n_1_0_0_1_2_11.offCoord (ix2 n (0 : Fin 1)) 0 = n.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    show gather_S16384x1000_S16384x1x1_S16384x1_n_1_0_0_1_2_11.start (ix2 n (0 : Fin 1)) idx 1
        + gather_S16384x1000_S16384x1x1_S16384x1_n_1_0_0_1_2_11.batchCoord (ix2 n (0 : Fin 1)) 1
        + gather_S16384x1000_S16384x1x1_S16384x1_n_1_0_0_1_2_11.offCoord (ix2 n (0 : Fin 1)) 1 = _
    rw [GatherDims.batchCoord_eq_zero _ _ _ (by decide), GatherDims.offCoord_eq_zero _ _ _ (by decide)]
    simp only [Nat.add_zero]
    unfold GatherDims.start
    rw [dif_pos (by decide)]
    have hsi : gather_S16384x1000_S16384x1x1_S16384x1_n_1_0_0_1_2_11.siIdx (ix2 n (0 : Fin 1))
        ⟨List.idxOf (1 : Fin 2) gather_S16384x1000_S16384x1x1_S16384x1_n_1_0_0_1_2_11.startIndexMap,
          List.idxOf_lt_length_iff.2 (by decide)⟩ = ix3 n (0 : Fin 1) (0 : Fin 1) := by
      funext b
      refine Fin.ext ?_
      match b with
      | ⟨0, _⟩ => rfl
      | ⟨1, _⟩ => rfl
      | ⟨2, _⟩ => rfl
    rw [hsi]
    rfl

/-- With every word below 1000, row `n` takes the table's entry in the column its word names. -/
theorem taken_apply (prob : FVec Ideal S16384x1000 .f32) (tgt : IVec S16384 32) (ht : ∀ j, (tgt j).toNat < 1000)
    (n : Fin 16384) :
    taken (F := Ideal) prob tgt (ix2 n (0 : Fin 1)) = prob (ix2 n ⟨(tgt (ix1 n)).toNat, ht _⟩) := by
  unfold taken
  rw [select_apply, inRange_one tgt ht, select_one, gather_row]
  refine congrArg prob (congrArg (ix2 n) (Fin.ext ?_))
  show min (wrapped tgt (ix3 n (0 : Fin 1) (0 : Fin 1))).toInt.toNat 999 = (tgt (ix1 n)).toNat
  rw [wrapped_apply tgt n (ht _), toInt_of_lt _ (ht _)]
  have := ht (ix1 n)
  omega

/-! ## The reference's value -/

/-- Under the integer precondition the reference computes minus the specification's total over 16384. -/
theorem refTerm_eq (prob : FVec Ideal S16384x1000 .f32) (tgt : IVec S16384 32) (rew : FVec Ideal S16384 .f32)
    (ht : ∀ j, (tgt j).toNat < 1000) :
    refTerm (F := Ideal) prob tgt rew = fun _ => -(Ideal.div (Spec.total prob tgt rew) ((16384 : ℝ) : EReal)) := by
  funext i
  unfold refTerm
  show -(Ideal.div (Host.reduceAdd (F := Ideal) (mulf (shapeCast S16384 (taken (F := Ideal) prob tgt) shapeCasts_S16384x1_S16384) rew)
      (constant (F := Ideal) S_ .f32 0x00000000#32) reducesTo_S16384_S_d0 h_S_ i) (Ideal.ofBits .f32 0x46800000#32)) = _
  rw [Tail.reduceAdd_vec, Tail.ofBits_16384]
  refine congrArg (fun z => -(Ideal.div z ((16384 : ℝ) : EReal))) ?_
  unfold Spec.total
  refine Finset.sum_congr rfl fun n _ => ?_
  rw [Spec.term_of_lt prob tgt rew n (ht _)]
  show shapeCast S16384 (taken (F := Ideal) prob tgt) shapeCasts_S16384x1_S16384 (ix1 n) * rew (ix1 n) = _
  rw [shapeCast_apply _ _ (ix1 n) (ix2 n (0 : Fin 1)) (by
    rw [Shape.rowMajor_val_one, Shape.rowMajor_val_two]
    show n.val * 1 + 0 = n.val
    omega), taken_apply prob tgt ht n]

end Cert.ReferenceIdeal.RefValue

end
-- ==== Proof.PreDecode.lean ====
/-
  The integer part of the precondition, decoded.

  The precondition is a conjunction of five `all`s; the third says every row's word is at least 0 and at most 999,
  read signed. A word in `[0, 999]` signed is below 1000 read unsigned. The float conjuncts are not used.
-/
import proofs.«207748_g59691455480232_cont_9to1c4b_13_25_alg».proof.Proof.Gen.Pre_input_domain
import Idealize.ShloMosaic.Lib.ReduceAll
import Idealize.ShloMosaic.Lib.ValueIdx

noncomputable section

namespace Cert.PreDecode

open Idealize.ShloMosaic Cert.Pre_input_domain

/-- A scalar has one index. -/
instance : Subsingleton S_.Idx := ⟨fun a b => funext fun d => d.elim0⟩

/-- A word between 0 and 999, read signed, is below 1000 read unsigned. -/
theorem toNat_lt_of_signed (w : BitVec 32) (h0 : IntOp.cmpi .sge w 0#32 = 1#1) (h9 : IntOp.cmpi .sle w 999#32 = 1#1) :
    w.toNat < 1000 := by
  rw [IntOp.cmpi_sge] at h0
  rw [IntOp.cmpi_sle] at h9
  have e0 : (0#32 : BitVec 32).toInt = 0 := by decide
  have e9 : (999#32 : BitVec 32).toInt = 999 := by decide
  rw [e0] at h0
  rw [e9] at h9
  have h32 := w.isLt
  unfold BitVec.toInt at h0 h9
  split at h9 <;> omega

/-- Under the precondition every row's word is below 1000. -/
theorem target_lt {F : FTy → Type} [FloatOps F] [Cert.Pre_input_domain.Facts]
    (a0 : FVec F S16384x1000 .f32) (a1 : IVec S16384 32) (a2 : FVec F S16384 .f32) (a3 : IVec S_ 32)
    (h : Cert.Pre_input_domain.fn (F := F) a0 a1 a2 a3 = fun _ => 1#1) : ∀ j, (a1 j).toNat < 1000 := by
  intro j
  have e := congrFun h ValueIdx.ix0
  dsimp only [Cert.Pre_input_domain.fn, Cert.Pre_input_domain.fn_part1] at e
  simp only [andi, IntOp.andi_eq_one] at e
  obtain ⟨⟨-, h14⟩, -⟩ := e
  have hj := Host.reduce_andi_all _ _ _ _ _ h14 j
  have hj' : IntOp.andi (IntOp.cmpi .sge (a1 j) 0#32) (IntOp.cmpi .sle (a1 j) 999#32) = 1#1 := hj
  rw [IntOp.andi_eq_one] at hj'
  exact toNat_lt_of_signed (a1 j) hj'.1 hj'.2

end Cert.PreDecode

end
-- ==== Proof.ScValIdeal.lean ====
/-
  The SparseCore tiles' output at the ideal instance.

  On the extended reals the accumulator `((0 + g₀ r₀) + g₁ r₁) + … + g₁₁ r₁₁` is the sum over the twelve chunks of
  `g_k r_k`; with every word below 1000 the lane's product for chunk `k` is the specification's term of the row
  `10240 + 192 w + 16 k + l`. Summed over the 512 words (worker `j / 16`, lane `j % 16`) this is the double sum the
  regrouping of the rows starts from.
-/
import proofs.«207748_g59691455480232_cont_9to1c4b_13_25_alg».proof.Proof.ScVal
import proofs.«207748_g59691455480232_cont_9to1c4b_13_25_alg».proof.Proof.Spec
import Idealize.ShloMosaic.PureOps.Ideal.Laws

noncomputable section

namespace Cert.KernelIdeal.ScValIdeal

open Cert.KernelIdeal Cert.KernelIdeal.Gen Idealize.ShloMosaic Idealize.ShloMosaic.ValueIdx Cert.KernelIdeal.ScVal
open scoped BigOperators

/-- A sum over twelve indices, written from zero in order. -/
theorem sum12 {M : Type*} [AddCommMonoid M] (f : Fin 12 → M) :
    ∑ k, f k = 0 + f 0 + f 1 + f 2 + f 3 + f 4 + f 5 + f 6 + f 7 + f 8 + f 9 + f 10 + f 11 := by
  simp only [Fin.sum_univ_castSucc, Fin.sum_univ_zero]
  rfl

/-- Lane `l` of worker `w`'s accumulator: the sum over the chunks of entry times weight. -/
theorem scAcc_apply (prob : FVec Ideal S16384x1000 .f32) (tgt : IVec S16384 32) (rew : FVec Ideal S16384 .f32)
    (w : Fin 32) (l : Fin 16) :
    scAcc (F := Ideal) prob tgt rew w (ix1 l)
      = ∑ k : Fin 12, gathered (F := Ideal) prob tgt w k (ix1 l) * rewards (F := Ideal) rew w k (ix1 l) := by
  rw [sum12]
  show Scalar.ofBits (F := Ideal) .f32 0x00000000#32 + gathered (F := Ideal) prob tgt w 0 (ix1 l) * rewards (F := Ideal) rew w 0 (ix1 l)
      + gathered (F := Ideal) prob tgt w 1 (ix1 l) * rewards (F := Ideal) rew w 1 (ix1 l)
      + gathered (F := Ideal) prob tgt w 2 (ix1 l) * rewards (F := Ideal) rew w 2 (ix1 l)
      + gathered (F := Ideal) prob tgt w 3 (ix1 l) * rewards (F := Ideal) rew w 3 (ix1 l)
      + gathered (F := Ideal) prob tgt w 4 (ix1 l) * rewards (F := Ideal) rew w 4 (ix1 l)
      + gathered (F := Ideal) prob tgt w 5 (ix1 l) * rewards (F := Ideal) rew w 5 (ix1 l)
      + gathered (F := Ideal) prob tgt w 6 (ix1 l) * rewards (F := Ideal) rew w 6 (ix1 l)
      + gathered (F := Ideal) prob tgt w 7 (ix1 l) * rewards (F := Ideal) rew w 7 (ix1 l)
      + gathered (F := Ideal) prob tgt w 8 (ix1 l) * rewards (F := Ideal) rew w 8 (ix1 l)
      + gathered (F := Ideal) prob tgt w 9 (ix1 l) * rewards (F := Ideal) rew w 9 (ix1 l)
      + gathered (F := Ideal) prob tgt w 10 (ix1 l) * rewards (F := Ideal) rew w 10 (ix1 l)
      + gathered (F := Ideal) prob tgt w 11 (ix1 l) * rewards (F := Ideal) rew w 11 (ix1 l) = _
  rw [show (Scalar.ofBits (F := Ideal) .f32 0x00000000#32 : EReal) = 0 from Ideal.ofBits_zero_f32]

/-- With the word below 1000, a lane's product is the specification's term of its row. -/
theorem lane_term (prob : FVec Ideal S16384x1000 .f32) (tgt : IVec S16384 32) (rew : FVec Ideal S16384 .f32)
    (ht : ∀ j, (tgt j).toNat < 1000) (w : Fin 32) (k : Fin 12) (l : Fin 16) :
    gathered (F := Ideal) prob tgt w k (ix1 l) * rewards (F := Ideal) rew w k (ix1 l)
      = Spec.term prob tgt rew (rowOf w k l) := by
  rw [Spec.term_of_lt prob tgt rew (rowOf w k l) (ht _)]
  show prob (ix2 (rowOf w k l) (colOf (tgt (ix1 (rowOf w k l))))) * rew (ix1 (rowOf w k l)) = _
  refine congrArg (fun c => prob (ix2 (rowOf w k l) c) * rew (ix1 (rowOf w k l))) (Fin.ext ?_)
  exact Nat.mod_eq_of_lt (ht _)

/-- The 512 output words summed: the lane sums of the specification's terms, twelve rows each. -/
theorem sum_scOut (prob : FVec Ideal S16384x1000 .f32) (tgt : IVec S16384 32) (rew : FVec Ideal S16384 .f32)
    (ht : ∀ j, (tgt j).toNat < 1000) :
    ∑ j : Fin 512, scOut (F := Ideal) prob tgt rew (ix1 j)
      = ∑ j : Fin 512, ∑ k : Fin 12,
          Spec.term prob tgt rew ⟨10240 + 192 * (j.val / 16) + 16 * k.val + j.val % 16, by omega⟩ := by
  refine Finset.sum_congr rfl fun j _ => ?_
  show scAcc (F := Ideal) prob tgt rew ⟨j.val / 16, by omega⟩ (ix1 ⟨j.val % 16, by omega⟩) = _
  rw [scAcc_apply]
  refine Finset.sum_congr rfl fun k _ => ?_
  rw [lane_term prob tgt rew ht]
  rfl

end Cert.KernelIdeal.ScValIdeal

end
-- ==== Proof.KernelValue.lean ====
/-
  The kernel program's value at the ideal instance.

  After its two calls the kernel program holds the TensorCore's one-cell result (the sum of the terms of rows
  0..10239) and the 512 lane sums of the SparseCore tiles (rows 10240..16383, twelve rows per lane sum). Its last
  host operations add the cell to the sum of the lane sums, negate, and multiply by 2^-14. The two units' rows
  together are all rows, so the result is minus the specification's total over 16384.
-/
import proofs.«207748_g59691455480232_cont_9to1c4b_13_25_alg».proof.Proof.Tail
import proofs.«207748_g59691455480232_cont_9to1c4b_13_25_alg».proof.Proof.ScValIdeal
import proofs.«207748_g59691455480232_cont_9to1c4b_13_25_alg».proof.Proof.TcData

noncomputable section

namespace Cert.KernelIdeal.KernelValue

open Cert.KernelIdeal Cert.KernelIdeal.Gen Idealize.ShloMosaic Idealize.ShloMosaic.ValueIdx
open scoped BigOperators

/-- The kernel program's result, given the TensorCore call's result as the sum of its rows' terms: minus the total over 16384. -/
theorem kernel_value (prob : FVec Ideal S16384x1000 .f32) (tgt : IVec S16384 32) (rew : FVec Ideal S16384 .f32)
    (ht : ∀ j, (tgt j).toNat < 1000)
    (htc : Tc.tcOut (F := Ideal) (shapeCast _ tgt shapeCasts_S16384_S128x128) (shapeCast _ rew shapeCasts_S16384_S128x128) prob
      = fun _ => ∑ n : Fin 10240, Spec.term prob tgt rew ⟨n.val, by omega⟩) :
    mulf (Host.negf (addf
        (shapeCast _ (Tc.tcOut (F := Ideal) (shapeCast _ tgt shapeCasts_S16384_S128x128)
          (shapeCast _ rew shapeCasts_S16384_S128x128) prob) shapeCasts_S1x1_S_)
        (Host.reduceAdd (F := Ideal) (ScVal.scOut (F := Ideal) prob tgt rew)
          (constant (F := Ideal) S_ .f32 0x00000000#32) reducesTo_S512_S_d0 h_S_)))
      (constant (F := Ideal) S_ .f32 0x38800000#32)
      = fun _ => -(Ideal.div (Spec.total prob tgt rew) ((16384 : ℝ) : EReal)) := by
  refine (Tail.host_tail _ _ _ _).trans ?_
  funext i
  refine congrArg (fun z => -(Ideal.div z ((16384 : ℝ) : EReal))) ?_
  rw [htc]
  show (∑ n : Fin 10240, Spec.term prob tgt rew ⟨n.val, by omega⟩)
      + ∑ j : Fin 512, ScVal.scOut (F := Ideal) prob tgt rew (ix1 j) = _
  rw [ScValIdeal.sum_scOut prob tgt rew ht]
  exact Tail.total_regroup prob tgt rew

end Cert.KernelIdeal.KernelValue

end
-- ==== Proof.TcValue.lean ====
/-
  The accumulating call's result at the extended reals.

  Read exactly, a band's masked sum — over its 128 rows and the 1000 columns, the entry times the row's weight where the
  column number equals the row's word, zero elsewhere — has at most one non-zero summand per row. A grid point adds its
  sixteen bands one after the other to the accumulator; the five points are added in order from zero. Band `a` of point
  `t` covers rows `2048 t + 128 a … 2048 t + 128 a + 127` of the large table and entries `(16 t + a, r)` of the two
  128 × 128 tables, which are entries `2048 t + 128 a + r` of the tables they were reshaped from. So the result is the sum
  of the terms of rows 0 … 10239, each row met once, in row order; no law beyond the definition of a finite sum over a
  range is used (the grouping is the range's own), so nothing needs to be finite.
-/
import proofs.«207748_g59691455480232_cont_9to1c4b_13_25_alg».proof.Proof.TcData
import proofs.«207748_g59691455480232_cont_9to1c4b_13_25_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Tc

open Cert.KernelIdeal Cert.KernelIdeal.Gen
open Idealize.ShloMosaic Idealize.ShloMosaic.TcCoe Idealize.ShloMosaic.ValueIdx
open scoped BigOperators

/-! ## One band at the extended reals -/

/-- One band's masked sum, as the body forms it: `tbB` the band's words repeated along the columns, `v6` the column
    numbers, `wb` the band's weights as a column, `pr` the band of the table. -/
def bandB {F : FTy → Type} [FloatOps F] (tbB : IVec S128x1000 32) (v6 : IVec S128x1000 32) (wb : FVec F S128x1 .f32) (pr : Vec F S128x1000 .f32) : F .f32 :=
  extractAt ![0, 0, 0] (shapeCast S1x1x1 (multiReduction .add [1, 2] S1
    (shapeCast S1x128x1000 (select (cmpi .eq tbB v6)
      (mulf pr (broadcastTo S128x1000 (shapeCast S128x1 wb Gen.shapeCasts_S128x1_S128x1) Gen.broadcasts_S128x1_S128x1000))
      (broadcast S128x1000 (Scalar.ofBits .f32 0x00000000#32))) Gen.shapeCasts_S128x1000_S1x128x1000)
    0x00000000#32 Gen.reduces_S1x128x1000_S1 (.inl rfl) rfl) Gen.shapeCasts_S1_S1x1x1) Gen.inpos_S1x1x1_p0_0_0

/-- The words of a band repeated along the columns. -/
abbrev rep (tb : IVec S128x1 32) : IVec S128x1000 32 :=
  broadcastTo S128x1000 (shapeCast S128x1 tb Gen.shapeCasts_S128x1_S128x1) Gen.broadcasts_S128x1_S128x1000

/-- The column numbers. -/
abbrev cols : IVec S128x1000 32 := iota .tc S128x1000 32 [1] Gen.iota_S128x1000_d1_w32

theorem rep_apply (tb : IVec S128x1 32) (r : Fin 128) (c : Fin 1000) : rep tb (ix2 r c) = tb (ix2 r (0 : Fin 1)) := by
  unfold rep
  refine (broadcastTo_apply _ _ (ix2 r c) (ix2 r (0 : Fin 1)) (fun a => by
    match a with
    | ⟨0, _⟩ => rfl
    | ⟨1, _⟩ => rfl)).trans ?_
  rw [shapeCast_self]

theorem repF_apply (wb : FVec Ideal S128x1 .f32) (r : Fin 128) (c : Fin 1000) :
    (broadcastTo S128x1000 (shapeCast S128x1 wb Gen.shapeCasts_S128x1_S128x1) Gen.broadcasts_S128x1_S128x1000 : FVec Ideal S128x1000 .f32) (ix2 r c)
      = wb (ix2 r (0 : Fin 1)) := by
  refine (broadcastTo_apply _ _ (ix2 r c) (ix2 r (0 : Fin 1)) (fun a => by
    match a with
    | ⟨0, _⟩ => rfl
    | ⟨1, _⟩ => rfl)).trans ?_
  rw [shapeCast_self]

theorem cols_apply (r : Fin 128) (c : Fin 1000) : cols (ix2 r c) = BitVec.ofNat 32 c.val :=
  iota_single_apply .tc S128x1000 32 (1 : Fin 2) Gen.iota_S128x1000_d1_w32 (ix2 r c)

/-- A word equals a column number below 1000 exactly when its value is that number. -/
theorem cmp_eq_iff (x : BitVec 32) (c : Fin 1000) : IntOp.cmpi .eq x (BitVec.ofNat 32 c.val) = 1#1 ↔ x.toNat = c.val := by
  have hc : c.val < 2 ^ 32 := lt_trans c.isLt (by decide)
  show BitVec.ofBool (x == BitVec.ofNat 32 c.val) = 1#1 ↔ _
  by_cases e : x = BitVec.ofNat 32 c.val
  · have hb : (x == BitVec.ofNat 32 c.val) = true := by simpa using e
    rw [hb]
    exact ⟨fun _ => by rw [e, BitVec.toNat_ofNat, Nat.mod_eq_of_lt hc], fun _ => rfl⟩
  · have hne : x.toNat ≠ c.val := fun h => e (BitVec.eq_of_toNat_eq (by rw [h, BitVec.toNat_ofNat, Nat.mod_eq_of_lt hc]))
    have hb : (x == BitVec.ofNat 32 c.val) = false := by simpa using e
    rw [hb]
    exact ⟨fun h => absurd h (by decide), fun h => absurd h hne⟩

/-- A sum over a reshaped table is the sum over the table. -/
theorem sum_shapeCast {s t : Shape} (x : s.Idx → EReal) (h : s.ShapeCasts t) : ∑ j : t.Idx, shapeCast t x h j = ∑ k : s.Idx, x k :=
  Equiv.sum_comp (Shape.reshapeEquiv h) x

/-- At the extended reals a band's masked sum is the sum over its rows and the columns of the entry times the row's weight
    where the column is the row's word, zero elsewhere. -/
theorem bandB_eq (tb : IVec S128x1 32) (wb : FVec Ideal S128x1 .f32) (pr : Vec Ideal S128x1000 .f32) :
    bandB (F := Ideal) (rep tb) cols wb pr
      = ∑ r : Fin 128, ∑ c : Fin 1000, if (tb (ix2 r (0 : Fin 1))).toNat = c.val then pr (ix2 r c) * wb (ix2 r (0 : Fin 1)) else 0 := by
  unfold bandB extractAt
  refine (shapeCast_apply _ Gen.shapeCasts_S1_S1x1x1 _ (ix1 (0 : Fin 1)) rfl).trans ?_
  refine (Ideal.multiReduction_add_total _ 0x00000000#32 Gen.reduces_S1x128x1000_S1 (fun b => by fin_cases b; rfl) (.inl rfl) rfl (ix1 (0 : Fin 1))).trans ?_
  refine (sum_shapeCast _ Gen.shapeCasts_S128x1000_S1x128x1000).trans ?_
  rw [sum_idx2]
  refine Finset.sum_congr rfl fun r _ => Finset.sum_congr rfl fun c _ => ?_
  show Scalar.select (IntOp.cmpi .eq (rep tb (ix2 r c)) (cols (ix2 r c)))
      (pr (ix2 r c) * (broadcastTo S128x1000 (shapeCast S128x1 wb Gen.shapeCasts_S128x1_S128x1) Gen.broadcasts_S128x1_S128x1000 : FVec Ideal S128x1000 .f32) (ix2 r c))
      (Ideal.ofBits .f32 0x00000000#32) = _
  rw [rep_apply, cols_apply, repF_apply, Ideal.ofBits_zero_f32]
  unfold Scalar.select
  exact if_congr (cmp_eq_iff _ c) rfl rfl

/-! ## The body's payloads as chains of bands -/

section Chains
variable {F : FTy → Type} [FloatOps F]

/-- Column `a` of the transposed 128 × 16 block of words, as a column. -/
abbrev colI (v2 : IVec S128x16 32) (a : ℕ) (h : S128x16.Slices ![0, a] S128x1) : IVec S128x1 32 := extractStridedSlice S128x1 ![0, a] v2 h
/-- Column `a` of the transposed 128 × 16 block of weights, as a column. -/
abbrev colF (v5 : FVec F S128x16 .f32) (a : ℕ) (h : S128x16.Slices ![0, a] S128x1) : FVec F S128x1 .f32 := extractStridedSlice S128x1 ![0, a] v5 h
/-- Band `a`'s masked sum. -/
abbrev bt (v2 : IVec S128x16 32) (v5 : FVec F S128x16 .f32) (v6 : IVec S128x1000 32) (a : ℕ) (h : S128x16.Slices ![0, a] S128x1)
    (pr : Vec F S128x1000 .f32) : F .f32 := bandB (rep (colI v2 a h)) v6 (colF v5 a h) pr

theorem pay4_eq (x1 : Vec F S16x128 .i32) (x2 : Vec F S16x128 .f32) (v9 v25 : Vec F S128x1000 .f32) :
    k1_pay4 x1 x2 v9 v25 = Scalar.addf (Scalar.addf (Scalar.ofBits .f32 0x00000000#32)
      (bt (k1_pay2 x1) (k1_pay3 x2) cols 0 Gen.slices_S128x16_o0_0_S128x1 v9))
      (bt (k1_pay2 x1) (k1_pay3 x2) cols 1 Gen.slices_S128x16_o0_1_S128x1 v25) := rfl
theorem pay5_eq (x2 : Vec F S16x128 .f32) : k1_pay5 x2 = colF (k1_pay3 x2) 2 Gen.slices_S128x16_o0_2_S128x1 := rfl
theorem pay6_eq (x1 : Vec F S16x128 .i32) : k1_pay6 (F := F) x1 = rep (colI (k1_pay2 x1) 2 Gen.slices_S128x16_o0_2_S128x1) := rfl
theorem pay7_eq (v2 : IVec S128x16 32) (v5 : FVec F S128x16 .f32) (v6 : IVec S128x1000 32) (v38 : F .f32) (v40 : FVec F S128x1 .f32)
    (v41 : Vec F S128x1000 .f32) (v43 : IVec S128x1000 32) (v57 v73 : Vec F S128x1000 .f32) :
    k1_pay7 v2 v5 v6 v38 v40 v41 v43 v57 v73 = Scalar.addf (Scalar.addf (Scalar.addf v38 (bandB v43 v6 v40 v41))
      (bt v2 v5 v6 3 Gen.slices_S128x16_o0_3_S128x1 v57)) (bt v2 v5 v6 4 Gen.slices_S128x16_o0_4_S128x1 v73) := rfl
theorem pay8_eq (v5 : FVec F S128x16 .f32) : k1_pay8 v5 = colF v5 5 Gen.slices_S128x16_o0_5_S128x1 := rfl
theorem pay9_eq (v2 : IVec S128x16 32) : k1_pay9 v2 = rep (colI v2 5 Gen.slices_S128x16_o0_5_S128x1) := rfl
theorem pay10_eq (v2 : IVec S128x16 32) (v5 : FVec F S128x16 .f32) (v6 : IVec S128x1000 32) (v86 : F .f32) (v88 : FVec F S128x1 .f32)
    (v89 : Vec F S128x1000 .f32) (v91 : IVec S128x1000 32) (v105 v121 : Vec F S128x1000 .f32) :
    k1_pay10 v2 v5 v6 v86 v88 v89 v91 v105 v121 = Scalar.addf (Scalar.addf (Scalar.addf v86 (bandB v91 v6 v88 v89))
      (bt v2 v5 v6 6 Gen.slices_S128x16_o0_6_S128x1 v105)) (bt v2 v5 v6 7 Gen.slices_S128x16_o0_7_S128x1 v121) := rfl
theorem pay11_eq (v5 : FVec F S128x16 .f32) : k1_pay11 v5 = colF v5 8 Gen.slices_S128x16_o0_8_S128x1 := rfl
theorem pay12_eq (v2 : IVec S128x16 32) : k1_pay12 v2 = rep (colI v2 8 Gen.slices_S128x16_o0_8_S128x1) := rfl
theorem pay13_eq (v2 : IVec S128x16 32) (v5 : FVec F S128x16 .f32) (v6 : IVec S128x1000 32) (v134 : F .f32) (v136 : FVec F S128x1 .f32)
    (v137 : Vec F S128x1000 .f32) (v139 : IVec S128x1000 32) (v153 v169 : Vec F S128x1000 .f32) :
    k1_pay13 v2 v5 v6 v134 v136 v137 v139 v153 v169 = Scalar.addf (Scalar.addf (Scalar.addf v134 (bandB v139 v6 v136 v137))
      (bt v2 v5 v6 9 Gen.slices_S128x16_o0_9_S128x1 v153)) (bt v2 v5 v6 10 Gen.slices_S128x16_o0_10_S128x1 v169) := rfl
theorem pay14_eq (v5 : FVec F S128x16 .f32) : k1_pay14 v5 = colF v5 11 Gen.slices_S128x16_o0_11_S128x1 := rfl
theorem pay15_eq (v2 : IVec S128x16 32) : k1_pay15 v2 = rep (colI v2 11 Gen.slices_S128x16_o0_11_S128x1) := rfl
theorem pay16_eq (v2 : IVec S128x16 32) (v5 : FVec F S128x16 .f32) (v6 : IVec S128x1000 32) (v182 : F .f32) (v184 : FVec F S128x1 .f32)
    (v185 : Vec F S128x1000 .f32) (v187 : IVec S128x1000 32) (v201 v217 : Vec F S128x1000 .f32) :
    k1_pay16 v2 v5 v6 v182 v184 v185 v187 v201 v217 = Scalar.addf (Scalar.addf (Scalar.addf v182 (bandB v187 v6 v184 v185))
      (bt v2 v5 v6 12 Gen.slices_S128x16_o0_12_S128x1 v201)) (bt v2 v5 v6 13 Gen.slices_S128x16_o0_13_S128x1 v217) := rfl
theorem pay17_eq (v5 : FVec F S128x16 .f32) : k1_pay17 v5 = colF v5 14 Gen.slices_S128x16_o0_14_S128x1 := rfl
theorem pay18_eq (v2 : IVec S128x16 32) : k1_pay18 v2 = rep (colI v2 14 Gen.slices_S128x16_o0_14_S128x1) := rfl
theorem pay1_eq (v2 : IVec S128x16 32) (v5 : FVec F S128x16 .f32) (v6 : IVec S128x1000 32) (v230 : F .f32) (v232 : FVec F S128x1 .f32)
    (v233 : Vec F S128x1000 .f32) (v235 : IVec S128x1000 32) (v249 : Vec F S128x1000 .f32) (v266 : Elt F .f32) :
    k1_pay1 v2 v5 v6 v230 v232 v233 v235 v249 v266 = Scalar.addf v266 (Scalar.addf (Scalar.addf v230 (bandB v235 v6 v232 v233))
      (bt v2 v5 v6 15 Gen.slices_S128x16_o0_15_S128x1 v249)) := rfl

end Chains

/-! ## Reading the transposed blocks, the bands and the grid's blocks at an index -/

section Reads
variable {F : FTy → Type} [FloatOps F]

theorem pay2_apply (x1 : Vec F S16x128 .i32) (r : Fin 128) (a : Fin 16) : k1_pay2 x1 (ix2 r a) = x1 (ix2 a r) := by
  unfold k1_pay2
  refine (transpose_apply _ _ _ (ix2 r a) (ix2 a r) (fun b => by
    match b with
    | ⟨0, _⟩ => rfl
    | ⟨1, _⟩ => rfl)).trans ?_
  rw [shapeCast_self]

theorem pay3_apply (x2 : Vec F S16x128 .f32) (r : Fin 128) (a : Fin 16) : k1_pay3 x2 (ix2 r a) = x2 (ix2 a r) := by
  unfold k1_pay3
  refine (transpose_apply _ _ _ (ix2 r a) (ix2 a r) (fun b => by
    match b with
    | ⟨0, _⟩ => rfl
    | ⟨1, _⟩ => rfl)).trans ?_
  rw [shapeCast_self]

theorem col_apply {α : Type} (v : S128x16.Idx → α) (a : ℕ) (ha : a < 16) (h : S128x16.Slices ![0, a] S128x1) (r : Fin 128) :
    extractStridedSlice S128x1 ![0, a] v h (ix2 r (0 : Fin 1)) = v (ix2 r ⟨a, ha⟩) :=
  extractStridedSlice_apply _ v h _ _ (fun ax => by
    match ax with
    | ⟨0, _⟩ => show r.val = 0 + r.val; omega
    | ⟨1, _⟩ => show a = a + 0; rfl)

theorem band_apply (x3 : Vec F S2048x1000 .f32) (off : ℕ) (h : ∀ a, (![off, 0] : Fin 2 → Nat) a + S128x1000.size a ≤ S2048x1000.size a)
    (r : Fin 128) (c : Fin 1000) (hlt : off + r.val < 2048) :
    band x3 off h (ix2 r c) = x3 (ix2 ⟨off + r.val, hlt⟩ c) := by
  show x3 ((Rect.unit (s := S2048x1000) ![off, 0] S128x1000.size h).idx (ix2 r c)) = _
  refine congrArg x3 (funext fun ax => Fin.ext ?_)
  match ax with
  | ⟨0, _⟩ => show off + 1 * r.val = off + r.val; omega
  | ⟨1, _⟩ => show 0 + 1 * c.val = c.val; omega

/-- The printed index maps over the grid: block `t` of each input starts at row `t` of blocks, column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem blk0_apply (f1 : Vec F S128x128 .i32) (t : Fin cfg1.N) (a : Fin 16) (r : Fin 128) (p : Fin 128) (hp : p.val = 16 * t.val + a.val) :
    (blk0 f1 t : Vec F S16x128 .i32) (ix2 a r) = f1 (ix2 p r) := by
  obtain ⟨e0, e1, -, -, -, -⟩ := idx_facts t
  show f1 (((cfg1.win 0).blk t).view.emb (ix2 a r)) = _
  refine congrArg f1 (funext fun ax => Fin.ext ?_)
  match ax with
  | ⟨0, _⟩ => show win1_0.index t (0 : Fin 2) * 16 + 1 * a.val = p.val; omega
  | ⟨1, _⟩ => show win1_0.index t (1 : Fin 2) * 128 + 1 * r.val = r.val; omega

theorem blk1_apply (f2 : Vec F S128x128 .f32) (t : Fin cfg1.N) (a : Fin 16) (r : Fin 128) (p : Fin 128) (hp : p.val = 16 * t.val + a.val) :
    (blk1 f2 t : Vec F S16x128 .f32) (ix2 a r) = f2 (ix2 p r) := by
  obtain ⟨-, -, e0, e1, -, -⟩ := idx_facts t
  show f2 (((cfg1.win 1).blk t).view.emb (ix2 a r)) = _
  refine congrArg f2 (funext fun ax => Fin.ext ?_)
  match ax with
  | ⟨0, _⟩ => show win1_1.index t (0 : Fin 2) * 16 + 1 * a.val = p.val; omega
  | ⟨1, _⟩ => show win1_1.index t (1 : Fin 2) * 128 + 1 * r.val = r.val; omega

theorem blk2_apply (f0 : Vec F S16384x1000 .f32) (t : Fin cfg1.N) (R : Fin 2048) (c : Fin 1000) (n : Fin 16384) (hn : n.val = 2048 * t.val + R.val) :
    (blk2 f0 t : Vec F S2048x1000 .f32) (ix2 R c) = f0 (ix2 n c) := by
  obtain ⟨-, -, -, -, e0, e1⟩ := idx_facts t
  show f0 (((cfg1.win 2).blk t).view.emb (ix2 R c)) = _
  refine congrArg f0 (funext fun ax => Fin.ext ?_)
  match ax with
  | ⟨0, _⟩ => show win1_2.index t (0 : Fin 2) * 2048 + 1 * R.val = n.val; omega
  | ⟨1, _⟩ => show win1_2.index t (1 : Fin 2) * 1000 + 1 * c.val = c.val; omega

/-- A table of 16384 entries reshaped to 128 × 128, row-major: entry `(p, q)` is entry `128 p + q`. -/
theorem reshape_apply {α : Type} (x : S16384.Idx → α) (h : S16384.ShapeCasts S128x128) (p q : Fin 128) (n : Fin 16384)
    (hn : n.val = 128 * p.val + q.val) : shapeCast S128x128 x h (ix2 p q) = x (ix1 n) :=
  shapeCast_apply x h _ _ (by
    rw [Shape.rowMajor_val_one, Shape.rowMajor_val_two]
    show n.val = p.val * 128 + q.val
    omega)

end Reads

/-! ## A grid point's sum at the extended reals -/

theorem rowlt (a : ℕ) (h : a < 16) (r : Fin 128) : 128 * a + r.val < 2048 := by have := r.isLt; omega

/-- Band `a`'s sum over explicit coordinates: over the band's 128 rows and the 1000 columns, the entry times the row's
    weight where the column is the row's word (zero for `a` past the sixteen bands). -/
def bandN (x1 : Vec Ideal S16x128 .i32) (x2 : Vec Ideal S16x128 .f32) (x3 : Vec Ideal S2048x1000 .f32) (a : ℕ) : EReal :=
  if h : a < 16 then ∑ r : Fin 128, ∑ c : Fin 1000,
    if (x1 (ix2 ⟨a, h⟩ r)).toNat = c.val then x3 (ix2 ⟨128 * a + r.val, rowlt a h r⟩ c) * x2 (ix2 ⟨a, h⟩ r) else 0
  else 0

theorem bt_eq (x1 : Vec Ideal S16x128 .i32) (x2 : Vec Ideal S16x128 .f32) (x3 : Vec Ideal S2048x1000 .f32) (a : ℕ) (ha : a < 16)
    (h : S128x16.Slices ![0, a] S128x1) (off : ℕ) (hoff : off = 128 * a)
    (hb : ∀ ax, (![off, 0] : Fin 2 → Nat) ax + S128x1000.size ax ≤ S2048x1000.size ax) :
    bandB (F := Ideal) (rep (colI (k1_pay2 x1) a h)) cols (colF (k1_pay3 x2) a h) (band x3 off hb) = bandN x1 x2 x3 a := by
  subst hoff
  unfold bandN; rw [dif_pos ha]
  refine (bandB_eq _ _ _).trans ?_
  refine Finset.sum_congr rfl fun r _ => Finset.sum_congr rfl fun c _ => ?_
  have e1 : colI (k1_pay2 x1) a h (ix2 r (0 : Fin 1)) = x1 (ix2 ⟨a, ha⟩ r) := (col_apply _ a ha h r).trans (pay2_apply x1 r ⟨a, ha⟩)
  have e2 : colF (k1_pay3 x2) a h (ix2 r (0 : Fin 1)) = x2 (ix2 ⟨a, ha⟩ r) := (col_apply _ a ha h r).trans (pay3_apply x2 r ⟨a, ha⟩)
  have e3 : band x3 (128 * a) hb (ix2 r c) = x3 (ix2 ⟨128 * a + r.val, rowlt a ha r⟩ c) := band_apply x3 _ hb r c (rowlt a ha r)
  rw [e1, e2, e3]

/-- A grid point's contribution: the accumulator plus the sixteen bands' sums. -/
theorem pointSum_eq (x1 : Vec Ideal S16x128 .i32) (x2 : Vec Ideal S16x128 .f32) (x3 : Vec Ideal S2048x1000 .f32) (acc : EReal) :
    pointSum (F := Ideal) x1 x2 x3 acc = acc + ∑ a ∈ Finset.range 16, bandN x1 x2 x3 a := by
  unfold pointSum
  simp only [pay1_eq, pay4_eq, pay7_eq, pay10_eq, pay13_eq, pay16_eq, pay5_eq, pay6_eq, pay8_eq, pay9_eq, pay11_eq, pay12_eq,
    pay14_eq, pay15_eq, pay17_eq, pay18_eq, bt]
  rw [bt_eq x1 x2 x3 0 (by decide) _ 0 rfl, bt_eq x1 x2 x3 1 (by decide) _ 128 rfl, bt_eq x1 x2 x3 2 (by decide) _ 256 rfl,
    bt_eq x1 x2 x3 3 (by decide) _ 384 rfl, bt_eq x1 x2 x3 4 (by decide) _ 512 rfl, bt_eq x1 x2 x3 5 (by decide) _ 640 rfl,
    bt_eq x1 x2 x3 6 (by decide) _ 768 rfl, bt_eq x1 x2 x3 7 (by decide) _ 896 rfl, bt_eq x1 x2 x3 8 (by decide) _ 1024 rfl,
    bt_eq x1 x2 x3 9 (by decide) _ 1152 rfl, bt_eq x1 x2 x3 10 (by decide) _ 1280 rfl, bt_eq x1 x2 x3 11 (by decide) _ 1408 rfl,
    bt_eq x1 x2 x3 12 (by decide) _ 1536 rfl, bt_eq x1 x2 x3 13 (by decide) _ 1664 rfl, bt_eq x1 x2 x3 14 (by decide) _ 1792 rfl,
    bt_eq x1 x2 x3 15 (by decide) _ 1920 rfl]
  simp only [Finset.sum_range_succ, Finset.sum_range_zero, Ideal.scalar_addf_def, Ideal.ofBits_def, Ideal.ofBits_zero_f32]

/-! ## The accumulation is the sum of the rows' terms -/

open Cert.Spec in
/-- Row `n`'s term, zero past the table. -/
def termN (prob : SP.Idx → EReal) (tgt : SN.Idx → BitVec 32) (rew : SN.Idx → EReal) (n : ℕ) : EReal :=
  if h : n < 16384 then term prob tgt rew ⟨n, h⟩ else 0

/-- A sum over `m n` consecutive numbers, grouped in `m` runs of `n`. -/
theorem sum_range_mul {M : Type*} [AddCommMonoid M] (f : ℕ → M) (m n : ℕ) :
    ∑ i ∈ Finset.range (m * n), f i = ∑ a ∈ Finset.range m, ∑ b ∈ Finset.range n, f (a * n + b) := by
  induction m with
  | zero => simp
  | succ m ih => rw [Nat.succ_mul, Finset.sum_range_add, ih, Finset.sum_range_succ]

open Cert.Spec in
/-- Band `a` of grid point `t`, on the blocks of the reshaped tables and of the large table, is the sum of the terms of
    rows `2048 t + 128 a … 2048 t + 128 a + 127`. -/
theorem bandN_blocks (prob : SP.Idx → EReal) (tgt : SN.Idx → BitVec 32) (rew : SN.Idx → EReal)
    (h1 : S16384.ShapeCasts S128x128) (h2 : S16384.ShapeCasts S128x128) (t : Fin cfg1.N) (a : ℕ) (ha : a < 16) :
    bandN (blk0 (F := Ideal) (shapeCast S128x128 tgt h1) t) (blk1 (F := Ideal) (shapeCast S128x128 rew h2) t) (blk2 (F := Ideal) prob t) a
      = ∑ r ∈ Finset.range 128, termN prob tgt rew ((t.val * 16 + a) * 128 + r) := by
  have hN : t.val < 5 := lt_of_lt_of_eq t.isLt N1
  unfold bandN
  rw [dif_pos ha, Finset.sum_range]
  refine Finset.sum_congr rfl fun r _ => ?_
  have hr := r.isLt
  have hn : (t.val * 16 + a) * 128 + r.val < 16384 := by omega
  unfold termN
  rw [dif_pos hn]
  unfold term
  refine Finset.sum_congr rfl fun c _ => ?_
  have hp : 16 * t.val + a < 128 := by omega
  rw [blk0_apply _ t ⟨a, ha⟩ r ⟨16 * t.val + a, hp⟩ rfl, blk1_apply _ t ⟨a, ha⟩ r ⟨16 * t.val + a, hp⟩ rfl,
    blk2_apply _ t ⟨128 * a + r.val, rowlt a ha r⟩ c ⟨(t.val * 16 + a) * 128 + r.val, hn⟩ (by show (t.val * 16 + a) * 128 + r.val = 2048 * t.val + (128 * a + r.val); omega),
    reshape_apply tgt h1 ⟨16 * t.val + a, hp⟩ r ⟨(t.val * 16 + a) * 128 + r.val, hn⟩ (by show (t.val * 16 + a) * 128 + r.val = 128 * (16 * t.val + a) + r.val; omega),
    reshape_apply rew h2 ⟨16 * t.val + a, hp⟩ r ⟨(t.val * 16 + a) * 128 + r.val, hn⟩ (by show (t.val * 16 + a) * 128 + r.val = 128 * (16 * t.val + a) + r.val; omega)]

open Cert.Spec in
/-- The accumulator after point `n` is the sum of the terms of rows `0 … 2048 (n + 1) - 1`. -/
theorem accAt_eq (prob : SP.Idx → EReal) (tgt : SN.Idx → BitVec 32) (rew : SN.Idx → EReal)
    (h1 : S16384.ShapeCasts S128x128) (h2 : S16384.ShapeCasts S128x128) :
    ∀ n, n < 5 → accAt (F := Ideal) (shapeCast S128x128 tgt h1) (shapeCast S128x128 rew h2) prob n
      = ∑ t ∈ Finset.range (n + 1), ∑ a ∈ Finset.range 16, ∑ r ∈ Finset.range 128, termN prob tgt rew ((t * 16 + a) * 128 + r)
  | 0, _ => by
    unfold accAt
    rw [pointSum_eq, Ideal.ofBits_def, Ideal.ofBits_zero_f32, zero_add, Finset.sum_range_one]
    refine Finset.sum_congr rfl fun a ha => ?_
    have e := bandN_blocks prob tgt rew h1 h2 (ptOf 0) a (Finset.mem_range.mp ha)
    exact e
  | n + 1, hn => by
    unfold accAt
    rw [pointSum_eq, accAt_eq prob tgt rew h1 h2 n (by omega), Finset.sum_range_succ _ (n + 1)]
    congr 1
    refine Finset.sum_congr rfl fun a ha => ?_
    have e := bandN_blocks prob tgt rew h1 h2 (ptOf (n + 1)) a (Finset.mem_range.mp ha)
    rw [show (ptOf (n + 1)).val = n + 1 from Nat.mod_eq_of_lt hn] at e
    exact e

open Cert.Spec in
/-- THE VALUE: on the two tables reshaped row-major to 128 × 128 and the large table, the call's result is the sum of the
    terms of rows 0 … 10239. -/
theorem tcOut_eq (prob : SP.Idx → EReal) (tgt : SN.Idx → BitVec 32) (rew : SN.Idx → EReal) (ht : ∀ j, (tgt j).toNat < 1000)
    (h1 : S16384.ShapeCasts S128x128) (h2 : S16384.ShapeCasts S128x128) :
    tcOut (F := Ideal) (shapeCast S128x128 tgt h1) (shapeCast S128x128 rew h2) prob
      = fun _ => ∑ n : Fin 10240, term prob tgt rew ⟨n.val, lt_trans n.isLt (by decide)⟩ := by
  funext _
  unfold tcOut
  rw [accAt_eq prob tgt rew h1 h2 4 (by decide)]
  rw [← sum_range_mul (fun i => ∑ r ∈ Finset.range 128, termN prob tgt rew (i * 128 + r)) 5 16,
    ← sum_range_mul (termN prob tgt rew) (5 * 16) 128, Finset.sum_range]
  refine Finset.sum_congr rfl fun n _ => ?_
  unfold termN
  rw [dif_pos (lt_trans n.isLt (by decide))]

end Cert.KernelIdeal.Tc
end
-- ==== Proof.lean ====
/-
  The five claims.

  Both kernel programs (the printed one at the word level, its idealization at the extended reals) are run by the
  SparseCore launch theorem: thirty-two tiles each gather `prob[row, target[row]]` for their 192 rows of rows
  10240 … 16383, weight by `reward[row]` and accumulate sixteen lanes; the TensorCore region accumulates the same
  products for rows 0 … 10239 as masked sums over five blocks; @main adds the region's result to the sum of the 512
  partial sums, negates, and multiplies by 2^-14. Every thread terminates and the four arguments end unchanged: the
  two kernel frames. The reference is a straight line of host operations, run by its list of operations: its frame.
  The idealization rewrote nothing, so there is nothing to preserve. At the extended reals, with every word of
  `target` a column number (the precondition), both programs end at `-(Σ_n prob[n, target[n]] · reward[n]) / 16384`:
  addition there is commutative and associative, so the grouping of the sum does not matter, `2^-14` is `1/16384`
  exactly, and negation commutes with the product.
-/
import proofs.«207748_g59691455480232_cont_9to1c4b_13_25_alg».proof.Defs
import proofs.«207748_g59691455480232_cont_9to1c4b_13_25_alg».proof.Proof.Gen.Kernel
import proofs.«207748_g59691455480232_cont_9to1c4b_13_25_alg».proof.Proof.Gen.KernelIdeal
import proofs.«207748_g59691455480232_cont_9to1c4b_13_25_alg».proof.Proof.Gen.ReferenceIdeal
import proofs.«207748_g59691455480232_cont_9to1c4b_13_25_alg».proof.Proof.Gen.Pre_input_domain
import proofs.«207748_g59691455480232_cont_9to1c4b_13_25_alg».proof.Proof.ScFinal
import proofs.«207748_g59691455480232_cont_9to1c4b_13_25_alg».proof.Proof.ScValues
import proofs.«207748_g59691455480232_cont_9to1c4b_13_25_alg».proof.Proof.KScFinal
import proofs.«207748_g59691455480232_cont_9to1c4b_13_25_alg».proof.Proof.KScValues
import proofs.«207748_g59691455480232_cont_9to1c4b_13_25_alg».proof.Proof.RefRun
import proofs.«207748_g59691455480232_cont_9to1c4b_13_25_alg».proof.Proof.RefValue
import proofs.«207748_g59691455480232_cont_9to1c4b_13_25_alg».proof.Proof.PreDecode
import proofs.«207748_g59691455480232_cont_9to1c4b_13_25_alg».proof.Proof.KernelValue
import proofs.«207748_g59691455480232_cont_9to1c4b_13_25_alg».proof.Proof.TcValue
import Idealize.ShloMosaic.Adequacy
import Idealize.ShloMosaic.Init

noncomputable section

namespace Cert.Proof

open Idealize.ShloMosaic Idealize.SL.Sem

/-- The precondition gives what the tiles' gathers need: every word of `target` is below 1000. -/
theorem preT_ideal (m : (ℓ : Loc Cert.KernelIdeal.nD Cert.KernelIdeal.τ Cert.KernelIdeal.sig) → Buf (Elt Ideal) ℓ)
    (h : Cert.Pre_KernelIdeal m) : Cert.KernelIdeal.Sc.PreT m :=
  fun d => Cert.PreDecode.target_lt (F := Ideal) _ _ _ _ (h d)
theorem preT_bits (m : (ℓ : Loc Cert.Kernel.nD Cert.Kernel.τ Cert.Kernel.sig) → Buf (Elt Bits) ℓ)
    (h : Cert.Pre_Kernel m) : Cert.Kernel.Sc.PreT m :=
  fun d => Cert.PreDecode.target_lt (F := Bits) _ _ _ _ (h d)

theorem frame_k : Cert.frame_Kernel := fun m ρ hpre =>
  (θ_run Cert.Kernel.defs _ _).mono (fun _ h c =>
      ⟨(h c).2.1.trans (Cert.Kernel.Sc.V4_a0 m c), (h c).2.2.1.trans (Cert.Kernel.Sc.V4_a1 m c),
        (h c).2.2.2.1.trans (Cert.Kernel.Sc.V4_a2 m c), (h c).2.2.2.2.trans (Cert.Kernel.Sc.V4_a3 m c)⟩)
    (Cert.Kernel.Sc.run_main (F := Bits) m ρ (preT_bits m hpre))

theorem frame_ki : Cert.frame_KernelIdeal := fun m ρ hpre =>
  (θ_run Cert.KernelIdeal.defs _ _).mono (fun _ h c =>
      ⟨(h c).2.1.trans (Cert.KernelIdeal.Sc.V4_a0 m c), (h c).2.2.1.trans (Cert.KernelIdeal.Sc.V4_a1 m c),
        (h c).2.2.2.1.trans (Cert.KernelIdeal.Sc.V4_a2 m c), (h c).2.2.2.2.trans (Cert.KernelIdeal.Sc.V4_a3 m c)⟩)
    (Cert.KernelIdeal.Sc.run_main (F := Ideal) m ρ (preT_ideal m hpre))

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end at `-(Σ_n prob[n, target[n]] · reward[n]) / 16384` of arguments that agree. -/
theorem algebraic : Cert.algebraic_KernelIdeal_ReferenceIdeal := by
  intro m ρ m' ρ' hpre hagree
  have ht := preT_ideal m hpre
  refine ⟨fun c => fun _ => -(Ideal.div (Cert.Spec.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))) ((16384 : ℝ) : EReal)), ?_, ?_⟩
  · refine (θ_run Cert.KernelIdeal.defs _ _).mono (fun _ h c => ⟨?_, (h c).2.1.trans (Cert.KernelIdeal.Sc.V4_a0 m c),
        (h c).2.2.1.trans (Cert.KernelIdeal.Sc.V4_a1 m c), (h c).2.2.2.1.trans (Cert.KernelIdeal.Sc.V4_a2 m c),
        (h c).2.2.2.2.trans (Cert.KernelIdeal.Sc.V4_a3 m c)⟩)
      (Cert.KernelIdeal.Sc.run_main (F := Ideal) m ρ ht)
    exact ((h c).1.trans (Cert.KernelIdeal.Sc.V4_v8 m c)).trans
      (Cert.KernelIdeal.KernelValue.kernel_value _ _ _ (ht c) (Cert.KernelIdeal.Tc.tcOut_eq _ _ _ (ht c) _ _))
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1]
    exact Cert.ReferenceIdeal.RefValue.refTerm_eq _ _ _ (ht c)

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
